-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S256x3072 .f32
  ∧ IdealRules.sign_bit.Statement Cert.KernelIdeal.S128x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S4096x3072 : Shape := ⟨2, ![4096, 3072]⟩
abbrev S4096 : Shape := ⟨1, ![4096]⟩
abbrev S4096x4096 : Shape := ⟨2, ![4096, 4096]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S16x16 : Shape := ⟨2, ![16, 16]⟩
abbrev S10x16 : Shape := ⟨2, ![10, 16]⟩
abbrev S10 : Shape := ⟨1, ![10]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S10x16 : S_.BroadcastsInDim S10x16 (![] : Fin 0 → Fin S10x16.rank)
  reducesTo_S10x16_S_d0_1 : S10x16.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg18 : FVec F S256 .f32) (main_arg19 : FVec F S10 .f32) (main_arg20 : FVec F S10 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S10 .f32 := Host.absf main_arg20
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg14 : FVec F S4096 .f32) (main_arg15 : FVec F S4096 .f32) (main_arg16 : FVec F S4096 .f32) (main_arg17 : FVec F S256 .f32) (main_arg18 : FVec F S256 .f32) (main_arg19 : FVec F S10 .f32) (main_arg20 : FVec F S10 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S10x16 .f32) (main_arg12 : FVec F S10 .f32) (main_arg13 : FVec F S4096 .f32) (main_arg14 : FVec F S4096 .f32) (main_arg15 : FVec F S4096 .f32) (main_arg16 : FVec F S4096 .f32) (main_arg17 : FVec F S256 .f32) (main_arg18 : FVec F S256 .f32) (main_arg19 : FVec F S10 .f32) (main_arg20 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S10x16 .f32 := Host.absf main_arg11
  let main_cst_20 : FVec F S_ .f32 := constant S_ .f32 0x7F800000#32
  let main_v55 : FVec F S10x16 .f32 := broadcastInDim S10x16 ![] bcast_S_S10x16 main_cst_20
  let main_v56 : IVec S10x16 1 := cmpf .olt main_v54 main_v55
  let main_c_21 : IVec S_ 1 := constantI S_ 1 1#1
  let main_v57 : IVec S_ 1 := (fun x v => Host.reduce IntOp.andi x v reducesTo_S10x16_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg14 main_arg15 main_arg16 main_arg17 main_arg18 main_arg19 main_arg20 main_v63 main_v67

def fn_part2 {F : FTy → Type} [FloatOps F] (main_arg7 : FVec F S16x256 .f32) (main_arg8 : FVec F S16 .f32) (main_arg9 : FVec F S16x16 .f32) (main_arg10 : FVec F S16 .f32) (main_arg11 : FVec F S10x16 .f32) (main_arg12 : FVec F S10 .f32) (main_arg13 : FVec F S4096 .f32) (main_arg14 : FVec F S4096 .f32) (main_arg15 : FVec F S4096 .f32) (main_arg16 : FVec F S4096 .f32) (main_arg17 : FVec F S256 .f32) (main_arg18 : FVec F S256 .f32) (main_arg19 : FVec F S10 .f32) (main_arg20 : FVec F S10 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg9
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4096 .f32) (main_arg5 : FVec F S256x4096 .f32) (main_arg6 : FVec F S256 .f32) (main_arg7 : FVec F S16x256 .f32) (main_arg8 : FVec F S16 .f32) (main_arg9 : FVec F S16x16 .f32) (main_arg10 : FVec F S16 .f32) (main_arg11 : FVec F S10x16 .f32) (main_arg12 : FVec F S10 .f32) (main_arg13 : FVec F S4096 .f32) (main_arg14 : FVec F S4096 .f32) (main_arg15 : FVec F S4096 .f32) (main_arg16 : FVec F S4096 .f32) (main_arg17 : FVec F S256 .f32) (main_arg18 : FVec F S256 .f32) (main_arg19 : FVec F S10 .f32) (main_arg20 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S256x4096 .f32 := Host.absf main_arg5
  let main_cst_8 : FVec F S_ .f32 := constant S_ .f32 0x7F800000#32
  let main_v25 : FVec F S256x4096 .f32 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x3072 .f32) (main_arg1 : FVec F S4096x3072 .f32) (main_arg2 : FVec F S4096 .f32) (main_arg3 : FVec F S4096x4096 .f32) (main_arg4 : FVec F S4096 .f32) (main_arg5 : FVec F S256x4096 .f32) (main_arg6 : FVec F S256 .f32) (main_arg7 : FVec F S16x256 .f32) (main_arg8 : FVec F S16 .f32) (main_arg9 : FVec F S16x16 .f32) (main_arg10 : FVec F S16 .f32) (main_arg11 : FVec F S10x16 .f32) (main_arg12 : FVec F S10 .f32) (main_arg13 : FVec F S4096 .f32) (main_arg14 : FVec F S4096 .f32) (main_arg15 : FVec F S4096 .f32) (main_arg16 : FVec F S4096 .f32) (main_arg17 : FVec F S256 .f32) (main_arg18 : FVec F S256 .f32) (main_arg19 : FVec F S10 .f32) (main_arg20 : FVec F S10 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x3072 : Shape := ⟨2, ![16384, 3072]⟩
abbrev S4096x3072 : Shape := ⟨2, ![4096, 3072]⟩
abbrev S4096 : Shape := ⟨1, ![4096]⟩
abbrev S4096x4096 : Shape := ⟨2, ![4096, 4096]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S16x16 : Shape := ⟨2, ![16, 16]⟩
abbrev S10x16 : Shape := ⟨2, ![10, 16]⟩
abbrev S10 : Shape := ⟨1, ![10]⟩
abbrev S3072x4096 : Shape := ⟨2, ![3072, 4096]⟩
abbrev S4096x256 : Shape := ⟨2, ![4096, 256]⟩
abbrev S1x4096 : Shape := ⟨2, ![1, 4096]⟩
abbrev S1x256 : Shape := ⟨2, ![1, 256]⟩
abbrev S16384x4096 : Shape := ⟨2, ![16384, 4096]⟩
abbrev S256x3072 : Shape := ⟨2, ![256, 3072]⟩
abbrev S3072x2048 : Shape := ⟨2, ![3072, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩
abbrev S128x4096 : Shape := ⟨2, ![128, 4096]⟩
abbrev S4096x2048 : Shape := ⟨2, ![4096, 2048]⟩
abbrev S128x2048 : Shape := ⟨2, ![128, 2048]⟩
abbrev S16384x256 : Shape := ⟨2, ![16384, 256]⟩
abbrev S512x4096 : Shape := ⟨2, ![512, 4096]⟩
abbrev S512x256 : Shape := ⟨2, ![512, 256]⟩
abbrev S256x16 : Shape := ⟨2, ![256, 16]⟩
abbrev S16384x16 : Shape := ⟨2, ![16384, 16]⟩
abbrev S1x16 : Shape := ⟨2, ![1, 16]⟩
abbrev S16x10 : Shape := ⟨2, ![16, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 197
  | .vmem => 36
  | .smem => 0
  | _ => 0

abbrev hbmTy0_0 (i : Nat) : BufTy := match i % 128 with
  | 0 => ⟨S16384x3072, .f32⟩
  | 1 => ⟨S4096x3072, .f32⟩
  | 2 => ⟨S4096, .f32⟩
  | 3 => ⟨S4096x4096, .f32⟩
  | 4 => ⟨S4096, .f32⟩
  | 5 => ⟨S256x4096, .f32⟩
  | 6 => ⟨S256, .f32⟩
  | 7 => ⟨S16x256, .f32⟩
  | 8 => ⟨S16, .f32⟩
  | 9 => ⟨S16x16, .f32⟩
  | 10 => ⟨S16, .f32⟩
  | 11 => ⟨S10x16, .f32⟩
  | 12 => ⟨S10, .f32⟩
  | 13 => ⟨S4096, .f32⟩
  | 14 => ⟨S4096, .f32⟩
  | 15 => ⟨S4096, .f32⟩
  | 16 => ⟨S4096, .f32⟩
  | 17 => ⟨S256, .f32⟩
  | 18 => ⟨S256, .f32⟩
  | 19 => ⟨S10, .f32⟩
  | 20 => ⟨S10, .f32⟩
  | 21 => ⟨S4096x3072, .f32⟩
  | 22 => ⟨S3072x4096, .f32⟩
  | 23 => ⟨S3072x4096, .bf16⟩
  | 24 => ⟨S4096x4096, .f32⟩
  | 25 => ⟨S4096x4096, .f32⟩
  | 26 => ⟨S4096x4096, .bf16⟩
  | 27 => ⟨S256x4096, .f32⟩
  | 28 => ⟨S4096x256, .f32⟩
  | 29 => ⟨S4096x256, .bf16⟩
  | 30 => ⟨S1x4096, .f32⟩
  | 31 => ⟨S1x4096, .f32⟩
  | 32 => ⟨S1x256, .f32⟩
  | 33 => ⟨S1x4096, .f32⟩
  | 34 => ⟨S1x4096, .f32⟩
  | 35 => ⟨S1x4096, .f32⟩
  | 36 => ⟨S1x4096, .f32⟩
  | 37 => ⟨S1x256, .f32⟩
  | 38 => ⟨S1x256, .f32⟩
  | 39 => ⟨S16384x4096, .f32⟩
  | 40 => ⟨S1x4096, .f32⟩
  | 41 => ⟨S1x4096, .f32⟩
  | 42 => ⟨S_, .f32⟩
  | 43 => ⟨S1x4096, .f32⟩
  | 44 => ⟨S1x4096, .f32⟩
  | 45 => ⟨S_, .f32⟩
  | 46 => ⟨S1x4096, .f32⟩
  | 47 => ⟨S1x4096, .f32⟩
  | 48 => ⟨S1x4096, .f32⟩
  | 49 => ⟨S1x4096, .f32⟩
  | 50 => ⟨S_, .f32⟩
  | 51 => ⟨S1x4096, .f32⟩
  | 52 => ⟨S1x4096, .f32⟩
  | 53 => ⟨S16384x4096, .f32⟩
  | 54 => ⟨S1x4096, .f32⟩
  | 55 => ⟨S1x4096, .f32⟩
  | 56 => ⟨S_, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S1x4096, .f32⟩
  | 63 => ⟨S1x4096, .f32⟩
  | 64 => ⟨S_, .f32⟩
  | 65 => ⟨S1x4096, .f32⟩
  | 66 => ⟨S1x4096, .f32⟩
  | 67 => ⟨S16384x256, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S_, .f32⟩
  | 82 => ⟨S1x256, .f32⟩
  | 83 => ⟨S1x256, .f32⟩
  | 84 => ⟨S1x256, .f32⟩
  | 85 => ⟨S16384x256, .f32⟩
  | 86 => ⟨S16384x256, .f32⟩
  | 87 => ⟨S16384x256, .f32⟩
  | 88 => ⟨S16384x256, .f32⟩
  | 89 => ⟨S16384x256, .f32⟩
  | 90 => ⟨S16384x256, .f32⟩
  | 91 => ⟨S16384x256, .f32⟩
  | 92 => ⟨S16384x256, .f32⟩
  | 93 => ⟨S_, .f32⟩
  | 94 => ⟨S_, .f32⟩
  | 95 => ⟨S_, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S16x256, .f32⟩
  | 103 => ⟨S256x16, .f32⟩
  | 104 => ⟨S16384x16, .f32⟩
  | 105 => ⟨S1x16, .f32⟩
  | 106 => ⟨S16384x16, .f32⟩
  | 107 => ⟨S16384x16, .f32⟩
  | 108 => ⟨S_, .f32⟩
  | 109 => ⟨S_, .f32⟩
  | 110 => ⟨S_, .f32⟩
  | 111 => ⟨S16384x16, .f32⟩
  | 112 => ⟨S16384x16, .f32⟩
  | 113 => ⟨S_, .f32⟩
  | 114 => ⟨S16384x16, .f32⟩
  | 115 => ⟨S16384x16, .f32⟩
  | 116 => ⟨S16384x16, .f32⟩
  | 117 => ⟨S16x16, .f32⟩
  | 118 => ⟨S16x16, .f32⟩
  | 119 => ⟨S16384x16, .f32⟩
  | 120 => ⟨S1x16, .f32⟩
  | 121 => ⟨S16384x16, .f32⟩
  | 122 => ⟨S16384x16, .f32⟩
  | 123 => ⟨S_, .f32⟩
  | 124 => ⟨S_, .f32⟩
  | 125 => ⟨S_, .f32⟩
  | 126 => ⟨S16384x16, .f32⟩
  | 127 => ⟨S16384x16, .f32⟩
  | _ => ⟨S16384x3072, .f32⟩

abbrev hbmTy0_1 (i : Nat) : BufTy := match i % 128 with
  | 0 => ⟨S_, .f32⟩
  | 1 => ⟨S16384x16, .f32⟩
  | 2 => ⟨S16384x16, .f32⟩
  | 3 => ⟨S16384x16, .f32⟩
  | 4 => ⟨S10x16, .f32⟩
  | 5 => ⟨S16x10, .f32⟩
  | 6 => ⟨S16384x10, .f32⟩
  | 7 => ⟨S1x10, .f32⟩
  | 8 => ⟨S16384x10, .f32⟩
  | 9 => ⟨S16384x10, .f32⟩
  | 10 => ⟨S_, .f32⟩
  | 11 => ⟨S10, .f32⟩
  | 12 => ⟨S_, .f32⟩
  | 13 => ⟨S10, .f32⟩
  | 14 => ⟨S10, .f32⟩
  | 15 => ⟨S_, .i32⟩
  | 16 => ⟨S_, .f32⟩
  | 17 => ⟨S10, .f32⟩
  | 18 => ⟨S1x10, .f32⟩
  | 19 => ⟨S_, .f32⟩
  | 20 => ⟨S1x10, .f32⟩
  | 21 => ⟨S1x10, .f32⟩
  | 22 => ⟨S16384x10, .f32⟩
  | 23 => ⟨S16384x10, .f32⟩
  | 24 => ⟨S16384x10, .f32⟩
  | 25 => ⟨S_, .f32⟩
  | 26 => ⟨S_, .f32⟩
  | 27 => ⟨S_, .f32⟩
  | 28 => ⟨S_, .f32⟩
  | 29 => ⟨S10, .f32⟩
  | 30 => ⟨S10, .f32⟩
  | 31 => ⟨S10, .f32⟩
  | 32 => ⟨S_, .f32⟩
  | 33 => ⟨S_, .i1⟩
  | 34 => ⟨S_, .f32⟩
  | 35 => ⟨S_, .f32⟩
  | 36 => ⟨S10, .f32⟩
  | 37 => ⟨S10, .f32⟩
  | 38 => ⟨S1x10, .f32⟩
  | 39 => ⟨S16384x10, .f32⟩
  | 40 => ⟨S16384x10, .f32⟩
  | 41 => ⟨S_, .f32⟩
  | 42 => ⟨S10, .f32⟩
  | 43 => ⟨S10, .f32⟩
  | 44 => ⟨S10, .f32⟩
  | 45 => ⟨S1x10, .f32⟩
  | 46 => ⟨S16384x10, .f32⟩
  | 47 => ⟨S16384x10, .f32⟩
  | 48 => ⟨S1x10, .f32⟩
  | 49 => ⟨S16384x10, .f32⟩
  | 50 => ⟨S16384x10, .f32⟩
  | 51 => ⟨S1x10, .f32⟩
  | 52 => ⟨S16384x10, .f32⟩
  | 53 => ⟨S16384x10, .f32⟩
  | 54 => ⟨S_, .f32⟩
  | 55 => ⟨S16384, .f32⟩
  | 56 => ⟨S_, .f32⟩
  | 57 => ⟨S16384, .f32⟩
  | 58 => ⟨S16384, .f32⟩
  | 59 => ⟨S16384x1, .f32⟩
  | 60 => ⟨S16384x10, .f32⟩
  | 61 => ⟨S16384x10, .f32⟩
  | 62 => ⟨S16384x10, .f32⟩
  | 63 => ⟨S_, .f32⟩
  | 64 => ⟨S16384, .f32⟩
  | 65 => ⟨S16384x1, .f32⟩
  | 66 => ⟨S16384x1, .f32⟩
  | 67 => ⟨S16384x10, .f32⟩
  | 68 => ⟨S16384x10, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S256x3072, .f32⟩
  | .local _ .vmem, ⟨1, _⟩ => ⟨S256x3072, .f32⟩
  | .local _ .vmem, ⟨2, _⟩ => ⟨S3072x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S128x4096, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S1x4096, .f32⟩
  | .local _ .vmem, ⟨16, _⟩ => ⟨S4096x2048, .bf16⟩
  | .local _ .vmem, ⟨17, _⟩ => ⟨S1x2048, .f32⟩
  | .local _ .vmem, ⟨18, _⟩ => ⟨S128x2048, .f32⟩
  | .local _ .vmem, ⟨19, _⟩ => ⟨S128x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S512x4096, .f32⟩
  | .local _ .vmem, ⟨25, _⟩ => ⟨S512x4096, .f32⟩
  | .local _ .vmem, ⟨26, _⟩ => ⟨S1x4096, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .vmem, ⟨30, _⟩ => ⟨S4096x256, .bf16⟩
  | .local _ .vmem, ⟨31, _⟩ => ⟨S1x256, .f32⟩
  | .local _ .vmem, ⟨32, _⟩ => ⟨S512x256, .f32⟩
  | .local _ .vmem, ⟨33, _⟩ => ⟨S512x256, .f32⟩
  | .local _ .vmem, ⟨34, _⟩ => ⟨S1x256, .f32⟩
  | .local _ .vmem, ⟨35, _⟩ => ⟨S1x256, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev main_cst_2 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_v36_0 : Ref sig .tc := ⟨.hbm, 67, rfl⟩
abbrev main_v36_1 : Ref sig .tc := ⟨.hbm, 68, rfl⟩
abbrev main_v36_2 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_cst_10 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_11 : Ref sig .tc := ⟨.hbm, 108, rfl⟩
abbrev main_cst_12 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_13 : Ref sig .tc := ⟨.hbm, 123, rfl⟩
abbrev main_cst_14 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_15 : Ref sig .tc := ⟨.hbm, 138, rfl⟩
abbrev main_v80 : Ref sig .tc := ⟨.hbm, 139, rfl⟩
abbrev main_cst_16 : Ref sig .tc := ⟨.hbm, 140, rfl⟩
abbrev main_v81 : Ref sig .tc := ⟨.hbm, 141, rfl⟩
abbrev main_v82 : Ref sig .tc := ⟨.hbm, 142, rfl⟩
abbrev main_c : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_cst_3 : Ref sig .tc := ⟨.hbm, 160, rfl⟩
abbrev main_call3_v12 : Ref sig .tc := ⟨.hbm, 161, rfl⟩
abbrev main_call3_cst_4 : Ref sig .tc := ⟨.hbm, 162, rfl⟩
abbrev main_call3_call0_v0 : Ref sig .tc := ⟨.hbm, 163, rfl⟩
abbrev main_call3_call0_v1 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_cst_17 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_call4_cst : Ref sig .tc := ⟨.hbm, 182, rfl⟩
abbrev main_call4_v0 : Ref sig .tc := ⟨.hbm, 183, rfl⟩
abbrev main_call4_cst_0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_cst_1 : Ref sig .tc := ⟨.hbm, 191, rfl⟩
abbrev main_call4_v7 : Ref sig .tc := ⟨.hbm, 192, rfl⟩
abbrev main_call4_v8 : Ref sig .tc := ⟨.hbm, 193, rfl⟩
abbrev main_call4_v9 : Ref sig .tc := ⟨.hbm, 194, rfl⟩
abbrev main_call4_v10 : Ref sig .tc := ⟨.hbm, 195, rfl⟩
abbrev main_v99 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem9_0 : DmaSem sig := 35

abbrev nD : Nat := 1
abbrev τ : Topo := Topo.v7x

variable {F : FTy → Type} [BitOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 128], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  transposes_S4096x3072_S3072x4096_1_0 : S4096x3072.Transposes [1, 0] S3072x4096
  bitsLt_bf16_f32 : FTy.bits .bf16 < FTy.bits .f32
  transposes_S4096x4096_S4096x4096_1_0 : S4096x4096.Transposes [1, 0] S4096x4096
  transposes_S256x4096_S4096x256_1_0 : S256x4096.Transposes [1, 0] S4096x256
  shapeCasts_S4096_S1x4096 : S4096.ShapeCasts S1x4096
  shapeCasts_S256_S1x256 : S256.ShapeCasts S1x256
  inb_S1x2048_S1x2048_0_0 : ∀ a, (![0, 0] : Fin 2 → Nat) a + S1x2048.size a ≤ S1x2048.size a
  h_S1x2048 : 0 < S1x2048.numel
  inb_S256x3072_S256x3072_0_0 : ∀ a, (![0, 0] : Fin 2 → Nat) a + S256x3072.size a ≤ S256x3072.size a
  h_S256x3072 : 0 < S256x3072.numel
  inb_S3072x2048_S3072x2048_0_0 : ∀ a, (![0, 0] : Fin 2 → Nat) a + S3072x2048.size a ≤ S3072x2048.size a
  h_S3072x2048 : 0 < S3072x2048.numel
  shapeCasts_S3072x2048_S3072x2048 : S3072x2048.ShapeCasts S3072x2048
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  reduces_S256x2048_S2048 : S256x2048.Reduces [0] S2048
  shapeCasts_S2048_S1x2048 : S2048.ShapeCasts S1x2048
  bcast_S_S1x4096 : S_.BroadcastsInDim S1x4096 (![] : Fin 0 → Fin S1x4096.rank)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x4096_S128x4096 : S1x4096.Broadcasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  reduces_S128x2048_S2048 : S128x2048.Reduces [0] S2048
  inb_S1x256_S1x256_0_0 : ∀ a, (![0, 0] : Fin 2 → Nat) a + S1x256.size a ≤ S1x256.size a
  h_S1x256 : 0 < S1x256.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  broadcasts_S1x4096_S512x4096 : S1x4096.Broadcasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x256_S256 : S512x256.Reduces [0] S256
  bcast_S_S1x256 : S_.BroadcastsInDim S1x256 (![] : Fin 0 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S16x256_S256x16_1_0 : S16x256.Transposes [1, 0] S256x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  transposes_S16x16_S16x16_1_0 : S16x16.Transposes [1, 0] S16x16
  transposes_S10x16_S16x10_1_0 : S10x16.Transposes [1, 0] S16x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S10_d0 : S16384x10.ReducesTo [0] S10
  h_S_ : 0 < S_.numel
  bcast_S_S10 : S_.BroadcastsInDim S10 (![] : Fin 0 → Fin S10.rank)
  bcast_S_S1x10 : S_.BroadcastsInDim S1x10 (![] : Fin 0 → Fin S1x10.rank)
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S256x3072_S3072x2048_S256x2048_1_0_0_1_n_n_wf : DotDims.WF S256x3072 S3072x2048 S256x2048 [1] [0] [0] [1] [] []
  dot_S128x4096_S4096x2048_S128x2048_1_0_0_1_n_n_wf : DotDims.WF S128x4096 S4096x2048 S128x2048 [1] [0] [0] [1] [] []
  dot_S512x4096_S4096x256_S512x256_1_0_0_1_n_n_wf : DotDims.WF S512x4096 S4096x256 S512x256 [1] [0] [0] [1] [] []
  dot_S16384x256_S256x16_S16384x16_1_0_0_1_n_n_wf : DotDims.WF S16384x256 S256x16 S16384x16 [1] [0] [0] [1] [] []
  dot_S16384x16_S16x16_S16384x16_1_0_0_1_n_n_wf : DotDims.WF S16384x16 S16x16 S16384x16 [1] [0] [0] [1] [] []
  dot_S16384x16_S16x10_S16384x10_1_0_0_1_n_n_wf : DotDims.WF S16384x16 S16x10 S16384x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S16384x3072.size a
  hwx0_0 : ∀ i : grid0.Coords, EltTy.bits .f32 = 32 ∨ (Rect.block (s := S16384x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x2048.size a ≤ S3072x4096.size a
  hwx0_1 : ∀ i : grid0.Coords, EltTy.bits .bf16 = 32 ∨ (Rect.block (s := S3072x4096) S3072x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x4096.size a
  hwx0_3 : ∀ i : grid0.Coords, EltTy.bits .f32 = 32 ∨ (Rect.block (s := S16384x4096) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S16384x4096.size a
  hwx1_0 : ∀ i : grid1.Coords, EltTy.bits .f32 = 32 ∨ (Rect.block (s := S16384x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x2048.size a ≤ S4096x4096.size a
  hwx1_5 : ∀ i : grid1.Coords, EltTy.bits .bf16 = 32 ∨ (Rect.block (s := S4096x4096) S4096x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x4096.size a
  hwx1_6 : ∀ i : grid1.Coords, EltTy.bits .f32 = 32 ∨ (Rect.block (s := S1x4096) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S16384x4096.size a
  hwx1_7 : ∀ i : grid1.Coords, EltTy.bits .f32 = 32 ∨ (Rect.block (s := S16384x4096) S128x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x4096.size a
  hwx1_8 : ∀ i : grid1.Coords, EltTy.bits .f32 = 32 ∨ (Rect.block (s := S1x4096) S1x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x4096.size a
  hwx1_9 : ∀ i : grid1.Coords, EltTy.bits .f32 = 32 ∨ (Rect.block (s := S1x4096) S1x2048.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x4096.size a
  hwx2_0 : ∀ i : grid2.Coords, EltTy.bits .f32 = 32 ∨ (Rect.block (s := S16384x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S4096x256.size a
  hwx2_5 : ∀ i : grid2.Coords, EltTy.bits .bf16 = 32 ∨ (Rect.block (s := S4096x256) S4096x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x256.size a ≤ S16384x256.size a
  hwx2_7 : ∀ i : grid2.Coords, EltTy.bits .f32 = 32 ∨ (Rect.block (s := S16384x256) S512x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)

variable [Facts₀]

def dot_S256x3072_S3072x2048_S256x2048_1_0_0_1_n_n : DotDims S256x3072 S3072x2048 S256x2048 where
  lhsContracting := [1]
  rhsContracting := [0]
  lhsNonContracting := [0]
  rhsNonContracting := [1]
  lhsBatch := []
  rhsBatch := []
  wf := dot_S256x3072_S3072x2048_S256x2048_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x10_S16384x10_1_0_0_1_n_n : DotDims S16384x16 S16x10 S16384x10 where
  lhsContracting := [1]
  rhsContracting := [0]
  lhsNonContracting := [0]
  rhsNonContracting := [1]
  lhsBatch := []
  rhsBatch := []
  wf := dot_S16384x16_S16x10_S16384x10_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_2) S1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S4096x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S128x2048.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S1x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S4096x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36_0) S512x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v36_1) S1x256.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36_2) S1x256.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S16384x3072 : Shape := ⟨2, ![16384, 3072]⟩
abbrev S4096x3072 : Shape := ⟨2, ![4096, 3072]⟩
abbrev S4096 : Shape := ⟨1, ![4096]⟩
abbrev S4096x4096 : Shape := ⟨2, ![4096, 4096]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S16x16 : Shape := ⟨2, ![16, 16]⟩
abbrev S10x16 : Shape := ⟨2, ![10, 16]⟩
abbrev S10 : Shape := ⟨1, ![10]⟩
abbrev S3072x4096 : Shape := ⟨2, ![3072, 4096]⟩
abbrev S16384x4096 : Shape := ⟨2, ![16384, 4096]⟩
abbrev S1x4096 : Shape := ⟨2, ![1, 4096]⟩
abbrev S_ : Shape := ⟨0, ![]⟩
abbrev S4096x256 : Shape := ⟨2, ![4096, 256]⟩
abbrev S16384x256 : Shape := ⟨2, ![16384, 256]⟩
abbrev S1x256 : Shape := ⟨2, ![1, 256]⟩
abbrev S256x16 : Shape := ⟨2, ![256, 16]⟩
abbrev S16384x16 : Shape := ⟨2, ![16384, 16]⟩
abbrev S1x16 : Shape := ⟨2, ![1, 16]⟩
abbrev S16x10 : Shape := ⟨2, ![16, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 318
  | .vmem => 0
  | .smem => 0
  | _ => 0

abbrev hbmTy0_0 (i : Nat) : BufTy := match i % 128 with
  | 0 => ⟨S16384x3072, .f32⟩
  | 1 => ⟨S4096x3072, .f32⟩
  | 2 => ⟨S4096, .f32⟩
  | 3 => ⟨S4096x4096, .f32⟩
  | 4 => ⟨S4096, .f32⟩
  | 5 => ⟨S256x4096, .f32⟩
  | 6 => ⟨S256, .f32⟩
  | 7 => ⟨S16x256, .f32⟩
  | 8 => ⟨S16, .f32⟩
  | 9 => ⟨S16x16, .f32⟩
  | 10 => ⟨S16, .f32⟩
  | 11 => ⟨S10x16, .f32⟩
  | 12 => ⟨S10, .f32⟩
  | 13 => ⟨S4096, .f32⟩
  | 14 => ⟨S4096, .f32⟩
  | 15 => ⟨S4096, .f32⟩
  | 16 => ⟨S4096, .f32⟩
  | 17 => ⟨S256, .f32⟩
  | 18 => ⟨S256, .f32⟩
  | 19 => ⟨S10, .f32⟩
  | 20 => ⟨S10, .f32⟩
  | 21 => ⟨S16384x3072, .f32⟩
  | 22 => ⟨S16384x3072, .f32⟩
  | 23 => ⟨S16384x3072, .f32⟩
  | 24 => ⟨S4096x3072, .f32⟩
  | 25 => ⟨S4096x3072, .f32⟩
  | 26 => ⟨S4096x3072, .f32⟩
  | 27 => ⟨S3072x4096, .f32⟩
  | 28 => ⟨S16384x4096, .f32⟩
  | 29 => ⟨S1x4096, .f32⟩
  | 30 => ⟨S16384x4096, .f32⟩
  | 31 => ⟨S16384x4096, .f32⟩
  | 32 => ⟨S_, .f32⟩
  | 33 => ⟨S4096, .f32⟩
  | 34 => ⟨S_, .f32⟩
  | 35 => ⟨S4096, .f32⟩
  | 36 => ⟨S4096, .f32⟩
  | 37 => ⟨S_, .i32⟩
  | 38 => ⟨S_, .f32⟩
  | 39 => ⟨S4096, .f32⟩
  | 40 => ⟨S1x4096, .f32⟩
  | 41 => ⟨S_, .f32⟩
  | 42 => ⟨S1x4096, .f32⟩
  | 43 => ⟨S1x4096, .f32⟩
  | 44 => ⟨S16384x4096, .f32⟩
  | 45 => ⟨S16384x4096, .f32⟩
  | 46 => ⟨S16384x4096, .f32⟩
  | 47 => ⟨S_, .f32⟩
  | 48 => ⟨S_, .f32⟩
  | 49 => ⟨S_, .f32⟩
  | 50 => ⟨S_, .f32⟩
  | 51 => ⟨S4096, .f32⟩
  | 52 => ⟨S4096, .f32⟩
  | 53 => ⟨S4096, .f32⟩
  | 54 => ⟨S_, .f32⟩
  | 55 => ⟨S_, .i1⟩
  | 56 => ⟨S_, .f32⟩
  | 57 => ⟨S_, .f32⟩
  | 58 => ⟨S4096, .f32⟩
  | 59 => ⟨S4096, .f32⟩
  | 60 => ⟨S1x4096, .f32⟩
  | 61 => ⟨S16384x4096, .f32⟩
  | 62 => ⟨S16384x4096, .f32⟩
  | 63 => ⟨S_, .f32⟩
  | 64 => ⟨S4096, .f32⟩
  | 65 => ⟨S4096, .f32⟩
  | 66 => ⟨S4096, .f32⟩
  | 67 => ⟨S1x4096, .f32⟩
  | 68 => ⟨S16384x4096, .f32⟩
  | 69 => ⟨S16384x4096, .f32⟩
  | 70 => ⟨S1x4096, .f32⟩
  | 71 => ⟨S16384x4096, .f32⟩
  | 72 => ⟨S16384x4096, .f32⟩
  | 73 => ⟨S1x4096, .f32⟩
  | 74 => ⟨S16384x4096, .f32⟩
  | 75 => ⟨S16384x4096, .f32⟩
  | 76 => ⟨S_, .f32⟩
  | 77 => ⟨S_, .f32⟩
  | 78 => ⟨S_, .f32⟩
  | 79 => ⟨S16384x4096, .f32⟩
  | 80 => ⟨S16384x4096, .f32⟩
  | 81 => ⟨S_, .f32⟩
  | 82 => ⟨S16384x4096, .f32⟩
  | 83 => ⟨S16384x4096, .f32⟩
  | 84 => ⟨S16384x4096, .f32⟩
  | 85 => ⟨S16384x4096, .f32⟩
  | 86 => ⟨S16384x4096, .f32⟩
  | 87 => ⟨S4096x4096, .f32⟩
  | 88 => ⟨S4096x4096, .f32⟩
  | 89 => ⟨S4096x4096, .f32⟩
  | 90 => ⟨S4096x4096, .f32⟩
  | 91 => ⟨S16384x4096, .f32⟩
  | 92 => ⟨S1x4096, .f32⟩
  | 93 => ⟨S16384x4096, .f32⟩
  | 94 => ⟨S16384x4096, .f32⟩
  | 95 => ⟨S_, .f32⟩
  | 96 => ⟨S4096, .f32⟩
  | 97 => ⟨S_, .f32⟩
  | 98 => ⟨S4096, .f32⟩
  | 99 => ⟨S4096, .f32⟩
  | 100 => ⟨S_, .i32⟩
  | 101 => ⟨S_, .f32⟩
  | 102 => ⟨S4096, .f32⟩
  | 103 => ⟨S1x4096, .f32⟩
  | 104 => ⟨S_, .f32⟩
  | 105 => ⟨S1x4096, .f32⟩
  | 106 => ⟨S1x4096, .f32⟩
  | 107 => ⟨S16384x4096, .f32⟩
  | 108 => ⟨S16384x4096, .f32⟩
  | 109 => ⟨S16384x4096, .f32⟩
  | 110 => ⟨S_, .f32⟩
  | 111 => ⟨S_, .f32⟩
  | 112 => ⟨S_, .f32⟩
  | 113 => ⟨S_, .f32⟩
  | 114 => ⟨S4096, .f32⟩
  | 115 => ⟨S4096, .f32⟩
  | 116 => ⟨S4096, .f32⟩
  | 117 => ⟨S_, .f32⟩
  | 118 => ⟨S_, .i1⟩
  | 119 => ⟨S_, .f32⟩
  | 120 => ⟨S_, .f32⟩
  | 121 => ⟨S4096, .f32⟩
  | 122 => ⟨S4096, .f32⟩
  | 123 => ⟨S1x4096, .f32⟩
  | 124 => ⟨S16384x4096, .f32⟩
  | 125 => ⟨S16384x4096, .f32⟩
  | 126 => ⟨S_, .f32⟩
  | 127 => ⟨S4096, .f32⟩
  | _ => ⟨S16384x3072, .f32⟩

abbrev hbmTy0_1 (i : Nat) : BufTy := match i % 128 with
  | 0 => ⟨S4096, .f32⟩
  | 1 => ⟨S4096, .f32⟩
  | 2 => ⟨S1x4096, .f32⟩
  | 3 => ⟨S16384x4096, .f32⟩
  | 4 => ⟨S16384x4096, .f32⟩
  | 5 => ⟨S1x4096, .f32⟩
  | 6 => ⟨S16384x4096, .f32⟩
  | 7 => ⟨S16384x4096, .f32⟩
  | 8 => ⟨S1x4096, .f32⟩
  | 9 => ⟨S16384x4096, .f32⟩
  | 10 => ⟨S16384x4096, .f32⟩
  | 11 => ⟨S_, .f32⟩
  | 12 => ⟨S_, .f32⟩
  | 13 => ⟨S_, .f32⟩
  | 14 => ⟨S16384x4096, .f32⟩
  | 15 => ⟨S16384x4096, .f32⟩
  | 16 => ⟨S_, .f32⟩
  | 17 => ⟨S16384x4096, .f32⟩
  | 18 => ⟨S16384x4096, .f32⟩
  | 19 => ⟨S16384x4096, .f32⟩
  | 20 => ⟨S16384x4096, .f32⟩
  | 21 => ⟨S16384x4096, .f32⟩
  | 22 => ⟨S256x4096, .f32⟩
  | 23 => ⟨S256x4096, .f32⟩
  | 24 => ⟨S256x4096, .f32⟩
  | 25 => ⟨S4096x256, .f32⟩
  | 26 => ⟨S16384x256, .f32⟩
  | 27 => ⟨S1x256, .f32⟩
  | 28 => ⟨S16384x256, .f32⟩
  | 29 => ⟨S16384x256, .f32⟩
  | 30 => ⟨S_, .f32⟩
  | 31 => ⟨S256, .f32⟩
  | 32 => ⟨S_, .f32⟩
  | 33 => ⟨S256, .f32⟩
  | 34 => ⟨S256, .f32⟩
  | 35 => ⟨S_, .i32⟩
  | 36 => ⟨S_, .f32⟩
  | 37 => ⟨S256, .f32⟩
  | 38 => ⟨S1x256, .f32⟩
  | 39 => ⟨S_, .f32⟩
  | 40 => ⟨S1x256, .f32⟩
  | 41 => ⟨S1x256, .f32⟩
  | 42 => ⟨S16384x256, .f32⟩
  | 43 => ⟨S16384x256, .f32⟩
  | 44 => ⟨S16384x256, .f32⟩
  | 45 => ⟨S_, .f32⟩
  | 46 => ⟨S_, .f32⟩
  | 47 => ⟨S_, .f32⟩
  | 48 => ⟨S_, .f32⟩
  | 49 => ⟨S256, .f32⟩
  | 50 => ⟨S256, .f32⟩
  | 51 => ⟨S256, .f32⟩
  | 52 => ⟨S_, .f32⟩
  | 53 => ⟨S_, .i1⟩
  | 54 => ⟨S_, .f32⟩
  | 55 => ⟨S_, .f32⟩
  | 56 => ⟨S256, .f32⟩
  | 57 => ⟨S256, .f32⟩
  | 58 => ⟨S1x256, .f32⟩
  | 59 => ⟨S16384x256, .f32⟩
  | 60 => ⟨S16384x256, .f32⟩
  | 61 => ⟨S_, .f32⟩
  | 62 => ⟨S256, .f32⟩
  | 63 => ⟨S256, .f32⟩
  | 64 => ⟨S256, .f32⟩
  | 65 => ⟨S1x256, .f32⟩
  | 66 => ⟨S16384x256, .f32⟩
  | 67 => ⟨S16384x256, .f32⟩
  | 68 => ⟨S1x256, .f32⟩
  | 69 => ⟨S16384x256, .f32⟩
  | 70 => ⟨S16384x256, .f32⟩
  | 71 => ⟨S1x256, .f32⟩
  | 72 => ⟨S16384x256, .f32⟩
  | 73 => ⟨S16384x256, .f32⟩
  | 74 => ⟨S_, .f32⟩
  | 75 => ⟨S_, .f32⟩
  | 76 => ⟨S_, .f32⟩
  | 77 => ⟨S16384x256, .f32⟩
  | 78 => ⟨S16384x256, .f32⟩
  | 79 => ⟨S_, .f32⟩
  | 80 => ⟨S16384x256, .f32⟩
  | 81 => ⟨S16384x256, .f32⟩
  | 82 => ⟨S16384x256, .f32⟩
  | 83 => ⟨S16384x256, .f32⟩
  | 84 => ⟨S16384x256, .f32⟩
  | 85 => ⟨S16x256, .f32⟩
  | 86 => ⟨S16x256, .f32⟩
  | 87 => ⟨S16x256, .f32⟩
  | 88 => ⟨S256x16, .f32⟩
  | 89 => ⟨S16384x16, .f32⟩
  | 90 => ⟨S1x16, .f32⟩
  | 91 => ⟨S16384x16, .f32⟩
  | 92 => ⟨S16384x16, .f32⟩
  | 93 => ⟨S_, .f32⟩
  | 94 => ⟨S_, .f32⟩
  | 95 => ⟨S_, .f32⟩
  | 96 => ⟨S16384x16, .f32⟩
  | 97 => ⟨S16384x16, .f32⟩
  | 98 => ⟨S_, .f32⟩
  | 99 => ⟨S16384x16, .f32⟩
  | 100 => ⟨S16384x16, .f32⟩
  | 101 => ⟨S16384x16, .f32⟩
  | 102 => ⟨S16384x16, .f32⟩
  | 103 => ⟨S16384x16, .f32⟩
  | 104 => ⟨S16x16, .f32⟩
  | 105 => ⟨S16x16, .f32⟩
  | 106 => ⟨S16x16, .f32⟩
  | 107 => ⟨S16x16, .f32⟩
  | 108 => ⟨S16384x16, .f32⟩
  | 109 => ⟨S1x16, .f32⟩
  | 110 => ⟨S16384x16, .f32⟩
  | 111 => ⟨S16384x16, .f32⟩
  | 112 => ⟨S_, .f32⟩
  | 113 => ⟨S_, .f32⟩
  | 114 => ⟨S_, .f32⟩
  | 115 => ⟨S16384x16, .f32⟩
  | 116 => ⟨S16384x16, .f32⟩
  | 117 => ⟨S_, .f32⟩
  | 118 => ⟨S16384x16, .f32⟩
  | 119 => ⟨S16384x16, .f32⟩
  | 120 => ⟨S16384x16, .f32⟩
  | 121 => ⟨S16384x16, .f32⟩
  | 122 => ⟨S16384x16, .f32⟩
  | 123 => ⟨S10x16, .f32⟩
  | 124 => ⟨S10x16, .f32⟩
  | 125 => ⟨S10x16, .f32⟩
  | 126 => ⟨S16x10, .f32⟩
  | 127 => ⟨S16384x10, .f32⟩
  | _ => ⟨S16384x3072, .f32⟩

abbrev hbmTy0_2 (i : Nat) : BufTy := match i % 128 with
  | 0 => ⟨S1x10, .f32⟩
  | 1 => ⟨S16384x10, .f32⟩
  | 2 => ⟨S16384x10, .f32⟩
  | 3 => ⟨S_, .f32⟩
  | 4 => ⟨S10, .f32⟩
  | 5 => ⟨S_, .f32⟩
  | 6 => ⟨S10, .f32⟩
  | 7 => ⟨S10, .f32⟩
  | 8 => ⟨S_, .i32⟩
  | 9 => ⟨S_, .f32⟩
  | 10 => ⟨S10, .f32⟩
  | 11 => ⟨S1x10, .f32⟩
  | 12 => ⟨S_, .f32⟩
  | 13 => ⟨S1x10, .f32⟩
  | 14 => ⟨S1x10, .f32⟩
  | 15 => ⟨S16384x10, .f32⟩
  | 16 => ⟨S16384x10, .f32⟩
  | 17 => ⟨S16384x10, .f32⟩
  | 18 => ⟨S_, .f32⟩
  | 19 => ⟨S_, .f32⟩
  | 20 => ⟨S_, .f32⟩
  | 21 => ⟨S_, .f32⟩
  | 22 => ⟨S10, .f32⟩
  | 23 => ⟨S10, .f32⟩
  | 24 => ⟨S10, .f32⟩
  | 25 => ⟨S_, .f32⟩
  | 26 => ⟨S_, .i1⟩
  | 27 => ⟨S_, .f32⟩
  | 28 => ⟨S_, .f32⟩
  | 29 => ⟨S10, .f32⟩
  | 30 => ⟨S10, .f32⟩
  | 31 => ⟨S1x10, .f32⟩
  | 32 => ⟨S16384x10, .f32⟩
  | 33 => ⟨S16384x10, .f32⟩
  | 34 => ⟨S_, .f32⟩
  | 35 => ⟨S10, .f32⟩
  | 36 => ⟨S10, .f32⟩
  | 37 => ⟨S10, .f32⟩
  | 38 => ⟨S1x10, .f32⟩
  | 39 => ⟨S16384x10, .f32⟩
  | 40 => ⟨S16384x10, .f32⟩
  | 41 => ⟨S1x10, .f32⟩
  | 42 => ⟨S16384x10, .f32⟩
  | 43 => ⟨S16384x10, .f32⟩
  | 44 => ⟨S1x10, .f32⟩
  | 45 => ⟨S16384x10, .f32⟩
  | 46 => ⟨S16384x10, .f32⟩
  | 47 => ⟨S_, .f32⟩
  | 48 => ⟨S16384, .f32⟩
  | 49 => ⟨S_, .f32⟩
  | 50 => ⟨S16384, .f32⟩
  | 51 => ⟨S16384, .f32⟩
  | 52 => ⟨S16384x1, .f32⟩
  | 53 => ⟨S16384x10, .f32⟩
  | 54 => ⟨S16384x10, .f32⟩
  | 55 => ⟨S16384x10, .f32⟩
  | 56 => ⟨S_, .f32⟩
  | 57 => ⟨S16384, .f32⟩
  | 58 => ⟨S16384x1, .f32⟩
  | 59 => ⟨S16384x1, .f32⟩
  | 60 => ⟨S16384x10, .f32⟩
  | 61 => ⟨S16384x10, .f32⟩
  | _ => ⟨S16384x3072, .f32⟩

abbrev hbmTy (i : Nat) : BufTy := match i / 128 with
  | 0 => hbmTy0_0 i
  | 1 => hbmTy0_1 i
  | 2 => hbmTy0_2 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_1 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_2 : Ref sig .tc := ⟨.hbm, 76, rfl⟩
abbrev main_cst_3 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_4 : Ref sig .tc := ⟨.hbm, 95, rfl⟩
abbrev main_v42 : Ref sig .tc := ⟨.hbm, 96, rfl⟩
abbrev main_cst_5 : Ref sig .tc := ⟨.hbm, 97, rfl⟩
abbrev main_v43 : Ref sig .tc := ⟨.hbm, 98, rfl⟩
abbrev main_v44 : Ref sig .tc := ⟨.hbm, 99, rfl⟩
abbrev main_c_6 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_cst_7 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_cst_8 : Ref sig .tc := ⟨.hbm, 139, rfl⟩
abbrev main_cst_9 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_10 : Ref sig .tc := ⟨.hbm, 158, rfl⟩
abbrev main_v73 : Ref sig .tc := ⟨.hbm, 159, rfl⟩
abbrev main_cst_11 : Ref sig .tc := ⟨.hbm, 160, rfl⟩
abbrev main_v74 : Ref sig .tc := ⟨.hbm, 161, rfl⟩
abbrev main_v75 : Ref sig .tc := ⟨.hbm, 162, rfl⟩
abbrev main_c_12 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_cst_3 : Ref sig .tc := ⟨.hbm, 180, rfl⟩
abbrev main_call4_v12 : Ref sig .tc := ⟨.hbm, 181, rfl⟩
abbrev main_call4_cst_4 : Ref sig .tc := ⟨.hbm, 182, rfl⟩
abbrev main_call4_call0_v0 : Ref sig .tc := ⟨.hbm, 183, rfl⟩
abbrev main_call4_call0_v1 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_cst_13 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_cst_14 : Ref sig .tc := ⟨.hbm, 202, rfl⟩
abbrev main_cst_15 : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_cst_16 : Ref sig .tc := ⟨.hbm, 221, rfl⟩
abbrev main_cst_17 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_cst_18 : Ref sig .tc := ⟨.hbm, 240, rfl⟩
abbrev main_cst_19 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_cst_20 : Ref sig .tc := ⟨.hbm, 259, rfl⟩
abbrev main_v128 : Ref sig .tc := ⟨.hbm, 260, rfl⟩
abbrev main_cst_21 : Ref sig .tc := ⟨.hbm, 261, rfl⟩
abbrev main_v129 : Ref sig .tc := ⟨.hbm, 262, rfl⟩
abbrev main_v130 : Ref sig .tc := ⟨.hbm, 263, rfl⟩
abbrev main_c_22 : Ref sig .tc := ⟨.hbm, 264, rfl⟩
abbrev main_call8_cst : Ref sig .tc := ⟨.hbm, 265, rfl⟩
abbrev main_call8_v0 : Ref sig .tc := ⟨.hbm, 266, rfl⟩
abbrev main_call8_v1 : Ref sig .tc := ⟨.hbm, 267, rfl⟩
abbrev main_call8_cst_0 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_call8_v5 : Ref sig .tc := ⟨.hbm, 272, rfl⟩
abbrev main_call8_v6 : Ref sig .tc := ⟨.hbm, 273, rfl⟩
abbrev main_call8_v7 : Ref sig .tc := ⟨.hbm, 274, rfl⟩
abbrev main_call8_cst_1 : Ref sig .tc := ⟨.hbm, 275, rfl⟩
abbrev main_call8_v8 : Ref sig .tc := ⟨.hbm, 276, rfl⟩
abbrev main_call8_cst_2 : Ref sig .tc := ⟨.hbm, 277, rfl⟩
abbrev main_call8_v9 : Ref sig .tc := ⟨.hbm, 278, rfl⟩
abbrev main_call8_v10 : Ref sig .tc := ⟨.hbm, 279, rfl⟩
abbrev main_call8_v11 : Ref sig .tc := ⟨.hbm, 280, rfl⟩
abbrev main_call8_cst_3 : Ref sig .tc := ⟨.hbm, 281, rfl⟩
abbrev main_call8_v12 : Ref sig .tc := ⟨.hbm, 282, rfl⟩
abbrev main_call8_cst_4 : Ref sig .tc := ⟨.hbm, 283, rfl⟩
abbrev main_call8_call0_v0 : Ref sig .tc := ⟨.hbm, 284, rfl⟩
abbrev main_call8_call0_v1 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_v134 : Ref sig .tc := ⟨.hbm, 289, rfl⟩
abbrev main_cst_23 : Ref sig .tc := ⟨.hbm, 290, rfl⟩
abbrev main_v135 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_v139 : Ref sig .tc := ⟨.hbm, 295, rfl⟩
abbrev main_v140 : Ref sig .tc := ⟨.hbm, 296, rfl⟩
abbrev main_v141 : Ref sig .tc := ⟨.hbm, 297, rfl⟩
abbrev main_v142 : Ref sig .tc := ⟨.hbm, 298, rfl⟩
abbrev main_v143 : Ref sig .tc := ⟨.hbm, 299, rfl⟩
abbrev main_v144 : Ref sig .tc := ⟨.hbm, 300, rfl⟩
abbrev main_v145 : Ref sig .tc := ⟨.hbm, 301, rfl⟩
abbrev main_v146 : Ref sig .tc := ⟨.hbm, 302, rfl⟩
abbrev main_call9_cst : Ref sig .tc := ⟨.hbm, 303, rfl⟩
abbrev main_call9_v0 : Ref sig .tc := ⟨.hbm, 304, rfl⟩
abbrev main_call9_cst_0 : Ref sig .tc := ⟨.hbm, 305, rfl⟩
abbrev main_call9_v1 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_call9_v5 : Ref sig .tc := ⟨.hbm, 310, rfl⟩
abbrev main_call9_v6 : Ref sig .tc := ⟨.hbm, 311, rfl⟩
abbrev main_call9_cst_1 : Ref sig .tc := ⟨.hbm, 312, rfl⟩
abbrev main_call9_v7 : Ref sig .tc := ⟨.hbm, 313, rfl⟩
abbrev main_call9_v8 : Ref sig .tc := ⟨.hbm, 314, rfl⟩
abbrev main_call9_v9 : Ref sig .tc := ⟨.hbm, 315, rfl⟩
abbrev main_call9_v10 : Ref sig .tc := ⟨.hbm, 316, rfl⟩
abbrev main_v147 : Ref sig .tc := ⟨.hbm, 317, rfl⟩

abbrev nD : Nat := 1
abbrev τ : Topo := Topo.v7x

variable {F : FTy → Type} [FloatOps F]

class Facts₀ : Prop where
  transposes_S4096x3072_S3072x4096_1_0 : S4096x3072.Transposes [1, 0] S3072x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S4096_d0 : S16384x4096.ReducesTo [0] S4096
  h_S_ : 0 < S_.numel
  bcast_S_S4096 : S_.BroadcastsInDim S4096 (![] : Fin 0 → Fin S4096.rank)
  bcast_S_S1x4096 : S_.BroadcastsInDim S1x4096 (![] : Fin 0 → Fin S1x4096.rank)
  bcast_S_S16384x4096 : S_.BroadcastsInDim S16384x4096 (![] : Fin 0 → Fin S16384x4096.rank)
  transposes_S4096x4096_S4096x4096_1_0 : S4096x4096.Transposes [1, 0] S4096x4096
  transposes_S256x4096_S4096x256_1_0 : S256x4096.Transposes [1, 0] S4096x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  bcast_S_S256 : S_.BroadcastsInDim S256 (![] : Fin 0 → Fin S256.rank)
  bcast_S_S1x256 : S_.BroadcastsInDim S1x256 (![] : Fin 0 → Fin S1x256.rank)
  bcast_S_S16384x256 : S_.BroadcastsInDim S16384x256 (![] : Fin 0 → Fin S16384x256.rank)
  transposes_S16x256_S256x16_1_0 : S16x256.Transposes [1, 0] S256x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  transposes_S16x16_S16x16_1_0 : S16x16.Transposes [1, 0] S16x16
  transposes_S10x16_S16x10_1_0 : S10x16.Transposes [1, 0] S16x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S10_d0 : S16384x10.ReducesTo [0] S10
  bcast_S_S10 : S_.BroadcastsInDim S10 (![] : Fin 0 → Fin S10.rank)
  bcast_S_S1x10 : S_.BroadcastsInDim S1x10 (![] : Fin 0 → Fin S1x10.rank)
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x3072_S3072x4096_S16384x4096_1_0_0_1_n_n_wf : DotDims.WF S16384x3072 S3072x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x256_S16384x256_1_0_0_1_n_n_wf : DotDims.WF S16384x4096 S4096x256 S16384x256 [1] [0] [0] [1] [] []
  dot_S16384x256_S256x16_S16384x16_1_0_0_1_n_n_wf : DotDims.WF S16384x256 S256x16 S16384x16 [1] [0] [0] [1] [] []
  dot_S16384x16_S16x16_S16384x16_1_0_0_1_n_n_wf : DotDims.WF S16384x16 S16x16 S16384x16 [1] [0] [0] [1] [] []
  dot_S16384x16_S16x10_S16384x10_1_0_0_1_n_n_wf : DotDims.WF S16384x16 S16x10 S16384x10 [1] [0] [0] [1] [] []

variable [Facts₀]

def dot_S16384x3072_S3072x4096_S16384x4096_1_0_0_1_n_n : DotDims S16384x3072 S3072x4096 S16384x4096 where
  lhsContracting := [1]
  rhsContracting := [0]
  lhsNonContracting := [0]
  rhsNonContracting := [1]
  lhsBatch := []
  rhsBatch := []
  wf := dot_S16384x3072_S3072x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x10_S16384x10_1_0_0_1_n_n : DotDims S16384x16 S16x10 S16384x10 where
  lhsContracting := [1]
  rhsContracting := [0]
  lhsNonContracting := [0]
  rhsNonContracting := [1]
  lhsBatch := []
  rhsBatch := []
  wf := dot_S16384x16_S16x10_S16384x10_1_0_0_1_n_n_wf

class Facts : Prop extends Facts₀ where

variable [Facts]
-- ==== Proof.KRun.lean ====
/-
  The idealized kernel program's run with its result named.

  The program is three accelerator regions among stretches of host operations.  Every weakly fair
  execution terminates without a fault, and in the final state every unscoped buffer holds what the
  fold of the stretches and of the regions' write-backs over the launch memory gives it: in
  particular the result buffer holds that fold's value `W16 m ρ c` at the result, and the twenty-one
  argument arrays are as launched.
-/
import proofs.«122919_j34694745817434_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last boundary's contents and every argument array ends as launched. -/
theorem run_v99 : θ_run defs (onTc (τ := τ) (main (F := F))) ⟨m, fun _ => 0, ρ⟩ (fun r => ∀ c : Dev nD,
      r.2.mem ((c.tc : Thread nD τ).loc main_v99) = W16 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v99 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c)⟩)

end Cert.KernelIdeal.KRun

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.Rd.lean ====
/-
  Reading an array of extended reals at coordinates: the entry of a scalar, of a vector at `i`, of a matrix at
  `(r, n)`, with the result typed as an extended real so that order and arithmetic apply to it directly.
-/
import Idealize.ShloMosaic.PureOps.Ideal
import Idealize.ShloMosaic.Lib.ValueIdx

noncomputable section

namespace Cert.Rd

open Idealize.ShloMosaic Idealize.ShloMosaic.ValueIdx

/-- The one entry of a rank-0 array. -/
@[reducible] def r0 {φ : FTy} (v : FVec Ideal ⟨0, ![]⟩ φ) : EReal := v ix0
/-- Entry `i` of a vector. -/
@[reducible] def r1 {A : ℕ} {φ : FTy} (v : FVec Ideal ⟨1, ![A]⟩ φ) (i : Fin A) : EReal := v (ix1 i)
/-- Entry `(r, n)` of a matrix. -/
@[reducible] def r2 {A B : ℕ} {φ : FTy} (v : FVec Ideal ⟨2, ![A, B]⟩ φ) (r : Fin A) (n : Fin B) : EReal := v (ix2 r n)

end Cert.Rd

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«122919_j34694745817434_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.Net.lean ====
/-
  The network both programs compute, index by index, over the extended reals.

  A binarized linear layer sends activations `a` (already in {-1, 0, 1}) and weights `w` to
  `∑ₖ a r k · sign (w n k) + b n`.  Batch normalisation over the 16384 rows uses the column mean and a
  column variance, written here in the two forms met: the mean of squared deviations, and the mean of
  squares minus the squared mean clamped at zero.  For real entries the two agree (Proof/NetLaws.lean).
  After normalisation comes the affine map, the clamp to [-1, 1] and the sign.
-/
import Idealize.ShloMosaic.PureOps.Ideal
import Mathlib.Algebra.BigOperators.Fin

open scoped BigOperators

noncomputable section

namespace Cert.Net

open Idealize.ShloMosaic

/-- The number of rows, 16384.0, as the 32-bit pattern both programs divide by. -/
abbrev cnt : EReal := Ideal.ofBits .f32 0x46800000#32
/-- The stabiliser added to a variance before the reciprocal square root (the 32-bit pattern nearest 1e-5). -/
abbrev eps : EReal := Ideal.ofBits .f32 0x3727C5AC#32
/-- The clamp's upper and lower ends, 1.0 and -1.0, and the zero, as 32-bit patterns. -/
abbrev one : EReal := Ideal.ofBits .f32 0x3F800000#32
abbrev negOne : EReal := Ideal.ofBits .f32 0xBF800000#32
abbrev zero : EReal := Ideal.ofBits .f32 0x00000000#32

variable {R K N : ℕ}

/-- A binarized linear layer on activations that are already signs: row `r` against the signs of row `n` of
    the weights, plus the bias. -/
def lin (a : Fin R → Fin K → EReal) (w : Fin N → Fin K → EReal) (b : Fin N → EReal) (r : Fin R) (n : Fin N) : EReal :=
  (∑ k : Fin K, a r k * Ideal.sign (w n k)) + b n

/-- Column mean over the rows. -/
def mean (h : Fin R → Fin N → EReal) (n : Fin N) : EReal := Ideal.div (∑ r : Fin R, h r n) cnt

/-- Column variance as the mean of the squared deviations from the column mean. -/
def var (h : Fin R → Fin N → EReal) (n : Fin N) : EReal :=
  Ideal.div (∑ r : Fin R, (h r n - mean h n) * (h r n - mean h n)) cnt

/-- Column variance as the mean of the squares minus the squared mean, clamped below at zero. -/
def varK (h : Fin R → Fin N → EReal) (n : Fin N) : EReal :=
  max (Ideal.div (∑ r : Fin R, h r n * h r n) cnt - mean h n * mean h n) zero

/-- Normalisation with a given column mean and variance, then scale and shift. -/
def bn (h : Fin R → Fin N → EReal) (mu v g be : Fin N → EReal) (r : Fin R) (n : Fin N) : EReal :=
  (h r n - mu n) * Ideal.rsqrt (v n + eps) * g n + be n

/-- The clamp to [-1, 1]. -/
def clip (y : EReal) : EReal := min one (max negOne y)

/-- The sign as a kernel body spells it: where the absolute value is positive, ±1 by the order; else the value. -/
def signK (x : EReal) : EReal := if 0 < max x (-x) then (if x < 0 then negOne else one) else x

/-- The sign as the reference spells it: the value plus (its sign minus the value). -/
def signR (x : EReal) : EReal := x + (Ideal.sign x - x)

/-- A hidden activation after a normalised layer: sign of the clamped normalised value. -/
def act (h : Fin R → Fin N → EReal) (g be : Fin N → EReal) (r : Fin R) (n : Fin N) : EReal :=
  Ideal.sign (clip (bn h (mean h) (var h) g be r n))

/-- A hidden activation after a layer without normalisation: sign of the clamped value. -/
def actPlain (h : Fin R → Fin N → EReal) (r : Fin R) (n : Fin N) : EReal := Ideal.sign (clip (h r n))

end Cert.Net

end
-- ==== Proof.KTailBase.lean ====
/-
  Two readings shared by the modules on the program's last host stretch: the contents of a buffer taken as an array of
  extended reals of a stated shape, and the host's entrywise sign and reciprocal square root read at an entry.
-/
import proofs.«122919_j34694745817434_2_alg».proof.Proof.Gen.KernelIdeal.Frame
import proofs.«122919_j34694745817434_2_alg».proof.Proof.LibTypedRef
import proofs.«122919_j34694745817434_2_alg».proof.Proof.Rd
import proofs.«122919_j34694745817434_2_alg».proof.Proof.LibBiasRow
import proofs.«122919_j34694745817434_2_alg».proof.Proof.LibBroadcastInDim
import proofs.«122919_j34694745817434_2_alg».proof.Proof.LibDotSums
import proofs.«122919_j34694745817434_2_alg».proof.Proof.Net
import Idealize.ShloMosaic.Lib.StableHlo.Run
import Idealize.ShloMosaic.Lib.ValueLayout
import Idealize.ShloMosaic.Lib.ValueIdx
import Idealize.ShloMosaic.Lib.IdealHost

open scoped BigOperators

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

/-- An array of extended reals of the stated shape (the identity; it fixes the shape and the element format). -/
@[reducible] def arr (S : Shape) (v : FVec Ideal S .f32) : FVec Ideal S .f32 := v

/-- The reciprocal square root of an array, entry by entry. -/
theorem hostRsqrt_apply {s : Shape} (x : FVec Ideal s .f32) (i : s.Idx) : Host.rsqrt x i = Ideal.rsqrt (x i) := rfl

/-- The sign of an array, entry by entry. -/
theorem hostSign_apply {s : Shape} (x : FVec Ideal s .f32) (i : s.Idx) : Host.sign x i = Ideal.sign (x i) := rfl

end Cert.KernelIdeal.KTail

end
-- ==== Proof.KTailClip.lean ====
/-
  The three clamps of the program's last host stretch, read at an entry.

  Each clamp takes an array y and two scalars lo and hi and returns, entry by entry, min hi (max lo y): the scalars are
  spread over the array's shape, the larger of lo and y is taken first, then the smaller of hi and that.
-/
import proofs.«122919_j34694745817434_2_alg».proof.Proof.Gen.KernelIdeal.Frame
import proofs.«122919_j34694745817434_2_alg».proof.Proof.LibTypedRef
import proofs.«122919_j34694745817434_2_alg».proof.Proof.Rd
import proofs.«122919_j34694745817434_2_alg».proof.Proof.LibBiasRow
import proofs.«122919_j34694745817434_2_alg».proof.Proof.LibBroadcastInDim
import proofs.«122919_j34694745817434_2_alg».proof.Proof.LibDotSums
import proofs.«122919_j34694745817434_2_alg».proof.Proof.Net
import Idealize.ShloMosaic.Lib.StableHlo.Run
import Idealize.ShloMosaic.Lib.ValueLayout
import Idealize.ShloMosaic.Lib.ValueIdx
import Idealize.ShloMosaic.Lib.IdealHost

open scoped BigOperators

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

/-- The clamp of main_v55 between the two scalars, entry by entry: the smaller of the upper end and (the larger of
    the lower end and the value). -/
theorem clip1_at (W : Valuation τ sig (Elt Ideal)) (r : Fin 16384) (n : Fin 256) :
    r2 (A := 16384) (B := 256) (φ := .f32) (StableHlo.after (hostOps3_1 (F := Ideal)) W (Proc.devRef .tc main_v56)) r n
      = min (r0 (φ := .f32) (W (Proc.devRef .tc main_cst_10)))
          (max (r0 (φ := .f32) (W (Proc.devRef .tc main_cst_9)))
            (r2 (A := 16384) (B := 256) (φ := .f32) (W (Proc.devRef .tc main_v55)) r n)) := by
  have e : @Eq (FVec Ideal S16384x256 .f32) (StableHlo.after (hostOps3_1 (F := Ideal)) W (Proc.devRef .tc main_v56))
      (minimumf (broadcastInDim S16384x256 ![] bcast_S_S16384x256 (W (Proc.devRef .tc main_cst_10) : FVec Ideal S_ .f32))
          (maximumf (broadcastInDim S16384x256 ![] bcast_S_S16384x256 (W (Proc.devRef .tc main_cst_9) : FVec Ideal S_ .f32))
            (W (Proc.devRef .tc main_v55) : FVec Ideal S16384x256 .f32))) := by
    after_results_simp
    simp only [Cert.TypedRef.ofBuf_toBuf, id]
    rfl
  show (StableHlo.after (hostOps3_1 (F := Ideal)) W (Proc.devRef .tc main_v56) : FVec Ideal S16384x256 .f32) (ix2 r n) = _
  rw [e, minimumf_apply, maximumf_apply, broadcastInDim_scalar_apply, broadcastInDim_scalar_apply]

/-- The clamp of main_v63 between the two scalars, entry by entry: the smaller of the upper end and (the larger of
    the lower end and the value). -/
theorem clip2_at (W : Valuation τ sig (Elt Ideal)) (r : Fin 16384) (n : Fin 16) :
    r2 (A := 16384) (B := 16) (φ := .f32) (StableHlo.after (hostOps3_3 (F := Ideal)) W (Proc.devRef .tc main_v64)) r n
      = min (r0 (φ := .f32) (W (Proc.devRef .tc main_cst_12)))
          (max (r0 (φ := .f32) (W (Proc.devRef .tc main_cst_11)))
            (r2 (A := 16384) (B := 16) (φ := .f32) (W (Proc.devRef .tc main_v63)) r n)) := by
  have e : @Eq (FVec Ideal S16384x16 .f32) (StableHlo.after (hostOps3_3 (F := Ideal)) W (Proc.devRef .tc main_v64))
      (minimumf (broadcastInDim S16384x16 ![] bcast_S_S16384x16 (W (Proc.devRef .tc main_cst_12) : FVec Ideal S_ .f32))
          (maximumf (broadcastInDim S16384x16 ![] bcast_S_S16384x16 (W (Proc.devRef .tc main_cst_11) : FVec Ideal S_ .f32))
            (W (Proc.devRef .tc main_v63) : FVec Ideal S16384x16 .f32))) := by
    after_results_simp
    simp only [Cert.TypedRef.ofBuf_toBuf, id]
    rfl
  show (StableHlo.after (hostOps3_3 (F := Ideal)) W (Proc.devRef .tc main_v64) : FVec Ideal S16384x16 .f32) (ix2 r n) = _
  rw [e, minimumf_apply, maximumf_apply, broadcastInDim_scalar_apply, broadcastInDim_scalar_apply]

/-- The clamp of main_v71 between the two scalars, entry by entry: the smaller of the upper end and (the larger of
    the lower end and the value). -/
theorem clip3_at (W : Valuation τ sig (Elt Ideal)) (r : Fin 16384) (n : Fin 16) :
    r2 (A := 16384) (B := 16) (φ := .f32) (StableHlo.after (hostOps3_5 (F := Ideal)) W (Proc.devRef .tc main_v72)) r n
      = min (r0 (φ := .f32) (W (Proc.devRef .tc main_cst_14)))
          (max (r0 (φ := .f32) (W (Proc.devRef .tc main_cst_13)))
            (r2 (A := 16384) (B := 16) (φ := .f32) (W (Proc.devRef .tc main_v71)) r n)) := by
  have e : @Eq (FVec Ideal S16384x16 .f32) (StableHlo.after (hostOps3_5 (F := Ideal)) W (Proc.devRef .tc main_v72))
      (minimumf (broadcastInDim S16384x16 ![] bcast_S_S16384x16 (W (Proc.devRef .tc main_cst_14) : FVec Ideal S_ .f32))
          (maximumf (broadcastInDim S16384x16 ![] bcast_S_S16384x16 (W (Proc.devRef .tc main_cst_13) : FVec Ideal S_ .f32))
            (W (Proc.devRef .tc main_v71) : FVec Ideal S16384x16 .f32))) := by
    after_results_simp
    simp only [Cert.TypedRef.ofBuf_toBuf, id]
    rfl
  show (StableHlo.after (hostOps3_5 (F := Ideal)) W (Proc.devRef .tc main_v72) : FVec Ideal S16384x16 .f32) (ix2 r n) = _
  rw [e, minimumf_apply, maximumf_apply, broadcastInDim_scalar_apply, broadcastInDim_scalar_apply]

end Cert.KernelIdeal.KTail

end
-- ==== Proof.KTailLin.lean ====
/-
  The three small binarized linear layers of the program's last host stretch, read at an entry.

  Each takes the signs of an activation array [16384, K] and of a weight matrix [N, K], transposes the latter,
  contracts along K and adds the bias laid as a row and repeated down the rows: entry (r, n) of the result is
  ∑ₖ sign a(r, k) · sign w(n, k) + b(n).  Each stretch also sets the two scalars -1 and 1 that the next clamp reads.
-/
import proofs.«122919_j34694745817434_2_alg».proof.Proof.Gen.KernelIdeal.Frame
import proofs.«122919_j34694745817434_2_alg».proof.Proof.LibTypedRef
import proofs.«122919_j34694745817434_2_alg».proof.Proof.Rd
import proofs.«122919_j34694745817434_2_alg».proof.Proof.LibBiasRow
import proofs.«122919_j34694745817434_2_alg».proof.Proof.LibBroadcastInDim
import proofs.«122919_j34694745817434_2_alg».proof.Proof.LibDotSums
import proofs.«122919_j34694745817434_2_alg».proof.Proof.Net
import proofs.«122919_j34694745817434_2_alg».proof.Proof.KTailBase
import Idealize.ShloMosaic.Lib.StableHlo.Run
import Idealize.ShloMosaic.Lib.ValueLayout
import Idealize.ShloMosaic.Lib.ValueIdx
import Idealize.ShloMosaic.Lib.IdealHost

open scoped BigOperators

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

/-- Entry (r, n) of main_v63: the signs of row r of main_v56 against the signs of row n of main_arg7, plus entry n of main_arg8. -/
theorem lin1_at (W : Valuation τ sig (Elt Ideal)) (r : Fin 16384) (n : Fin 16) :
    r2 (A := 16384) (B := 16) (φ := .f32) (StableHlo.after (hostOps3_2 (F := Ideal)) W (Proc.devRef .tc main_v63)) r n
      = (∑ k : Fin 256, Ideal.sign (r2 (A := 16384) (B := 256) (φ := .f32) (W (Proc.devRef .tc main_v56)) r k)
            * Ideal.sign (r2 (A := 16) (B := 256) (φ := .f32) (W (Proc.devRef .tc main_arg7)) n k))
        + r1 (A := 16) (φ := .f32) (W (Proc.devRef .tc main_arg8)) n := by
  have e : @Eq (FVec Ideal S16384x16 .f32) (StableHlo.after (hostOps3_2 (F := Ideal)) W (Proc.devRef .tc main_v63))
      (addf
        (FloatOps.dotGeneral dot_S16384x256_S256x16_S16384x16_1_0_0_1_n_n none .single
          (Host.sign (arr S16384x256 (W (Proc.devRef .tc main_v56))))
          (transpose S256x16 [1, 0] (Host.sign (arr S16x256 (W (Proc.devRef .tc main_arg7)))) transposes_S16x256_S256x16_1_0))
        (broadcastInDim S16384x16 ![0, 1] bcast_S1x16_S16384x16_0_1
          (broadcastInDim S1x16 ![1] bcast_S16_S1x16_1 (arr S16 (W (Proc.devRef .tc main_arg8)))))) := by
    after_results
    all_goals rfl
  show (StableHlo.after (hostOps3_2 (F := Ideal)) W (Proc.devRef .tc main_v63) : FVec Ideal S16384x16 .f32) (ix2 r n) = _
  rw [e, addf_apply, Cert.BiasRow.down_apply, Cert.BiasRow.row_apply,
    Cert.DotSums.dotGeneral_ix2 dot_S16384x256_S256x16_S16384x16_1_0_0_1_n_n none .single rfl rfl rfl rfl rfl rfl rfl rfl]
  have hk : ∀ k : Fin 256, transpose _ [1, 0] (Host.sign (arr S16x256 (W (Proc.devRef .tc main_arg7)))) transposes_S16x256_S256x16_1_0 (ix2 k n)
      = Ideal.sign (arr S16x256 (W (Proc.devRef .tc main_arg7)) (ix2 n k)) :=
    fun k => (transpose_ix2_apply (Host.sign (arr S16x256 (W (Proc.devRef .tc main_arg7)))) transposes_S16x256_S256x16_1_0 k n).trans rfl
  simp only [hk, hostSign_apply]

/-- The scalar main_cst_11 is minus one. -/
theorem cst11_at (W : Valuation τ sig (Elt Ideal)) :
    r0 (φ := .f32) (StableHlo.after (hostOps3_2 (F := Ideal)) W (Proc.devRef .tc main_cst_11)) = Net.negOne := by
  have e : @Eq (FVec Ideal S_ .f32) (StableHlo.after (hostOps3_2 (F := Ideal)) W (Proc.devRef .tc main_cst_11))
      (constant (F := Ideal) S_ .f32 0xBF800000#32) := by
    after_results
  show (StableHlo.after (hostOps3_2 (F := Ideal)) W (Proc.devRef .tc main_cst_11) : FVec Ideal S_ .f32) ix0 = _
  rw [e, constant_apply]

/-- The scalar main_cst_12 is one. -/
theorem cst12_at (W : Valuation τ sig (Elt Ideal)) :
    r0 (φ := .f32) (StableHlo.after (hostOps3_2 (F := Ideal)) W (Proc.devRef .tc main_cst_12)) = Net.one := by
  have e : @Eq (FVec Ideal S_ .f32) (StableHlo.after (hostOps3_2 (F := Ideal)) W (Proc.devRef .tc main_cst_12))
      (constant (F := Ideal) S_ .f32 0x3F800000#32) := by
    after_results
  show (StableHlo.after (hostOps3_2 (F := Ideal)) W (Proc.devRef .tc main_cst_12) : FVec Ideal S_ .f32) ix0 = _
  rw [e, constant_apply]

/-- Entry (r, n) of main_v71: the signs of row r of main_v64 against the signs of row n of main_arg9, plus entry n of main_arg10. -/
theorem lin2_at (W : Valuation τ sig (Elt Ideal)) (r : Fin 16384) (n : Fin 16) :
    r2 (A := 16384) (B := 16) (φ := .f32) (StableHlo.after (hostOps3_4 (F := Ideal)) W (Proc.devRef .tc main_v71)) r n
      = (∑ k : Fin 16, Ideal.sign (r2 (A := 16384) (B := 16) (φ := .f32) (W (Proc.devRef .tc main_v64)) r k)
            * Ideal.sign (r2 (A := 16) (B := 16) (φ := .f32) (W (Proc.devRef .tc main_arg9)) n k))
        + r1 (A := 16) (φ := .f32) (W (Proc.devRef .tc main_arg10)) n := by
  have e : @Eq (FVec Ideal S16384x16 .f32) (StableHlo.after (hostOps3_4 (F := Ideal)) W (Proc.devRef .tc main_v71))
      (addf
        (FloatOps.dotGeneral dot_S16384x16_S16x16_S16384x16_1_0_0_1_n_n none .single
          (Host.sign (arr S16384x16 (W (Proc.devRef .tc main_v64))))
          (transpose S16x16 [1, 0] (Host.sign (arr S16x16 (W (Proc.devRef .tc main_arg9)))) transposes_S16x16_S16x16_1_0))
        (broadcastInDim S16384x16 ![0, 1] bcast_S1x16_S16384x16_0_1
          (broadcastInDim S1x16 ![1] bcast_S16_S1x16_1 (arr S16 (W (Proc.devRef .tc main_arg10)))))) := by
    after_results
    all_goals rfl
  show (StableHlo.after (hostOps3_4 (F := Ideal)) W (Proc.devRef .tc main_v71) : FVec Ideal S16384x16 .f32) (ix2 r n) = _
  rw [e, addf_apply, Cert.BiasRow.down_apply, Cert.BiasRow.row_apply,
    Cert.DotSums.dotGeneral_ix2 dot_S16384x16_S16x16_S16384x16_1_0_0_1_n_n none .single rfl rfl rfl rfl rfl rfl rfl rfl]
  have hk : ∀ k : Fin 16, transpose _ [1, 0] (Host.sign (arr S16x16 (W (Proc.devRef .tc main_arg9)))) transposes_S16x16_S16x16_1_0 (ix2 k n)
      = Ideal.sign (arr S16x16 (W (Proc.devRef .tc main_arg9)) (ix2 n k)) :=
    fun k => (transpose_ix2_apply (Host.sign (arr S16x16 (W (Proc.devRef .tc main_arg9)))) transposes_S16x16_S16x16_1_0 k n).trans rfl
  simp only [hk, hostSign_apply]

/-- The scalar main_cst_13 is minus one. -/
theorem cst13_at (W : Valuation τ sig (Elt Ideal)) :
    r0 (φ := .f32) (StableHlo.after (hostOps3_4 (F := Ideal)) W (Proc.devRef .tc main_cst_13)) = Net.negOne := by
  have e : @Eq (FVec Ideal S_ .f32) (StableHlo.after (hostOps3_4 (F := Ideal)) W (Proc.devRef .tc main_cst_13))
      (constant (F := Ideal) S_ .f32 0xBF800000#32) := by
    after_results
  show (StableHlo.after (hostOps3_4 (F := Ideal)) W (Proc.devRef .tc main_cst_13) : FVec Ideal S_ .f32) ix0 = _
  rw [e, constant_apply]

/-- The scalar main_cst_14 is one. -/
theorem cst14_at (W : Valuation τ sig (Elt Ideal)) :
    r0 (φ := .f32) (StableHlo.after (hostOps3_4 (F := Ideal)) W (Proc.devRef .tc main_cst_14)) = Net.one := by
  have e : @Eq (FVec Ideal S_ .f32) (StableHlo.after (hostOps3_4 (F := Ideal)) W (Proc.devRef .tc main_cst_14))
      (constant (F := Ideal) S_ .f32 0x3F800000#32) := by
    after_results
  show (StableHlo.after (hostOps3_4 (F := Ideal)) W (Proc.devRef .tc main_cst_14) : FVec Ideal S_ .f32) ix0 = _
  rw [e, constant_apply]

/-- Entry (r, n) of main_v79: the signs of row r of main_v72 against the signs of row n of main_arg11, plus entry n of main_arg12. -/
theorem lin3_at (W : Valuation τ sig (Elt Ideal)) (r : Fin 16384) (n : Fin 10) :
    r2 (A := 16384) (B := 10) (φ := .f32) (StableHlo.after (hostOps3_6 (F := Ideal)) W (Proc.devRef .tc main_v79)) r n
      = (∑ k : Fin 16, Ideal.sign (r2 (A := 16384) (B := 16) (φ := .f32) (W (Proc.devRef .tc main_v72)) r k)
            * Ideal.sign (r2 (A := 10) (B := 16) (φ := .f32) (W (Proc.devRef .tc main_arg11)) n k))
        + r1 (A := 10) (φ := .f32) (W (Proc.devRef .tc main_arg12)) n := by
  have e : @Eq (FVec Ideal S16384x10 .f32) (StableHlo.after (hostOps3_6 (F := Ideal)) W (Proc.devRef .tc main_v79))
      (addf
        (FloatOps.dotGeneral dot_S16384x16_S16x10_S16384x10_1_0_0_1_n_n none .single
          (Host.sign (arr S16384x16 (W (Proc.devRef .tc main_v72))))
          (transpose S16x10 [1, 0] (Host.sign (arr S10x16 (W (Proc.devRef .tc main_arg11)))) transposes_S10x16_S16x10_1_0))
        (broadcastInDim S16384x10 ![0, 1] bcast_S1x10_S16384x10_0_1
          (broadcastInDim S1x10 ![1] bcast_S10_S1x10_1 (arr S10 (W (Proc.devRef .tc main_arg12)))))) := by
    after_results
    all_goals rfl
  show (StableHlo.after (hostOps3_6 (F := Ideal)) W (Proc.devRef .tc main_v79) : FVec Ideal S16384x10 .f32) (ix2 r n) = _
  rw [e, addf_apply, Cert.BiasRow.down_apply, Cert.BiasRow.row_apply,
    Cert.DotSums.dotGeneral_ix2 dot_S16384x16_S16x10_S16384x10_1_0_0_1_n_n none .single rfl rfl rfl rfl rfl rfl rfl rfl]
  have hk : ∀ k : Fin 16, transpose _ [1, 0] (Host.sign (arr S10x16 (W (Proc.devRef .tc main_arg11)))) transposes_S10x16_S16x10_1_0 (ix2 k n)
      = Ideal.sign (arr S10x16 (W (Proc.devRef .tc main_arg11)) (ix2 n k)) :=
    fun k => (transpose_ix2_apply (Host.sign (arr S10x16 (W (Proc.devRef .tc main_arg11)))) transposes_S10x16_S16x10_1_0 k n).trans rfl
  simp only [hk, hostSign_apply]

end Cert.KernelIdeal.KTail

end
-- ==== Proof.KTailNorm.lean ====
/-
  The last normalisation of the program's host stretch, read at an entry.

  From the column sums s(n) and the column sums of squares q(n) that the region before left as rows [1, 256], the
  stretch forms the column mean m(n) = s(n)/16384 and the clamped variance v(n) = max (q(n)/16384 - m(n)², 0), then
  normalises the pre-activation array h: entry (r, n) of the result is
      (h(r, n) - m(n)) · rsqrt (v(n) + ε) · g(n) + β(n),
  with g and β the scale and shift rows.  It also sets the two scalars -1 and 1 that the next clamp reads.
-/
import proofs.«122919_j34694745817434_2_alg».proof.Proof.Gen.KernelIdeal.Frame
import proofs.«122919_j34694745817434_2_alg».proof.Proof.LibTypedRef
import proofs.«122919_j34694745817434_2_alg».proof.Proof.Rd
import proofs.«122919_j34694745817434_2_alg».proof.Proof.LibBiasRow
import proofs.«122919_j34694745817434_2_alg».proof.Proof.LibBroadcastInDim
import proofs.«122919_j34694745817434_2_alg».proof.Proof.LibDotSums
import proofs.«122919_j34694745817434_2_alg».proof.Proof.Net
import proofs.«122919_j34694745817434_2_alg».proof.Proof.KTailBase
import Idealize.ShloMosaic.Lib.StableHlo.Run
import Idealize.ShloMosaic.Lib.ValueLayout
import Idealize.ShloMosaic.Lib.ValueIdx
import Idealize.ShloMosaic.Lib.IdealHost

open scoped BigOperators

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

/-- Entry (r, n) of main_v55: the pre-activation, centred by the column mean, scaled by the reciprocal square root of
    the clamped variance plus the stabiliser, then by the scale row, and shifted by the shift row. -/
theorem norm_at (W : Valuation τ sig (Elt Ideal)) (r : Fin 16384) (n : Fin 256) :
    r2 (A := 16384) (B := 256) (φ := .f32) (StableHlo.after (hostOps3 (F := Ideal)) W (Proc.devRef .tc main_v55)) r n
      = ((r2 (A := 16384) (B := 256) (φ := .f32) (W (Proc.devRef .tc main_v36_0)) r n - Ideal.div (r2 (A := 1) (B := 256) (φ := .f32) (W (Proc.devRef .tc main_v36_1)) (0 : Fin 1) n) Net.cnt)
            * Ideal.rsqrt (max (Ideal.div (r2 (A := 1) (B := 256) (φ := .f32) (W (Proc.devRef .tc main_v36_2)) (0 : Fin 1) n) Net.cnt - Ideal.div (r2 (A := 1) (B := 256) (φ := .f32) (W (Proc.devRef .tc main_v36_1)) (0 : Fin 1) n) Net.cnt * Ideal.div (r2 (A := 1) (B := 256) (φ := .f32) (W (Proc.devRef .tc main_v36_1)) (0 : Fin 1) n) Net.cnt) Net.zero + Net.eps))
          * r2 (A := 1) (B := 256) (φ := .f32) (W (Proc.devRef .tc main_v16)) (0 : Fin 1) n
        + r2 (A := 1) (B := 256) (φ := .f32) (W (Proc.devRef .tc main_v17)) (0 : Fin 1) n := by
  have e : @Eq (FVec Ideal S16384x256 .f32) (StableHlo.after (hostOps3 (F := Ideal)) W (Proc.devRef .tc main_v55))
      (addf (mulf (mulf (subf (arr S16384x256 (W (Proc.devRef .tc main_v36_0))) (broadcastInDim S16384x256 ![0, 1] bcast_S1x256_S16384x256_0_1 (Host.divf (arr S1x256 (W (Proc.devRef .tc main_v36_1))) (broadcastInDim S1x256 ![] bcast_S_S1x256 (constant (F := Ideal) S_ .f32 0x46800000#32))))) (broadcastInDim S16384x256 ![0, 1] bcast_S1x256_S16384x256_0_1 (Host.rsqrt (addf (maximumf (subf (Host.divf (arr S1x256 (W (Proc.devRef .tc main_v36_2))) (broadcastInDim S1x256 ![] bcast_S_S1x256 (constant (F := Ideal) S_ .f32 0x46800000#32))) (mulf (Host.divf (arr S1x256 (W (Proc.devRef .tc main_v36_1))) (broadcastInDim S1x256 ![] bcast_S_S1x256 (constant (F := Ideal) S_ .f32 0x46800000#32))) (Host.divf (arr S1x256 (W (Proc.devRef .tc main_v36_1))) (broadcastInDim S1x256 ![] bcast_S_S1x256 (constant (F := Ideal) S_ .f32 0x46800000#32))))) (broadcastInDim S1x256 ![] bcast_S_S1x256 (constant (F := Ideal) S_ .f32 0x00000000#32))) (broadcastInDim S1x256 ![] bcast_S_S1x256 (constant (F := Ideal) S_ .f32 0x3727C5AC#32)))))) (broadcastInDim S16384x256 ![0, 1] bcast_S1x256_S16384x256_0_1 (arr S1x256 (W (Proc.devRef .tc main_v16))))) (broadcastInDim S16384x256 ![0, 1] bcast_S1x256_S16384x256_0_1 (arr S1x256 (W (Proc.devRef .tc main_v17))))) := by
    after_results_simp
    all_goals rfl
  show (StableHlo.after (hostOps3 (F := Ideal)) W (Proc.devRef .tc main_v55) : FVec Ideal S16384x256 .f32) (ix2 r n) = _
  rw [e]
  simp only [addf_apply, mulf_apply, subf_apply]
  rw [Cert.BiasRow.down_apply, Cert.BiasRow.down_apply, Cert.BiasRow.down_apply, Cert.BiasRow.down_apply]
  simp only [hostRsqrt_apply, addf_apply, maximumf_apply, subf_apply, mulf_apply, hostDivf_apply,
    broadcastInDim_scalar_apply, constant_apply]
  try rfl

/-- The scalar main_cst_9 is minus one. -/
theorem cst9_at (W : Valuation τ sig (Elt Ideal)) :
    r0 (φ := .f32) (StableHlo.after (hostOps3 (F := Ideal)) W (Proc.devRef .tc main_cst_9)) = Net.negOne := by
  have e : @Eq (FVec Ideal S_ .f32) (StableHlo.after (hostOps3 (F := Ideal)) W (Proc.devRef .tc main_cst_9))
      (constant (F := Ideal) S_ .f32 0xBF800000#32) := by
    after_results
  show (StableHlo.after (hostOps3 (F := Ideal)) W (Proc.devRef .tc main_cst_9) : FVec Ideal S_ .f32) ix0 = _
  rw [e, constant_apply]

/-- The scalar main_cst_10 is one. -/
theorem cst10_at (W : Valuation τ sig (Elt Ideal)) :
    r0 (φ := .f32) (StableHlo.after (hostOps3 (F := Ideal)) W (Proc.devRef .tc main_cst_10)) = Net.one := by
  have e : @Eq (FVec Ideal S_ .f32) (StableHlo.after (hostOps3 (F := Ideal)) W (Proc.devRef .tc main_cst_10))
      (constant (F := Ideal) S_ .f32 0x3F800000#32) := by
    after_results
  show (StableHlo.after (hostOps3 (F := Ideal)) W (Proc.devRef .tc main_cst_10) : FVec Ideal S_ .f32) ix0 = _
  rw [e, constant_apply]

end Cert.KernelIdeal.KTail

end
-- ==== Proof.KTailCarry.lean ====
/-
  What the stretches of the program's last host part leave untouched.

  A run of host operations changes only the buffers its operations write; every other buffer holds afterwards what it
  held before.  None of the stretches up to the last linear layer writes the weight matrices and biases of the three
  small layers or the last normalisation's scale and shift, and the variance computation that follows does not write
  the last pre-activation array.
-/
import proofs.«122919_j34694745817434_2_alg».proof.Proof.Gen.KernelIdeal.Frame
import Idealize.ShloMosaic.Lib.StableHlo.Run
import Idealize.ShloMosaic.PureOps.Ideal

noncomputable section

namespace Cert.KernelIdeal.KTail

open Cert.KernelIdeal Cert.KernelIdeal.Gen
open Idealize.ShloMosaic Idealize.ShloMosaic.TcCoe Idealize.SL.Sem Idealize.ShloMosaic.StableHlo

/-! ### What hostOps3 leaves untouched -/

theorem carry_hostOps3_main_arg7 (W : Valuation τ sig (Elt Ideal)) :
    StableHlo.after (hostOps3 (F := Ideal)) W (Proc.devRef .tc main_arg7) = W (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg8 (W : Valuation τ sig (Elt Ideal)) :
    StableHlo.after (hostOps3 (F := Ideal)) W (Proc.devRef .tc main_arg8) = W (Proc.devRef .tc main_arg8) :=
  StableHlo.after_of_forall_not_mem (b := Proc.devRef .tc main_arg8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg9 (W : Valuation τ sig (Elt Ideal)) :
    StableHlo.after (hostOps3 (F := Ideal)) W (Proc.devRef .tc main_arg9) = W (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg10 (W : Valuation τ sig (Elt Ideal)) :
    StableHlo.after (hostOps3 (F := Ideal)) W (Proc.devRef .tc main_arg10) = W (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg11 (W : Valuation τ sig (Elt Ideal)) :
    StableHlo.after (hostOps3 (F := Ideal)) W (Proc.devRef .tc main_arg11) = W (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg12 (W : Valuation τ sig (Elt Ideal)) :
    StableHlo.after (hostOps3 (F := Ideal)) W (Proc.devRef .tc main_arg12) = W (Proc.devRef .tc main_arg12) :=
  StableHlo.after_of_forall_not_mem (b := Proc.devRef .tc main_arg12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg19 (W : Valuation τ sig (Elt Ideal)) :
    StableHlo.after (hostOps3 (F := Ideal)) W (Proc.devRef .tc main_arg19) = W (Proc.devRef .tc main_arg19) :=
  StableHlo.after_of_forall_not_mem (b := Proc.devRef .tc main_arg19) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_main_arg20 (W : Valuation τ sig (Elt Ideal)) :
    StableHlo.after (hostOps3 (F := Ideal)) W (Proc.devRef .tc main_arg20) = W (Proc.devRef .tc main_arg20) :=
  StableHlo.after_of_forall_not_mem (b := Proc.devRef .tc main_arg20) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_1 leaves untouched -/

theorem carry_hostOps3_1_main_arg7 (W : Valuation τ sig (Elt Ideal)) :
    StableHlo.after (hostOps3_1 (F := Ideal)) W (Proc.devRef .tc main_arg7) = W (Proc.devRef .tc main_arg7) :=
  StableHlo.after_of_forall_not_mem (b := Proc.devRef .tc main_arg7) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg8 (W : Valuation τ sig (Elt Ideal)) :
    StableHlo.after (hostOps3_1 (F := Ideal)) W (Proc.devRef .tc main_arg8) = W (Proc.devRef .tc main_arg8) :=
  StableHlo.after_of_forall_not_mem (b := Proc.devRef .tc main_arg8) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg9 (W : Valuation τ sig (Elt Ideal)) :
    StableHlo.after (hostOps3_1 (F := Ideal)) W (Proc.devRef .tc main_arg9) = W (Proc.devRef .tc main_arg9) :=
  StableHlo.after_of_forall_not_mem (b := Proc.devRef .tc main_arg9) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg10 (W : Valuation τ sig (Elt Ideal)) :
    StableHlo.after (hostOps3_1 (F := Ideal)) W (Proc.devRef .tc main_arg10) = W (Proc.devRef .tc main_arg10) :=
  StableHlo.after_of_forall_not_mem (b := Proc.devRef .tc main_arg10) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg11 (W : Valuation τ sig (Elt Ideal)) :
    StableHlo.after (hostOps3_1 (F := Ideal)) W (Proc.devRef .tc main_arg11) = W (Proc.devRef .tc main_arg11) :=
  StableHlo.after_of_forall_not_mem (b := Proc.devRef .tc main_arg11) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg12 (W : Valuation τ sig (Elt Ideal)) :
    StableHlo.after (hostOps3_1 (F := Ideal)) W (Proc.devRef .tc main_arg12) = W (Proc.devRef .tc main_arg12) :=
  StableHlo.after_of_forall_not_mem (b := Proc.devRef .tc main_arg12) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg19 (W : Valuation τ sig (Elt Ideal)) :
    StableHlo.after (hostOps3_1 (F := Ideal)) W (Proc.devRef .tc main_arg19) = W (Proc.devRef .tc main_arg19) :=
  StableHlo.after_of_forall_not_mem (b := Proc.devRef .tc main_arg19) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_1_main_arg20 (W : Valuation τ sig (Elt Ideal)) :
    StableHlo.after (hostOps3_1 (F := Ideal)) W (Proc.devRef .tc main_arg20) = W (Proc.devRef .tc main_arg20) :=
  StableHlo.after_of_forall_not_mem (b := Proc.devRef .tc main_arg20) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_2 leaves untouched -/

theorem carry_hostOps3_2_main_arg7 (W : Valuation τ sig (Elt Ideal)) :
    StableHlo.after (hostOps3_2 (F := Ideal)) W (Proc.devRef .tc main_arg7) = W (Proc.devRef .tc main_arg7) :=
  StableHlo.after_of_forall_not_mem (b := Proc.devRef .tc main_arg7) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg8 (W : Valuation τ sig (Elt Ideal)) :
    StableHlo.after (hostOps3_2 (F := Ideal)) W (Proc.devRef .tc main_arg8) = W (Proc.devRef .tc main_arg8) :=
  StableHlo.after_of_forall_not_mem (b := Proc.devRef .tc main_arg8) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg9 (W : Valuation τ sig (Elt Ideal)) :
    StableHlo.after (hostOps3_2 (F := Ideal)) W (Proc.devRef .tc main_arg9) = W (Proc.devRef .tc main_arg9) :=
  StableHlo.after_of_forall_not_mem (b := Proc.devRef .tc main_arg9) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg10 (W : Valuation τ sig (Elt Ideal)) :
    StableHlo.after (hostOps3_2 (F := Ideal)) W (Proc.devRef .tc main_arg10) = W (Proc.devRef .tc main_arg10) :=
  StableHlo.after_of_forall_not_mem (b := Proc.devRef .tc main_arg10) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg11 (W : Valuation τ sig (Elt Ideal)) :
    StableHlo.after (hostOps3_2 (F := Ideal)) W (Proc.devRef .tc main_arg11) = W (Proc.devRef .tc main_arg11) :=
  StableHlo.after_of_forall_not_mem (b := Proc.devRef .tc main_arg11) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg12 (W : Valuation τ sig (Elt Ideal)) :
    StableHlo.after (hostOps3_2 (F := Ideal)) W (Proc.devRef .tc main_arg12) = W (Proc.devRef .tc main_arg12) :=
  StableHlo.after_of_forall_not_mem (b := Proc.devRef .tc main_arg12) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg19 (W : Valuation τ sig (Elt Ideal)) :
    StableHlo.after (hostOps3_2 (F := Ideal)) W (Proc.devRef .tc main_arg19) = W (Proc.devRef .tc main_arg19) :=
  StableHlo.after_of_forall_not_mem (b := Proc.devRef .tc main_arg19) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_2_main_arg20 (W : Valuation τ sig (Elt Ideal)) :
    StableHlo.after (hostOps3_2 (F := Ideal)) W (Proc.devRef .tc main_arg20) = W (Proc.devRef .tc main_arg20) :=
  StableHlo.after_of_forall_not_mem (b := Proc.devRef .tc main_arg20) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_3 leaves untouched -/

theorem carry_hostOps3_3_main_arg7 (W : Valuation τ sig (Elt Ideal)) :
    StableHlo.after (hostOps3_3 (F := Ideal)) W (Proc.devRef .tc main_arg7) = W (Proc.devRef .tc main_arg7) :=
  StableHlo.after_of_forall_not_mem (b := Proc.devRef .tc main_arg7) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg8 (W : Valuation τ sig (Elt Ideal)) :
    StableHlo.after (hostOps3_3 (F := Ideal)) W (Proc.devRef .tc main_arg8) = W (Proc.devRef .tc main_arg8) :=
  StableHlo.after_of_forall_not_mem (b := Proc.devRef .tc main_arg8) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg9 (W : Valuation τ sig (Elt Ideal)) :
    StableHlo.after (hostOps3_3 (F := Ideal)) W (Proc.devRef .tc main_arg9) = W (Proc.devRef .tc main_arg9) :=
  StableHlo.after_of_forall_not_mem (b := Proc.devRef .tc main_arg9) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg10 (W : Valuation τ sig (Elt Ideal)) :
    StableHlo.after (hostOps3_3 (F := Ideal)) W (Proc.devRef .tc main_arg10) = W (Proc.devRef .tc main_arg10) :=
  StableHlo.after_of_forall_not_mem (b := Proc.devRef .tc main_arg10) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg11 (W : Valuation τ sig (Elt Ideal)) :
    StableHlo.after (hostOps3_3 (F := Ideal)) W (Proc.devRef .tc main_arg11) = W (Proc.devRef .tc main_arg11) :=
  StableHlo.after_of_forall_not_mem (b := Proc.devRef .tc main_arg11) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg12 (W : Valuation τ sig (Elt Ideal)) :
    StableHlo.after (hostOps3_3 (F := Ideal)) W (Proc.devRef .tc main_arg12) = W (Proc.devRef .tc main_arg12) :=
  StableHlo.after_of_forall_not_mem (b := Proc.devRef .tc main_arg12) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg19 (W : Valuation τ sig (Elt Ideal)) :
    StableHlo.after (hostOps3_3 (F := Ideal)) W (Proc.devRef .tc main_arg19) = W (Proc.devRef .tc main_arg19) :=
  StableHlo.after_of_forall_not_mem (b := Proc.devRef .tc main_arg19) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_3_main_arg20 (W : Valuation τ sig (Elt Ideal)) :
    StableHlo.after (hostOps3_3 (F := Ideal)) W (Proc.devRef .tc main_arg20) = W (Proc.devRef .tc main_arg20) :=
  StableHlo.after_of_forall_not_mem (b := Proc.devRef .tc main_arg20) _ _ (List.forall_iff_forall_mem.mp (by
    simp only [hostOps3_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_4 leaves untouched -/

theorem carry_hostOps3_4_main_arg7 (W : Valuation τ sig (Elt Ideal)) :
    StableHlo.after (hostOps3_4 (F := Ideal)) W (Proc.devRef .tc main_arg7) = W (Proc.devRef .tc main_arg7) :=
  StableHlo.after_of_forall_not_mem (b := Proc.devRef .tc main_arg7) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg8 (W : Valuation τ sig (Elt Ideal)) :
    StableHlo.after (hostOps3_4 (F := Ideal)) W (Proc.devRef .tc main_arg8) = W (Proc.devRef .tc main_arg8) :=
  StableHlo.after_of_forall_not_mem (b := Proc.devRef .tc main_arg8) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg9 (W : Valuation τ sig (Elt Ideal)) :
    StableHlo.after (hostOps3_4 (F := Ideal)) W (Proc.devRef .tc main_arg9) = W (Proc.devRef .tc main_arg9) :=
  StableHlo.after_of_forall_not_mem (b := Proc.devRef .tc main_arg9) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg10 (W : Valuation τ sig (Elt Ideal)) :
    StableHlo.after (hostOps3_4 (F := Ideal)) W (Proc.devRef .tc main_arg10) = W (Proc.devRef .tc main_arg10) :=
  StableHlo.after_of_forall_not_mem (b := Proc.devRef .tc main_arg10) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg11 (W : Valuation τ sig (Elt Ideal)) :
    StableHlo.after (hostOps3_4 (F := Ideal)) W (Proc.devRef .tc main_arg11) = W (Proc.devRef .tc main_arg11) :=
  StableHlo.after_of_forall_not_mem (b := Proc.devRef .tc main_arg11) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg12 (W : Valuation τ sig (Elt Ideal)) :
    StableHlo.after (hostOps3_4 (F := Ideal)) W (Proc.devRef .tc main_arg12) = W (Proc.devRef .tc main_arg12) :=
  StableHlo.after_of_forall_not_mem (b := Proc.devRef .tc main_arg12) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg19 (W : Valuation τ sig (Elt Ideal)) :
    StableHlo.after (hostOps3_4 (F := Ideal)) W (Proc.devRef .tc main_arg19) = W (Proc.devRef .tc main_arg19) :=
  StableHlo.after_of_forall_not_mem (b := Proc.devRef .tc main_arg19) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_4_main_arg20 (W : Valuation τ sig (Elt Ideal)) :
    StableHlo.after (hostOps3_4 (F := Ideal)) W (Proc.devRef .tc main_arg20) = W (Proc.devRef .tc main_arg20) :=
  StableHlo.after_of_forall_not_mem (b := Proc.devRef .tc main_arg20) _ _ (List.forall_iff_forall_mem.mp (by
    simp only [hostOps3_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_5 leaves untouched -/

theorem carry_hostOps3_5_main_arg7 (W : Valuation τ sig (Elt Ideal)) :
    StableHlo.after (hostOps3_5 (F := Ideal)) W (Proc.devRef .tc main_arg7) = W (Proc.devRef .tc main_arg7) :=
  StableHlo.after_of_forall_not_mem (b := Proc.devRef .tc main_arg7) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg8 (W : Valuation τ sig (Elt Ideal)) :
    StableHlo.after (hostOps3_5 (F := Ideal)) W (Proc.devRef .tc main_arg8) = W (Proc.devRef .tc main_arg8) :=
  StableHlo.after_of_forall_not_mem (b := Proc.devRef .tc main_arg8) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg9 (W : Valuation τ sig (Elt Ideal)) :
    StableHlo.after (hostOps3_5 (F := Ideal)) W (Proc.devRef .tc main_arg9) = W (Proc.devRef .tc main_arg9) :=
  StableHlo.after_of_forall_not_mem (b := Proc.devRef .tc main_arg9) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg10 (W : Valuation τ sig (Elt Ideal)) :
    StableHlo.after (hostOps3_5 (F := Ideal)) W (Proc.devRef .tc main_arg10) = W (Proc.devRef .tc main_arg10) :=
  StableHlo.after_of_forall_not_mem (b := Proc.devRef .tc main_arg10) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg11 (W : Valuation τ sig (Elt Ideal)) :
    StableHlo.after (hostOps3_5 (F := Ideal)) W (Proc.devRef .tc main_arg11) = W (Proc.devRef .tc main_arg11) :=
  StableHlo.after_of_forall_not_mem (b := Proc.devRef .tc main_arg11) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg12 (W : Valuation τ sig (Elt Ideal)) :
    StableHlo.after (hostOps3_5 (F := Ideal)) W (Proc.devRef .tc main_arg12) = W (Proc.devRef .tc main_arg12) :=
  StableHlo.after_of_forall_not_mem (b := Proc.devRef .tc main_arg12) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg19 (W : Valuation τ sig (Elt Ideal)) :
    StableHlo.after (hostOps3_5 (F := Ideal)) W (Proc.devRef .tc main_arg19) = W (Proc.devRef .tc main_arg19) :=
  StableHlo.after_of_forall_not_mem (b := Proc.devRef .tc main_arg19) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_5_main_arg20 (W : Valuation τ sig (Elt Ideal)) :
    StableHlo.after (hostOps3_5 (F := Ideal)) W (Proc.devRef .tc main_arg20) = W (Proc.devRef .tc main_arg20) :=
  StableHlo.after_of_forall_not_mem (b := Proc.devRef .tc main_arg20) _ _ (List.forall_iff_forall_mem.mp (by
    simp only [hostOps3_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_6 leaves untouched -/

theorem carry_hostOps3_6_main_arg7 (W : Valuation τ sig (Elt Ideal)) :
    StableHlo.after (hostOps3_6 (F := Ideal)) W (Proc.devRef .tc main_arg7) = W (Proc.devRef .tc main_arg7) :=
  StableHlo.after_of_forall_not_mem (b := Proc.devRef .tc main_arg7) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg8 (W : Valuation τ sig (Elt Ideal)) :
    StableHlo.after (hostOps3_6 (F := Ideal)) W (Proc.devRef .tc main_arg8) = W (Proc.devRef .tc main_arg8) :=
  StableHlo.after_of_forall_not_mem (b := Proc.devRef .tc main_arg8) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg9 (W : Valuation τ sig (Elt Ideal)) :
    StableHlo.after (hostOps3_6 (F := Ideal)) W (Proc.devRef .tc main_arg9) = W (Proc.devRef .tc main_arg9) :=
  StableHlo.after_of_forall_not_mem (b := Proc.devRef .tc main_arg9) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg10 (W : Valuation τ sig (Elt Ideal)) :
    StableHlo.after (hostOps3_6 (F := Ideal)) W (Proc.devRef .tc main_arg10) = W (Proc.devRef .tc main_arg10) :=
  StableHlo.after_of_forall_not_mem (b := Proc.devRef .tc main_arg10) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg11 (W : Valuation τ sig (Elt Ideal)) :
    StableHlo.after (hostOps3_6 (F := Ideal)) W (Proc.devRef .tc main_arg11) = W (Proc.devRef .tc main_arg11) :=
  StableHlo.after_of_forall_not_mem (b := Proc.devRef .tc main_arg11) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg12 (W : Valuation τ sig (Elt Ideal)) :
    StableHlo.after (hostOps3_6 (F := Ideal)) W (Proc.devRef .tc main_arg12) = W (Proc.devRef .tc main_arg12) :=
  StableHlo.after_of_forall_not_mem (b := Proc.devRef .tc main_arg12) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg19 (W : Valuation τ sig (Elt Ideal)) :
    StableHlo.after (hostOps3_6 (F := Ideal)) W (Proc.devRef .tc main_arg19) = W (Proc.devRef .tc main_arg19) :=
  StableHlo.after_of_forall_not_mem (b := Proc.devRef .tc main_arg19) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_6_main_arg20 (W : Valuation τ sig (Elt Ideal)) :
    StableHlo.after (hostOps3_6 (F := Ideal)) W (Proc.devRef .tc main_arg20) = W (Proc.devRef .tc main_arg20) :=
  StableHlo.after_of_forall_not_mem (b := Proc.devRef .tc main_arg20) _ _ (List.forall_iff_forall_mem.mp (by
    simp only [hostOps3_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What hostOps3_7 leaves untouched -/

theorem carry_hostOps3_7_main_v79 (W : Valuation τ sig (Elt Ideal)) :
    StableHlo.after (hostOps3_7 (F := Ideal)) W (Proc.devRef .tc main_v79) = W (Proc.devRef .tc main_v79) :=
  StableHlo.after_of_forall_not_mem (b := Proc.devRef .tc main_v79) _ _ (List.forall_iff_forall_mem.mp (by
    simp only [hostOps3_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_7_main_arg19 (W : Valuation τ sig (Elt Ideal)) :
    StableHlo.after (hostOps3_7 (F := Ideal)) W (Proc.devRef .tc main_arg19) = W (Proc.devRef .tc main_arg19) :=
  StableHlo.after_of_forall_not_mem (b := Proc.devRef .tc main_arg19) _ _ (List.forall_iff_forall_mem.mp (by
    simp only [hostOps3_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem carry_hostOps3_7_main_arg20 (W : Valuation τ sig (Elt Ideal)) :
    StableHlo.after (hostOps3_7 (F := Ideal)) W (Proc.devRef .tc main_arg20) = W (Proc.devRef .tc main_arg20) :=
  StableHlo.after_of_forall_not_mem (b := Proc.devRef .tc main_arg20) _ _ (List.forall_iff_forall_mem.mp (by
    simp only [hostOps3_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KTail

end
-- ==== Proof.KTail.lean ====
/-
  The program's last three small layers, composed: from the third region's exit to the last pre-activation.

  Starting from the arrays the third region leaves, the host normalises the third layer's pre-activation, and then
  three times clamps to [-1, 1], takes signs, and applies a binarized linear layer.  Entry (r, n) of the last
  pre-activation is therefore
      lin (actPlain (lin (actPlain (lin A₃ w₃ b₃)) w₄ b₄)) w₅ b₅ (r, n),
  with A₃ = sign ∘ clamp of the normalised third pre-activation, lin a w b (r, n) = ∑ₖ a(r, k) · sign w(n, k) + b(n)
  and actPlain h = sign ∘ clamp ∘ h.  Each stretch is read over an arbitrary starting valuation; here the readings
  are chained, each stretch starting from what the one before left, and the weights and biases are carried unchanged
  through the stretches that do not write them.
-/
import proofs.«122919_j34694745817434_2_alg».proof.Proof.Gen.KernelIdeal.Frame
import proofs.«122919_j34694745817434_2_alg».proof.Proof.LibTypedRef
import proofs.«122919_j34694745817434_2_alg».proof.Proof.Rd
import proofs.«122919_j34694745817434_2_alg».proof.Proof.LibBiasRow
import proofs.«122919_j34694745817434_2_alg».proof.Proof.LibBroadcastInDim
import proofs.«122919_j34694745817434_2_alg».proof.Proof.LibDotSums
import proofs.«122919_j34694745817434_2_alg».proof.Proof.Net
import proofs.«122919_j34694745817434_2_alg».proof.Proof.KTailBase
import proofs.«122919_j34694745817434_2_alg».proof.Proof.KTailClip
import proofs.«122919_j34694745817434_2_alg».proof.Proof.KTailLin
import proofs.«122919_j34694745817434_2_alg».proof.Proof.KTailNorm
import proofs.«122919_j34694745817434_2_alg».proof.Proof.KTailCarry
import Idealize.ShloMosaic.Lib.StableHlo.Run
import Idealize.ShloMosaic.Lib.ValueLayout
import Idealize.ShloMosaic.Lib.ValueIdx
import Idealize.ShloMosaic.Lib.IdealHost

open scoped BigOperators

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

/-! ## A clamp whose two scalars are -1 and 1 is the network's clamp -/

theorem clip1_of (U : Valuation τ sig (Elt Ideal)) (hlo : r0 (φ := .f32) (U (Proc.devRef .tc main_cst_9)) = Net.negOne)
    (hhi : r0 (φ := .f32) (U (Proc.devRef .tc main_cst_10)) = Net.one) (r : Fin 16384) (n : Fin 256) :
    r2 (A := 16384) (B := 256) (φ := .f32) (StableHlo.after (hostOps3_1 (F := Ideal)) U (Proc.devRef .tc main_v56)) r n
      = Net.clip (r2 (A := 16384) (B := 256) (φ := .f32) (U (Proc.devRef .tc main_v55)) r n) := by
  rw [clip1_at, hlo, hhi]; rfl

theorem clip2_of (U : Valuation τ sig (Elt Ideal)) (hlo : r0 (φ := .f32) (U (Proc.devRef .tc main_cst_11)) = Net.negOne)
    (hhi : r0 (φ := .f32) (U (Proc.devRef .tc main_cst_12)) = Net.one) (r : Fin 16384) (n : Fin 16) :
    r2 (A := 16384) (B := 16) (φ := .f32) (StableHlo.after (hostOps3_3 (F := Ideal)) U (Proc.devRef .tc main_v64)) r n
      = Net.clip (r2 (A := 16384) (B := 16) (φ := .f32) (U (Proc.devRef .tc main_v63)) r n) := by
  rw [clip2_at, hlo, hhi]; rfl

theorem clip3_of (U : Valuation τ sig (Elt Ideal)) (hlo : r0 (φ := .f32) (U (Proc.devRef .tc main_cst_13)) = Net.negOne)
    (hhi : r0 (φ := .f32) (U (Proc.devRef .tc main_cst_14)) = Net.one) (r : Fin 16384) (n : Fin 16) :
    r2 (A := 16384) (B := 16) (φ := .f32) (StableHlo.after (hostOps3_5 (F := Ideal)) U (Proc.devRef .tc main_v72)) r n
      = Net.clip (r2 (A := 16384) (B := 16) (φ := .f32) (U (Proc.devRef .tc main_v71)) r n) := by
  rw [clip3_at, hlo, hhi]; rfl

/-! ## The data at the third region's exit -/

section Compose

variable (W : Valuation τ sig (Elt Ideal))

/-- The third layer's column mean. -/
def mu3 (n : Fin 256) : EReal :=
  Ideal.div (r2 (A := 1) (B := 256) (φ := .f32) (W (Proc.devRef .tc main_v36_1)) (0 : Fin 1) n) Net.cnt
/-- The third layer's clamped column variance. -/
def sigma3 (n : Fin 256) : EReal :=
  max (Ideal.div (r2 (A := 1) (B := 256) (φ := .f32) (W (Proc.devRef .tc main_v36_2)) (0 : Fin 1) n) Net.cnt - mu3 W n * mu3 W n) Net.zero
/-- The third layer's normalised pre-activation. -/
def h3 (r : Fin 16384) (n : Fin 256) : EReal :=
  ((r2 (A := 16384) (B := 256) (φ := .f32) (W (Proc.devRef .tc main_v36_0)) r n - mu3 W n) * Ideal.rsqrt (sigma3 W n + Net.eps))
      * r2 (A := 1) (B := 256) (φ := .f32) (W (Proc.devRef .tc main_v16)) (0 : Fin 1) n
    + r2 (A := 1) (B := 256) (φ := .f32) (W (Proc.devRef .tc main_v17)) (0 : Fin 1) n
/-- The third layer's activation: the sign of the clamped normalised pre-activation. -/
def A3 (r : Fin 16384) (k : Fin 256) : EReal := Ideal.sign (Net.clip (h3 W r k))
/-- The weights and biases of the three small layers. -/
def w3 (n : Fin 16) (k : Fin 256) : EReal := r2 (A := 16) (B := 256) (φ := .f32) (W (Proc.devRef .tc main_arg7)) n k
def b3 (n : Fin 16) : EReal := r1 (A := 16) (φ := .f32) (W (Proc.devRef .tc main_arg8)) n
def w4 (n : Fin 16) (k : Fin 16) : EReal := r2 (A := 16) (B := 16) (φ := .f32) (W (Proc.devRef .tc main_arg9)) n k
def b4 (n : Fin 16) : EReal := r1 (A := 16) (φ := .f32) (W (Proc.devRef .tc main_arg10)) n
def w5 (n : Fin 10) (k : Fin 16) : EReal := r2 (A := 10) (B := 16) (φ := .f32) (W (Proc.devRef .tc main_arg11)) n k
def b5 (n : Fin 10) : EReal := r1 (A := 10) (φ := .f32) (W (Proc.devRef .tc main_arg12)) n

/-! The definitions above, unfolded, for rewriting. -/
theorem mu3_def (n : Fin 256) : mu3 W n
    = Ideal.div (r2 (A := 1) (B := 256) (φ := .f32) (W (Proc.devRef .tc main_v36_1)) (0 : Fin 1) n) Net.cnt := rfl
theorem sigma3_def (n : Fin 256) : sigma3 W n
    = max (Ideal.div (r2 (A := 1) (B := 256) (φ := .f32) (W (Proc.devRef .tc main_v36_2)) (0 : Fin 1) n) Net.cnt - mu3 W n * mu3 W n) Net.zero := rfl
theorem h3_def (r : Fin 16384) (n : Fin 256) : h3 W r n
    = ((r2 (A := 16384) (B := 256) (φ := .f32) (W (Proc.devRef .tc main_v36_0)) r n - mu3 W n) * Ideal.rsqrt (sigma3 W n + Net.eps))
          * r2 (A := 1) (B := 256) (φ := .f32) (W (Proc.devRef .tc main_v16)) (0 : Fin 1) n
        + r2 (A := 1) (B := 256) (φ := .f32) (W (Proc.devRef .tc main_v17)) (0 : Fin 1) n := rfl
theorem A3_def (r : Fin 16384) (k : Fin 256) : A3 W r k = Ideal.sign (Net.clip (h3 W r k)) := rfl
theorem w3_def (n : Fin 16) (k : Fin 256) : w3 W n k = r2 (A := 16) (B := 256) (φ := .f32) (W (Proc.devRef .tc main_arg7)) n k := rfl
theorem b3_def (n : Fin 16) : b3 W n = r1 (A := 16) (φ := .f32) (W (Proc.devRef .tc main_arg8)) n := rfl
theorem w4_def (n : Fin 16) (k : Fin 16) : w4 W n k = r2 (A := 16) (B := 16) (φ := .f32) (W (Proc.devRef .tc main_arg9)) n k := rfl
theorem b4_def (n : Fin 16) : b4 W n = r1 (A := 16) (φ := .f32) (W (Proc.devRef .tc main_arg10)) n := rfl
theorem w5_def (n : Fin 10) (k : Fin 16) : w5 W n k = r2 (A := 10) (B := 16) (φ := .f32) (W (Proc.devRef .tc main_arg11)) n k := rfl
theorem b5_def (n : Fin 10) : b5 W n = r1 (A := 10) (φ := .f32) (W (Proc.devRef .tc main_arg12)) n := rfl

/-- The normalisation stretch gives the normalised pre-activation. -/
theorem h3_at (r : Fin 16384) (n : Fin 256) :
    r2 (A := 16384) (B := 256) (φ := .f32) (StableHlo.after (hostOps3 (F := Ideal)) W (Proc.devRef .tc main_v55)) r n = h3 W r n :=
  norm_at W r n

local notation "V7" => StableHlo.after (hostOps3 (F := Ideal)) W
local notation "V8" => StableHlo.after (hostOps3_1 (F := Ideal)) V7
local notation "V9" => StableHlo.after (hostOps3_2 (F := Ideal)) V8
local notation "V10" => StableHlo.after (hostOps3_3 (F := Ideal)) V9
local notation "V11" => StableHlo.after (hostOps3_4 (F := Ideal)) V10
local notation "V12" => StableHlo.after (hostOps3_5 (F := Ideal)) V11
local notation "V13" => StableHlo.after (hostOps3_6 (F := Ideal)) V12

/-! ## First small layer -/

theorem act3_at (r : Fin 16384) (k : Fin 256) :
    Ideal.sign (r2 (A := 16384) (B := 256) (φ := .f32) (V8 (Proc.devRef .tc main_v56)) r k) = A3 W r k :=
  congrArg Ideal.sign ((clip1_of V7 (cst9_at W) (cst10_at W) r k).trans (congrArg Net.clip (h3_at W r k)))

theorem w3_at (n : Fin 16) (k : Fin 256) :
    r2 (A := 16) (B := 256) (φ := .f32) (V8 (Proc.devRef .tc main_arg7)) n k = w3 W n k := by
  rw [carry_hostOps3_1_main_arg7, carry_hostOps3_main_arg7]; rfl

theorem b3_at (n : Fin 16) : r1 (A := 16) (φ := .f32) (V8 (Proc.devRef .tc main_arg8)) n = b3 W n := by
  rw [carry_hostOps3_1_main_arg8, carry_hostOps3_main_arg8]; rfl

theorem l1_at (r : Fin 16384) (j : Fin 16) :
    r2 (A := 16384) (B := 16) (φ := .f32) (V9 (Proc.devRef .tc main_v63)) r j = Net.lin (A3 W) (w3 W) (b3 W) r j := by
  have hs : (∑ k : Fin 256, Ideal.sign (r2 (A := 16384) (B := 256) (φ := .f32) (V8 (Proc.devRef .tc main_v56)) r k)
        * Ideal.sign (r2 (A := 16) (B := 256) (φ := .f32) (V8 (Proc.devRef .tc main_arg7)) j k))
      = ∑ k : Fin 256, A3 W r k * Ideal.sign (w3 W j k) :=
    Finset.sum_congr rfl fun k _ => by rw [act3_at, w3_at]
  rw [lin1_at, hs, b3_at]; rfl

/-! ## Second small layer -/

theorem act4_at (r : Fin 16384) (k : Fin 16) :
    Ideal.sign (r2 (A := 16384) (B := 16) (φ := .f32) (V10 (Proc.devRef .tc main_v64)) r k)
      = Net.actPlain (Net.lin (A3 W) (w3 W) (b3 W)) r k :=
  congrArg Ideal.sign ((clip2_of V9 (cst11_at V8) (cst12_at V8) r k).trans (congrArg Net.clip (l1_at W r k)))

theorem w4_at (n : Fin 16) (k : Fin 16) :
    r2 (A := 16) (B := 16) (φ := .f32) (V10 (Proc.devRef .tc main_arg9)) n k = w4 W n k := by
  rw [carry_hostOps3_3_main_arg9, carry_hostOps3_2_main_arg9, carry_hostOps3_1_main_arg9, carry_hostOps3_main_arg9]; rfl

theorem b4_at (n : Fin 16) : r1 (A := 16) (φ := .f32) (V10 (Proc.devRef .tc main_arg10)) n = b4 W n := by
  rw [carry_hostOps3_3_main_arg10, carry_hostOps3_2_main_arg10, carry_hostOps3_1_main_arg10, carry_hostOps3_main_arg10]; rfl

theorem l2_at (r : Fin 16384) (j : Fin 16) :
    r2 (A := 16384) (B := 16) (φ := .f32) (V11 (Proc.devRef .tc main_v71)) r j
      = Net.lin (Net.actPlain (Net.lin (A3 W) (w3 W) (b3 W))) (w4 W) (b4 W) r j := by
  have hs : (∑ k : Fin 16, Ideal.sign (r2 (A := 16384) (B := 16) (φ := .f32) (V10 (Proc.devRef .tc main_v64)) r k)
        * Ideal.sign (r2 (A := 16) (B := 16) (φ := .f32) (V10 (Proc.devRef .tc main_arg9)) j k))
      = ∑ k : Fin 16, Net.actPlain (Net.lin (A3 W) (w3 W) (b3 W)) r k * Ideal.sign (w4 W j k) :=
    Finset.sum_congr rfl fun k _ => by rw [act4_at, w4_at]
  rw [lin2_at, hs, b4_at]; rfl

/-! ## Third small layer -/

theorem act5_at (r : Fin 16384) (k : Fin 16) :
    Ideal.sign (r2 (A := 16384) (B := 16) (φ := .f32) (V12 (Proc.devRef .tc main_v72)) r k)
      = Net.actPlain (Net.lin (Net.actPlain (Net.lin (A3 W) (w3 W) (b3 W))) (w4 W) (b4 W)) r k :=
  congrArg Ideal.sign ((clip3_of V11 (cst13_at V10) (cst14_at V10) r k).trans (congrArg Net.clip (l2_at W r k)))

theorem w5_at (n : Fin 10) (k : Fin 16) :
    r2 (A := 10) (B := 16) (φ := .f32) (V12 (Proc.devRef .tc main_arg11)) n k = w5 W n k := by
  rw [carry_hostOps3_5_main_arg11, carry_hostOps3_4_main_arg11, carry_hostOps3_3_main_arg11, carry_hostOps3_2_main_arg11,
    carry_hostOps3_1_main_arg11, carry_hostOps3_main_arg11]; rfl

theorem b5_at (n : Fin 10) : r1 (A := 10) (φ := .f32) (V12 (Proc.devRef .tc main_arg12)) n = b5 W n := by
  rw [carry_hostOps3_5_main_arg12, carry_hostOps3_4_main_arg12, carry_hostOps3_3_main_arg12, carry_hostOps3_2_main_arg12,
    carry_hostOps3_1_main_arg12, carry_hostOps3_main_arg12]; rfl

/-- THE COMPOSITION: entry (r, n) of the last pre-activation, from the arrays at the third region's exit. -/
theorem v79_at (r : Fin 16384) (n : Fin 10) :
    r2 (A := 16384) (B := 10) (φ := .f32) (V13 (Proc.devRef .tc main_v79)) r n
      = Net.lin (Net.actPlain (Net.lin (Net.actPlain (Net.lin (A3 W) (w3 W) (b3 W))) (w4 W) (b4 W))) (w5 W) (b5 W) r n := by
  have hs : (∑ k : Fin 16, Ideal.sign (r2 (A := 16384) (B := 16) (φ := .f32) (V12 (Proc.devRef .tc main_v72)) r k)
        * Ideal.sign (r2 (A := 10) (B := 16) (φ := .f32) (V12 (Proc.devRef .tc main_arg11)) n k))
      = ∑ k : Fin 16, Net.actPlain (Net.lin (Net.actPlain (Net.lin (A3 W) (w3 W) (b3 W))) (w4 W) (b4 W)) r k
          * Ideal.sign (w5 W n k) :=
    Finset.sum_congr rfl fun k _ => by rw [act5_at, w5_at]
  rw [lin3_at, hs, b5_at]; rfl

/-- The last normalisation's scale and shift, and the last pre-activation through the variance computation, are
    carried from the third region's exit. -/
theorem arg19_at : V13 (Proc.devRef .tc main_arg19) = W (Proc.devRef .tc main_arg19) := by
  rw [carry_hostOps3_6_main_arg19, carry_hostOps3_5_main_arg19, carry_hostOps3_4_main_arg19, carry_hostOps3_3_main_arg19,
    carry_hostOps3_2_main_arg19, carry_hostOps3_1_main_arg19, carry_hostOps3_main_arg19]

theorem arg20_at : V13 (Proc.devRef .tc main_arg20) = W (Proc.devRef .tc main_arg20) := by
  rw [carry_hostOps3_6_main_arg20, carry_hostOps3_5_main_arg20, carry_hostOps3_4_main_arg20, carry_hostOps3_3_main_arg20,
    carry_hostOps3_2_main_arg20, carry_hostOps3_1_main_arg20, carry_hostOps3_main_arg20]

end Compose

end Cert.KernelIdeal.KTail

end
-- ==== Proof.KTailAt.lean ====
/-
  The composed reading of the last three small layers, stated at the program's own valuations: the valuation after the
  seventh stretch of the host tail is the seven stretches run one after the other from the valuation at the third
  region's exit, so the composition over an arbitrary starting valuation applies to it as it stands.
-/
import proofs.«122919_j34694745817434_2_alg».proof.Proof.KTail

noncomputable section

namespace Cert.KernelIdeal.KTail

open Cert.KernelIdeal Cert.KernelIdeal.Gen
open Idealize.ShloMosaic Idealize.ShloMosaic.TcCoe Idealize.SL.Sem Idealize.ShloMosaic.ValueIdx Idealize.ShloMosaic.StableHlo
open Cert.Rd

variable (m : (ℓ : Loc nD τ sig) → Buf (Elt Ideal) ℓ) (ρ : Dev nD → PrngReg)

/-- Entry (r, n) of the last pre-activation after the seventh stretch, from the valuation at the third region's exit. -/
theorem v79_W13 (c : Dev nD) (r : Fin 16384) (n : Fin 10) :
    r2 (A := 16384) (B := 10) (φ := .f32) (W13 m ρ c (Proc.devRef .tc main_v79)) r n
      = Net.lin (Net.actPlain (Net.lin (Net.actPlain (Net.lin (A3 (W6 m ρ c)) (w3 (W6 m ρ c)) (b3 (W6 m ρ c))))
          (w4 (W6 m ρ c)) (b4 (W6 m ρ c)))) (w5 (W6 m ρ c)) (b5 (W6 m ρ c)) r n :=
  v79_at (W6 m ρ c) r n

/-- The last normalisation's scale and shift are carried from the third region's exit. -/
theorem arg19_W13 (c : Dev nD) :
    W13 m ρ c (Proc.devRef .tc main_arg19) = W6 m ρ c (Proc.devRef .tc main_arg19) := arg19_at (W6 m ρ c)

theorem arg20_W13 (c : Dev nD) :
    W13 m ρ c (Proc.devRef .tc main_arg20) = W6 m ρ c (Proc.devRef .tc main_arg20) := arg20_at (W6 m ρ c)

end Cert.KernelIdeal.KTail

end
-- ==== Proof.KTailFn.lean ====
/-
  The end of the network as one function of arrays.

  From the last layer's pre-activation `h : [16384, 10]` and the two parameter vectors `g`, `b` the program
  computes the column means (sum over the rows / 16384), the column variances as the library function does
  (the mean of squared deviations, divided by 16384 − 0 and kept where that count is positive), the normalised
  array  (h − mean) · rsqrt (variance + ε) · g + b , and its row-wise log-softmax (subtract the row maximum,
  then the logarithm of the row's sum of exponentials).  The four last stretches of host operations compute
  exactly this function of what they find; nothing about its values is needed here.
-/
import proofs.«122919_j34694745817434_2_alg».proof.Proof.Gen.KernelIdeal.Frame
import proofs.«122919_j34694745817434_2_alg».proof.Proof.LibTypedRef
import Idealize.ShloMosaic.Lib.StableHlo.Run
import Idealize.ShloMosaic.PureOps.Ideal

noncomputable section

namespace Cert.KernelIdeal.KTailFn

open Cert.KernelIdeal Cert.KernelIdeal.Gen
open Idealize.ShloMosaic Idealize.ShloMosaic.TcCoe Idealize.SL.Sem Idealize.ShloMosaic.StableHlo

variable {F : FTy → Type} [FloatOps F]

/-- A vector over the ten columns repeated down the 16384 rows. -/
def downRows (v : FVec F S10 .f32) : FVec F S16384x10 .f32 :=
  broadcastInDim S16384x10 ![0, 1] bcast_S1x10_S16384x10_0_1 (broadcastInDim S1x10 ![1] bcast_S10_S1x10_1 v)

/-- The column means: the sum over the rows from zero, divided by 16384. -/
def colMean (h : FVec F S16384x10 .f32) : FVec F S10 .f32 :=
  Host.divf (Host.reduceAdd h (constant S_ .f32 0x00000000#32) reducesTo_S16384x10_S10_d0 h_S_)
    (broadcastInDim S10 ![] bcast_S_S10 (constant S_ .f32 0x46800000#32))

/-- The count the variance divides by: 16384 minus the correction 0. -/
def dof : FVec F S_ .f32 := subf (constant S_ .f32 0x46800000#32) (sitofp .f32 (constantI S_ 32 0#32))

/-- The deviations from the column means (the means kept as a row, as the library function does). -/
def centered (h : FVec F S16384x10 .f32) : FVec F S16384x10 .f32 :=
  subf h (broadcastInDim S16384x10 ![0, 1] bcast_S1x10_S16384x10_0_1
    (Host.divf (broadcastInDim S1x10 ![1] bcast_S10_S1x10_1
        (Host.reduceAdd h (constant S_ .f32 0x00000000#32) reducesTo_S16384x10_S10_d0 h_S_))
      (broadcastInDim S1x10 ![] bcast_S_S1x10 (constant S_ .f32 0x46800000#32))))

/-- The column variances: the mean of the squared deviations where the count is positive. -/
def colVar (h : FVec F S16384x10 .f32) : FVec F S10 .f32 :=
  select (broadcastInDim S10 ![] bcast_S_S10 (cmpf .ogt (dof (F := F)) (constant S_ .f32 0x00000000#32)))
    (Host.divf (Host.reduceAdd (mulf (centered h) (centered h)) (constant S_ .f32 0x00000000#32) reducesTo_S16384x10_S10_d0 h_S_)
      (broadcastInDim S10 ![] bcast_S_S10 (dof (F := F))))
    (broadcastInDim S10 ![] bcast_S_S10 (constant S_ .f32 0x7FC00000#32))

/-- The normalised, scaled and shifted array. -/
def normed (h : FVec F S16384x10 .f32) (g b : FVec F S10 .f32) : FVec F S16384x10 .f32 :=
  addf (mulf (mulf (subf h (downRows (colMean h)))
      (downRows (Host.rsqrt (addf (colVar h) (broadcastInDim S10 ![] bcast_S_S10 (constant S_ .f32 0x3727C5AC#32))))))
    (downRows g)) (downRows b)

/-- A vector over the rows repeated across the ten columns. -/
def acrossCols (v : FVec F S16384 .f32) : FVec F S16384x10 .f32 :=
  broadcastInDim S16384x10 ![0, 1] bcast_S16384x1_S16384x10_0_1 (broadcastInDim S16384x1 ![0] bcast_S16384_S16384x1_0 v)

/-- The array minus its row maxima. -/
def shifted (y : FVec F S16384x10 .f32) : FVec F S16384x10 .f32 :=
  subf y (acrossCols (maximumf (broadcastInDim S16384 ![] bcast_S_S16384 (constant S_ .f32 0xFF800000#32))
    (Host.reduce FloatOps.maximumf y (constant S_ .f32 0xFF800000#32) reducesTo_S16384x10_S16384_d1 h_S_)))

/-- The row-wise log-softmax. -/
def logSoftmax (y : FVec F S16384x10 .f32) : FVec F S16384x10 .f32 :=
  subf (shifted y) (broadcastInDim S16384x10 ![0, 1] bcast_S16384x1_S16384x10_0_1
    (Host.log (broadcastInDim S16384x1 ![0] bcast_S16384_S16384x1_0
      (Host.reduceAdd (Host.exp (shifted y)) (constant S_ .f32 0x00000000#32) reducesTo_S16384x10_S16384_d1 h_S_))))

/-- The end of the network. -/
def tailFn (h : FVec F S16384x10 .f32) (g b : FVec F S10 .f32) : FVec F S16384x10 .f32 := logSoftmax (normed h g b)

/-- The last four stretches of host operations leave, in the result buffer, the end of the network applied to
    the pre-activation the first of them computes and to the two parameter vectors it finds. -/
theorem tail_eq (W : Valuation τ sig (Elt Ideal)) :
    @Eq (FVec Ideal S16384x10 .f32)
      (StableHlo.after (hostOps3_9 (F := Ideal)) (StableHlo.after (hostOps3_8 (F := Ideal))
        (StableHlo.after (hostOps3_7 (F := Ideal)) (StableHlo.after (hostOps3_6 (F := Ideal)) W))) (Proc.devRef .tc main_v99))
      (tailFn (F := Ideal) (StableHlo.after (hostOps3_6 (F := Ideal)) W (Proc.devRef .tc main_v79))
        (W (Proc.devRef .tc main_arg19)) (W (Proc.devRef .tc main_arg20))) := by
  unfold tailFn logSoftmax shifted acrossCols normed colVar centered dof colMean downRows
  after_results_simp
  simp only [Cert.TypedRef.ofBuf_toBuf, id]
  rfl

end Cert.KernelIdeal.KTailFn

end
-- ==== Proof.KHost0.lean ====
/-
  What the first stretch of host operations leaves, read at an index.

  Before the first accelerator region the program binarizes and transposes the three large weight
  matrices (entry (k, n) becomes the sign of entry (n, k)) and lays nine vectors (three biases, six
  normalisation parameters) as rows of shape [1, N].  The input x is not touched.
-/
import proofs.«122919_j34694745817434_2_alg».proof.Proof.Gen.KernelIdeal.Frame
import Idealize.ShloMosaic.Lib.StableHlo.Run
import Idealize.ShloMosaic.Lib.ValueLayout
import Idealize.ShloMosaic.Lib.ValueIdx
import Idealize.ShloMosaic.Lib.IdealHost

noncomputable section

namespace Cert.KernelIdeal.KHost

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The binarized, transposed weights: entry (k, n) of `main_v2` is the sign of entry (n, k) of `main_arg1`
    (the change of float format is the identity on extended reals). -/
theorem main_v2_at (c : Dev nD) (k : Fin 3072) (n : Fin 4096) :
    (V1 m ρ c main_v2 : S3072x4096.Idx → EReal) (ix2 k n) = Ideal.sign (m ((c : Thread nD τ).loc main_arg1) (ix2 n k)) := by
  have e : (V1 m ρ c main_v2 : S3072x4096.Idx → EReal)
      = truncf .bf16 (transpose S3072x4096 [1, 0] (Host.sign (F := Ideal) (W0 m ρ c (Proc.devRef .tc main_arg1)))
          transposes_S4096x3072_S3072x4096_1_0) bitsLt_bf16_f32 := by
    show StableHlo.after (hostOps0 (F := Ideal)) (W0 m ρ c) (Proc.devRef .tc main_v2) = _
    after_results
  rw [e, truncf_apply, transpose_ix2_apply]
  rfl

/-- The binarized, transposed weights: entry (k, n) of `main_v5` is the sign of entry (n, k) of `main_arg3`
    (the change of float format is the identity on extended reals). -/
theorem main_v5_at (c : Dev nD) (k : Fin 4096) (n : Fin 4096) :
    (V1 m ρ c main_v5 : S4096x4096.Idx → EReal) (ix2 k n) = Ideal.sign (m ((c : Thread nD τ).loc main_arg3) (ix2 n k)) := by
  have e : (V1 m ρ c main_v5 : S4096x4096.Idx → EReal)
      = truncf .bf16 (transpose S4096x4096 [1, 0] (Host.sign (F := Ideal) (W0 m ρ c (Proc.devRef .tc main_arg3)))
          transposes_S4096x4096_S4096x4096_1_0) bitsLt_bf16_f32 := by
    show StableHlo.after (hostOps0 (F := Ideal)) (W0 m ρ c) (Proc.devRef .tc main_v5) = _
    after_results
  rw [e, truncf_apply, transpose_ix2_apply]
  rfl

/-- The binarized, transposed weights: entry (k, n) of `main_v8` is the sign of entry (n, k) of `main_arg5`
    (the change of float format is the identity on extended reals). -/
theorem main_v8_at (c : Dev nD) (k : Fin 4096) (n : Fin 256) :
    (V1 m ρ c main_v8 : S4096x256.Idx → EReal) (ix2 k n) = Ideal.sign (m ((c : Thread nD τ).loc main_arg5) (ix2 n k)) := by
  have e : (V1 m ρ c main_v8 : S4096x256.Idx → EReal)
      = truncf .bf16 (transpose S4096x256 [1, 0] (Host.sign (F := Ideal) (W0 m ρ c (Proc.devRef .tc main_arg5)))
          transposes_S256x4096_S4096x256_1_0) bitsLt_bf16_f32 := by
    show StableHlo.after (hostOps0 (F := Ideal)) (W0 m ρ c) (Proc.devRef .tc main_v8) = _
    after_results
  rw [e, truncf_apply, transpose_ix2_apply]
  rfl

/-- The vector `main_arg2` laid as a row: entry (0, n) of `main_v9` is its entry n. -/
theorem main_v9_at (c : Dev nD) (n : Fin 4096) :
    (V1 m ρ c main_v9 : S1x4096.Idx → EReal) (ix2 (0 : Fin 1) n) = m ((c : Thread nD τ).loc main_arg2) (ix1 n) := by
  have e : (V1 m ρ c main_v9 : S1x4096.Idx → EReal)
      = shapeCast S1x4096 (W0 m ρ c (Proc.devRef .tc main_arg2)) shapeCasts_S4096_S1x4096 := by
    show StableHlo.after (hostOps0 (F := Ideal)) (W0 m ρ c) (Proc.devRef .tc main_v9) = _
    after_results
    rfl
  rw [e, shapeCast_a_1a_apply]

/-- The vector `main_arg4` laid as a row: entry (0, n) of `main_v10` is its entry n. -/
theorem main_v10_at (c : Dev nD) (n : Fin 4096) :
    (V1 m ρ c main_v10 : S1x4096.Idx → EReal) (ix2 (0 : Fin 1) n) = m ((c : Thread nD τ).loc main_arg4) (ix1 n) := by
  have e : (V1 m ρ c main_v10 : S1x4096.Idx → EReal)
      = shapeCast S1x4096 (W0 m ρ c (Proc.devRef .tc main_arg4)) shapeCasts_S4096_S1x4096 := by
    show StableHlo.after (hostOps0 (F := Ideal)) (W0 m ρ c) (Proc.devRef .tc main_v10) = _
    after_results
    rfl
  rw [e, shapeCast_a_1a_apply]

/-- The vector `main_arg6` laid as a row: entry (0, n) of `main_v11` is its entry n. -/
theorem main_v11_at (c : Dev nD) (n : Fin 256) :
    (V1 m ρ c main_v11 : S1x256.Idx → EReal) (ix2 (0 : Fin 1) n) = m ((c : Thread nD τ).loc main_arg6) (ix1 n) := by
  have e : (V1 m ρ c main_v11 : S1x256.Idx → EReal)
      = shapeCast S1x256 (W0 m ρ c (Proc.devRef .tc main_arg6)) shapeCasts_S256_S1x256 := by
    show StableHlo.after (hostOps0 (F := Ideal)) (W0 m ρ c) (Proc.devRef .tc main_v11) = _
    after_results
    rfl
  rw [e, shapeCast_a_1a_apply]

/-- The vector `main_arg13` laid as a row: entry (0, n) of `main_v12` is its entry n. -/
theorem main_v12_at (c : Dev nD) (n : Fin 4096) :
    (V1 m ρ c main_v12 : S1x4096.Idx → EReal) (ix2 (0 : Fin 1) n) = m ((c : Thread nD τ).loc main_arg13) (ix1 n) := by
  have e : (V1 m ρ c main_v12 : S1x4096.Idx → EReal)
      = shapeCast S1x4096 (W0 m ρ c (Proc.devRef .tc main_arg13)) shapeCasts_S4096_S1x4096 := by
    show StableHlo.after (hostOps0 (F := Ideal)) (W0 m ρ c) (Proc.devRef .tc main_v12) = _
    after_results
    rfl
  rw [e, shapeCast_a_1a_apply]

/-- The vector `main_arg14` laid as a row: entry (0, n) of `main_v13` is its entry n. -/
theorem main_v13_at (c : Dev nD) (n : Fin 4096) :
    (V1 m ρ c main_v13 : S1x4096.Idx → EReal) (ix2 (0 : Fin 1) n) = m ((c : Thread nD τ).loc main_arg14) (ix1 n) := by
  have e : (V1 m ρ c main_v13 : S1x4096.Idx → EReal)
      = shapeCast S1x4096 (W0 m ρ c (Proc.devRef .tc main_arg14)) shapeCasts_S4096_S1x4096 := by
    show StableHlo.after (hostOps0 (F := Ideal)) (W0 m ρ c) (Proc.devRef .tc main_v13) = _
    after_results
    rfl
  rw [e, shapeCast_a_1a_apply]

/-- The vector `main_arg15` laid as a row: entry (0, n) of `main_v14` is its entry n. -/
theorem main_v14_at (c : Dev nD) (n : Fin 4096) :
    (V1 m ρ c main_v14 : S1x4096.Idx → EReal) (ix2 (0 : Fin 1) n) = m ((c : Thread nD τ).loc main_arg15) (ix1 n) := by
  have e : (V1 m ρ c main_v14 : S1x4096.Idx → EReal)
      = shapeCast S1x4096 (W0 m ρ c (Proc.devRef .tc main_arg15)) shapeCasts_S4096_S1x4096 := by
    show StableHlo.after (hostOps0 (F := Ideal)) (W0 m ρ c) (Proc.devRef .tc main_v14) = _
    after_results
    rfl
  rw [e, shapeCast_a_1a_apply]

/-- The vector `main_arg16` laid as a row: entry (0, n) of `main_v15` is its entry n. -/
theorem main_v15_at (c : Dev nD) (n : Fin 4096) :
    (V1 m ρ c main_v15 : S1x4096.Idx → EReal) (ix2 (0 : Fin 1) n) = m ((c : Thread nD τ).loc main_arg16) (ix1 n) := by
  have e : (V1 m ρ c main_v15 : S1x4096.Idx → EReal)
      = shapeCast S1x4096 (W0 m ρ c (Proc.devRef .tc main_arg16)) shapeCasts_S4096_S1x4096 := by
    show StableHlo.after (hostOps0 (F := Ideal)) (W0 m ρ c) (Proc.devRef .tc main_v15) = _
    after_results
    rfl
  rw [e, shapeCast_a_1a_apply]

/-- The vector `main_arg17` laid as a row: entry (0, n) of `main_v16` is its entry n. -/
theorem main_v16_at (c : Dev nD) (n : Fin 256) :
    (V1 m ρ c main_v16 : S1x256.Idx → EReal) (ix2 (0 : Fin 1) n) = m ((c : Thread nD τ).loc main_arg17) (ix1 n) := by
  have e : (V1 m ρ c main_v16 : S1x256.Idx → EReal)
      = shapeCast S1x256 (W0 m ρ c (Proc.devRef .tc main_arg17)) shapeCasts_S256_S1x256 := by
    show StableHlo.after (hostOps0 (F := Ideal)) (W0 m ρ c) (Proc.devRef .tc main_v16) = _
    after_results
    rfl
  rw [e, shapeCast_a_1a_apply]

/-- The vector `main_arg18` laid as a row: entry (0, n) of `main_v17` is its entry n. -/
theorem main_v17_at (c : Dev nD) (n : Fin 256) :
    (V1 m ρ c main_v17 : S1x256.Idx → EReal) (ix2 (0 : Fin 1) n) = m ((c : Thread nD τ).loc main_arg18) (ix1 n) := by
  have e : (V1 m ρ c main_v17 : S1x256.Idx → EReal)
      = shapeCast S1x256 (W0 m ρ c (Proc.devRef .tc main_arg18)) shapeCasts_S256_S1x256 := by
    show StableHlo.after (hostOps0 (F := Ideal)) (W0 m ρ c) (Proc.devRef .tc main_v17) = _
    after_results
    rfl
  rw [e, shapeCast_a_1a_apply]

/-- The first stretch does not write the input. -/
theorem main_arg0_at (c : Dev nD) : V1 m ρ c main_arg0 = m ((c : Thread nD τ).loc main_arg0) := by
  show StableHlo.after (hostOps0 (F := Ideal)) (W0 m ρ c) (Proc.devRef .tc main_arg0) = _
  after_results

end Cert.KernelIdeal.KHost

end
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.Region0Pay.lean ====
/-
  Layer 0, one tile of 256 rows by one half of 2048 columns, at the exact values.

  The body of the first kernel takes a tile `x` of the input, a column half `w` of the (already transposed and
  rounded) weights and the matching half `b` of the bias row, and forms the tile of pre-activations

      t (p, q) = ∑ₖ sign (x (p, k)) · w (k, q) + b (0, q)      (k over the 3072 input features):

  the sign is spelt "where |x| > 0, ±1 by the order, else x", which is the sign of an extended real at every
  value; the change of format before the product is the identity on exact values; the product accumulates into a
  zero tile; the bias row is repeated down the rows. It then adds, to a running row `a`, the column sums of the
  tile, and to another running row the column sums of the tile's squares:

      a (0, q) + ∑ₚ t (p, q)        and        a (0, q) + ∑ₚ t (p, q) · t (p, q)      (p over the tile's 256 rows).

  The rows that start a column half's accumulation are zero rows.
-/
import proofs.«122919_j34694745817434_2_alg».proof.Proof.Gen.KernelIdeal.Skeleton
import proofs.«122919_j34694745817434_2_alg».proof.Proof.LibDotSums
import proofs.«122919_j34694745817434_2_alg».proof.Proof.LibColumnSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Region0

open Idealize.ShloMosaic Idealize.ShloMosaic.ValueIdx Cert.KernelIdeal Cert.KernelIdeal.Gen

/-- The tile of pre-activations, entry by entry. -/
def tile (x : FVec Ideal S256x3072 .f32) (w : FVec Ideal S3072x2048 .bf16) (b : FVec Ideal S1x2048 .f32)
    (p : Fin 256) (q : Fin 2048) : EReal :=
  (∑ k : Fin 3072, Ideal.sign (x (ix2 p k)) * w (ix2 k q)) + b (ix2 (0 : Fin 1) q)

/-- The stored tile is the tile of pre-activations. -/
theorem pay3_apply (x : FVec Ideal S256x3072 .f32) (w : FVec Ideal S3072x2048 .bf16) (b : FVec Ideal S1x2048 .f32)
    (p : Fin 256) (q : Fin 2048) : k0_pay3 (F := Ideal) x w b (ix2 p q) = tile x w b p q := by
  unfold k0_pay3 tile
  refine (addf_apply _ _ (ix2 p q)).trans ?_
  refine congrArg₂ (· + ·) ?_ ?_
  · refine (Cert.DotSums.matmul_zero_ix2 dot_S256x3072_S3072x2048_S256x2048_1_0_0_1_n_n none rfl rfl rfl rfl rfl rfl
      rfl rfl _ _ p q).trans ?_
    refine Finset.sum_congr rfl fun k _ => ?_
    refine congrArg₂ (· * ·) ?_ ?_
    · exact Ideal.jnp_sign_eq_sign_f32 (x (ix2 p k))
    · rw [shapeCast_self]
  · refine (broadcastTo_1b_ab_apply _ _ p q).trans ?_
    rw [shapeCast_self]

/-- To a running row `a`, the body adds the column sums of the tile. -/
theorem pay4_apply (x : FVec Ideal S256x3072 .f32) (w : FVec Ideal S3072x2048 .bf16) (b : FVec Ideal S1x2048 .f32)
    (a : FVec Ideal S1x2048 .f32) (q : Fin 2048) :
    k0_pay4 (F := Ideal) x w b a (ix2 (0 : Fin 1) q) = a (ix2 (0 : Fin 1) q) + ∑ p : Fin 256, tile x w b p q := by
  unfold k0_pay4
  refine (addf_apply _ _ _).trans ?_
  refine congrArg₂ (· + ·) ?_ ?_
  · rw [shapeCast_self]
  · refine (shapeCast_a_1a_apply _ _ (0 : Fin 1) q).trans ?_
    refine (Cert.LibColumnSums.multiReduction_add_rows_apply _ _ _ _ _ q).trans ?_
    exact Finset.sum_congr rfl fun p _ => pay3_apply x w b p q

/-- To another running row, the column sums of the tile's squares. -/
theorem pay5_apply (x : FVec Ideal S256x3072 .f32) (w : FVec Ideal S3072x2048 .bf16) (b : FVec Ideal S1x2048 .f32)
    (a : FVec Ideal S1x2048 .f32) (q : Fin 2048) :
    k0_pay5 (F := Ideal) x w b a (ix2 (0 : Fin 1) q)
      = a (ix2 (0 : Fin 1) q) + ∑ p : Fin 256, tile x w b p q * tile x w b p q := by
  unfold k0_pay5
  refine (addf_apply _ _ _).trans ?_
  refine congrArg₂ (· + ·) ?_ ?_
  · rw [shapeCast_self]
  · refine (shapeCast_a_1a_apply _ _ (0 : Fin 1) q).trans ?_
    refine (Cert.LibColumnSums.multiReduction_add_rows_apply _ _ _ _ _ q).trans ?_
    refine Finset.sum_congr rfl fun p _ => ?_
    refine (mulf_apply _ _ _).trans ?_
    rw [pay3_apply]

/-- The two rows that start an accumulation are zero rows. -/
theorem pay1_apply (j : S1x2048.Idx) : k0_pay1 (F := Ideal) j = 0 := Ideal.ofBits_zero_f32
theorem pay2_apply (j : S1x2048.Idx) : k0_pay2 (F := Ideal) j = 0 := Ideal.ofBits_zero_f32

end Cert.KernelIdeal.Region0

end
-- ==== Proof.Region0Pieces.lean ====
/-
  Layer 0, what one run of the body leaves in its three output buffers.

  The body is run in two cases. At the first row tile of a column half it first stores a zero row into each of the
  two running rows; at every other row tile it finds them as the tile before left them. In both cases it then
  stores the tile of pre-activations into the first output buffer, and into the two running rows what they held
  plus the tile's column sums, respectively the column sums of its squares. Every store covers its whole buffer
  and every load reads a whole buffer, so each buffer ends holding the last value stored into it, as a function
  of the three input blocks (and, away from the first row tile, of the two running rows).
-/
import proofs.«122919_j34694745817434_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Region0

open Cert.KernelIdeal Cert.KernelIdeal.Gen

variable {F : FTy → Type} [FloatOps F]

/-- The zero offsets of a whole-buffer load or store. -/
theorem hz : (![0, 0] : Fin 2 → Nat) = fun _ => 0 := funext fun a => by fin_cases a <;> rfl

/-- Away from the first row tile: the first output buffer ends at the tile of pre-activations. -/
theorem out_B_3 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i)
    (x0 : Vec F S256x3072 .f32) (x1 : Vec F S3072x2048 .bf16) (x2 : Vec F S1x2048 .f32) (xo4 : Vec F S1x2048 .f32) (xo5 : Vec F S1x2048 .f32) :
    out0_B_3 c i arg2 harg2 arg3 harg3 arg4 harg4 arg5 harg5 arg6 harg6 arg7 harg7 hc0 x0 x1 x2 xo4 xo5 = k0_pay3 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero (S := S256x2048) hz]
  simp only [View.readAt_eq_ld, harg2.read_unread, harg3.read_unread, harg4.read_unread, View.ld_unit_zero (S := S256x3072) hz, View.ld_unit_zero (S := S3072x2048) hz, View.ld_unit_zero (S := S1x2048) hz]

/-- Away from the first row tile: the first running row ends at what it held plus the tile's column sums. -/
theorem out_B_4 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i)
    (x0 : Vec F S256x3072 .f32) (x1 : Vec F S3072x2048 .bf16) (x2 : Vec F S1x2048 .f32) (xo4 : Vec F S1x2048 .f32) (xo5 : Vec F S1x2048 .f32) :
    out0_B_4 c i arg2 harg2 arg3 harg3 arg4 harg4 arg5 harg5 arg6 harg6 arg7 harg7 hc0 x0 x1 x2 xo4 xo5 = k0_pay4 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  rw [View.canon_unit_zero (S := S1x2048) hz]
  simp only [View.readAt_eq_ld, harg2.read_unread, harg3.read_unread, harg4.read_unread, View.ld_unit_zero (S := S256x3072) hz, View.ld_unit_zero (S := S3072x2048) hz, View.ld_unit_zero (S := S1x2048) hz, harg6.read_unread]

/-- Away from the first row tile: the second running row ends at what it held plus the column sums of the squares. -/
theorem out_B_5 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i)
    (x0 : Vec F S256x3072 .f32) (x1 : Vec F S3072x2048 .bf16) (x2 : Vec F S1x2048 .f32) (xo4 : Vec F S1x2048 .f32) (xo5 : Vec F S1x2048 .f32) :
    out0_B_5 c i arg2 harg2 arg3 harg3 arg4 harg4 arg5 harg5 arg6 harg6 arg7 harg7 hc0 x0 x1 x2 xo4 xo5 = k0_pay5 x0 x1 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero (S := S1x2048) hz]
  simp only [View.readAt_eq_ld, harg2.read_unread, harg3.read_unread, harg4.read_unread, View.ld_unit_zero (S := S256x3072) hz, View.ld_unit_zero (S := S3072x2048) hz, View.ld_unit_zero (S := S1x2048) hz, harg7.read_unread]

/-- At the first row tile: the first output buffer ends at the tile of pre-activations. -/
theorem out_A_3 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i)
    (x0 : Vec F S256x3072 .f32) (x1 : Vec F S3072x2048 .bf16) (x2 : Vec F S1x2048 .f32) :
    out0_A_3 c i arg2 harg2 arg3 harg3 arg4 harg4 arg5 harg5 arg6 harg6 arg7 harg7 hc0 x0 x1 x2 = k0_pay3 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero (S := S256x2048) hz]
  simp only [View.readAt_eq_ld, harg2.read_unread, harg3.read_unread, harg4.read_unread, View.ld_unit_zero (S := S256x3072) hz, View.ld_unit_zero (S := S3072x2048) hz, View.ld_unit_zero (S := S1x2048) hz]

/-- At the first row tile: the first running row ends at the zero row plus the tile's column sums. -/
theorem out_A_4 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i)
    (x0 : Vec F S256x3072 .f32) (x1 : Vec F S3072x2048 .bf16) (x2 : Vec F S1x2048 .f32) :
    out0_A_4 c i arg2 harg2 arg3 harg3 arg4 harg4 arg5 harg5 arg6 harg6 arg7 harg7 hc0 x0 x1 x2 = k0_pay4 x0 x1 x2 (k0_pay1 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, View.ld_unit_zero (S := S256x3072) hz, View.ld_unit_zero (S := S3072x2048) hz, View.ld_unit_zero (S := S1x2048) hz]

/-- At the first row tile: the second running row ends at the zero row plus the column sums of the squares. -/
theorem out_A_5 (c : Dev nD) (i : grid0.Coords) (arg2 : Memref sig .tc .vmem S256x3072 .f32) (harg2 : arg2.IsWhole) (arg3 : Memref sig .tc .vmem S3072x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i)
    (x0 : Vec F S256x3072 .f32) (x1 : Vec F S3072x2048 .bf16) (x2 : Vec F S1x2048 .f32) :
    out0_A_5 c i arg2 harg2 arg3 harg3 arg4 harg4 arg5 harg5 arg6 harg6 arg7 harg7 hc0 x0 x1 x2 = k0_pay5 x0 x1 x2 (k0_pay2 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, View.ld_unit_zero (S := S256x3072) hz, View.ld_unit_zero (S := S3072x2048) hz, View.ld_unit_zero (S := S1x2048) hz]

end Cert.KernelIdeal.Region0

end
-- ==== Proof.Region0Points.lean ====
/-
  Layer 0, the three output buffers after each grid point.

  After the body at point `t` the first output buffer holds the tile of pre-activations of the point's blocks. The
  two running rows hold, at the first row tile of a column half, the zero row plus the tile's column sums (of the
  entries, of their squares); at any other point, what they held after the point before plus those sums.
-/
import proofs.«122919_j34694745817434_2_alg».proof.Proof.Region0Pieces

noncomputable section

open Idealize.ShloMosaic Idealize.ShloMosaic.TcCoe Idealize.SL.Sem

namespace Cert.KernelIdeal.Region0

open Cert.KernelIdeal Cert.KernelIdeal.Gen

variable {F : FTy → Type} [FloatOps F]
variable (V : (c : Dev nD) → (b : Ref sig .tc) → Buf (Elt F) ((c : Thread nD τ).loc b))

/-- At the first row tile of a column half. -/
theorem outsAt_A (c : Dev nD) (t : Fin cfg0.N) (h0 : t.val % 64 = 0) :
    outsAt0 V c t.val t.isLt
      = (k0_pay3 (iblk0 V c 0 t) (iblk0 V c 1 t) (iblk0 V c 2 t),
         k0_pay4 (iblk0 V c 0 t) (iblk0 V c 1 t) (iblk0 V c 2 t) (k0_pay1 (F := F)),
         k0_pay5 (iblk0 V c 0 t) (iblk0 V c 1 t) (iblk0 V c 2 t) (k0_pay2 (F := F))) :=
  (outsAt0_A V c t h0).trans (congrArg₂ Prod.mk
    (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))))

/-- At any other point: over what the point before left in the two running rows. -/
theorem outsAt_B (c : Dev nD) (t : Fin cfg0.N) (h0 : ¬t.val % 64 = 0) :
    outsAt0 V c t.val t.isLt
      = (k0_pay3 (iblk0 V c 0 t) (iblk0 V c 1 t) (iblk0 V c 2 t),
         k0_pay4 (iblk0 V c 0 t) (iblk0 V c 1 t) (iblk0 V c 2 t) (outsAt0 V c (t.val - 1) (Nat.lt_of_le_of_lt (Nat.sub_le _ _) t.isLt)).2.1,
         k0_pay5 (iblk0 V c 0 t) (iblk0 V c 1 t) (iblk0 V c 2 t) (outsAt0 V c (t.val - 1) (Nat.lt_of_le_of_lt (Nat.sub_le _ _) t.isLt)).2.2) :=
  (outsAt0_B V c t h0).trans (congrArg₂ Prod.mk
    (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
      (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)))

end Cert.KernelIdeal.Region0

end
-- ==== Proof.Region0Blocks.lean ====
/-
  Layer 0, where each window's block sits in its array.

  The grid has 128 points; point `t` works on column half `t / 64` and row tile `t % 64`. At point `t` the input
  tile is rows `256 (t % 64) …` of the input, the weight block is columns `2048 (t / 64) …` of the weights, and the
  bias block is the same columns of the bias row: an entry of a block is the entry of the array at the block's index
  times the block's size plus the coordinate inside the block, on each axis.
-/
import proofs.«122919_j34694745817434_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Region0

open Cert.KernelIdeal Cert.KernelIdeal.Gen

variable {F : FTy → Type} [FloatOps F]
variable (V : (c : Dev nD) → (b : Ref sig .tc) → Buf (Elt F) ((c : Thread nD τ).loc b))

/-- The block index of each of the six windows at point `t`, on each axis, decided over the grid. -/
theorem idx_facts : ∀ t : Fin cfg0.N,
    win0_0.index t (0 : Fin 2) = t.val % 64 ∧ win0_0.index t (1 : Fin 2) = 0
    ∧ win0_1.index t (0 : Fin 2) = 0 ∧ win0_1.index t (1 : Fin 2) = t.val / 64
    ∧ win0_2.index t (0 : Fin 2) = 0 ∧ win0_2.index t (1 : Fin 2) = t.val / 64
    ∧ win0_3.index t (0 : Fin 2) = t.val % 64 ∧ win0_3.index t (1 : Fin 2) = t.val / 64
    ∧ win0_4.index t (0 : Fin 2) = 0 ∧ win0_4.index t (1 : Fin 2) = t.val / 64
    ∧ win0_5.index t (0 : Fin 2) = 0 ∧ win0_5.index t (1 : Fin 2) = t.val / 64 :=
  (by decide +kernel : ∀ t : Fin grid0.N, _)

/-- The input tile at point `t`: row `p` of the tile is row `256 (t % 64) + p` of the input. -/
theorem iblk_x_apply (c : Dev nD) (t : Fin cfg0.N) (p : Fin 256) (k : Fin 3072) (r : Fin 16384)
    (hr : r.val = 256 * (t.val % 64) + p.val) :
    (iblk0 V c 0 t : Vec F S256x3072 .f32) (ix2 p k) = (V c main_arg0 : S16384x3072.Idx → Elt F .f32) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 256 + 1 * p.val = r.val; rw [e0, hr]; omega
  | ⟨1, _⟩ => show win0_0.index t (1 : Fin 2) * 3072 + 1 * k.val = k.val; rw [e1]; omega

/-- The weight block at point `t`: column `q` of the block is column `2048 (t / 64) + q` of the weights. -/
theorem iblk_w_apply (c : Dev nD) (t : Fin cfg0.N) (k : Fin 3072) (q : Fin 2048) (n : Fin 4096)
    (hn : n.val = 2048 * (t.val / 64) + q.val) :
    (iblk0 V c 1 t : Vec F S3072x2048 .bf16) (ix2 k q) = (V c main_v2 : S3072x4096.Idx → Elt F .bf16) (ix2 k n) := by
  obtain ⟨-, -, e0, e1, -⟩ := idx_facts t
  unfold iblk0
  rw [View.read_apply]
  show V c main_v2 _ = V c main_v2 _
  refine congrArg (V c main_v2) ?_
  funext a
  apply Fin.ext
  match a with
  | ⟨0, _⟩ => show win0_1.index t (0 : Fin 2) * 3072 + 1 * k.val = k.val; rw [e0]; omega
  | ⟨1, _⟩ => show win0_1.index t (1 : Fin 2) * 2048 + 1 * q.val = n.val; rw [e1, hn]; omega

/-- The bias block at point `t`: column `q` of the block is column `2048 (t / 64) + q` of the bias row. -/
theorem iblk_b_apply (c : Dev nD) (t : Fin cfg0.N) (u : Fin 1) (q : Fin 2048) (n : Fin 4096)
    (hn : n.val = 2048 * (t.val / 64) + q.val) :
    (iblk0 V c 2 t : Vec F S1x2048 .f32) (ix2 u q) = (V c main_v9 : S1x4096.Idx → Elt F .f32) (ix2 (0 : Fin 1) n) := by
  obtain ⟨-, -, -, -, e0, e1, -⟩ := idx_facts t
  unfold iblk0
  rw [View.read_apply]
  show V c main_v9 _ = V c main_v9 _
  refine congrArg (V c main_v9) ?_
  funext a
  apply Fin.ext
  match a with
  | ⟨0, _⟩ => show win0_2.index t (0 : Fin 2) * 1 + 1 * u.val = 0; rw [e0]; omega
  | ⟨1, _⟩ => show win0_2.index t (1 : Fin 2) * 2048 + 1 * q.val = n.val; rw [e1, hn]; omega

/-- ? -/
theorem emb_3 (t : Fin cfg0.N) (p : Fin 256) (q : Fin 2048) (r : Fin 16384) (n : Fin 4096)
    (hr : r.val = 256 * (t.val % 64) + p.val) (hn : n.val = 2048 * (t.val / 64) + q.val) :
    (((cfg0.win 3).blk t).view.emb (ix2 p q : S256x2048.Idx) : S16384x4096.Idx) = ix2 r n := by
  obtain ⟨-, -, -, -, -, -, e30, e31, e40, e41, e50, e51⟩ := idx_facts t
  funext a
  apply Fin.ext
  match a with
  | ⟨0, _⟩ => show win0_3.index t (0 : Fin 2) * 256 + 1 * p.val = r.val; rw [e30, hr]; omega
  | ⟨1, _⟩ => show win0_3.index t (1 : Fin 2) * 2048 + 1 * q.val = n.val; rw [e31, hn]; omega

/-- An index of the array lies in the block of window 3 at point `t` exactly when each coordinate lies in the
    block's range on its axis. -/
theorem mem_blk_3 (t : Fin cfg0.N) (i : S16384x4096.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v18_0).slice (win0_3.rect t)).set ↔ _
  rw [View.set_slice_whole, Rect.mem_set_unit]
  exact Iff.rfl

/-- ? -/
theorem emb_4 (t : Fin cfg0.N) (p : Fin 1) (q : Fin 2048) (r : Fin 1) (n : Fin 4096)
    (hr : r.val = 0) (hn : n.val = 2048 * (t.val / 64) + q.val) :
    (((cfg0.win 4).blk t).view.emb (ix2 p q : S1x2048.Idx) : S1x4096.Idx) = ix2 r n := by
  obtain ⟨-, -, -, -, -, -, e30, e31, e40, e41, e50, e51⟩ := idx_facts t
  funext a
  apply Fin.ext
  match a with
  | ⟨0, _⟩ => show win0_4.index t (0 : Fin 2) * 1 + 1 * p.val = r.val; rw [e40, hr]; omega
  | ⟨1, _⟩ => show win0_4.index t (1 : Fin 2) * 2048 + 1 * q.val = n.val; rw [e41, hn]; omega

/-- An index of the array lies in the block of window 4 at point `t` exactly when each coordinate lies in the
    block's range on its axis. -/
theorem mem_blk_4 (t : Fin cfg0.N) (i : S1x4096.Idx) :
    i ∈ ((cfg0.win 4).blk t).view.set ↔ ∀ a : Fin 2, win0_4.index t a * S1x2048.size a ≤ (i a).val
      ∧ (i a).val < win0_4.index t a * S1x2048.size a + S1x2048.size a := by
  show i ∈ ((View.whole main_v18_1).slice (win0_4.rect t)).set ↔ _
  rw [View.set_slice_whole, Rect.mem_set_unit]
  exact Iff.rfl

/-- ? -/
theorem emb_5 (t : Fin cfg0.N) (p : Fin 1) (q : Fin 2048) (r : Fin 1) (n : Fin 4096)
    (hr : r.val = 0) (hn : n.val = 2048 * (t.val / 64) + q.val) :
    (((cfg0.win 5).blk t).view.emb (ix2 p q : S1x2048.Idx) : S1x4096.Idx) = ix2 r n := by
  obtain ⟨-, -, -, -, -, -, e30, e31, e40, e41, e50, e51⟩ := idx_facts t
  funext a
  apply Fin.ext
  match a with
  | ⟨0, _⟩ => show win0_5.index t (0 : Fin 2) * 1 + 1 * p.val = r.val; rw [e50, hr]; omega
  | ⟨1, _⟩ => show win0_5.index t (1 : Fin 2) * 2048 + 1 * q.val = n.val; rw [e51, hn]; omega

/-- An index of the array lies in the block of window 5 at point `t` exactly when each coordinate lies in the
    block's range on its axis. -/
theorem mem_blk_5 (t : Fin cfg0.N) (i : S1x4096.Idx) :
    i ∈ ((cfg0.win 5).blk t).view.set ↔ ∀ a : Fin 2, win0_5.index t a * S1x2048.size a ≤ (i a).val
      ∧ (i a).val < win0_5.index t a * S1x2048.size a + S1x2048.size a := by
  show i ∈ ((View.whole main_v18_2).slice (win0_5.rect t)).set ↔ _
  rw [View.set_slice_whole, Rect.mem_set_unit]
  exact Iff.rfl

end Cert.KernelIdeal.Region0

end
-- ==== Proof.LibBlockedSum.lean ====
/-
  A sum over `Fin N` accumulated block by block. Cut `0, …, N − 1` into consecutive blocks of `B` indices. The partial sum
  over the indices below `B · k` is empty at `k = 0`; passing from `k` to `k + 1` adds the sum over the `B` indices
  `B · k, …, B · k + B − 1` of block `k`; and once `B · k` reaches `N` the partial sum is the whole sum. The three
  statements hold in any additive commutative monoid (no subtraction, no cancellation), so they apply to the extended
  reals as they are.
-/
import Mathlib.Algebra.BigOperators.Fin
import Mathlib.Tactic.Common

open scoped BigOperators

namespace Cert.LibBlockedSum

variable {M : Type*} [AddCommMonoid M] {N : ℕ}

/-- The `j`-th index of block `k` lies below `N` when blocks `0, …, k` do. -/
theorem block_lt {B k : ℕ} (h : B * (k + 1) ≤ N) (j : Fin B) : B * k + j.val < N := by
  have hj := j.isLt
  have e : B * (k + 1) = B * k + B := Nat.mul_add_one B k
  omega

/-- Before the first block nothing has been summed. -/
theorem sum_lt_zero (B : ℕ) (f : Fin N → M) :
    ∑ i ∈ Finset.univ.filter (fun i : Fin N => i.val < B * 0), f i = 0 := by
  rw [Finset.filter_false_of_mem fun i _ => by simp]
  exact Finset.sum_empty

/-- The partial sum below `B · (k + 1)` is the partial sum below `B · k` plus the sum over block `k`. -/
theorem sum_lt_succ (B k : ℕ) (h : B * (k + 1) ≤ N) (f : Fin N → M) :
    ∑ i ∈ Finset.univ.filter (fun i : Fin N => i.val < B * (k + 1)), f i
      = (∑ i ∈ Finset.univ.filter (fun i : Fin N => i.val < B * k), f i) + ∑ j : Fin B, f ⟨B * k + j.val, block_lt h j⟩ := by
  have e : B * (k + 1) = B * k + B := Nat.mul_add_one B k
  -- the indices below `B · (k + 1)` are those below `B · k` together with those of block `k`
  have hsplit : (Finset.univ.filter fun i : Fin N => i.val < B * (k + 1))
      = (Finset.univ.filter fun i : Fin N => i.val < B * k)
        ∪ (Finset.univ.filter fun i : Fin N => B * k ≤ i.val ∧ i.val < B * (k + 1)) := by
    ext i
    simp only [Finset.mem_filter, Finset.mem_univ, true_and, Finset.mem_union]
    omega
  have hdisj : Disjoint (Finset.univ.filter fun i : Fin N => i.val < B * k)
      (Finset.univ.filter fun i : Fin N => B * k ≤ i.val ∧ i.val < B * (k + 1)) := by
    rw [Finset.disjoint_filter]
    intro i _ h1 h2
    omega
  rw [hsplit, Finset.sum_union hdisj]
  congr 1
  -- block `k` is the image of `Fin B` under `j ↦ B · k + j`
  symm
  refine Finset.sum_bij (fun j _ => (⟨B * k + j.val, block_lt h j⟩ : Fin N)) ?_ ?_ ?_ ?_
  · intro j _
    have hj := j.isLt
    simp only [Finset.mem_filter, Finset.mem_univ, true_and]
    omega
  · intro a _ b _ hab
    have := congrArg Fin.val hab
    simp only at this
    exact Fin.ext (by omega)
  · intro i hi
    simp only [Finset.mem_filter, Finset.mem_univ, true_and] at hi
    exact ⟨⟨i.val - B * k, by omega⟩, Finset.mem_univ _, Fin.ext (by simp only; omega)⟩
  · intro j _
    rfl

/-- Once the blocks cover `0, …, N − 1` the partial sum is the whole sum. -/
theorem sum_lt_all (B k : ℕ) (h : N ≤ B * k) (f : Fin N → M) :
    ∑ i ∈ Finset.univ.filter (fun i : Fin N => i.val < B * k), f i = ∑ i, f i := by
  rw [Finset.filter_true_of_mem fun i _ => lt_of_lt_of_le i.isLt h]

end Cert.LibBlockedSum
-- ==== Proof.Region0Acc.lean ====
/-
  Layer 0, the running rows are partial column sums of the layer's pre-activations.

  Write `H r n` for the pre-activation of row `r` and output column `n` of the whole layer,

      H r n = ∑ₖ sign (x (r, k)) · w (k, n) + b (0, n).

  The tile computed at point `t` is `H` on rows `256 (t % 64) + p` and columns `2048 (t / 64) + q`. So after point
  `t` the first running row holds, at column `q`, the sum of `H r n` over the rows `r` below `256 (t % 64 + 1)`,
  and the second the sum of `H r n · H r n` over the same rows: at the first row tile the row is the zero row plus
  block 0 of the rows, and each later point adds the next block of 256 rows (addition of extended reals is
  associative and commutative, so the partial sums may be taken block by block).
-/
import proofs.«122919_j34694745817434_2_alg».proof.Proof.Region0Pay
import proofs.«122919_j34694745817434_2_alg».proof.Proof.Region0Points
import proofs.«122919_j34694745817434_2_alg».proof.Proof.Region0Blocks
import proofs.«122919_j34694745817434_2_alg».proof.Proof.LibBlockedSum

open scoped BigOperators

noncomputable section

open Idealize.ShloMosaic Idealize.ShloMosaic.TcCoe Idealize.SL.Sem Idealize.ShloMosaic.ValueIdx

namespace Cert.KernelIdeal.Region0

open Cert.KernelIdeal Cert.KernelIdeal.Gen

variable (V : (c : Dev nD) → (b : Ref sig .tc) → Buf (Elt Ideal) ((c : Thread nD τ).loc b))

/-- The layer's pre-activation at row `r`, output column `n`, from the arrays the region finds. -/
def H (c : Dev nD) (r : Fin 16384) (n : Fin 4096) : EReal :=
  (∑ k : Fin 3072, Ideal.sign ((V c main_arg0 : S16384x3072.Idx → EReal) (ix2 r k))
      * (V c main_v2 : S3072x4096.Idx → EReal) (ix2 k n))
    + (V c main_v9 : S1x4096.Idx → EReal) (ix2 (0 : Fin 1) n)

/-- The tile at point `t` is `H` on the point's rows and columns. -/
theorem tile_blocks (c : Dev nD) (t : Fin cfg0.N) (p : Fin 256) (q : Fin 2048) (r : Fin 16384) (n : Fin 4096)
    (hr : r.val = 256 * (t.val % 64) + p.val) (hn : n.val = 2048 * (t.val / 64) + q.val) :
    tile (iblk0 V c 0 t) (iblk0 V c 1 t) (iblk0 V c 2 t) p q = H V c r n := by
  unfold tile H
  refine congrArg₂ (· + ·) (Finset.sum_congr rfl fun k _ => ?_) ?_
  · exact congrArg₂ (· * ·) (congrArg Ideal.sign (iblk_x_apply V c t p k r hr)) (iblk_w_apply V c t k q n hn)
  · exact iblk_b_apply V c t (0 : Fin 1) q n hn

/-- The sum of `f` over the rows below `256 m`. -/
def below (m : ℕ) (f : Fin 16384 → EReal) : EReal :=
  ∑ i ∈ Finset.univ.filter (fun i : Fin 16384 => i.val < 256 * m), f i

theorem below_zero (f : Fin 16384 → EReal) : below 0 f = 0 := Cert.LibBlockedSum.sum_lt_zero 256 f

theorem below_succ (m : ℕ) (h : 256 * (m + 1) ≤ 16384) (f : Fin 16384 → EReal) :
    below (m + 1) f = below m f + ∑ j : Fin 256, f ⟨256 * m + j.val, Cert.LibBlockedSum.block_lt h j⟩ :=
  Cert.LibBlockedSum.sum_lt_succ 256 m h f

theorem below_all (f : Fin 16384 → EReal) : below 64 f = ∑ i, f i :=
  Cert.LibBlockedSum.sum_lt_all 256 64 (by norm_num) f

/-- A point's row tile lies inside the 16384 rows. -/
theorem tile_le (t : Fin cfg0.N) : 256 * (t.val % 64 + 1) ≤ 16384 := by
  have := Nat.mod_lt t.val (show 0 < 64 by norm_num); omega

/-- The column sums of the tile at point `t` are the sums of `H` over block `t % 64` of the rows. -/
theorem tile_sum (c : Dev nD) (t : Fin cfg0.N) (q : Fin 2048) (n : Fin 4096) (hn : n.val = 2048 * (t.val / 64) + q.val) :
    ∑ p : Fin 256, tile (iblk0 V c 0 t) (iblk0 V c 1 t) (iblk0 V c 2 t) p q
      = ∑ j : Fin 256, H V c ⟨256 * (t.val % 64) + j.val, Cert.LibBlockedSum.block_lt (tile_le t) j⟩ n :=
  Finset.sum_congr rfl fun p _ => tile_blocks V c t p q ⟨256 * (t.val % 64) + p.val, Cert.LibBlockedSum.block_lt (tile_le t) p⟩ n rfl hn

theorem tile_sumsq (c : Dev nD) (t : Fin cfg0.N) (q : Fin 2048) (n : Fin 4096) (hn : n.val = 2048 * (t.val / 64) + q.val) :
    ∑ p : Fin 256, tile (iblk0 V c 0 t) (iblk0 V c 1 t) (iblk0 V c 2 t) p q * tile (iblk0 V c 0 t) (iblk0 V c 1 t) (iblk0 V c 2 t) p q
      = ∑ j : Fin 256, H V c ⟨256 * (t.val % 64) + j.val, Cert.LibBlockedSum.block_lt (tile_le t) j⟩ n
          * H V c ⟨256 * (t.val % 64) + j.val, Cert.LibBlockedSum.block_lt (tile_le t) j⟩ n :=
  Finset.sum_congr rfl fun p _ => by rw [tile_blocks V c t p q ⟨256 * (t.val % 64) + p.val, Cert.LibBlockedSum.block_lt (tile_le t) p⟩ n rfl hn]

/-- What the two running rows hold after point `t`, as a statement about column `q` of the block. -/
def SumsAt (c : Dev nD) (k : ℕ) (hk : k < cfg0.N) (m : ℕ) (q : Fin 2048) (n : Fin 4096) : Prop :=
  (outsAt0 V c k hk).2.1 (ix2 (0 : Fin 1) q) = below m (fun r => H V c r n)
    ∧ (outsAt0 V c k hk).2.2 (ix2 (0 : Fin 1) q) = below m (fun r => H V c r n * H V c r n)

/-- At the first row tile of a column half: block 0 of the rows. -/
theorem sums_A (c : Dev nD) (t : Fin cfg0.N) (h0 : t.val % 64 = 0) (q : Fin 2048) (n : Fin 4096)
    (hn : n.val = 2048 * (t.val / 64) + q.val) : SumsAt V c t.val t.isLt (t.val % 64 + 1) q n := by
  unfold SumsAt
  rw [outsAt_A V c t h0]
  refine ⟨(pay4_apply (iblk0 V c 0 t) (iblk0 V c 1 t) (iblk0 V c 2 t) _ q).trans ?_, (pay5_apply (iblk0 V c 0 t) (iblk0 V c 1 t) (iblk0 V c 2 t) _ q).trans ?_⟩
  · have hz : below (t.val % 64) (fun r => H V c r n) = 0 := by rw [h0]; exact below_zero _
    rw [pay1_apply, zero_add, tile_sum V c t q n hn, below_succ _ (tile_le t), hz, zero_add]
  · have hz : below (t.val % 64) (fun r => H V c r n * H V c r n) = 0 := by rw [h0]; exact below_zero _
    rw [pay2_apply, zero_add, tile_sumsq V c t q n hn, below_succ _ (tile_le t), hz, zero_add]

/-- At any other point: one more block of rows on top of what the point before left. -/
theorem sums_B (c : Dev nD) (t : Fin cfg0.N) (h0 : ¬t.val % 64 = 0) (q : Fin 2048) (n : Fin 4096)
    (hn : n.val = 2048 * (t.val / 64) + q.val)
    (ih : SumsAt V c (t.val - 1) (Nat.lt_of_le_of_lt (Nat.sub_le _ _) t.isLt) (t.val % 64) q n) :
    SumsAt V c t.val t.isLt (t.val % 64 + 1) q n := by
  unfold SumsAt at ih ⊢
  rw [outsAt_B V c t h0]
  refine ⟨(pay4_apply (iblk0 V c 0 t) (iblk0 V c 1 t) (iblk0 V c 2 t) _ q).trans ?_, (pay5_apply (iblk0 V c 0 t) (iblk0 V c 1 t) (iblk0 V c 2 t) _ q).trans ?_⟩
  · rw [ih.1, tile_sum V c t q n hn, below_succ _ (tile_le t)]
  · rw [ih.2, tile_sumsq V c t q n hn, below_succ _ (tile_le t)]

/-- After every point `k`: the rows below `256 (k % 64 + 1)`, in the columns of half `k / 64`. -/
theorem sums_at (c : Dev nD) : ∀ (k : ℕ) (hk : k < cfg0.N) (q : Fin 2048) (n : Fin 4096),
    n.val = 2048 * (k / 64) + q.val → SumsAt V c k hk (k % 64 + 1) q n
  | 0, hk, q, n, hn => sums_A V c ⟨0, hk⟩ rfl q n hn
  | k + 1, hk, q, n, hn => by
    by_cases h0 : (k + 1) % 64 = 0
    · exact sums_A V c ⟨k + 1, hk⟩ h0 q n hn
    · have e : k % 64 + 1 = (k + 1) % 64 := by omega
      have hn' : n.val = 2048 * (k / 64) + q.val := by
        have : k / 64 = (k + 1) / 64 := by omega
        rw [this]; exact hn
      have ih := sums_at c k (Nat.lt_of_succ_lt hk) q n hn'
      rw [e] at ih
      exact sums_B V c ⟨k + 1, hk⟩ h0 q n hn ih

/-- After the last row tile of a column half the two running rows hold the full column sums. -/
theorem sums_last (c : Dev nD) (t : Fin cfg0.N) (h63 : t.val % 64 = 63) (q : Fin 2048) (n : Fin 4096)
    (hn : n.val = 2048 * (t.val / 64) + q.val) :
    (outsAt0 V c t.val t.isLt).2.1 (ix2 (0 : Fin 1) q) = ∑ r : Fin 16384, H V c r n
      ∧ (outsAt0 V c t.val t.isLt).2.2 (ix2 (0 : Fin 1) q) = ∑ r : Fin 16384, H V c r n * H V c r n := by
  have h := sums_at V c t.val t.isLt q n hn
  unfold SumsAt at h
  rw [h63] at h
  exact ⟨h.1.trans (below_all _), h.2.trans (below_all _)⟩

/-- After every point the first output buffer holds the tile of `H`. -/
theorem pre_at (c : Dev nD) (t : Fin cfg0.N) (p : Fin 256) (q : Fin 2048) (r : Fin 16384) (n : Fin 4096)
    (hr : r.val = 256 * (t.val % 64) + p.val) (hn : n.val = 2048 * (t.val / 64) + q.val) :
    (outsAt0 V c t.val t.isLt).1 (ix2 p q) = H V c r n := by
  by_cases h0 : t.val % 64 = 0
  · rw [outsAt_A V c t h0]
    exact (pay3_apply (iblk0 V c 0 t) (iblk0 V c 1 t) (iblk0 V c 2 t) p q).trans (tile_blocks V c t p q r n hr hn)
  · rw [outsAt_B V c t h0]
    exact (pay3_apply (iblk0 V c 0 t) (iblk0 V c 1 t) (iblk0 V c 2 t) p q).trans (tile_blocks V c t p q r n hr hn)

end Cert.KernelIdeal.Region0

end
-- ==== Proof.Region0Arrays.lean ====
/-
  Layer 0, what the three output arrays hold when the region ends.

  Every point writes its tile of pre-activations back to block `(t % 64, t / 64)` of the first output array; the
  blocks tile the array, so it ends holding `H r n` at every `(r, n)`. The two running rows are written back only
  after the last row tile of a column half (`t % 64 = 63`), when they hold the sums over all 16384 rows; the two
  column halves tile the row, so the second array ends holding `∑ᵣ H r n` and the third `∑ᵣ H r n · H r n`.
-/
import proofs.«122919_j34694745817434_2_alg».proof.Proof.Region0Acc
import Idealize.ShloMosaic.Lib.Pipeline.Value

open scoped BigOperators

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The three arrays' final contents, as functions of an index. -/
def G3 (c : Dev nD) : S16384x4096.Idx → EReal := fun i => H V c ⟨(i 0).val, (i 0).isLt⟩ ⟨(i 1).val, (i 1).isLt⟩
def G4 (c : Dev nD) : S1x4096.Idx → EReal := fun i => ∑ r : Fin 16384, H V c r ⟨(i 1).val, (i 1).isLt⟩
def G5 (c : Dev nD) : S1x4096.Idx → EReal :=
  fun i => ∑ r : Fin 16384, H V c r ⟨(i 1).val, (i 1).isLt⟩ * H V c r ⟨(i 1).val, (i 1).isLt⟩

theorem cfgN : cfg0.N = 128 := N_0

/-- Reading any contents of a running row's array through the block at point `t` reads them at the block's entries. -/
theorem read_blk_4 (G : S1x4096.Idx → EReal) (t : Fin cfg0.N) (j : S1x2048.Idx) :
    (((cfg0.win 4).blk t).view.read (Elt Ideal) G : S1x2048.Idx → EReal) j = G (((cfg0.win 4).blk t).view.emb j) := rfl
theorem read_blk_5 (G : S1x4096.Idx → EReal) (t : Fin cfg0.N) (j : S1x2048.Idx) :
    (((cfg0.win 5).blk t).view.read (Elt Ideal) G : S1x2048.Idx → EReal) j = G (((cfg0.win 5).blk t).view.emb j) := rfl

theorem G4_apply (c : Dev nD) (n : Fin 4096) : G4 V c (ix2 (0 : Fin 1) n) = ∑ r : Fin 16384, H V c r n :=
  Finset.sum_congr rfl fun _ _ => rfl
theorem G5_apply (c : Dev nD) (n : Fin 4096) :
    G5 V c (ix2 (0 : Fin 1) n) = ∑ r : Fin 16384, H V c r n * H V c r n :=
  Finset.sum_congr rfl fun _ _ => rfl

/-! ## The pre-activations -/

/-- What point `t` writes back to the first output array is its block of `G3`. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  funext j
  obtain ⟨p, q, rfl⟩ : ∃ (p : Fin 256) (q : Fin 2048), j = (ix2 p q : S256x2048.Idx) :=
    ⟨_, _, eq_ix2 (n0 := 256) (n1 := 2048) j⟩
  have hr : 256 * (t.val % 64) + p.val < 16384 := by have := Nat.mod_lt t.val (show 0 < 64 by norm_num); omega
  have hn : 2048 * (t.val / 64) + q.val < 4096 := by have := lt_of_lt_of_eq t.isLt cfgN; omega
  show (outsAt0 V c t.val t.isLt).1 (ix2 p q) = G3 V c (((cfg0.win 3).blk t).view.emb (ix2 p q : S256x2048.Idx))
  rw [emb_3 t p q ⟨_, hr⟩ ⟨_, hn⟩ rfl rfl]
  exact pre_at V c t p q ⟨_, hr⟩ ⟨_, hn⟩ rfl rfl

/-- Every entry of the first output array lies in some point's block. -/
theorem cover3 (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have ht : 64 * ((i 1).val / 2048) + (i 0).val / 256 < cfg0.N := by rw [cfgN]; omega
  refine ⟨⟨_, ht⟩, flush0_3 _, ?_⟩
  obtain ⟨-, -, -, -, -, -, e0, e1, -⟩ := idx_facts ⟨_, ht⟩
  rw [mem_blk_3]
  intro a
  match a with
  | ⟨0, _⟩ =>
    show win0_3.index ⟨_, ht⟩ (0 : Fin 2) * 256 ≤ (i 0).val ∧ (i 0).val < win0_3.index ⟨_, ht⟩ (0 : Fin 2) * 256 + 256
    rw [e0]; dsimp only; omega
  | ⟨1, _⟩ =>
    show win0_3.index ⟨_, ht⟩ (1 : Fin 2) * 2048 ≤ (i 1).val ∧ (i 1).val < win0_3.index ⟨_, ht⟩ (1 : Fin 2) * 2048 + 2048
    rw [e1]; dsimp only; omega

/-- The first output array ends holding the layer's pre-activations. -/
theorem final3 (c : Dev nD) : (dat0 V c).arrAt 3 cfg0.N = G3 V c :=
  (dat0 V c).arrAt_eq_of_cover 3 (G3 V c) (fun t _ => flushed3_eq V c t) cover3

theorem pre_eq (c : Dev nD) (r : Fin 16384) (n : Fin 4096) :
    ((dat0 V c).arrAt 3 cfg0.N : S16384x4096.Idx → EReal) (ix2 r n) = H V c r n :=
  congrFun (final3 V c) (ix2 r n)

/-! ## The column sums -/

/-- What a point that ends a column half writes back to the second array is its block of `G4`. -/
theorem flushed4_eq (c : Dev nD) (t : Fin cfg0.N) (hf : (cfg0.win 4).flush t = true) :
    (dat0 V c).flushed 4 t = ((cfg0.win 4).blk t).view.read (Elt Ideal) (G4 V c) := by
  have h63 : t.val % 64 = 63 := (flush0_4 t).mp hf
  show (cfg0.win 4).cut (grid0.coords t) ((dat0 V c).after 4 t) = _
  rw [after0_4]
  funext j
  obtain ⟨u, q, rfl⟩ : ∃ (u : Fin 1) (q : Fin 2048), j = (ix2 u q : S1x2048.Idx) :=
    ⟨_, _, eq_ix2 (n0 := 1) (n1 := 2048) j⟩
  obtain rfl : u = 0 := Subsingleton.elim _ _
  have hn : 2048 * (t.val / 64) + q.val < 4096 := by have := lt_of_lt_of_eq t.isLt cfgN; omega
  show (outsAt0 V c t.val t.isLt).2.1 (ix2 (0 : Fin 1) q) = _
  refine Eq.trans ?_ (read_blk_4 (G4 V c) t (ix2 (0 : Fin 1) q)).symm
  rw [emb_4 t 0 q 0 ⟨_, hn⟩ rfl rfl, G4_apply]
  exact (sums_last V c t h63 q ⟨_, hn⟩ rfl).1

/-- Every entry of the second (and third) array lies in the block of the point that ends its column half. -/
theorem cover4 (i : S1x4096.Idx) :
    ∃ t : Fin cfg0.N, (cfg0.win 4).flush t = true ∧ i ∈ ((cfg0.win 4).blk t).view.set := by
  have hi0 : (i 0).val < 1 := (i 0).isLt
  have hi1 : (i 1).val < 4096 := (i 1).isLt
  have ht : 64 * ((i 1).val / 2048) + 63 < cfg0.N := by rw [cfgN]; omega
  refine ⟨⟨_, ht⟩, (flush0_4 _).mpr (by dsimp only; omega), ?_⟩
  obtain ⟨-, -, -, -, -, -, -, -, e0, e1, -⟩ := idx_facts ⟨_, ht⟩
  rw [mem_blk_4]
  intro a
  match a with
  | ⟨0, _⟩ =>
    show win0_4.index ⟨_, ht⟩ (0 : Fin 2) * 1 ≤ (i 0).val ∧ (i 0).val < win0_4.index ⟨_, ht⟩ (0 : Fin 2) * 1 + 1
    rw [e0]; omega
  | ⟨1, _⟩ =>
    show win0_4.index ⟨_, ht⟩ (1 : Fin 2) * 2048 ≤ (i 1).val ∧ (i 1).val < win0_4.index ⟨_, ht⟩ (1 : Fin 2) * 2048 + 2048
    rw [e1]; dsimp only; omega

/-- The second array ends holding the column sums of the pre-activations. -/
theorem final4 (c : Dev nD) : (dat0 V c).arrAt 4 cfg0.N = G4 V c :=
  (dat0 V c).arrAt_eq_of_cover 4 (G4 V c) (flushed4_eq V c) cover4

theorem sum_eq (c : Dev nD) (n : Fin 4096) :
    ((dat0 V c).arrAt 4 cfg0.N : S1x4096.Idx → EReal) (ix2 (0 : Fin 1) n) = ∑ r : Fin 16384, H V c r n :=
  (congrFun (final4 V c) (ix2 (0 : Fin 1) n)).trans (G4_apply V c n)

/-! ## The column sums of squares -/

theorem flushed5_eq (c : Dev nD) (t : Fin cfg0.N) (hf : (cfg0.win 5).flush t = true) :
    (dat0 V c).flushed 5 t = ((cfg0.win 5).blk t).view.read (Elt Ideal) (G5 V c) := by
  have h63 : t.val % 64 = 63 := (flush0_5 t).mp hf
  show (cfg0.win 5).cut (grid0.coords t) ((dat0 V c).after 5 t) = _
  rw [after0_5]
  funext j
  obtain ⟨u, q, rfl⟩ : ∃ (u : Fin 1) (q : Fin 2048), j = (ix2 u q : S1x2048.Idx) :=
    ⟨_, _, eq_ix2 (n0 := 1) (n1 := 2048) j⟩
  obtain rfl : u = 0 := Subsingleton.elim _ _
  have hn : 2048 * (t.val / 64) + q.val < 4096 := by have := lt_of_lt_of_eq t.isLt cfgN; omega
  show (outsAt0 V c t.val t.isLt).2.2 (ix2 (0 : Fin 1) q) = _
  refine Eq.trans ?_ (read_blk_5 (G5 V c) t (ix2 (0 : Fin 1) q)).symm
  rw [emb_5 t 0 q 0 ⟨_, hn⟩ rfl rfl, G5_apply]
  exact (sums_last V c t h63 q ⟨_, hn⟩ rfl).2

theorem cover5 (i : S1x4096.Idx) :
    ∃ t : Fin cfg0.N, (cfg0.win 5).flush t = true ∧ i ∈ ((cfg0.win 5).blk t).view.set := by
  have hi0 : (i 0).val < 1 := (i 0).isLt
  have hi1 : (i 1).val < 4096 := (i 1).isLt
  have ht : 64 * ((i 1).val / 2048) + 63 < cfg0.N := by rw [cfgN]; omega
  refine ⟨⟨_, ht⟩, (flush0_5 _).mpr (by dsimp only; omega), ?_⟩
  obtain ⟨-, -, -, -, -, -, -, -, -, -, e0, e1⟩ := idx_facts ⟨_, ht⟩
  rw [mem_blk_5]
  intro a
  match a with
  | ⟨0, _⟩ =>
    show win0_5.index ⟨_, ht⟩ (0 : Fin 2) * 1 ≤ (i 0).val ∧ (i 0).val < win0_5.index ⟨_, ht⟩ (0 : Fin 2) * 1 + 1
    rw [e0]; omega
  | ⟨1, _⟩ =>
    show win0_5.index ⟨_, ht⟩ (1 : Fin 2) * 2048 ≤ (i 1).val ∧ (i 1).val < win0_5.index ⟨_, ht⟩ (1 : Fin 2) * 2048 + 2048
    rw [e1]; dsimp only; omega

/-- The third array ends holding the column sums of the squared pre-activations. -/
theorem final5 (c : Dev nD) : (dat0 V c).arrAt 5 cfg0.N = G5 V c :=
  (dat0 V c).arrAt_eq_of_cover 5 (G5 V c) (flushed5_eq V c) cover5

theorem sumsq_eq (c : Dev nD) (n : Fin 4096) :
    ((dat0 V c).arrAt 5 cfg0.N : S1x4096.Idx → EReal) (ix2 (0 : Fin 1) n) = ∑ r : Fin 16384, H V c r n * H V c r n :=
  (congrFun (final5 V c) (ix2 (0 : Fin 1) n)).trans (G5_apply V c n)

end Cert.KernelIdeal.Region0

end
-- ==== Proof.Region0.lean ====
/-
  Layer 0 of the kernel program, read as mathematics: when the first region ends, its first output array holds the
  layer's pre-activations `H r n = ∑ₖ sign (x (r, k)) · w (k, n) + b (0, n)`, its second the column sums `∑ᵣ H r n`
  and its third the column sums of squares `∑ᵣ H r n · H r n` (`Region0.pre_eq`, `sum_eq`, `sumsq_eq`), for any
  contents `V` of the buffers at the region's entry.
-/
import proofs.«122919_j34694745817434_2_alg».proof.Proof.Region0Arrays
-- ==== Proof.NetArgs.lean ====
/-
  The whole network as a function of its argument arrays.

  The arguments are the input `x`, six weight matrices and biases, and the scale and shift vectors of the
  three inner normalisations.  Layer 0 is a binarized linear layer on the signs of `x`; layers 1 and 2 act on
  the normalised, clamped, binarized previous pre-activation; layer 3 likewise (its input is normalised with
  the third pair of parameters); layers 4 and 5 act on the clamped, binarized previous pre-activation.  What
  follows the last pre-activation `h5` (a last normalisation and a log-softmax) is the same array function in
  both programs and is kept apart.
-/
import proofs.«122919_j34694745817434_2_alg».proof.Proof.Net

noncomputable section

namespace Cert.Net

open Idealize.ShloMosaic

/-- The argument arrays the network's hidden layers read, as functions of literal coordinates. -/
structure Args where
  x : Fin 16384 → Fin 3072 → EReal
  w0 : Fin 4096 → Fin 3072 → EReal
  b0 : Fin 4096 → EReal
  w1 : Fin 4096 → Fin 4096 → EReal
  b1 : Fin 4096 → EReal
  w2 : Fin 256 → Fin 4096 → EReal
  b2 : Fin 256 → EReal
  w3 : Fin 16 → Fin 256 → EReal
  b3 : Fin 16 → EReal
  w4 : Fin 16 → Fin 16 → EReal
  b4 : Fin 16 → EReal
  w5 : Fin 10 → Fin 16 → EReal
  b5 : Fin 10 → EReal
  g0 : Fin 4096 → EReal
  be0 : Fin 4096 → EReal
  g1 : Fin 4096 → EReal
  be1 : Fin 4096 → EReal
  g2 : Fin 256 → EReal
  be2 : Fin 256 → EReal

namespace Args

variable (A : Args)

/-- The signs of the input. -/
def a0 (r : Fin 16384) (k : Fin 3072) : EReal := Ideal.sign (A.x r k)
/-- The six pre-activations. -/
def h0 : Fin 16384 → Fin 4096 → EReal := lin A.a0 A.w0 A.b0
def h1 : Fin 16384 → Fin 4096 → EReal := lin (act A.h0 A.g0 A.be0) A.w1 A.b1
def h2 : Fin 16384 → Fin 256 → EReal := lin (act A.h1 A.g1 A.be1) A.w2 A.b2
def h3 : Fin 16384 → Fin 16 → EReal := lin (act A.h2 A.g2 A.be2) A.w3 A.b3
def h4 : Fin 16384 → Fin 16 → EReal := lin (actPlain A.h3) A.w4 A.b4
def h5 : Fin 16384 → Fin 10 → EReal := lin (actPlain A.h4) A.w5 A.b5

end Args

end Cert.Net

end
-- ==== Proof.KNet0.lean ====
/-
  Layer 0 of the kernel program, in the network's terms.

  The first accelerator region multiplies the signs of the input tile by the binarized, transposed weights
  and adds the bias row; so the array it leaves is the network's first pre-activation `h0`, and its two
  accumulated rows are the column sums of `h0` and of its squares.
-/
import proofs.«122919_j34694745817434_2_alg».proof.Proof.KHost0
import proofs.«122919_j34694745817434_2_alg».proof.Proof.Region0
import proofs.«122919_j34694745817434_2_alg».proof.Proof.NetArgs
import proofs.«122919_j34694745817434_2_alg».proof.Proof.Rd

noncomputable section

namespace Cert.KernelIdeal.KNet

open Cert.KernelIdeal Cert.KernelIdeal.Gen Cert.KernelIdeal.KHost Cert.Rd
open Idealize.ShloMosaic Idealize.ShloMosaic.TcCoe Idealize.SL.Sem Idealize.ShloMosaic.ValueIdx

variable (m : (ℓ : Loc nD τ sig) → Buf (Elt Ideal) ℓ) (ρ : Dev nD → PrngReg)

/-- The network's argument arrays as the launch memory of core `c` holds them. -/
def kArgs (c : Dev nD) : Cert.Net.Args where
  x := fun r k => r2 (A := 16384) (B := 3072) (φ := .f32) (m ((c : Thread nD τ).loc main_arg0)) r k
  w0 := fun r k => r2 (A := 4096) (B := 3072) (φ := .f32) (m ((c : Thread nD τ).loc main_arg1)) r k
  b0 := fun n => r1 (A := 4096) (φ := .f32) (m ((c : Thread nD τ).loc main_arg2)) n
  w1 := fun r k => r2 (A := 4096) (B := 4096) (φ := .f32) (m ((c : Thread nD τ).loc main_arg3)) r k
  b1 := fun n => r1 (A := 4096) (φ := .f32) (m ((c : Thread nD τ).loc main_arg4)) n
  w2 := fun r k => r2 (A := 256) (B := 4096) (φ := .f32) (m ((c : Thread nD τ).loc main_arg5)) r k
  b2 := fun n => r1 (A := 256) (φ := .f32) (m ((c : Thread nD τ).loc main_arg6)) n
  w3 := fun r k => r2 (A := 16) (B := 256) (φ := .f32) (m ((c : Thread nD τ).loc main_arg7)) r k
  b3 := fun n => r1 (A := 16) (φ := .f32) (m ((c : Thread nD τ).loc main_arg8)) n
  w4 := fun r k => r2 (A := 16) (B := 16) (φ := .f32) (m ((c : Thread nD τ).loc main_arg9)) r k
  b4 := fun n => r1 (A := 16) (φ := .f32) (m ((c : Thread nD τ).loc main_arg10)) n
  w5 := fun r k => r2 (A := 10) (B := 16) (φ := .f32) (m ((c : Thread nD τ).loc main_arg11)) r k
  b5 := fun n => r1 (A := 10) (φ := .f32) (m ((c : Thread nD τ).loc main_arg12)) n
  g0 := fun n => r1 (A := 4096) (φ := .f32) (m ((c : Thread nD τ).loc main_arg13)) n
  be0 := fun n => r1 (A := 4096) (φ := .f32) (m ((c : Thread nD τ).loc main_arg14)) n
  g1 := fun n => r1 (A := 4096) (φ := .f32) (m ((c : Thread nD τ).loc main_arg15)) n
  be1 := fun n => r1 (A := 4096) (φ := .f32) (m ((c : Thread nD τ).loc main_arg16)) n
  g2 := fun n => r1 (A := 256) (φ := .f32) (m ((c : Thread nD τ).loc main_arg17)) n
  be2 := fun n => r1 (A := 256) (φ := .f32) (m ((c : Thread nD τ).loc main_arg18)) n

/-- The first region's product-plus-bias at (r, n), over what the first stretch of host operations left, is the
    network's first pre-activation. -/
theorem H0_eq (c : Dev nD) (r : Fin 16384) (n : Fin 4096) :
    Cert.KernelIdeal.Region0.H (V1 m ρ) c r n = (kArgs m c).h0 r n := by
  unfold Cert.KernelIdeal.Region0.H Cert.Net.Args.h0 Cert.Net.lin Cert.Net.Args.a0
  have hs : ∀ k : Fin 3072,
      Ideal.sign ((V1 m ρ c main_arg0 : S16384x3072.Idx → EReal) (ix2 r k)) * (V1 m ρ c main_v2 : S3072x4096.Idx → EReal) (ix2 k n)
        = Ideal.sign ((kArgs m c).x r k) * Ideal.sign ((kArgs m c).w0 n k) := fun k => by
    rw [main_arg0_at, main_v2_at]; rfl
  rw [Finset.sum_congr rfl (fun k _ => hs k), main_v9_at]
  rfl

/-- The first region's first output is the first pre-activation. -/
theorem region0_pre (c : Dev nD) (r : Fin 16384) (n : Fin 4096) :
    @Eq EReal (((dat0 (V1 m ρ) c).arrAt 3 cfg0.N : S16384x4096.Idx → EReal) (ix2 r n)) ((kArgs m c).h0 r n) :=
  (Cert.KernelIdeal.Region0.pre_eq (V1 m ρ) c r n).trans (H0_eq m ρ c r n)

/-- Its second output is the row of column sums. -/
theorem region0_sum (c : Dev nD) (n : Fin 4096) :
    @Eq EReal (((dat0 (V1 m ρ) c).arrAt 4 cfg0.N : S1x4096.Idx → EReal) (ix2 (0 : Fin 1) n))
      (∑ r : Fin 16384, (kArgs m c).h0 r n) := by
  have h1 : @Eq EReal (((dat0 (V1 m ρ) c).arrAt 4 cfg0.N : S1x4096.Idx → EReal) (ix2 (0 : Fin 1) n))
      (∑ r : Fin 16384, Cert.KernelIdeal.Region0.H (V1 m ρ) c r n) := Cert.KernelIdeal.Region0.sum_eq (V1 m ρ) c n
  have h2 : (∑ r : Fin 16384, Cert.KernelIdeal.Region0.H (V1 m ρ) c r n) = ∑ r : Fin 16384, (kArgs m c).h0 r n :=
    Finset.sum_congr rfl fun r _ => H0_eq m ρ c r n
  exact h1.trans h2

/-- Its third output is the row of column sums of squares. -/
theorem region0_sumsq (c : Dev nD) (n : Fin 4096) :
    @Eq EReal (((dat0 (V1 m ρ) c).arrAt 5 cfg0.N : S1x4096.Idx → EReal) (ix2 (0 : Fin 1) n))
      (∑ r : Fin 16384, (kArgs m c).h0 r n * (kArgs m c).h0 r n) := by
  have h1 : @Eq EReal (((dat0 (V1 m ρ) c).arrAt 5 cfg0.N : S1x4096.Idx → EReal) (ix2 (0 : Fin 1) n))
      (∑ r : Fin 16384, Cert.KernelIdeal.Region0.H (V1 m ρ) c r n * Cert.KernelIdeal.Region0.H (V1 m ρ) c r n) :=
    Cert.KernelIdeal.Region0.sumsq_eq (V1 m ρ) c n
  have h2 : (∑ r : Fin 16384, Cert.KernelIdeal.Region0.H (V1 m ρ) c r n * Cert.KernelIdeal.Region0.H (V1 m ρ) c r n)
      = ∑ r : Fin 16384, (kArgs m c).h0 r n * (kArgs m c).h0 r n :=
    Finset.sum_congr rfl fun r _ => by rw [H0_eq m ρ c r n]
  exact h1.trans h2

end Cert.KernelIdeal.KNet

end
-- ==== Proof.KHost1.lean ====
/-
  What region 1 of the program finds on entry, read at an index.

  Between two accelerator regions the program turns the column sums and the column sums of squares the
  region before left into the column means (sum / 16384) and the clamped variances
  (max (sum of squares / 16384 − mean², 0)), as rows of shape [1, N].  The pre-activation array the region
  before wrote is carried over untouched, and so are the binarized weights, the bias row and the
  normalisation rows prepared by the first stretch.
-/
import proofs.«122919_j34694745817434_2_alg».proof.Proof.Gen.KernelIdeal.Frame
import Idealize.ShloMosaic.Lib.StableHlo.Run
import Idealize.ShloMosaic.Lib.ValueLayout
import Idealize.ShloMosaic.Lib.ValueIdx
import Idealize.ShloMosaic.Lib.IdealHost

noncomputable section

namespace Cert.KernelIdeal.KHost

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The pre-activation array is what the region before left in its first output. -/
theorem main_v18_0_eq (c : Dev nD) : V3 m ρ c main_v18_0 = (dat0 (V1 m ρ) c).arrAt 3 cfg0.N :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 3)

/-- The column sums and the column sums of squares are the region's second and third outputs. -/
theorem main_v18_1_eq (c : Dev nD) : W2 m ρ c (Proc.devRef .tc main_v18_1) = (dat0 (V1 m ρ) c).arrAt 4 cfg0.N := W2_arr m ρ c 4
theorem main_v18_2_eq (c : Dev nD) : W2 m ρ c (Proc.devRef .tc main_v18_2) = (dat0 (V1 m ρ) c).arrAt 5 cfg0.N := W2_arr m ρ c 5

/-- The column means: entry (0, n) of `main_v20` is the column sum the region before left, divided by 16384. -/
theorem main_v20_at (c : Dev nD) (n : Fin 4096) :
    ((V3 m ρ c main_v20 : S1x4096.Idx → EReal) (ix2 (0 : Fin 1) n) : EReal)
      = Ideal.div ((W2 m ρ c (Proc.devRef .tc main_v18_1) : S1x4096.Idx → EReal) (ix2 (0 : Fin 1) n) : EReal) (Ideal.ofBits .f32 0x46800000#32) := by
  have e : (V3 m ρ c main_v20 : S1x4096.Idx → EReal)
      = Host.divf (F := Ideal) (W2 m ρ c (Proc.devRef .tc main_v18_1))
          (broadcastInDim S1x4096 ![] bcast_S_S1x4096 (constant (F := Ideal) S_ .f32 0x46800000#32)) := by
    show StableHlo.after (hostOps1 (F := Ideal)) (W2 m ρ c) (Proc.devRef .tc main_v20) = _
    after_results
  rw [e, hostDivf_apply, broadcastInDim_scalar_apply, constant_apply]

/-- The clamped variances: entry (0, n) of `main_v26` is the mean of squares minus the squared mean, clamped below at zero. -/
theorem main_v26_at (c : Dev nD) (n : Fin 4096) :
    ((V3 m ρ c main_v26 : S1x4096.Idx → EReal) (ix2 (0 : Fin 1) n) : EReal)
      = max (Ideal.div ((W2 m ρ c (Proc.devRef .tc main_v18_2) : S1x4096.Idx → EReal) (ix2 (0 : Fin 1) n) : EReal) (Ideal.ofBits .f32 0x46800000#32)
            - Ideal.div ((W2 m ρ c (Proc.devRef .tc main_v18_1) : S1x4096.Idx → EReal) (ix2 (0 : Fin 1) n) : EReal) (Ideal.ofBits .f32 0x46800000#32) * Ideal.div ((W2 m ρ c (Proc.devRef .tc main_v18_1) : S1x4096.Idx → EReal) (ix2 (0 : Fin 1) n) : EReal) (Ideal.ofBits .f32 0x46800000#32))
          (Ideal.ofBits .f32 0x00000000#32) := by
  have e : (V3 m ρ c main_v26 : S1x4096.Idx → EReal)
      = maximumf (subf (Host.divf (F := Ideal) (W2 m ρ c (Proc.devRef .tc main_v18_2))
            (broadcastInDim S1x4096 ![] bcast_S_S1x4096 (constant (F := Ideal) S_ .f32 0x46800000#32)))
          (mulf (Host.divf (F := Ideal) (W2 m ρ c (Proc.devRef .tc main_v18_1))
          (broadcastInDim S1x4096 ![] bcast_S_S1x4096 (constant (F := Ideal) S_ .f32 0x46800000#32))) (Host.divf (F := Ideal) (W2 m ρ c (Proc.devRef .tc main_v18_1))
          (broadcastInDim S1x4096 ![] bcast_S_S1x4096 (constant (F := Ideal) S_ .f32 0x46800000#32)))))
          (broadcastInDim S1x4096 ![] bcast_S_S1x4096 (constant (F := Ideal) S_ .f32 0x00000000#32)) := by
    show StableHlo.after (hostOps1 (F := Ideal)) (W2 m ρ c) (Proc.devRef .tc main_v26) = _
    after_results
  rw [e, maximumf_apply, subf_apply, mulf_apply, hostDivf_apply, hostDivf_apply, broadcastInDim_scalar_apply,
    broadcastInDim_scalar_apply, constant_apply, constant_apply]

/-- `main_v12` is as the first stretch left it. -/
theorem main_v12_eq1 (c : Dev nD) : V3 m ρ c main_v12 = V1 m ρ c main_v12 :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v12 (by decide))

/-- `main_v13` is as the first stretch left it. -/
theorem main_v13_eq1 (c : Dev nD) : V3 m ρ c main_v13 = V1 m ρ c main_v13 :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v13 (by decide))

/-- `main_v5` is as the first stretch left it. -/
theorem main_v5_eq1 (c : Dev nD) : V3 m ρ c main_v5 = V1 m ρ c main_v5 :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v5 (by decide))

/-- `main_v10` is as the first stretch left it. -/
theorem main_v10_eq1 (c : Dev nD) : V3 m ρ c main_v10 = V1 m ρ c main_v10 :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v10 (by decide))

end Cert.KernelIdeal.KHost

end
-- ==== Proof.KEntry1.lean ====
/-
  What region 1 of the kernel program finds on entry, in the network's terms: the previous pre-activation
  `h0`, its column means, its clamped column variances (mean of squares minus squared mean, clamped at zero),
  the scale and shift rows, the binarized transposed weights and the bias row of the next layer.
-/
import proofs.«122919_j34694745817434_2_alg».proof.Proof.KNet0
import proofs.«122919_j34694745817434_2_alg».proof.Proof.KHost1

noncomputable section

namespace Cert.KernelIdeal.KNet

open Cert.KernelIdeal Cert.KernelIdeal.Gen Cert.KernelIdeal.KHost Cert.Rd
open Idealize.ShloMosaic Idealize.ShloMosaic.TcCoe Idealize.SL.Sem Idealize.ShloMosaic.ValueIdx

variable (m : (ℓ : Loc nD τ sig) → Buf (Elt Ideal) ℓ) (ρ : Dev nD → PrngReg)

theorem entry1_pre (c : Dev nD) (r : Fin 16384) (k : Fin 4096) :
    @Eq EReal ((V3 m ρ c main_v18_0 : S16384x4096.Idx → EReal) (ix2 r k)) ((kArgs m c).h0 r k) := by
  rw [main_v18_0_eq]
  exact region0_pre m ρ c r k

theorem entry1_mean (c : Dev nD) (k : Fin 4096) :
    @Eq EReal ((V3 m ρ c main_v20 : S1x4096.Idx → EReal) (ix2 (0 : Fin 1) k)) (Cert.Net.mean (kArgs m c).h0 k) := by
  have h := main_v20_at m ρ c k
  rw [main_v18_1_eq, region0_sum m ρ c k] at h
  exact h

theorem entry1_var (c : Dev nD) (k : Fin 4096) :
    @Eq EReal ((V3 m ρ c main_v26 : S1x4096.Idx → EReal) (ix2 (0 : Fin 1) k)) (Cert.Net.varK (kArgs m c).h0 k) := by
  have h := main_v26_at m ρ c k
  rw [main_v18_2_eq, main_v18_1_eq, region0_sumsq m ρ c k, region0_sum m ρ c k] at h
  exact h

theorem entry1_g (c : Dev nD) (k : Fin 4096) :
    @Eq EReal ((V3 m ρ c main_v12 : S1x4096.Idx → EReal) (ix2 (0 : Fin 1) k)) ((kArgs m c).g0 k) := by
  rw [main_v12_eq1, main_v12_at]; rfl

theorem entry1_be (c : Dev nD) (k : Fin 4096) :
    @Eq EReal ((V3 m ρ c main_v13 : S1x4096.Idx → EReal) (ix2 (0 : Fin 1) k)) ((kArgs m c).be0 k) := by
  rw [main_v13_eq1, main_v13_at]; rfl

theorem entry1_w (c : Dev nD) (k : Fin 4096) (n : Fin 4096) :
    @Eq EReal ((V3 m ρ c main_v5 : S4096x4096.Idx → EReal) (ix2 k n)) (Ideal.sign ((kArgs m c).w1 n k)) := by
  rw [main_v5_eq1, main_v5_at]; rfl

theorem entry1_b (c : Dev nD) (n : Fin 4096) :
    @Eq EReal ((V3 m ρ c main_v10 : S1x4096.Idx → EReal) (ix2 (0 : Fin 1) n)) ((kArgs m c).b1 n) := by
  rw [main_v10_eq1, main_v10_at]; rfl

end Cert.KernelIdeal.KNet

end
-- ==== Proof.Region1Pay.lean ====
/-
  Layer 1 (a fused layer: normalise, clamp, sign, multiply), one tile of 128 rows by one half of 2048 columns, at
  the exact values.

  From a tile `hp` of the previous layer's pre-activations and the rows `mu` (column means), `va` (column
  variances), `g`, `be` (scale and shift) the body forms the tile of activations

      a (p, k) = sign (clip (((hp (p, k) − mu (0, k)) · rsqrt (va (0, k) + ε)) · g (0, k) + be (0, k))),

  where `clip` clamps to [−1, 1] and the sign is spelt "where |y| > 0, ±1 by the order, else y", which is the sign of
  an extended real at every value. It multiplies the tile by a column half `w` of the weights into a zero tile and adds
  the bias row down the rows:

      t (p, q) = ∑ₖ a (p, k) · w (k, q) + b (0, q)      (k over the 4096 features),

  and adds to two running rows the tile's column sums and the column sums of its squares. The rows that start a column
  half's accumulation are zero rows.
-/
import proofs.«122919_j34694745817434_2_alg».proof.Proof.Gen.KernelIdeal.Skeleton
import proofs.«122919_j34694745817434_2_alg».proof.Proof.LibDotSums
import proofs.«122919_j34694745817434_2_alg».proof.Proof.LibColumnSums
import proofs.«122919_j34694745817434_2_alg».proof.Proof.Net
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Region1

open Idealize.ShloMosaic Idealize.ShloMosaic.ValueIdx Cert.KernelIdeal Cert.KernelIdeal.Gen

/-- The normalised, scaled and shifted value, before the clamp. -/
def norm (hp : FVec Ideal S128x4096 .f32) (mu va g be : FVec Ideal S1x4096 .f32) (p : Fin 128) (k : Fin 4096) : EReal :=
  ((hp (ix2 p k) - mu (ix2 (0 : Fin 1) k)) * Ideal.rsqrt (va (ix2 (0 : Fin 1) k) + Cert.Net.eps)) * g (ix2 (0 : Fin 1) k)
    + be (ix2 (0 : Fin 1) k)

/-- The activation fed to the product. -/
def act (hp : FVec Ideal S128x4096 .f32) (mu va g be : FVec Ideal S1x4096 .f32) (p : Fin 128) (k : Fin 4096) : EReal :=
  Ideal.sign (Cert.Net.clip (norm hp mu va g be p k))

/-- The printed sign of a vector, after the change of format, is the sign at each entry. -/
theorem sign_vec_apply {s : Shape} (y : FVec Ideal s .f32) (h : FTy.bits .bf16 < FTy.bits .f32) (i : s.Idx) :
    truncf .bf16 (select (cmpf .ogt (absf y) (broadcast s (Scalar.ofBits .f32 0x00000000#32)))
      (select (cmpf .olt y (constant s .f32 0x00000000#32)) (constant s .f32 0xBF800000#32) (constant s .f32 0x3F800000#32)) y) h i
      = Ideal.sign (y i) :=
  Ideal.jnp_sign_eq_sign_f32 (y i)

/-- The prologue's result is the tile of activations. -/
theorem pay6_apply (va : FVec Ideal S1x4096 .f32) (hp : FVec Ideal S128x4096 .f32) (mu g be : FVec Ideal S1x4096 .f32)
    (p : Fin 128) (k : Fin 4096) : k1_pay6 (F := Ideal) va hp mu g be (ix2 p k) = act hp mu va g be p k := by
  unfold k1_pay6 act
  refine (sign_vec_apply _ _ (ix2 p k)).trans (congrArg Ideal.sign ?_)
  unfold Cert.Net.clip norm
  refine (minimumf_apply _ _ _).trans (congrArg₂ min rfl ?_)
  refine (maximumf_apply _ _ _).trans (congrArg₂ max rfl ?_)
  refine (addf_apply _ _ _).trans (congrArg₂ (· + ·) ?_ ?_)
  · refine (mulf_apply _ _ _).trans (congrArg₂ (· * ·) ?_ ?_)
    · refine (mulf_apply _ _ _).trans (congrArg₂ (· * ·) ?_ ?_)
      · refine (subf_apply _ _ _).trans (congrArg₂ (· - ·) ?_ ?_)
        · rw [shapeCast_self]
        · refine (broadcastTo_1b_ab_apply _ _ p k).trans ?_
          rw [shapeCast_self]
      · refine (broadcastTo_1b_ab_apply _ _ p k).trans ?_
        show Ideal.rsqrt (shapeCast S1x4096 va _ (ix2 (0 : Fin 1) k) + Cert.Net.eps) = _
        rw [shapeCast_self]
    · refine (broadcastTo_1b_ab_apply _ _ p k).trans ?_
      rw [shapeCast_self]
  · refine (broadcastTo_1b_ab_apply _ _ p k).trans ?_
    rw [shapeCast_self]

/-- The tile of pre-activations of this layer, from a tile of activations. -/
def tile (a : FVec Ideal S128x4096 .bf16) (w : FVec Ideal S4096x2048 .bf16) (b : FVec Ideal S1x2048 .f32)
    (p : Fin 128) (q : Fin 2048) : EReal :=
  (∑ k : Fin 4096, a (ix2 p k) * w (ix2 k q)) + b (ix2 (0 : Fin 1) q)

/-- The stored tile is the tile of pre-activations. -/
theorem pay1_apply (a : FVec Ideal S128x4096 .bf16) (w : FVec Ideal S4096x2048 .bf16) (b : FVec Ideal S1x2048 .f32)
    (p : Fin 128) (q : Fin 2048) : k1_pay1 (F := Ideal) a w b (ix2 p q) = tile a w b p q := by
  unfold k1_pay1 tile
  refine (addf_apply _ _ (ix2 p q)).trans ?_
  refine congrArg₂ (· + ·) ?_ ?_
  · refine (Cert.DotSums.matmul_zero_ix2 dot_S128x4096_S4096x2048_S128x2048_1_0_0_1_n_n none rfl rfl rfl rfl rfl rfl
      rfl rfl _ _ p q).trans ?_
    refine Finset.sum_congr rfl fun k _ => ?_
    rw [shapeCast_self]
  · refine (broadcastTo_1b_ab_apply _ _ p q).trans ?_
    rw [shapeCast_self]

/-- To a running row `r`, the body adds the column sums of the tile. -/
theorem pay2_apply (a : FVec Ideal S128x4096 .bf16) (w : FVec Ideal S4096x2048 .bf16) (b : FVec Ideal S1x2048 .f32)
    (r : FVec Ideal S1x2048 .f32) (q : Fin 2048) :
    k1_pay2 (F := Ideal) a w b r (ix2 (0 : Fin 1) q) = r (ix2 (0 : Fin 1) q) + ∑ p : Fin 128, tile a w b p q := by
  unfold k1_pay2
  refine (addf_apply _ _ _).trans ?_
  refine congrArg₂ (· + ·) ?_ ?_
  · rw [shapeCast_self]
  · refine (shapeCast_a_1a_apply _ _ (0 : Fin 1) q).trans ?_
    refine (Cert.LibColumnSums.multiReduction_add_rows_apply _ _ _ _ _ q).trans ?_
    exact Finset.sum_congr rfl fun p _ => pay1_apply a w b p q

/-- To another running row, the column sums of the tile's squares. -/
theorem pay3_apply (a : FVec Ideal S128x4096 .bf16) (w : FVec Ideal S4096x2048 .bf16) (b : FVec Ideal S1x2048 .f32)
    (r : FVec Ideal S1x2048 .f32) (q : Fin 2048) :
    k1_pay3 (F := Ideal) a w b r (ix2 (0 : Fin 1) q)
      = r (ix2 (0 : Fin 1) q) + ∑ p : Fin 128, tile a w b p q * tile a w b p q := by
  unfold k1_pay3
  refine (addf_apply _ _ _).trans ?_
  refine congrArg₂ (· + ·) ?_ ?_
  · rw [shapeCast_self]
  · refine (shapeCast_a_1a_apply _ _ (0 : Fin 1) q).trans ?_
    refine (Cert.LibColumnSums.multiReduction_add_rows_apply _ _ _ _ _ q).trans ?_
    refine Finset.sum_congr rfl fun p _ => ?_
    refine (mulf_apply _ _ _).trans ?_
    rw [pay1_apply]

/-- The two rows that start an accumulation are zero rows. -/
theorem pay4_apply (j : S1x2048.Idx) : k1_pay4 (F := Ideal) j = 0 := Ideal.ofBits_zero_f32
theorem pay5_apply (j : S1x2048.Idx) : k1_pay5 (F := Ideal) j = 0 := Ideal.ofBits_zero_f32

end Cert.KernelIdeal.Region1

end
-- ==== Proof.Region1Pieces.lean ====
/-
  Layer 1, what one run of the body leaves in its three output buffers.

  The body is run in two cases. At the first row tile of a column half it first stores a zero row into each of the
  two running rows; at every other row tile it finds them as the tile before left them. In both cases it forms the
  tile of activations from the five normalisation inputs, stores the tile of pre-activations into the first output
  buffer, and into the two running rows what they held plus the tile's column sums, respectively the column sums of
  its squares. Every store covers its whole buffer and every load reads a whole buffer, so each buffer ends holding the
  last value stored into it, as a function of the seven input blocks (and, away from the first row tile, of the two
  running rows).
-/
import proofs.«122919_j34694745817434_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Region1

open Cert.KernelIdeal Cert.KernelIdeal.Gen

variable {F : FTy → Type} [FloatOps F]

/-- The zero offsets of a whole-buffer load or store. -/
theorem hz : (![0, 0] : Fin 2 → Nat) = fun _ => 0 := funext fun a => by fin_cases a <;> rfl

/-- Away from the first row tile: the first output buffer ends at the tile of pre-activations. -/
theorem out_B_7 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) (xo8 : Vec F S1x2048 .f32) (xo9 : Vec F S1x2048 .f32) :
    out1_B_7 c i arg2 harg2 arg3 harg3 arg4 harg4 arg5 harg5 arg6 harg6 arg7 harg7 arg8 harg8 arg9 harg9 arg10 harg10 arg11 harg11 hc0 x0 x1 x2 x3 x4 x5 x6 xo8 xo9 = k1_pay1 (k1_pay6 x2 x0 x1 x3 x4) x5 x6 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S128x2048) hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz]

/-- Away from the first row tile: the first running row ends at what it held plus the tile's column sums. -/
theorem out_B_8 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) (xo8 : Vec F S1x2048 .f32) (xo9 : Vec F S1x2048 .f32) :
    out1_B_8 c i arg2 harg2 arg3 harg3 arg4 harg4 arg5 harg5 arg6 harg6 arg7 harg7 arg8 harg8 arg9 harg9 arg10 harg10 arg11 harg11 hc0 x0 x1 x2 x3 x4 x5 x6 xo8 xo9 = k1_pay2 (k1_pay6 x2 x0 x1 x3 x4) x5 x6 xo8 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S1x2048) hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz, harg10.read_unread]

/-- Away from the first row tile: the second running row ends at what it held plus the column sums of the squares. -/
theorem out_B_9 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) (xo8 : Vec F S1x2048 .f32) (xo9 : Vec F S1x2048 .f32) :
    out1_B_9 c i arg2 harg2 arg3 harg3 arg4 harg4 arg5 harg5 arg6 harg6 arg7 harg7 arg8 harg8 arg9 harg9 arg10 harg10 arg11 harg11 hc0 x0 x1 x2 x3 x4 x5 x6 xo8 xo9 = k1_pay3 (k1_pay6 x2 x0 x1 x3 x4) x5 x6 xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S1x2048) hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz, harg11.read_unread]

/-- At the first row tile: the first output buffer ends at the tile of pre-activations. -/
theorem out_A_7 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) :
    out1_A_7 c i arg2 harg2 arg3 harg3 arg4 harg4 arg5 harg5 arg6 harg6 arg7 harg7 arg8 harg8 arg9 harg9 arg10 harg10 arg11 harg11 hc0 x0 x1 x2 x3 x4 x5 x6 = k1_pay1 (k1_pay6 x2 x0 x1 x3 x4) x5 x6 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_unit_zero (S := S128x2048) hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz]

/-- At the first row tile: the first running row ends at the zero row plus the tile's column sums. -/
theorem out_A_8 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) :
    out1_A_8 c i arg2 harg2 arg3 harg3 arg4 harg4 arg5 harg5 arg6 harg6 arg7 harg7 arg8 harg8 arg9 harg9 arg10 harg10 arg11 harg11 hc0 x0 x1 x2 x3 x4 x5 x6 = k1_pay2 (k1_pay6 x2 x0 x1 x3 x4) x5 x6 (k1_pay4 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz]

/-- At the first row tile: the second running row ends at the zero row plus the column sums of the squares. -/
theorem out_A_9 (c : Dev nD) (i : grid1.Coords) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S4096x2048 .bf16) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : cond1_0 i)
    (x0 : Vec F S128x4096 .f32) (x1 : Vec F S1x4096 .f32) (x2 : Vec F S1x4096 .f32) (x3 : Vec F S1x4096 .f32) (x4 : Vec F S1x4096 .f32) (x5 : Vec F S4096x2048 .bf16) (x6 : Vec F S1x2048 .f32) :
    out1_A_9 c i arg2 harg2 arg3 harg3 arg4 harg4 arg5 harg5 arg6 harg6 arg7 harg7 arg8 harg8 arg9 harg9 arg10 harg10 arg11 harg11 hc0 x0 x1 x2 x3 x4 x5 x6 = k1_pay3 (k1_pay6 x2 x0 x1 x3 x4) x5 x6 (k1_pay5 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg6.read_unread, harg7.read_unread, harg8.read_unread, View.ld_unit_zero (S := S128x4096) hz, View.ld_unit_zero (S := S1x4096) hz, View.ld_unit_zero (S := S4096x2048) hz, View.ld_unit_zero (S := S1x2048) hz]

end Cert.KernelIdeal.Region1

end
-- ==== Proof.Region1Points.lean ====
/-
  Layer 1, the three output buffers after each grid point.

  After the body at point `t` the first output buffer holds the tile of pre-activations computed from the point's
  blocks. The two running rows hold, at the first row tile of a column half, the zero row plus the tile's column sums
  (of the entries, of their squares); at any other point, what they held after the point before plus those sums.
-/
import proofs.«122919_j34694745817434_2_alg».proof.Proof.Region1Pieces

noncomputable section

open Idealize.ShloMosaic Idealize.ShloMosaic.TcCoe Idealize.SL.Sem

namespace Cert.KernelIdeal.Region1

open Cert.KernelIdeal Cert.KernelIdeal.Gen

variable {F : FTy → Type} [FloatOps F]
variable (V : (c : Dev nD) → (b : Ref sig .tc) → Buf (Elt F) ((c : Thread nD τ).loc b))

/-- At the first row tile of a column half. -/
theorem outsAt_A (c : Dev nD) (t : Fin cfg1.N) (h0 : t.val % 128 = 0) :
    outsAt1 V c t.val t.isLt
      = (k1_pay1 (k1_pay6 (iblk1 V c 2 t) (iblk1 V c 0 t) (iblk1 V c 1 t) (iblk1 V c 3 t) (iblk1 V c 4 t)) (iblk1 V c 5 t) (iblk1 V c 6 t),
         k1_pay2 (k1_pay6 (iblk1 V c 2 t) (iblk1 V c 0 t) (iblk1 V c 1 t) (iblk1 V c 3 t) (iblk1 V c 4 t)) (iblk1 V c 5 t) (iblk1 V c 6 t) (k1_pay4 (F := F)),
         k1_pay3 (k1_pay6 (iblk1 V c 2 t) (iblk1 V c 0 t) (iblk1 V c 1 t) (iblk1 V c 3 t) (iblk1 V c 4 t)) (iblk1 V c 5 t) (iblk1 V c 6 t) (k1_pay5 (F := F))) :=
  (outsAt1_A V c t h0).trans (congrArg₂ Prod.mk
    (out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
    (congrArg₂ Prod.mk
      (out_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
      (out_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))))

/-- At any other point: over what the point before left in the two running rows. -/
theorem outsAt_B (c : Dev nD) (t : Fin cfg1.N) (h0 : ¬t.val % 128 = 0) :
    outsAt1 V c t.val t.isLt
      = (k1_pay1 (k1_pay6 (iblk1 V c 2 t) (iblk1 V c 0 t) (iblk1 V c 1 t) (iblk1 V c 3 t) (iblk1 V c 4 t)) (iblk1 V c 5 t) (iblk1 V c 6 t),
         k1_pay2 (k1_pay6 (iblk1 V c 2 t) (iblk1 V c 0 t) (iblk1 V c 1 t) (iblk1 V c 3 t) (iblk1 V c 4 t)) (iblk1 V c 5 t) (iblk1 V c 6 t) (outsAt1 V c (t.val - 1) (Nat.lt_of_le_of_lt (Nat.sub_le _ _) t.isLt)).2.1,
         k1_pay3 (k1_pay6 (iblk1 V c 2 t) (iblk1 V c 0 t) (iblk1 V c 1 t) (iblk1 V c 3 t) (iblk1 V c 4 t)) (iblk1 V c 5 t) (iblk1 V c 6 t) (outsAt1 V c (t.val - 1) (Nat.lt_of_le_of_lt (Nat.sub_le _ _) t.isLt)).2.2) :=
  (outsAt1_B V c t h0).trans (congrArg₂ Prod.mk
    (out_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (out_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
      (out_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)))

end Cert.KernelIdeal.Region1

end
-- ==== Proof.Region1Blocks.lean ====
/-
  Layer 1, where each window's block sits in its array.

  The grid has 256 points; point `t` works on column half `t / 128` and row tile `t % 128`. At point `t` the tile of
  the previous layer's pre-activations is rows `128 (t % 128) …` of their array; the four rows of statistics, scale and
  shift are read whole; the weight block is columns `2048 (t / 128) …` of the weights, and the bias block the same
  columns of the bias row: an entry of a block is the entry of the array at the block's index times the block's size
  plus the coordinate inside the block, on each axis.
-/
import proofs.«122919_j34694745817434_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Region1

open Cert.KernelIdeal Cert.KernelIdeal.Gen

variable {F : FTy → Type} [FloatOps F]
variable (V : (c : Dev nD) → (b : Ref sig .tc) → Buf (Elt F) ((c : Thread nD τ).loc b))

/-! The block index of each of the ten windows at point `t`, on each axis, decided over the grid. -/
theorem idx1_0 : ∀ t : Fin cfg1.N, win1_0.index t (0 : Fin 2) = t.val % 128 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = t.val / 128 :=
  (by decide +kernel : ∀ t : Fin grid1.N, _)
theorem idx1_6 : ∀ t : Fin cfg1.N, win1_6.index t (0 : Fin 2) = 0 ∧ win1_6.index t (1 : Fin 2) = t.val / 128 :=
  (by decide +kernel : ∀ t : Fin grid1.N, _)
theorem idx1_7 : ∀ t : Fin cfg1.N, win1_7.index t (0 : Fin 2) = t.val % 128 ∧ win1_7.index t (1 : Fin 2) = t.val / 128 :=
  (by decide +kernel : ∀ t : Fin grid1.N, _)
theorem idx1_8 : ∀ t : Fin cfg1.N, win1_8.index t (0 : Fin 2) = 0 ∧ win1_8.index t (1 : Fin 2) = t.val / 128 :=
  (by decide +kernel : ∀ t : Fin grid1.N, _)
theorem idx1_9 : ∀ t : Fin cfg1.N, win1_9.index t (0 : Fin 2) = 0 ∧ win1_9.index t (1 : Fin 2) = t.val / 128 :=
  (by decide +kernel : ∀ t : Fin grid1.N, _)

/-- The tile of the previous layer's pre-activations at point `t`: row `p` of the tile is row `128 (t % 128) + p`. -/
theorem iblk_hp_apply (c : Dev nD) (t : Fin cfg1.N) (p : Fin 128) (k : Fin 4096) (r : Fin 16384)
    (hr : r.val = 128 * (t.val % 128) + p.val) :
    (iblk1 V c 0 t : Vec F S128x4096 .f32) (ix2 p k) = (V c main_v18_0 : S16384x4096.Idx → Elt F .f32) (ix2 r k) := by
  obtain ⟨e0, e1⟩ := idx1_0 t
  unfold iblk1
  rw [View.read_apply]
  show V c main_v18_0 _ = V c main_v18_0 _
  refine congrArg (V c main_v18_0) ?_
  funext a
  apply Fin.ext
  match a with
  | ⟨0, _⟩ => show win1_0.index t (0 : Fin 2) * 128 + 1 * p.val = r.val; rw [e0, hr]; omega
  | ⟨1, _⟩ => show win1_0.index t (1 : Fin 2) * 4096 + 1 * k.val = k.val; rw [e1]; omega

/-- The row of column means is read whole at every point. -/
theorem iblk_mu_apply (c : Dev nD) (t : Fin cfg1.N) (u : Fin 1) (k : Fin 4096) :
    (iblk1 V c 1 t : Vec F S1x4096 .f32) (ix2 u k) = (V c main_v20 : S1x4096.Idx → Elt F .f32) (ix2 (0 : Fin 1) k) := by
  obtain ⟨e0, e1⟩ := idx1_1 t
  unfold iblk1
  rw [View.read_apply]
  show V c main_v20 _ = V c main_v20 _
  refine congrArg (V c main_v20) ?_
  funext a
  apply Fin.ext
  match a with
  | ⟨0, _⟩ => show win1_1.index t (0 : Fin 2) * 1 + 1 * u.val = 0; rw [e0]; omega
  | ⟨1, _⟩ => show win1_1.index t (1 : Fin 2) * 4096 + 1 * k.val = k.val; rw [e1]; omega

/-- The row of column variances is read whole at every point. -/
theorem iblk_va_apply (c : Dev nD) (t : Fin cfg1.N) (u : Fin 1) (k : Fin 4096) :
    (iblk1 V c 2 t : Vec F S1x4096 .f32) (ix2 u k) = (V c main_v26 : S1x4096.Idx → Elt F .f32) (ix2 (0 : Fin 1) k) := by
  obtain ⟨e0, e1⟩ := idx1_2 t
  unfold iblk1
  rw [View.read_apply]
  show V c main_v26 _ = V c main_v26 _
  refine congrArg (V c main_v26) ?_
  funext a
  apply Fin.ext
  match a with
  | ⟨0, _⟩ => show win1_2.index t (0 : Fin 2) * 1 + 1 * u.val = 0; rw [e0]; omega
  | ⟨1, _⟩ => show win1_2.index t (1 : Fin 2) * 4096 + 1 * k.val = k.val; rw [e1]; omega

/-- The row of scales is read whole at every point. -/
theorem iblk_g_apply (c : Dev nD) (t : Fin cfg1.N) (u : Fin 1) (k : Fin 4096) :
    (iblk1 V c 3 t : Vec F S1x4096 .f32) (ix2 u k) = (V c main_v12 : S1x4096.Idx → Elt F .f32) (ix2 (0 : Fin 1) k) := by
  obtain ⟨e0, e1⟩ := idx1_3 t
  unfold iblk1
  rw [View.read_apply]
  show V c main_v12 _ = V c main_v12 _
  refine congrArg (V c main_v12) ?_
  funext a
  apply Fin.ext
  match a with
  | ⟨0, _⟩ => show win1_3.index t (0 : Fin 2) * 1 + 1 * u.val = 0; rw [e0]; omega
  | ⟨1, _⟩ => show win1_3.index t (1 : Fin 2) * 4096 + 1 * k.val = k.val; rw [e1]; omega

/-- The row of shifts is read whole at every point. -/
theorem iblk_be_apply (c : Dev nD) (t : Fin cfg1.N) (u : Fin 1) (k : Fin 4096) :
    (iblk1 V c 4 t : Vec F S1x4096 .f32) (ix2 u k) = (V c main_v13 : S1x4096.Idx → Elt F .f32) (ix2 (0 : Fin 1) k) := by
  obtain ⟨e0, e1⟩ := idx1_4 t
  unfold iblk1
  rw [View.read_apply]
  show V c main_v13 _ = V c main_v13 _
  refine congrArg (V c main_v13) ?_
  funext a
  apply Fin.ext
  match a with
  | ⟨0, _⟩ => show win1_4.index t (0 : Fin 2) * 1 + 1 * u.val = 0; rw [e0]; omega
  | ⟨1, _⟩ => show win1_4.index t (1 : Fin 2) * 4096 + 1 * k.val = k.val; rw [e1]; omega

/-- The weight block at point `t`: column `q` of the block is column `2048 (t / 128) + q` of the weights. -/
theorem iblk_w_apply (c : Dev nD) (t : Fin cfg1.N) (k : Fin 4096) (q : Fin 2048) (n : Fin 4096)
    (hn : n.val = 2048 * (t.val / 128) + q.val) :
    (iblk1 V c 5 t : Vec F S4096x2048 .bf16) (ix2 k q) = (V c main_v5 : S4096x4096.Idx → Elt F .bf16) (ix2 k n) := by
  obtain ⟨e0, e1⟩ := idx1_5 t
  unfold iblk1
  rw [View.read_apply]
  show V c main_v5 _ = V c main_v5 _
  refine congrArg (V c main_v5) ?_
  funext a
  apply Fin.ext
  match a with
  | ⟨0, _⟩ => show win1_5.index t (0 : Fin 2) * 4096 + 1 * k.val = k.val; rw [e0]; omega
  | ⟨1, _⟩ => show win1_5.index t (1 : Fin 2) * 2048 + 1 * q.val = n.val; rw [e1, hn]; omega

/-- The bias block at point `t`: column `q` of the block is column `2048 (t / 128) + q` of the bias row. -/
theorem iblk_b_apply (c : Dev nD) (t : Fin cfg1.N) (u : Fin 1) (q : Fin 2048) (n : Fin 4096)
    (hn : n.val = 2048 * (t.val / 128) + q.val) :
    (iblk1 V c 6 t : Vec F S1x2048 .f32) (ix2 u q) = (V c main_v10 : S1x4096.Idx → Elt F .f32) (ix2 (0 : Fin 1) n) := by
  obtain ⟨e0, e1⟩ := idx1_6 t
  unfold iblk1
  rw [View.read_apply]
  show V c main_v10 _ = V c main_v10 _
  refine congrArg (V c main_v10) ?_
  funext a
  apply Fin.ext
  match a with
  | ⟨0, _⟩ => show win1_6.index t (0 : Fin 2) * 1 + 1 * u.val = 0; rw [e0]; omega
  | ⟨1, _⟩ => show win1_6.index t (1 : Fin 2) * 2048 + 1 * q.val = n.val; rw [e1, hn]; omega

/-- Entry `(p, q)` of the first output's block at point `t` is entry `(128 (t % 128) + p, 2048 (t / 128) + q)` of its array. -/
theorem emb_7 (t : Fin cfg1.N) (p : Fin 128) (q : Fin 2048) (r : Fin 16384) (n : Fin 4096)
    (hr : r.val = 128 * (t.val % 128) + p.val) (hn : n.val = 2048 * (t.val / 128) + q.val) :
    (((cfg1.win 7).blk t).view.emb (ix2 p q : S128x2048.Idx) : S16384x4096.Idx) = ix2 r n := by
  obtain ⟨e0, e1⟩ := idx1_7 t
  funext a
  apply Fin.ext
  match a with
  | ⟨0, _⟩ => show win1_7.index t (0 : Fin 2) * 128 + 1 * p.val = r.val; rw [e0, hr]; omega
  | ⟨1, _⟩ => show win1_7.index t (1 : Fin 2) * 2048 + 1 * q.val = n.val; rw [e1, hn]; omega

/-- An index of the array lies in the block of window 7 at point `t` exactly when each coordinate lies in the
    block's range on its axis. -/
theorem mem_blk_7 (t : Fin cfg1.N) (i : S16384x4096.Idx) :
    i ∈ ((cfg1.win 7).blk t).view.set ↔ ∀ a : Fin 2, win1_7.index t a * S128x2048.size a ≤ (i a).val
      ∧ (i a).val < win1_7.index t a * S128x2048.size a + S128x2048.size a := by
  show i ∈ ((View.whole main_v27_0).slice (win1_7.rect t)).set ↔ _
  rw [View.set_slice_whole, Rect.mem_set_unit]
  exact Iff.rfl

/-- Entry `(0, q)` of the first running row's block at point `t` is entry `(0, 2048 (t / 128) + q)` of its array. -/
theorem emb_8 (t : Fin cfg1.N) (p : Fin 1) (q : Fin 2048) (r : Fin 1) (n : Fin 4096)
    (hr : r.val = 0) (hn : n.val = 2048 * (t.val / 128) + q.val) :
    (((cfg1.win 8).blk t).view.emb (ix2 p q : S1x2048.Idx) : S1x4096.Idx) = ix2 r n := by
  obtain ⟨e0, e1⟩ := idx1_8 t
  funext a
  apply Fin.ext
  match a with
  | ⟨0, _⟩ => show win1_8.index t (0 : Fin 2) * 1 + 1 * p.val = r.val; rw [e0, hr]; omega
  | ⟨1, _⟩ => show win1_8.index t (1 : Fin 2) * 2048 + 1 * q.val = n.val; rw [e1, hn]; omega

/-- An index of the array lies in the block of window 8 at point `t` exactly when each coordinate lies in the
    block's range on its axis. -/
theorem mem_blk_8 (t : Fin cfg1.N) (i : S1x4096.Idx) :
    i ∈ ((cfg1.win 8).blk t).view.set ↔ ∀ a : Fin 2, win1_8.index t a * S1x2048.size a ≤ (i a).val
      ∧ (i a).val < win1_8.index t a * S1x2048.size a + S1x2048.size a := by
  show i ∈ ((View.whole main_v27_1).slice (win1_8.rect t)).set ↔ _
  rw [View.set_slice_whole, Rect.mem_set_unit]
  exact Iff.rfl

/-- Entry `(0, q)` of the second running row's block at point `t` is entry `(0, 2048 (t / 128) + q)` of its array. -/
theorem emb_9 (t : Fin cfg1.N) (p : Fin 1) (q : Fin 2048) (r : Fin 1) (n : Fin 4096)
    (hr : r.val = 0) (hn : n.val = 2048 * (t.val / 128) + q.val) :
    (((cfg1.win 9).blk t).view.emb (ix2 p q : S1x2048.Idx) : S1x4096.Idx) = ix2 r n := by
  obtain ⟨e0, e1⟩ := idx1_9 t
  funext a
  apply Fin.ext
  match a with
  | ⟨0, _⟩ => show win1_9.index t (0 : Fin 2) * 1 + 1 * p.val = r.val; rw [e0, hr]; omega
  | ⟨1, _⟩ => show win1_9.index t (1 : Fin 2) * 2048 + 1 * q.val = n.val; rw [e1, hn]; omega

/-- An index of the array lies in the block of window 9 at point `t` exactly when each coordinate lies in the
    block's range on its axis. -/
theorem mem_blk_9 (t : Fin cfg1.N) (i : S1x4096.Idx) :
    i ∈ ((cfg1.win 9).blk t).view.set ↔ ∀ a : Fin 2, win1_9.index t a * S1x2048.size a ≤ (i a).val
      ∧ (i a).val < win1_9.index t a * S1x2048.size a + S1x2048.size a := by
  show i ∈ ((View.whole main_v27_2).slice (win1_9.rect t)).set ↔ _
  rw [View.set_slice_whole, Rect.mem_set_unit]
  exact Iff.rfl

end Cert.KernelIdeal.Region1

end
-- ==== Proof.Region1Acc.lean ====
/-
  Layer 1, the running rows are partial column sums of the layer's pre-activations.

  Write `A r k` for the activation of row `r` and feature `k` fed to this layer's product,

      A r k = sign (clip (((hp (r, k) − mu (0, k)) · rsqrt (va (0, k) + ε)) · g (0, k) + be (0, k))),

  and `H r n` for the layer's pre-activation, `H r n = ∑ₖ A r k · w (k, n) + b (0, n)`. The tile computed at point
  `t` is `H` on rows `128 (t % 128) + p` and columns `2048 (t / 128) + q`. So after point `t` the first running row
  holds, at column `q`, the sum of `H r n` over the rows `r` below `128 (t % 128 + 1)`, and the second the sum of
  `H r n · H r n` over the same rows: at the first row tile the row is the zero row plus block 0 of the rows, and each
  later point adds the next block of 128 rows (addition of extended reals is associative and commutative, so the
  partial sums may be taken block by block).
-/
import proofs.«122919_j34694745817434_2_alg».proof.Proof.Region1Pay
import proofs.«122919_j34694745817434_2_alg».proof.Proof.Region1Points
import proofs.«122919_j34694745817434_2_alg».proof.Proof.Region1Blocks
import proofs.«122919_j34694745817434_2_alg».proof.Proof.LibBlockedSum

open scoped BigOperators

noncomputable section

open Idealize.ShloMosaic Idealize.ShloMosaic.TcCoe Idealize.SL.Sem Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- The arrays the region finds, as functions of literal index types: the previous layer's pre-activations, their
    column means and variances, the scale and shift rows, the weights and the bias row. -/
abbrev Hp (c : Dev nD) : S16384x4096.Idx → EReal := V c main_v18_0
abbrev Mu (c : Dev nD) : S1x4096.Idx → EReal := V c main_v20
abbrev Va (c : Dev nD) : S1x4096.Idx → EReal := V c main_v26
abbrev Ga (c : Dev nD) : S1x4096.Idx → EReal := V c main_v12
abbrev Be (c : Dev nD) : S1x4096.Idx → EReal := V c main_v13
abbrev Wt (c : Dev nD) : S4096x4096.Idx → EReal := V c main_v5
abbrev Bb (c : Dev nD) : S1x4096.Idx → EReal := V c main_v10

/-- The activation fed to the layer's product at row `r`, feature `k`, from the arrays the region finds. -/
def A (c : Dev nD) (r : Fin 16384) (k : Fin 4096) : EReal :=
  Ideal.sign (Cert.Net.clip
    (((Hp V c (ix2 r k) - Mu V c (ix2 (0 : Fin 1) k)) * Ideal.rsqrt (Va V c (ix2 (0 : Fin 1) k) + Cert.Net.eps))
      * Ga V c (ix2 (0 : Fin 1) k) + Be V c (ix2 (0 : Fin 1) k)))

/-- The layer's pre-activation at row `r`, output column `n`. -/
def H (c : Dev nD) (r : Fin 16384) (n : Fin 4096) : EReal :=
  (∑ k : Fin 4096, A V c r k * Wt V c (ix2 k n)) + Bb V c (ix2 (0 : Fin 1) n)

/-- The tile of activations at point `t` is `A` on the point's rows. -/
theorem act_blocks (c : Dev nD) (t : Fin cfg1.N) (p : Fin 128) (k : Fin 4096) (r : Fin 16384)
    (hr : r.val = 128 * (t.val % 128) + p.val) :
    (k1_pay6 (iblk1 V c 2 t) (iblk1 V c 0 t) (iblk1 V c 1 t) (iblk1 V c 3 t) (iblk1 V c 4 t)) (ix2 p k) = A V c r k := by
  refine (pay6_apply (iblk1 V c 2 t) (iblk1 V c 0 t) (iblk1 V c 1 t) (iblk1 V c 3 t) (iblk1 V c 4 t) p k).trans ?_
  unfold act norm A
  rw [iblk_hp_apply V c t p k r hr, iblk_mu_apply V c t (0 : Fin 1) k, iblk_va_apply V c t (0 : Fin 1) k,
    iblk_g_apply V c t (0 : Fin 1) k, iblk_be_apply V c t (0 : Fin 1) k]

/-- The tile at point `t` is `H` on the point's rows and columns. -/
theorem tile_blocks (c : Dev nD) (t : Fin cfg1.N) (p : Fin 128) (q : Fin 2048) (r : Fin 16384) (n : Fin 4096)
    (hr : r.val = 128 * (t.val % 128) + p.val) (hn : n.val = 2048 * (t.val / 128) + q.val) :
    tile (k1_pay6 (iblk1 V c 2 t) (iblk1 V c 0 t) (iblk1 V c 1 t) (iblk1 V c 3 t) (iblk1 V c 4 t)) (iblk1 V c 5 t) (iblk1 V c 6 t) p q = H V c r n := by
  unfold tile H
  refine congrArg₂ (· + ·) (Finset.sum_congr rfl fun k _ => ?_) ?_
  · exact congrArg₂ (· * ·) (act_blocks V c t p k r hr) (iblk_w_apply V c t k q n hn)
  · exact iblk_b_apply V c t (0 : Fin 1) q n hn

/-- The sum of `f` over the rows below `128 m`. -/
def below (m : ℕ) (f : Fin 16384 → EReal) : EReal :=
  ∑ i ∈ Finset.univ.filter (fun i : Fin 16384 => i.val < 128 * m), f i

theorem below_zero (f : Fin 16384 → EReal) : below 0 f = 0 := Cert.LibBlockedSum.sum_lt_zero 128 f

theorem below_succ (m : ℕ) (h : 128 * (m + 1) ≤ 16384) (f : Fin 16384 → EReal) :
    below (m + 1) f = below m f + ∑ j : Fin 128, f ⟨128 * m + j.val, Cert.LibBlockedSum.block_lt h j⟩ :=
  Cert.LibBlockedSum.sum_lt_succ 128 m h f

theorem below_all (f : Fin 16384 → EReal) : below 128 f = ∑ i, f i :=
  Cert.LibBlockedSum.sum_lt_all 128 128 (by norm_num) f

/-- A point's row tile lies inside the 16384 rows. -/
theorem tile_le (t : Fin cfg1.N) : 128 * (t.val % 128 + 1) ≤ 16384 := by
  have := Nat.mod_lt t.val (show 0 < 128 by norm_num); omega

/-- The column sums of the tile at point `t` are the sums of `H` over block `t % 128` of the rows. -/
theorem tile_sum (c : Dev nD) (t : Fin cfg1.N) (q : Fin 2048) (n : Fin 4096) (hn : n.val = 2048 * (t.val / 128) + q.val) :
    ∑ p : Fin 128, tile (k1_pay6 (iblk1 V c 2 t) (iblk1 V c 0 t) (iblk1 V c 1 t) (iblk1 V c 3 t) (iblk1 V c 4 t)) (iblk1 V c 5 t) (iblk1 V c 6 t) p q
      = ∑ j : Fin 128, H V c ⟨128 * (t.val % 128) + j.val, Cert.LibBlockedSum.block_lt (tile_le t) j⟩ n :=
  Finset.sum_congr rfl fun p _ =>
    tile_blocks V c t p q ⟨128 * (t.val % 128) + p.val, Cert.LibBlockedSum.block_lt (tile_le t) p⟩ n rfl hn

theorem tile_sumsq (c : Dev nD) (t : Fin cfg1.N) (q : Fin 2048) (n : Fin 4096) (hn : n.val = 2048 * (t.val / 128) + q.val) :
    ∑ p : Fin 128, tile (k1_pay6 (iblk1 V c 2 t) (iblk1 V c 0 t) (iblk1 V c 1 t) (iblk1 V c 3 t) (iblk1 V c 4 t)) (iblk1 V c 5 t) (iblk1 V c 6 t) p q * tile (k1_pay6 (iblk1 V c 2 t) (iblk1 V c 0 t) (iblk1 V c 1 t) (iblk1 V c 3 t) (iblk1 V c 4 t)) (iblk1 V c 5 t) (iblk1 V c 6 t) p q
      = ∑ j : Fin 128, H V c ⟨128 * (t.val % 128) + j.val, Cert.LibBlockedSum.block_lt (tile_le t) j⟩ n
          * H V c ⟨128 * (t.val % 128) + j.val, Cert.LibBlockedSum.block_lt (tile_le t) j⟩ n :=
  Finset.sum_congr rfl fun p _ => by
    rw [tile_blocks V c t p q ⟨128 * (t.val % 128) + p.val, Cert.LibBlockedSum.block_lt (tile_le t) p⟩ n rfl hn]

/-- What the two running rows hold after point `t`, as a statement about column `q` of the block. -/
def SumsAt (c : Dev nD) (k : ℕ) (hk : k < cfg1.N) (m : ℕ) (q : Fin 2048) (n : Fin 4096) : Prop :=
  (outsAt1 V c k hk).2.1 (ix2 (0 : Fin 1) q) = below m (fun r => H V c r n)
    ∧ (outsAt1 V c k hk).2.2 (ix2 (0 : Fin 1) q) = below m (fun r => H V c r n * H V c r n)

/-- At the first row tile of a column half: block 0 of the rows. -/
theorem sums_A (c : Dev nD) (t : Fin cfg1.N) (h0 : t.val % 128 = 0) (q : Fin 2048) (n : Fin 4096)
    (hn : n.val = 2048 * (t.val / 128) + q.val) : SumsAt V c t.val t.isLt (t.val % 128 + 1) q n := by
  unfold SumsAt
  rw [outsAt_A V c t h0]
  refine ⟨(pay2_apply (k1_pay6 (iblk1 V c 2 t) (iblk1 V c 0 t) (iblk1 V c 1 t) (iblk1 V c 3 t) (iblk1 V c 4 t)) (iblk1 V c 5 t) (iblk1 V c 6 t) _ q).trans ?_, (pay3_apply (k1_pay6 (iblk1 V c 2 t) (iblk1 V c 0 t) (iblk1 V c 1 t) (iblk1 V c 3 t) (iblk1 V c 4 t)) (iblk1 V c 5 t) (iblk1 V c 6 t) _ q).trans ?_⟩
  · have hz : below (t.val % 128) (fun r => H V c r n) = 0 := by rw [h0]; exact below_zero _
    rw [pay4_apply, zero_add, tile_sum V c t q n hn, below_succ _ (tile_le t), hz, zero_add]
  · have hz : below (t.val % 128) (fun r => H V c r n * H V c r n) = 0 := by rw [h0]; exact below_zero _
    rw [pay5_apply, zero_add, tile_sumsq V c t q n hn, below_succ _ (tile_le t), hz, zero_add]

/-- At any other point: one more block of rows on top of what the point before left. -/
theorem sums_B (c : Dev nD) (t : Fin cfg1.N) (h0 : ¬t.val % 128 = 0) (q : Fin 2048) (n : Fin 4096)
    (hn : n.val = 2048 * (t.val / 128) + q.val)
    (ih : SumsAt V c (t.val - 1) (Nat.lt_of_le_of_lt (Nat.sub_le _ _) t.isLt) (t.val % 128) q n) :
    SumsAt V c t.val t.isLt (t.val % 128 + 1) q n := by
  unfold SumsAt at ih ⊢
  rw [outsAt_B V c t h0]
  refine ⟨(pay2_apply (k1_pay6 (iblk1 V c 2 t) (iblk1 V c 0 t) (iblk1 V c 1 t) (iblk1 V c 3 t) (iblk1 V c 4 t)) (iblk1 V c 5 t) (iblk1 V c 6 t) _ q).trans ?_, (pay3_apply (k1_pay6 (iblk1 V c 2 t) (iblk1 V c 0 t) (iblk1 V c 1 t) (iblk1 V c 3 t) (iblk1 V c 4 t)) (iblk1 V c 5 t) (iblk1 V c 6 t) _ q).trans ?_⟩
  · rw [ih.1, tile_sum V c t q n hn, below_succ _ (tile_le t)]
  · rw [ih.2, tile_sumsq V c t q n hn, below_succ _ (tile_le t)]

/-- After every point `k`: the rows below `128 (k % 128 + 1)`, in the columns of half `k / 128`. -/
theorem sums_at (c : Dev nD) : ∀ (k : ℕ) (hk : k < cfg1.N) (q : Fin 2048) (n : Fin 4096),
    n.val = 2048 * (k / 128) + q.val → SumsAt V c k hk (k % 128 + 1) q n
  | 0, hk, q, n, hn => sums_A V c ⟨0, hk⟩ rfl q n hn
  | k + 1, hk, q, n, hn => by
    by_cases h0 : (k + 1) % 128 = 0
    · exact sums_A V c ⟨k + 1, hk⟩ h0 q n hn
    · have e : k % 128 + 1 = (k + 1) % 128 := by omega
      have hn' : n.val = 2048 * (k / 128) + q.val := by
        have : k / 128 = (k + 1) / 128 := by omega
        rw [this]; exact hn
      have ih := sums_at c k (Nat.lt_of_succ_lt hk) q n hn'
      rw [e] at ih
      exact sums_B V c ⟨k + 1, hk⟩ h0 q n hn ih

/-- After the last row tile of a column half the two running rows hold the full column sums. -/
theorem sums_last (c : Dev nD) (t : Fin cfg1.N) (h127 : t.val % 128 = 127) (q : Fin 2048) (n : Fin 4096)
    (hn : n.val = 2048 * (t.val / 128) + q.val) :
    (outsAt1 V c t.val t.isLt).2.1 (ix2 (0 : Fin 1) q) = ∑ r : Fin 16384, H V c r n
      ∧ (outsAt1 V c t.val t.isLt).2.2 (ix2 (0 : Fin 1) q) = ∑ r : Fin 16384, H V c r n * H V c r n := by
  have h := sums_at V c t.val t.isLt q n hn
  unfold SumsAt at h
  rw [h127] at h
  exact ⟨h.1.trans (below_all _), h.2.trans (below_all _)⟩

/-- After every point the first output buffer holds the tile of `H`. -/
theorem pre_at (c : Dev nD) (t : Fin cfg1.N) (p : Fin 128) (q : Fin 2048) (r : Fin 16384) (n : Fin 4096)
    (hr : r.val = 128 * (t.val % 128) + p.val) (hn : n.val = 2048 * (t.val / 128) + q.val) :
    (outsAt1 V c t.val t.isLt).1 (ix2 p q) = H V c r n := by
  by_cases h0 : t.val % 128 = 0
  · rw [outsAt_A V c t h0]
    exact (pay1_apply (k1_pay6 (iblk1 V c 2 t) (iblk1 V c 0 t) (iblk1 V c 1 t) (iblk1 V c 3 t) (iblk1 V c 4 t)) (iblk1 V c 5 t) (iblk1 V c 6 t) p q).trans (tile_blocks V c t p q r n hr hn)
  · rw [outsAt_B V c t h0]
    exact (pay1_apply (k1_pay6 (iblk1 V c 2 t) (iblk1 V c 0 t) (iblk1 V c 1 t) (iblk1 V c 3 t) (iblk1 V c 4 t)) (iblk1 V c 5 t) (iblk1 V c 6 t) p q).trans (tile_blocks V c t p q r n hr hn)

end Cert.KernelIdeal.Region1

end
-- ==== Proof.Region1Arrays.lean ====
/-
  Layer 1, what the three output arrays hold when the region ends.

  Every point writes its tile of pre-activations back to block `(t % 128, t / 128)` of the first output array; the
  blocks tile the array, so it ends holding `H r n` at every `(r, n)`. The two running rows are written back only
  after the last row tile of a column half (`t % 128 = 127`), when they hold the sums over all 16384 rows; the two
  column halves tile the row, so the second array ends holding `∑ᵣ H r n` and the third `∑ᵣ H r n · H r n`.
-/
import proofs.«122919_j34694745817434_2_alg».proof.Proof.Region1Acc
import Idealize.ShloMosaic.Lib.Pipeline.Value

open scoped BigOperators

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The three arrays' final contents, as functions of an index. -/
def G7 (c : Dev nD) : S16384x4096.Idx → EReal := fun i => H V c ⟨(i 0).val, (i 0).isLt⟩ ⟨(i 1).val, (i 1).isLt⟩
def G8 (c : Dev nD) : S1x4096.Idx → EReal := fun i => ∑ r : Fin 16384, H V c r ⟨(i 1).val, (i 1).isLt⟩
def G9 (c : Dev nD) : S1x4096.Idx → EReal :=
  fun i => ∑ r : Fin 16384, H V c r ⟨(i 1).val, (i 1).isLt⟩ * H V c r ⟨(i 1).val, (i 1).isLt⟩

theorem cfgN : cfg1.N = 256 := N_1

/-- Reading any contents of a running row's array through the block at point `t` reads them at the block's entries. -/
theorem read_blk_8 (G : S1x4096.Idx → EReal) (t : Fin cfg1.N) (j : S1x2048.Idx) :
    (((cfg1.win 8).blk t).view.read (Elt Ideal) G : S1x2048.Idx → EReal) j = G (((cfg1.win 8).blk t).view.emb j) := rfl
theorem read_blk_9 (G : S1x4096.Idx → EReal) (t : Fin cfg1.N) (j : S1x2048.Idx) :
    (((cfg1.win 9).blk t).view.read (Elt Ideal) G : S1x2048.Idx → EReal) j = G (((cfg1.win 9).blk t).view.emb j) := rfl

theorem G8_apply (c : Dev nD) (n : Fin 4096) : G8 V c (ix2 (0 : Fin 1) n) = ∑ r : Fin 16384, H V c r n :=
  Finset.sum_congr rfl fun _ _ => rfl
theorem G9_apply (c : Dev nD) (n : Fin 4096) :
    G9 V c (ix2 (0 : Fin 1) n) = ∑ r : Fin 16384, H V c r n * H V c r n :=
  Finset.sum_congr rfl fun _ _ => rfl

/-! ## The pre-activations -/

/-- What point `t` writes back to the first output array is its block of `G7`. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  funext j
  obtain ⟨p, q, rfl⟩ : ∃ (p : Fin 128) (q : Fin 2048), j = (ix2 p q : S128x2048.Idx) :=
    ⟨_, _, eq_ix2 (n0 := 128) (n1 := 2048) j⟩
  have hr : 128 * (t.val % 128) + p.val < 16384 := by have := Nat.mod_lt t.val (show 0 < 128 by norm_num); omega
  have hn : 2048 * (t.val / 128) + q.val < 4096 := by have := lt_of_lt_of_eq t.isLt cfgN; omega
  show (outsAt1 V c t.val t.isLt).1 (ix2 p q) = G7 V c (((cfg1.win 7).blk t).view.emb (ix2 p q : S128x2048.Idx))
  rw [emb_7 t p q ⟨_, hr⟩ ⟨_, hn⟩ rfl rfl]
  exact pre_at V c t p q ⟨_, hr⟩ ⟨_, hn⟩ rfl rfl

/-- Every entry of the first output array lies in some point's block. -/
theorem cover7 (i : S16384x4096.Idx) :
    ∃ t : Fin cfg1.N, (cfg1.win 7).flush t = true ∧ i ∈ ((cfg1.win 7).blk t).view.set := by
  have hi0 : (i 0).val < 16384 := (i 0).isLt
  have hi1 : (i 1).val < 4096 := (i 1).isLt
  have ht : 128 * ((i 1).val / 2048) + (i 0).val / 128 < cfg1.N := by rw [cfgN]; omega
  refine ⟨⟨_, ht⟩, flush1_7 _, ?_⟩
  obtain ⟨e0, e1⟩ := idx1_7 ⟨_, ht⟩
  rw [mem_blk_7]
  intro a
  match a with
  | ⟨0, _⟩ =>
    show win1_7.index ⟨_, ht⟩ (0 : Fin 2) * 128 ≤ (i 0).val ∧ (i 0).val < win1_7.index ⟨_, ht⟩ (0 : Fin 2) * 128 + 128
    rw [e0]; dsimp only; omega
  | ⟨1, _⟩ =>
    show win1_7.index ⟨_, ht⟩ (1 : Fin 2) * 2048 ≤ (i 1).val ∧ (i 1).val < win1_7.index ⟨_, ht⟩ (1 : Fin 2) * 2048 + 2048
    rw [e1]; dsimp only; omega

/-- The first output array ends holding the layer's pre-activations. -/
theorem final7 (c : Dev nD) : (dat1 V c).arrAt 7 cfg1.N = G7 V c :=
  (dat1 V c).arrAt_eq_of_cover 7 (G7 V c) (fun t _ => flushed7_eq V c t) cover7

theorem pre_eq (c : Dev nD) (r : Fin 16384) (n : Fin 4096) :
    ((dat1 V c).arrAt 7 cfg1.N : S16384x4096.Idx → EReal) (ix2 r n) = H V c r n :=
  congrFun (final7 V c) (ix2 r n)

/-! ## The column sums -/

/-- What a point that ends a column half writes back to the second array is its block of `G8`. -/
theorem flushed8_eq (c : Dev nD) (t : Fin cfg1.N) (hf : (cfg1.win 8).flush t = true) :
    (dat1 V c).flushed 8 t = ((cfg1.win 8).blk t).view.read (Elt Ideal) (G8 V c) := by
  have h127 : t.val % 128 = 127 := (flush1_8 t).mp hf
  show (cfg1.win 8).cut (grid1.coords t) ((dat1 V c).after 8 t) = _
  rw [after1_8]
  funext j
  obtain ⟨u, q, rfl⟩ : ∃ (u : Fin 1) (q : Fin 2048), j = (ix2 u q : S1x2048.Idx) :=
    ⟨_, _, eq_ix2 (n0 := 1) (n1 := 2048) j⟩
  obtain rfl : u = 0 := Subsingleton.elim _ _
  have hn : 2048 * (t.val / 128) + q.val < 4096 := by have := lt_of_lt_of_eq t.isLt cfgN; omega
  show (outsAt1 V c t.val t.isLt).2.1 (ix2 (0 : Fin 1) q) = _
  refine Eq.trans ?_ (read_blk_8 (G8 V c) t (ix2 (0 : Fin 1) q)).symm
  rw [emb_8 t 0 q 0 ⟨_, hn⟩ rfl rfl, G8_apply]
  exact (sums_last V c t h127 q ⟨_, hn⟩ rfl).1

/-- Every entry of the second array lies in the block of the point that ends its column half. -/
theorem cover8 (i : S1x4096.Idx) :
    ∃ t : Fin cfg1.N, (cfg1.win 8).flush t = true ∧ i ∈ ((cfg1.win 8).blk t).view.set := by
  have hi0 : (i 0).val < 1 := (i 0).isLt
  have hi1 : (i 1).val < 4096 := (i 1).isLt
  have ht : 128 * ((i 1).val / 2048) + 127 < cfg1.N := by rw [cfgN]; omega
  refine ⟨⟨_, ht⟩, (flush1_8 _).mpr (by dsimp only; omega), ?_⟩
  obtain ⟨e0, e1⟩ := idx1_8 ⟨_, ht⟩
  rw [mem_blk_8]
  intro a
  match a with
  | ⟨0, _⟩ =>
    show win1_8.index ⟨_, ht⟩ (0 : Fin 2) * 1 ≤ (i 0).val ∧ (i 0).val < win1_8.index ⟨_, ht⟩ (0 : Fin 2) * 1 + 1
    rw [e0]; omega
  | ⟨1, _⟩ =>
    show win1_8.index ⟨_, ht⟩ (1 : Fin 2) * 2048 ≤ (i 1).val ∧ (i 1).val < win1_8.index ⟨_, ht⟩ (1 : Fin 2) * 2048 + 2048
    rw [e1]; dsimp only; omega

/-- The second array ends holding the column sums of the pre-activations. -/
theorem final8 (c : Dev nD) : (dat1 V c).arrAt 8 cfg1.N = G8 V c :=
  (dat1 V c).arrAt_eq_of_cover 8 (G8 V c) (flushed8_eq V c) cover8

theorem sum_eq (c : Dev nD) (n : Fin 4096) :
    ((dat1 V c).arrAt 8 cfg1.N : S1x4096.Idx → EReal) (ix2 (0 : Fin 1) n) = ∑ r : Fin 16384, H V c r n :=
  (congrFun (final8 V c) (ix2 (0 : Fin 1) n)).trans (G8_apply V c n)

/-! ## The column sums of squares -/

/-- What a point that ends a column half writes back to the third array is its block of `G9`. -/
theorem flushed9_eq (c : Dev nD) (t : Fin cfg1.N) (hf : (cfg1.win 9).flush t = true) :
    (dat1 V c).flushed 9 t = ((cfg1.win 9).blk t).view.read (Elt Ideal) (G9 V c) := by
  have h127 : t.val % 128 = 127 := (flush1_9 t).mp hf
  show (cfg1.win 9).cut (grid1.coords t) ((dat1 V c).after 9 t) = _
  rw [after1_9]
  funext j
  obtain ⟨u, q, rfl⟩ : ∃ (u : Fin 1) (q : Fin 2048), j = (ix2 u q : S1x2048.Idx) :=
    ⟨_, _, eq_ix2 (n0 := 1) (n1 := 2048) j⟩
  obtain rfl : u = 0 := Subsingleton.elim _ _
  have hn : 2048 * (t.val / 128) + q.val < 4096 := by have := lt_of_lt_of_eq t.isLt cfgN; omega
  show (outsAt1 V c t.val t.isLt).2.2 (ix2 (0 : Fin 1) q) = _
  refine Eq.trans ?_ (read_blk_9 (G9 V c) t (ix2 (0 : Fin 1) q)).symm
  rw [emb_9 t 0 q 0 ⟨_, hn⟩ rfl rfl, G9_apply]
  exact (sums_last V c t h127 q ⟨_, hn⟩ rfl).2

/-- Every entry of the third array lies in the block of the point that ends its column half. -/
theorem cover9 (i : S1x4096.Idx) :
    ∃ t : Fin cfg1.N, (cfg1.win 9).flush t = true ∧ i ∈ ((cfg1.win 9).blk t).view.set := by
  have hi0 : (i 0).val < 1 := (i 0).isLt
  have hi1 : (i 1).val < 4096 := (i 1).isLt
  have ht : 128 * ((i 1).val / 2048) + 127 < cfg1.N := by rw [cfgN]; omega
  refine ⟨⟨_, ht⟩, (flush1_9 _).mpr (by dsimp only; omega), ?_⟩
  obtain ⟨e0, e1⟩ := idx1_9 ⟨_, ht⟩
  rw [mem_blk_9]
  intro a
  match a with
  | ⟨0, _⟩ =>
    show win1_9.index ⟨_, ht⟩ (0 : Fin 2) * 1 ≤ (i 0).val ∧ (i 0).val < win1_9.index ⟨_, ht⟩ (0 : Fin 2) * 1 + 1
    rw [e0]; omega
  | ⟨1, _⟩ =>
    show win1_9.index ⟨_, ht⟩ (1 : Fin 2) * 2048 ≤ (i 1).val ∧ (i 1).val < win1_9.index ⟨_, ht⟩ (1 : Fin 2) * 2048 + 2048
    rw [e1]; dsimp only; omega

/-- The third array ends holding the column sums of the squared pre-activations. -/
theorem final9 (c : Dev nD) : (dat1 V c).arrAt 9 cfg1.N = G9 V c :=
  (dat1 V c).arrAt_eq_of_cover 9 (G9 V c) (flushed9_eq V c) cover9

theorem sumsq_eq (c : Dev nD) (n : Fin 4096) :
    ((dat1 V c).arrAt 9 cfg1.N : S1x4096.Idx → EReal) (ix2 (0 : Fin 1) n) = ∑ r : Fin 16384, H V c r n * H V c r n :=
  (congrFun (final9 V c) (ix2 (0 : Fin 1) n)).trans (G9_apply V c n)

end Cert.KernelIdeal.Region1

end
-- ==== Proof.Region1.lean ====
/-
  Layer 1 of the kernel program, read as mathematics: when the second region ends, its first output array holds the
  layer's pre-activations `H r n = ∑ₖ A r k · w (k, n) + b (0, n)`, where `A r k` is the sign of the clamped,
  normalised, scaled and shifted pre-activation of the layer before; its second output array holds the column sums
  `∑ᵣ H r n` and its third the column sums of squares `∑ᵣ H r n · H r n` (`Region1.pre_eq`, `sum_eq`, `sumsq_eq`),
  for any contents `V` of the buffers at the region's entry.
-/
import proofs.«122919_j34694745817434_2_alg».proof.Proof.Region1Arrays
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.NetLaws.lean ====
/-
  Laws of the network's scalar and column functions over the extended reals.

  The five constants are the reals 16384, (a positive real near 1e-5), 1, -1 and 0.  The two spellings of the
  sign agree with the order-theoretic sign: the one written with a comparison of the absolute value at every
  extended real, the one written "value plus (sign minus value)" at every real number (at an infinity the
  subtraction does not cancel).  Signs and clamped values are real numbers whatever their argument, so every
  binarized linear layer on real data has real entries.  For a column of real numbers x₁ … x_R with R = 16384
  and mean μ = (∑ xᵢ)/R,
      (∑ (xᵢ - μ)²)/R = (∑ xᵢ²)/R - μ²,
  because ∑ (xᵢ - μ)² = ∑ xᵢ² - 2μ ∑ xᵢ + R μ² and ∑ xᵢ = R μ; the left side is a mean of squares, hence
  nonnegative, so clamping the right side below at zero changes nothing.
-/
import proofs.«122919_j34694745817434_2_alg».proof.Proof.Net
import proofs.«122919_j34694745817434_2_alg».proof.Proof.LibReal
import Idealize.ShloMosaic.PureOps.Ideal.Laws
import Mathlib.Tactic

open scoped BigOperators

noncomputable section

namespace Cert.Net

open Idealize.ShloMosaic Cert.LibReal

/-! ## The constants -/

theorem cnt_eq : cnt = ((16384 : ℝ) : EReal) := by
  simp [cnt, Ideal.ofBits, Ideal.ieee, -EReal.coe_mul]; norm_num

theorem zero_eq : zero = 0 := by
  simp [zero, Ideal.ofBits, Ideal.ieee, -EReal.coe_mul]

theorem one_eq : one = ((1 : ℝ) : EReal) := by
  simp [one, Ideal.ofBits, Ideal.ieee, -EReal.coe_mul]; norm_num

theorem negOne_eq : negOne = ((-1 : ℝ) : EReal) := by
  simp [negOne, Ideal.ofBits, Ideal.ieee, -EReal.coe_mul]; norm_num

theorem eps_real : ∃ e : ℝ, 0 < e ∧ eps = (e : EReal) := by
  refine ⟨(2 ^ 23 + 2606508 : ℕ) * (2 : ℝ) ^ ((110 : ℤ) - 127 - 23), by positivity, ?_⟩
  simp [eps, Ideal.ofBits, Ideal.ieee, -EReal.coe_mul]

theorem eps_pos : 0 < eps := by
  obtain ⟨e, he, h⟩ := eps_real
  rw [h]; exact_mod_cast he

theorem one_eq' : one = 1 := by rw [one_eq, EReal.coe_one]

theorem negOne_eq' : negOne = -1 := by rw [negOne_eq, EReal.coe_neg, EReal.coe_one]

/-! ## The sign, in its two spellings -/

/-- The sign written with a comparison of the absolute value is the order-theoretic sign, at every extended
    real: the absolute value max x (-x) is positive exactly off zero, and at zero the value itself is the sign. -/
theorem signK_eq (x : EReal) : signK x = Ideal.sign x := by
  unfold signK
  rw [negOne_eq', one_eq']
  by_cases hlt : x < 0
  · rw [if_pos ((Ideal.zero_lt_max_neg_iff x).mpr hlt.ne), if_pos hlt, Ideal.sign_of_neg hlt]
  · by_cases hgt : 0 < x
    · rw [if_pos ((Ideal.zero_lt_max_neg_iff x).mpr hgt.ne'), if_neg hlt, Ideal.sign_of_pos hgt]
    · have h0 : x = 0 := le_antisymm (not_lt.mp hgt) (not_lt.mp hlt)
      subst h0
      rw [if_neg (fun h => (Ideal.zero_lt_max_neg_iff 0).mp h rfl), Ideal.sign_zero]

/-- The sign of any extended real is a real number (one of -1, 0, 1). -/
theorem isReal_sign (x : EReal) : IsReal (Ideal.sign x) := by
  induction x using EReal.rec with
  | bot => exact ⟨-1, by rw [Ideal.sign_bot, EReal.coe_neg, EReal.coe_one]⟩
  | top => exact ⟨1, by rw [Ideal.sign_top, EReal.coe_one]⟩
  | coe r => exact ⟨_, Ideal.sign_coe r⟩

/-- For a real number x, x + (s - x) = s with s the sign: the reference's spelling of the sign. -/
theorem signR_eq {x : EReal} (hx : IsReal x) : signR x = Ideal.sign x := by
  obtain ⟨s, hs⟩ := isReal_sign x
  obtain ⟨r, rfl⟩ := hx
  unfold signR
  rw [hs, ← EReal.coe_sub, ← EReal.coe_add]
  congr 1; ring

/-! ## Real-valuedness -/

theorem coe_min (a b : ℝ) : ((min a b : ℝ) : EReal) = min (a : EReal) (b : EReal) :=
  EReal.coe_strictMono.monotone.map_min

theorem IsReal.min {a b : EReal} (ha : IsReal a) (hb : IsReal b) : IsReal (min a b) := by
  obtain ⟨x, rfl⟩ := ha; obtain ⟨y, rfl⟩ := hb; exact ⟨Min.min x y, (coe_min x y).symm⟩

theorem isReal_one : IsReal one := ⟨1, one_eq⟩
theorem isReal_negOne : IsReal negOne := ⟨-1, negOne_eq⟩
theorem isReal_zero : IsReal zero := ⟨0, by rw [zero_eq, EReal.coe_zero]⟩
theorem isReal_cnt : IsReal cnt := ⟨16384, cnt_eq⟩
theorem isReal_eps : IsReal eps := by obtain ⟨e, _, h⟩ := eps_real; exact ⟨e, h⟩

/-- A clamped value is a real number whatever was clamped: the infinities go to the clamp's ends. -/
theorem isReal_clip (y : EReal) : IsReal (clip y) := by
  unfold clip
  induction y using EReal.rec with
  | bot => rw [max_bot_right]; exact IsReal.min isReal_one isReal_negOne
  | top => rw [max_top_right, min_top_right]; exact isReal_one
  | coe r => exact IsReal.min isReal_one (IsReal.max isReal_negOne (isReal_coe r))

variable {R K N : ℕ}

/-- A binarized linear layer on real activations and real biases has real entries: the weights enter through
    their signs only. -/
theorem isReal_lin (a : Fin R → Fin K → EReal) (w : Fin N → Fin K → EReal) (b : Fin N → EReal)
    (ha : ∀ r k, IsReal (a r k)) (hb : ∀ n, IsReal (b n)) (r : Fin R) (n : Fin N) : IsReal (lin a w b r n) := by
  unfold lin
  exact IsReal.add (IsReal.sum _ _ fun k _ => IsReal.mul (ha r k) (isReal_sign (w n k))) (hb n)

theorem isReal_actPlain (h : Fin R → Fin N → EReal) (r : Fin R) (n : Fin N) : IsReal (actPlain h r n) :=
  isReal_sign _

theorem isReal_act (h : Fin R → Fin N → EReal) (g be : Fin N → EReal) (r : Fin R) (n : Fin N) :
    IsReal (act h g be r n) :=
  isReal_sign _

/-- A finite sum of real numbers, as an extended real, is the sum of the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-! ## The two variances -/

/-- The identity on real numbers: with m = (∑ xᵢ)/R and R = 16384 the number of terms,
    (∑ (xᵢ - m)²)/R = (∑ xᵢ²)/R - m². -/
theorem real_var_identity (g : Fin 16384 → ℝ) :
    (∑ r, (g r - (∑ r', g r') * (1 / 16384)) * (g r - (∑ r', g r') * (1 / 16384))) * (1 / 16384)
      = (∑ r, g r * g r) * (1 / 16384) - ((∑ r', g r') * (1 / 16384)) * ((∑ r', g r') * (1 / 16384)) := by
  generalize hS : (∑ r', g r') = S
  have e : ∀ r, (g r - S * (1 / 16384)) * (g r - S * (1 / 16384))
      = g r * g r - (2 * (S * (1 / 16384))) * g r + (S * (1 / 16384)) * (S * (1 / 16384)) := fun r => by ring
  simp only [e, Finset.sum_add_distrib, Finset.sum_sub_distrib, ← Finset.mul_sum, Finset.sum_const, Finset.card_univ,
    Fintype.card_fin, nsmul_eq_mul, hS]
  push_cast; ring

/-- The mean of a real column is the real mean. -/
theorem mean_coe (h : Fin 16384 → Fin N → EReal) (n : Fin N) (g : Fin 16384 → ℝ) (hg : ∀ r, h r n = (g r : EReal)) :
    mean h n = (((∑ r, g r) * (1 / 16384) : ℝ) : EReal) := by
  have e : (∑ r, h r n) = ∑ r, ((g r : ℝ) : EReal) := Finset.sum_congr rfl fun r _ => hg r
  unfold mean
  rw [e, cnt_eq, Ideal.div_coe (by norm_num), EReal.coe_mul, coe_sum]

theorem isReal_mean (h : Fin 16384 → Fin N → EReal) (hh : ∀ r n, IsReal (h r n)) (n : Fin N) : IsReal (mean h n) := by
  choose g hg using fun r => hh r n
  exact ⟨_, mean_coe h n g hg⟩

/-- The variance of a real column, as the mean of squared deviations, is the real one. -/
theorem var_coe (h : Fin 16384 → Fin N → EReal) (n : Fin N) (g : Fin 16384 → ℝ) (hg : ∀ r, h r n = (g r : EReal)) :
    var h n = (((∑ r, (g r - (∑ r', g r') * (1 / 16384)) * (g r - (∑ r', g r') * (1 / 16384))) * (1 / 16384) : ℝ) : EReal) := by
  unfold var
  rw [mean_coe h n g hg]
  have e : (∑ r, (h r n - (((∑ r', g r') * (1 / 16384) : ℝ) : EReal)) * (h r n - (((∑ r', g r') * (1 / 16384) : ℝ) : EReal)))
      = ∑ r, (((g r - (∑ r', g r') * (1 / 16384)) * (g r - (∑ r', g r') * (1 / 16384)) : ℝ) : EReal) :=
    Finset.sum_congr rfl fun r _ => by rw [hg r, ← EReal.coe_sub, ← EReal.coe_mul]
  rw [e, cnt_eq, Ideal.div_coe (by norm_num), EReal.coe_mul, coe_sum]

theorem isReal_var (h : Fin 16384 → Fin N → EReal) (hh : ∀ r n, IsReal (h r n)) (n : Fin N) : IsReal (var h n) := by
  choose g hg using fun r => hh r n
  exact ⟨_, var_coe h n g hg⟩

/-- For a column of real numbers the clamped "mean of squares minus squared mean" is the mean of squared deviations. -/
theorem varK_eq_var (h : Fin 16384 → Fin N → EReal) (hh : ∀ r n, IsReal (h r n)) (n : Fin N) : varK h n = var h n := by
  choose g hg using fun r => hh r n
  rw [var_coe h n g hg]
  unfold varK
  rw [mean_coe h n g hg, cnt_eq, Ideal.div_coe (by norm_num), zero_eq]
  have e : (∑ r, h r n * h r n) = (((∑ r, g r * g r : ℝ)) : EReal) := by
    rw [coe_sum]; exact Finset.sum_congr rfl fun r _ => by rw [hg r, ← EReal.coe_mul]
  rw [e, ← EReal.coe_mul, ← EReal.coe_mul, ← EReal.coe_sub, ← EReal.coe_zero, ← coe_max, ← real_var_identity]
  exact congrArg Real.toEReal
    (max_eq_left (mul_nonneg (Finset.sum_nonneg fun r _ => mul_self_nonneg _) (by norm_num)))

/-- The variance of a real column is nonnegative, so with the stabiliser added it is positive. -/
theorem var_nonneg (h : Fin 16384 → Fin N → EReal) (hh : ∀ r n, IsReal (h r n)) (n : Fin N) : 0 ≤ var h n := by
  choose g hg using fun r => hh r n
  rw [var_coe h n g hg]
  exact_mod_cast mul_nonneg (Finset.sum_nonneg fun r _ => mul_self_nonneg _) (by norm_num)

theorem var_add_eps_pos (h : Fin 16384 → Fin N → EReal) (hh : ∀ r n, IsReal (h r n)) (n : Fin N) :
    0 < var h n + eps :=
  lt_of_lt_of_le eps_pos (le_add_of_nonneg_left (var_nonneg h hh n))

end Cert.Net

end
-- ==== Proof.KNet1.lean ====
/-
  Layer 1 of the kernel program, in the network's terms: region 1 normalises the previous pre-activation
  with the column means and clamped variances it finds, clamps, takes signs, multiplies by the binarized
  weights and adds the bias; for real entries the clamped variance is the variance, so the array it leaves is
  the network's pre-activation `h1` and its two accumulated rows are the column sums of `h1` and of its squares.
-/
import proofs.«122919_j34694745817434_2_alg».proof.Proof.KEntry1
import proofs.«122919_j34694745817434_2_alg».proof.Proof.Region1
import proofs.«122919_j34694745817434_2_alg».proof.Proof.NetLaws

noncomputable section

namespace Cert.KernelIdeal.KNet

open Cert.KernelIdeal Cert.KernelIdeal.Gen Cert.KernelIdeal.KHost Cert.Rd Cert.LibReal
open Idealize.ShloMosaic Idealize.ShloMosaic.TcCoe Idealize.SL.Sem Idealize.ShloMosaic.ValueIdx

variable (m : (ℓ : Loc nD τ sig) → Buf (Elt Ideal) ℓ) (ρ : Dev nD → PrngReg)

/-- The activation region 1 feeds to its product is the network's activation of `h0`. -/
theorem A1_eq (c : Dev nD) (hh : ∀ r k, IsReal ((kArgs m c).h0 r k)) (r : Fin 16384) (k : Fin 4096) :
    Cert.KernelIdeal.Region1.A (V3 m ρ) c r k = Cert.Net.act (kArgs m c).h0 (kArgs m c).g0 (kArgs m c).be0 r k := by
  unfold Cert.KernelIdeal.Region1.A Cert.KernelIdeal.Region1.Hp Cert.KernelIdeal.Region1.Mu Cert.KernelIdeal.Region1.Va
    Cert.KernelIdeal.Region1.Ga Cert.KernelIdeal.Region1.Be Cert.Net.act Cert.Net.bn
  rw [entry1_pre, entry1_mean, entry1_var, entry1_g, entry1_be, Cert.Net.varK_eq_var _ hh]

/-- Region 1's product-plus-bias is the network's second pre-activation. -/
theorem H1_eq (c : Dev nD) (hh : ∀ r k, IsReal ((kArgs m c).h0 r k)) (r : Fin 16384) (n : Fin 4096) :
    Cert.KernelIdeal.Region1.H (V3 m ρ) c r n = (kArgs m c).h1 r n := by
  unfold Cert.KernelIdeal.Region1.H Cert.KernelIdeal.Region1.Wt Cert.KernelIdeal.Region1.Bb Cert.Net.Args.h1 Cert.Net.lin
  have hs : ∀ k : Fin 4096,
      Cert.KernelIdeal.Region1.A (V3 m ρ) c r k * (V3 m ρ c main_v5 : S4096x4096.Idx → EReal) (ix2 k n)
        = Cert.Net.act (kArgs m c).h0 (kArgs m c).g0 (kArgs m c).be0 r k * Ideal.sign ((kArgs m c).w1 n k) := fun k => by
    rw [A1_eq m ρ c hh r k, entry1_w]
  rw [Finset.sum_congr rfl (fun k _ => hs k), entry1_b]

/-- The region's first output is the pre-activation. -/
theorem region1_pre (c : Dev nD) (hh : ∀ r k, IsReal ((kArgs m c).h0 r k)) (r : Fin 16384) (n : Fin 4096) :
    @Eq EReal (((dat1 (V3 m ρ) c).arrAt 7 cfg1.N : S16384x4096.Idx → EReal) (ix2 r n)) ((kArgs m c).h1 r n) :=
  (Cert.KernelIdeal.Region1.pre_eq (V3 m ρ) c r n).trans (H1_eq m ρ c hh r n)

/-- Its second output is the row of column sums. -/
theorem region1_sum (c : Dev nD) (hh : ∀ r k, IsReal ((kArgs m c).h0 r k)) (n : Fin 4096) :
    @Eq EReal (((dat1 (V3 m ρ) c).arrAt 8 cfg1.N : S1x4096.Idx → EReal) (ix2 (0 : Fin 1) n)) (∑ r : Fin 16384, (kArgs m c).h1 r n) := by
  have h1 : @Eq EReal (((dat1 (V3 m ρ) c).arrAt 8 cfg1.N : S1x4096.Idx → EReal) (ix2 (0 : Fin 1) n))
      (∑ r : Fin 16384, Cert.KernelIdeal.Region1.H (V3 m ρ) c r n) := Cert.KernelIdeal.Region1.sum_eq (V3 m ρ) c n
  have h2 : (∑ r : Fin 16384, Cert.KernelIdeal.Region1.H (V3 m ρ) c r n) = ∑ r : Fin 16384, (kArgs m c).h1 r n :=
    Finset.sum_congr rfl fun r _ => H1_eq m ρ c hh r n
  exact h1.trans h2

/-- Its third output is the row of column sums of squares. -/
theorem region1_sumsq (c : Dev nD) (hh : ∀ r k, IsReal ((kArgs m c).h0 r k)) (n : Fin 4096) :
    @Eq EReal (((dat1 (V3 m ρ) c).arrAt 9 cfg1.N : S1x4096.Idx → EReal) (ix2 (0 : Fin 1) n)) (∑ r : Fin 16384, (kArgs m c).h1 r n * (kArgs m c).h1 r n) := by
  have h1 : @Eq EReal (((dat1 (V3 m ρ) c).arrAt 9 cfg1.N : S1x4096.Idx → EReal) (ix2 (0 : Fin 1) n))
      (∑ r : Fin 16384, Cert.KernelIdeal.Region1.H (V3 m ρ) c r n * Cert.KernelIdeal.Region1.H (V3 m ρ) c r n) :=
    Cert.KernelIdeal.Region1.sumsq_eq (V3 m ρ) c n
  have h2 : (∑ r : Fin 16384, Cert.KernelIdeal.Region1.H (V3 m ρ) c r n * Cert.KernelIdeal.Region1.H (V3 m ρ) c r n)
      = ∑ r : Fin 16384, (kArgs m c).h1 r n * (kArgs m c).h1 r n :=
    Finset.sum_congr rfl fun r _ => by rw [H1_eq m ρ c hh r n]
  exact h1.trans h2

end Cert.KernelIdeal.KNet

end
-- ==== Proof.KHost2.lean ====
/-
  What region 2 of the program finds on entry, read at an index.

  Between two accelerator regions the program turns the column sums and the column sums of squares the
  region before left into the column means (sum / 16384) and the clamped variances
  (max (sum of squares / 16384 − mean², 0)), as rows of shape [1, N].  The pre-activation array the region
  before wrote is carried over untouched, and so are the binarized weights, the bias row and the
  normalisation rows prepared by the first stretch.
-/
import proofs.«122919_j34694745817434_2_alg».proof.Proof.Gen.KernelIdeal.Frame
import Idealize.ShloMosaic.Lib.StableHlo.Run
import Idealize.ShloMosaic.Lib.ValueLayout
import Idealize.ShloMosaic.Lib.ValueIdx
import Idealize.ShloMosaic.Lib.IdealHost

noncomputable section

namespace Cert.KernelIdeal.KHost

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The pre-activation array is what the region before left in its first output. -/
theorem main_v27_0_eq (c : Dev nD) : V5 m ρ c main_v27_0 = (dat1 (V3 m ρ) c).arrAt 7 cfg1.N :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arr m ρ c 7)

/-- The column sums and the column sums of squares are the region's second and third outputs. -/
theorem main_v27_1_eq (c : Dev nD) : W4 m ρ c (Proc.devRef .tc main_v27_1) = (dat1 (V3 m ρ) c).arrAt 8 cfg1.N := W4_arr m ρ c 8
theorem main_v27_2_eq (c : Dev nD) : W4 m ρ c (Proc.devRef .tc main_v27_2) = (dat1 (V3 m ρ) c).arrAt 9 cfg1.N := W4_arr m ρ c 9

/-- The column means: entry (0, n) of `main_v29` is the column sum the region before left, divided by 16384. -/
theorem main_v29_at (c : Dev nD) (n : Fin 4096) :
    ((V5 m ρ c main_v29 : S1x4096.Idx → EReal) (ix2 (0 : Fin 1) n) : EReal)
      = Ideal.div ((W4 m ρ c (Proc.devRef .tc main_v27_1) : S1x4096.Idx → EReal) (ix2 (0 : Fin 1) n) : EReal) (Ideal.ofBits .f32 0x46800000#32) := by
  have e : (V5 m ρ c main_v29 : S1x4096.Idx → EReal)
      = Host.divf (F := Ideal) (W4 m ρ c (Proc.devRef .tc main_v27_1))
          (broadcastInDim S1x4096 ![] bcast_S_S1x4096 (constant (F := Ideal) S_ .f32 0x46800000#32)) := by
    show StableHlo.after (hostOps2 (F := Ideal)) (W4 m ρ c) (Proc.devRef .tc main_v29) = _
    after_results
  rw [e, hostDivf_apply, broadcastInDim_scalar_apply, constant_apply]

/-- The clamped variances: entry (0, n) of `main_v35` is the mean of squares minus the squared mean, clamped below at zero. -/
theorem main_v35_at (c : Dev nD) (n : Fin 4096) :
    ((V5 m ρ c main_v35 : S1x4096.Idx → EReal) (ix2 (0 : Fin 1) n) : EReal)
      = max (Ideal.div ((W4 m ρ c (Proc.devRef .tc main_v27_2) : S1x4096.Idx → EReal) (ix2 (0 : Fin 1) n) : EReal) (Ideal.ofBits .f32 0x46800000#32)
            - Ideal.div ((W4 m ρ c (Proc.devRef .tc main_v27_1) : S1x4096.Idx → EReal) (ix2 (0 : Fin 1) n) : EReal) (Ideal.ofBits .f32 0x46800000#32) * Ideal.div ((W4 m ρ c (Proc.devRef .tc main_v27_1) : S1x4096.Idx → EReal) (ix2 (0 : Fin 1) n) : EReal) (Ideal.ofBits .f32 0x46800000#32))
          (Ideal.ofBits .f32 0x00000000#32) := by
  have e : (V5 m ρ c main_v35 : S1x4096.Idx → EReal)
      = maximumf (subf (Host.divf (F := Ideal) (W4 m ρ c (Proc.devRef .tc main_v27_2))
            (broadcastInDim S1x4096 ![] bcast_S_S1x4096 (constant (F := Ideal) S_ .f32 0x46800000#32)))
          (mulf (Host.divf (F := Ideal) (W4 m ρ c (Proc.devRef .tc main_v27_1))
          (broadcastInDim S1x4096 ![] bcast_S_S1x4096 (constant (F := Ideal) S_ .f32 0x46800000#32))) (Host.divf (F := Ideal) (W4 m ρ c (Proc.devRef .tc main_v27_1))
          (broadcastInDim S1x4096 ![] bcast_S_S1x4096 (constant (F := Ideal) S_ .f32 0x46800000#32)))))
          (broadcastInDim S1x4096 ![] bcast_S_S1x4096 (constant (F := Ideal) S_ .f32 0x00000000#32)) := by
    show StableHlo.after (hostOps2 (F := Ideal)) (W4 m ρ c) (Proc.devRef .tc main_v35) = _
    after_results
  rw [e, maximumf_apply, subf_apply, mulf_apply, hostDivf_apply, hostDivf_apply, broadcastInDim_scalar_apply,
    broadcastInDim_scalar_apply, constant_apply, constant_apply]

/-- `main_v14` is as the first stretch left it. -/
theorem main_v14_eq1 (c : Dev nD) : V5 m ρ c main_v14 = V1 m ρ c main_v14 :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v14 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v14 (by decide))))

/-- `main_v15` is as the first stretch left it. -/
theorem main_v15_eq1 (c : Dev nD) : V5 m ρ c main_v15 = V1 m ρ c main_v15 :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v15 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v15 (by decide))))

/-- `main_v8` is as the first stretch left it. -/
theorem main_v8_eq1 (c : Dev nD) : V5 m ρ c main_v8 = V1 m ρ c main_v8 :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v8 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v8 (by decide))))

/-- `main_v11` is as the first stretch left it. -/
theorem main_v11_eq1 (c : Dev nD) : V5 m ρ c main_v11 = V1 m ρ c main_v11 :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v11 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v11 (by decide))))

end Cert.KernelIdeal.KHost

end
-- ==== Proof.KEntry2.lean ====
/-
  What region 2 of the kernel program finds on entry, in the network's terms: the previous pre-activation
  `h1`, its column means, its clamped column variances (mean of squares minus squared mean, clamped at zero),
  the scale and shift rows, the binarized transposed weights and the bias row of the next layer.
-/
import proofs.«122919_j34694745817434_2_alg».proof.Proof.KNet1
import proofs.«122919_j34694745817434_2_alg».proof.Proof.KHost2

noncomputable section

namespace Cert.KernelIdeal.KNet

open Cert.KernelIdeal Cert.KernelIdeal.Gen Cert.KernelIdeal.KHost Cert.Rd
open Idealize.ShloMosaic Idealize.ShloMosaic.TcCoe Idealize.SL.Sem Idealize.ShloMosaic.ValueIdx

variable (m : (ℓ : Loc nD τ sig) → Buf (Elt Ideal) ℓ) (ρ : Dev nD → PrngReg)

theorem entry2_pre (c : Dev nD) (hh : ∀ r k, Cert.LibReal.IsReal ((kArgs m c).h0 r k)) (r : Fin 16384) (k : Fin 4096) :
    @Eq EReal ((V5 m ρ c main_v27_0 : S16384x4096.Idx → EReal) (ix2 r k)) ((kArgs m c).h1 r k) := by
  rw [main_v27_0_eq]
  exact region1_pre m ρ c hh r k

theorem entry2_mean (c : Dev nD) (hh : ∀ r k, Cert.LibReal.IsReal ((kArgs m c).h0 r k)) (k : Fin 4096) :
    @Eq EReal ((V5 m ρ c main_v29 : S1x4096.Idx → EReal) (ix2 (0 : Fin 1) k)) (Cert.Net.mean (kArgs m c).h1 k) := by
  have h := main_v29_at m ρ c k
  rw [main_v27_1_eq, region1_sum m ρ c hh k] at h
  exact h

theorem entry2_var (c : Dev nD) (hh : ∀ r k, Cert.LibReal.IsReal ((kArgs m c).h0 r k)) (k : Fin 4096) :
    @Eq EReal ((V5 m ρ c main_v35 : S1x4096.Idx → EReal) (ix2 (0 : Fin 1) k)) (Cert.Net.varK (kArgs m c).h1 k) := by
  have h := main_v35_at m ρ c k
  rw [main_v27_2_eq, main_v27_1_eq, region1_sumsq m ρ c hh k, region1_sum m ρ c hh k] at h
  exact h

theorem entry2_g (c : Dev nD) (k : Fin 4096) :
    @Eq EReal ((V5 m ρ c main_v14 : S1x4096.Idx → EReal) (ix2 (0 : Fin 1) k)) ((kArgs m c).g1 k) := by
  rw [main_v14_eq1, main_v14_at]; rfl

theorem entry2_be (c : Dev nD) (k : Fin 4096) :
    @Eq EReal ((V5 m ρ c main_v15 : S1x4096.Idx → EReal) (ix2 (0 : Fin 1) k)) ((kArgs m c).be1 k) := by
  rw [main_v15_eq1, main_v15_at]; rfl

theorem entry2_w (c : Dev nD) (k : Fin 4096) (n : Fin 256) :
    @Eq EReal ((V5 m ρ c main_v8 : S4096x256.Idx → EReal) (ix2 k n)) (Ideal.sign ((kArgs m c).w2 n k)) := by
  rw [main_v8_eq1, main_v8_at]; rfl

theorem entry2_b (c : Dev nD) (n : Fin 256) :
    @Eq EReal ((V5 m ρ c main_v11 : S1x256.Idx → EReal) (ix2 (0 : Fin 1) n)) ((kArgs m c).b2 n) := by
  rw [main_v11_eq1, main_v11_at]; rfl

end Cert.KernelIdeal.KNet

end
-- ==== Proof.Region2Point.lean ====
/-
  Region 2's arithmetic, read at one index over the extended reals.

  One row tile of the third fused layer takes a block `hp` of 512 rows of the previous pre-activation, the column
  means `mu`, column variances `va`, scales `g` and shifts `be` (one row of 4096 each), the weights `w` (4096 × 256)
  and the bias row `b`.  It normalises, scales, shifts, clamps to [-1, 1] and takes the sign: the activation at (r, k)
  is `sign (clip (((hp r k − mu k) · rsqrt (va k + eps)) · g k + be k))`.  The product with the weights into a zero
  tile plus the bias row is, at (r, n), `∑ k, act r k · w k n + b n`.  The two column accumulators receive the sum
  over the tile's 512 rows of that entry, and of its square.
-/
import proofs.«122919_j34694745817434_2_alg».proof.Proof.Gen.KernelIdeal.Skeleton
import proofs.«122919_j34694745817434_2_alg».proof.Proof.Net
import proofs.«122919_j34694745817434_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Region2

open Idealize.ShloMosaic Idealize.ShloMosaic.ValueIdx Cert.KernelIdeal Cert.KernelIdeal.Gen

/-- The activation entering the product: normalise with the given mean and variance, scale, shift, clamp, sign. -/
def actAt (hp mu va g be : EReal) : EReal :=
  Ideal.sign (Cert.Net.clip (((hp - mu) * Ideal.rsqrt (va + Cert.Net.eps)) * g + be))

theorem absf_apply {s : Shape} {φ : FTy} (a : FVec Ideal s φ) (i : s.Idx) : absf a i = FloatOps.absf (a i) := rfl
theorem rsqrt_apply {s : Shape} {φ : FTy} (a : FVec Ideal s φ) (i : s.Idx) : rsqrt a i = Ideal.rsqrt (a i) := rfl

/-- The activation tile at (r, k). -/
theorem pay6_apply (va : FVec Ideal S1x4096 .f32) (hp : FVec Ideal S512x4096 .f32) (mu g be : FVec Ideal S1x4096 .f32)
    (r : Fin 512) (k : Fin 4096) :
    k2_pay6 (F := Ideal) va hp mu g be (ix2 r k)
      = actAt (hp (ix2 r k)) (mu (ix2 (0 : Fin 1) k)) (va (ix2 (0 : Fin 1) k)) (g (ix2 (0 : Fin 1) k)) (be (ix2 (0 : Fin 1) k)) := by
  unfold k2_pay6
  simp only [truncf_apply, select_apply, cmpf_apply, absf_apply, minimumf_apply, maximumf_apply, addf_apply, mulf_apply,
    subf_apply, broadcast_apply, constant_apply, shapeCast_self, broadcastTo_1b_ab_apply, rsqrt_apply]
  exact Ideal.jnp_sign_eq_sign_f32 _

/-- The pre-activation tile at (r, n): row r of the activations against column n of the weights, plus the bias. -/
theorem pay1_apply (a : FVec Ideal S512x4096 .bf16) (w : FVec Ideal S4096x256 .bf16) (b : FVec Ideal S1x256 .f32)
    (r : Fin 512) (n : Fin 256) :
    k2_pay1 (F := Ideal) a w b (ix2 r n) = (∑ k : Fin 4096, a (ix2 r k) * w (ix2 k n)) + b (ix2 (0 : Fin 1) n) := by
  unfold k2_pay1
  simp only [addf_apply, shapeCast_self, broadcastTo_1b_ab_apply]
  exact congrArg (· + b (ix2 (0 : Fin 1) n))
    (Cert.DotSums.matmul_zero_ix2 dot_S512x4096_S4096x256_S512x256_1_0_0_1_n_n none rfl rfl rfl rfl rfl rfl rfl rfl a w r n)

/-- The source index over column `n` with row `r` inserted is `(r, n)`. -/
theorem lift_col (h : S512x256.Reduces [0] S256) (n : Fin 256) (r : Fin 512) : h.lift (ix1 n) r = ix2 r n := by
  funext ax
  match ax with
  | ⟨0, _⟩ => rfl
  | ⟨1, _⟩ => rfl

/-- A column sum of a 512 × 256 tile, as a one-row array, at column n. -/
theorem colsum_apply (x : FVec Ideal S512x256 .f32) (h : S512x256.Reduces [0] S256) (hφ : FKind.Formats .f32)
    (hacc : (0x00000000#32 : BitVec 32) = FKind.add.neutral .f32 hφ) (hc : S256.ShapeCasts S1x256) (n : Fin 256) :
    shapeCast S1x256 (multiReduction (F := Ideal) .add [0] S256 x 0x00000000#32 h hφ hacc) hc (ix2 (0 : Fin 1) n)
      = ∑ r : Fin 512, x (ix2 r n) :=
  (shapeCast_a_1a_apply _ hc (0 : Fin 1) n).trans
    ((Ideal.multiReduction_add_single x 0x00000000#32 h hφ hacc (ix1 n)).trans
      (Finset.sum_congr rfl fun r _ => congrArg x (lift_col h n r)))

/-- The running column sum after a tile: what it held plus the tile's column sum of the pre-activation. -/
theorem pay2_apply (a : FVec Ideal S512x4096 .bf16) (w : FVec Ideal S4096x256 .bf16) (b acc : FVec Ideal S1x256 .f32)
    (n : Fin 256) :
    k2_pay2 (F := Ideal) a w b acc (ix2 (0 : Fin 1) n)
      = acc (ix2 (0 : Fin 1) n) + ∑ r : Fin 512, k2_pay1 (F := Ideal) a w b (ix2 r n) := by
  unfold k2_pay2
  simp only [addf_apply, shapeCast_self]
  exact congrArg (acc (ix2 (0 : Fin 1) n) + ·) (colsum_apply _ _ _ _ _ n)

/-- The running column sum of squares after a tile. -/
theorem pay3_apply (a : FVec Ideal S512x4096 .bf16) (w : FVec Ideal S4096x256 .bf16) (b acc : FVec Ideal S1x256 .f32)
    (n : Fin 256) :
    k2_pay3 (F := Ideal) a w b acc (ix2 (0 : Fin 1) n)
      = acc (ix2 (0 : Fin 1) n)
        + ∑ r : Fin 512, k2_pay1 (F := Ideal) a w b (ix2 r n) * k2_pay1 (F := Ideal) a w b (ix2 r n) := by
  unfold k2_pay3
  simp only [addf_apply, shapeCast_self]
  exact congrArg (acc (ix2 (0 : Fin 1) n) + ·) (colsum_apply _ _ _ _ _ n)

end Cert.KernelIdeal.Region2
-- ==== Proof.Region2Out.lean ====
/-
  What one row tile of region 2 leaves in its three output buffers, as the tile's arithmetic applied to the blocks it
  found.

  Every tile stores the pre-activation block `P = act · W + bias` over its output block.  The first tile first resets
  the two accumulators to the zero row and then adds the tile's column sums of `P` and of `P · P` to what it reads
  back, the zero row; every later tile adds them to what the accumulators held on entry.
-/
import proofs.«122919_j34694745817434_2_alg».proof.Proof.Gen.KernelIdeal.Frame
import Idealize.ShloMosaic.Lib.Pipeline.Value
import Idealize.ShloMosaic.Lib.Tactic

set_option maxRecDepth 16384

noncomputable section

namespace Cert.KernelIdeal.Region2

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a whole-buffer load or store. -/
theorem hz : (![0, 0] : Fin 2 → Nat) = fun _ => 0 := funext fun a => by fin_cases a <;> rfl

/-! ## A later tile: the accumulators continue from what they held -/

theorem out_B_7 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : ¬cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) (xo8 xo9 : Vec F S1x256 .f32) :
    out2_B_7 c i a1 h1 a2 h2 a3 h3 a4 h4 a5 h5 a6 h6 a7 h7 a8 h8 a9 h9 a10 h10 hc x0 x1 x2 x3 x4 x5 x6 xo8 xo9 = k2_pay1 (k2_pay6 x2 x0 x1 x3 x4) (k2_pay7 x5) x6 := by
  unfold out2_B_7
  rw [View.read_writes_eq_canon _ _ _ (cover2_B_7 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

theorem out_B_8 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : ¬cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) (xo8 xo9 : Vec F S1x256 .f32) :
    out2_B_8 c i a1 h1 a2 h2 a3 h3 a4 h4 a5 h5 a6 h6 a7 h7 a8 h8 a9 h9 a10 h10 hc x0 x1 x2 x3 x4 x5 x6 xo8 xo9 = k2_pay2 (k2_pay6 x2 x0 x1 x3 x4) (k2_pay7 x5) x6 xo8 := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

theorem out_B_9 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : ¬cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) (xo8 xo9 : Vec F S1x256 .f32) :
    out2_B_9 c i a1 h1 a2 h2 a3 h3 a4 h4 a5 h5 a6 h6 a7 h7 a8 h8 a9 h9 a10 h10 hc x0 x1 x2 x3 x4 x5 x6 xo8 xo9 = k2_pay3 (k2_pay6 x2 x0 x1 x3 x4) (k2_pay7 x5) x6 xo9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

/-! ## The first tile: the accumulators restart from the zero row -/

theorem out_A_7 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) :
    out2_A_7 c i a1 h1 a2 h2 a3 h3 a4 h4 a5 h5 a6 h6 a7 h7 a8 h8 a9 h9 a10 h10 hc x0 x1 x2 x3 x4 x5 x6 = k2_pay1 (k2_pay6 x2 x0 x1 x3 x4) (k2_pay7 x5) x6 := by
  unfold out2_A_7
  rw [View.read_writes_eq_canon _ _ _ (cover2_A_7 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

theorem out_A_8 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) :
    out2_A_8 c i a1 h1 a2 h2 a3 h3 a4 h4 a5 h5 a6 h6 a7 h7 a8 h8 a9 h9 a10 h10 hc x0 x1 x2 x3 x4 x5 x6 = k2_pay2 (k2_pay6 x2 x0 x1 x3 x4) (k2_pay7 x5) x6 k2_pay4 := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

theorem out_A_9 (c : Dev nD) (i : grid2.Coords) (a1 : Memref sig .tc .vmem S512x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S4096x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole) (hc : cond2_0 i) (x0 : Vec F S512x4096 .f32) (x1 : Vec F S1x4096 .f32) (x2 : Vec F S1x4096 .f32) (x3 : Vec F S1x4096 .f32) (x4 : Vec F S1x4096 .f32) (x5 : Vec F S4096x256 .bf16) (x6 : Vec F S1x256 .f32) :
    out2_A_9 c i a1 h1 a2 h2 a3 h3 a4 h4 a5 h5 a6 h6 a7 h7 a8 h8 a9 h9 a10 h10 hc x0 x1 x2 x3 x4 x5 x6 = k2_pay3 (k2_pay6 x2 x0 x1 x3 x4) (k2_pay7 x5) x6 k2_pay5 := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread,
    h7.read_unread, h9.read_unread, h10.read_unread, View.ld_unit_zero (S := S512x4096) hz, View.ld_unit_zero (S := S1x4096) hz,
    View.ld_unit_zero (S := S4096x256) hz, View.ld_unit_zero (S := S1x256) hz]

end Cert.KernelIdeal.Region2
-- ==== Proof.Region2Blocks.lean ====
/-
  The blocks region 2's windows hand to a row tile, read at an index of their arrays.

  The grid has 32 points; at point t the window over the previous pre-activation [16384, 4096] is the block of rows
  512·t, …, 512·t + 511 (all 4096 columns), and the output window over [16384, 256] is the same rows.  Every other
  window — the means, variances, scales, shifts, weights, bias, and the two accumulators — is its whole array at
  every point.
-/
import proofs.«122919_j34694745817434_2_alg».proof.Proof.Gen.KernelIdeal.Frame
import Idealize.ShloMosaic.Lib.Pipeline.Value
import Idealize.ShloMosaic.Lib.ValueIdx
import Idealize.ShloMosaic.Lib.Tactic

set_option maxRecDepth 16384

open scoped BigOperators

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps, decided over the grid: the two row-tiled windows sit at block (t, 0); -/
theorem idx_rows : ∀ t : Fin cfg2.N, win2_0.index t (0 : Fin 2) = t.val ∧ win2_0.index t (1 : Fin 2) = 0
    ∧ win2_7.index t (0 : Fin 2) = t.val ∧ win2_7.index t (1 : Fin 2) = 0 :=
  (by decide +kernel : ∀ t : Fin grid2.N, _)

/-- every other window sits at block (0, 0). -/
theorem idx_whole : ∀ t : Fin cfg2.N,
    (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- The block of 512 rows of the previous pre-activation at point t: row j of the block is row 512·t + j of the array. -/
theorem blk0_apply (c : Dev nD) (t : Fin cfg2.N) (j : Fin 512) (k : Fin 4096) (r : Fin 16384)
    (hr : r.val = 512 * t.val + j.val) :
    (iblk2 V c 0 t : Vec Ideal S512x4096 .f32) (ix2 j k) = (V c main_v27_0 : Vec Ideal S16384x4096 .f32) (ix2 r k) := by
  obtain ⟨e0, e1, -, -⟩ := idx_rows t
  unfold iblk2
  rw [View.read_apply]
  show V c main_v27_0 _ = V c main_v27_0 _
  refine congrArg (V c main_v27_0) (funext fun a => Fin.ext ?_)
  match a with
  | ⟨0, _⟩ => show win2_0.index t (0 : Fin 2) * 512 + 1 * j.val = r.val; rw [e0, hr]; omega
  | ⟨1, _⟩ => show win2_0.index t (1 : Fin 2) * 4096 + 1 * k.val = k.val; rw [e1]; omega

/-- Window 1's block is its whole array at every point. -/
theorem blk1_eq (c : Dev nD) (t : Fin cfg2.N) : (iblk2 V c 1 t : Vec Ideal S1x4096 .f32) = V c main_v29 := by
  obtain ⟨e0, e1⟩ := (idx_whole t).1
  funext j
  unfold iblk2
  rw [View.read_apply]
  show V c main_v29 _ = V c main_v29 _
  refine congrArg (V c main_v29) (funext fun a => Fin.ext ?_)
  match a with
  | ⟨0, _⟩ => show win2_1.index t (0 : Fin 2) * 1 + 1 * (j 0).val = (j 0).val; rw [show win2_1.index t (0 : Fin 2) = 0 from e0]; omega
  | ⟨1, _⟩ => show win2_1.index t (1 : Fin 2) * 4096 + 1 * (j 1).val = (j 1).val; rw [show win2_1.index t (1 : Fin 2) = 0 from e1]; omega

/-- Window 2's block is its whole array at every point. -/
theorem blk2_eq (c : Dev nD) (t : Fin cfg2.N) : (iblk2 V c 2 t : Vec Ideal S1x4096 .f32) = V c main_v35 := by
  obtain ⟨e0, e1⟩ := (idx_whole t).2.1
  funext j
  unfold iblk2
  rw [View.read_apply]
  show V c main_v35 _ = V c main_v35 _
  refine congrArg (V c main_v35) (funext fun a => Fin.ext ?_)
  match a with
  | ⟨0, _⟩ => show win2_2.index t (0 : Fin 2) * 1 + 1 * (j 0).val = (j 0).val; rw [show win2_2.index t (0 : Fin 2) = 0 from e0]; omega
  | ⟨1, _⟩ => show win2_2.index t (1 : Fin 2) * 4096 + 1 * (j 1).val = (j 1).val; rw [show win2_2.index t (1 : Fin 2) = 0 from e1]; omega

/-- Window 3's block is its whole array at every point. -/
theorem blk3_eq (c : Dev nD) (t : Fin cfg2.N) : (iblk2 V c 3 t : Vec Ideal S1x4096 .f32) = V c main_v14 := by
  obtain ⟨e0, e1⟩ := (idx_whole t).2.2.1
  funext j
  unfold iblk2
  rw [View.read_apply]
  show V c main_v14 _ = V c main_v14 _
  refine congrArg (V c main_v14) (funext fun a => Fin.ext ?_)
  match a with
  | ⟨0, _⟩ => show win2_3.index t (0 : Fin 2) * 1 + 1 * (j 0).val = (j 0).val; rw [show win2_3.index t (0 : Fin 2) = 0 from e0]; omega
  | ⟨1, _⟩ => show win2_3.index t (1 : Fin 2) * 4096 + 1 * (j 1).val = (j 1).val; rw [show win2_3.index t (1 : Fin 2) = 0 from e1]; omega

/-- Window 4's block is its whole array at every point. -/
theorem blk4_eq (c : Dev nD) (t : Fin cfg2.N) : (iblk2 V c 4 t : Vec Ideal S1x4096 .f32) = V c main_v15 := by
  obtain ⟨e0, e1⟩ := (idx_whole t).2.2.2.1
  funext j
  unfold iblk2
  rw [View.read_apply]
  show V c main_v15 _ = V c main_v15 _
  refine congrArg (V c main_v15) (funext fun a => Fin.ext ?_)
  match a with
  | ⟨0, _⟩ => show win2_4.index t (0 : Fin 2) * 1 + 1 * (j 0).val = (j 0).val; rw [show win2_4.index t (0 : Fin 2) = 0 from e0]; omega
  | ⟨1, _⟩ => show win2_4.index t (1 : Fin 2) * 4096 + 1 * (j 1).val = (j 1).val; rw [show win2_4.index t (1 : Fin 2) = 0 from e1]; omega

/-- Window 5's block is its whole array at every point. -/
theorem blk5_eq (c : Dev nD) (t : Fin cfg2.N) : (iblk2 V c 5 t : Vec Ideal S4096x256 .bf16) = V c main_v8 := by
  obtain ⟨e0, e1⟩ := (idx_whole t).2.2.2.2.1
  funext j
  unfold iblk2
  rw [View.read_apply]
  show V c main_v8 _ = V c main_v8 _
  refine congrArg (V c main_v8) (funext fun a => Fin.ext ?_)
  match a with
  | ⟨0, _⟩ => show win2_5.index t (0 : Fin 2) * 4096 + 1 * (j 0).val = (j 0).val; rw [show win2_5.index t (0 : Fin 2) = 0 from e0]; omega
  | ⟨1, _⟩ => show win2_5.index t (1 : Fin 2) * 256 + 1 * (j 1).val = (j 1).val; rw [show win2_5.index t (1 : Fin 2) = 0 from e1]; omega

/-- Window 6's block is its whole array at every point. -/
theorem blk6_eq (c : Dev nD) (t : Fin cfg2.N) : (iblk2 V c 6 t : Vec Ideal S1x256 .f32) = V c main_v11 := by
  obtain ⟨e0, e1⟩ := (idx_whole t).2.2.2.2.2.1
  funext j
  unfold iblk2
  rw [View.read_apply]
  show V c main_v11 _ = V c main_v11 _
  refine congrArg (V c main_v11) (funext fun a => Fin.ext ?_)
  match a with
  | ⟨0, _⟩ => show win2_6.index t (0 : Fin 2) * 1 + 1 * (j 0).val = (j 0).val; rw [show win2_6.index t (0 : Fin 2) = 0 from e0]; omega
  | ⟨1, _⟩ => show win2_6.index t (1 : Fin 2) * 256 + 1 * (j 1).val = (j 1).val; rw [show win2_6.index t (1 : Fin 2) = 0 from e1]; omega

end Cert.KernelIdeal.Region2
-- ==== Proof.Region2Acc.lean ====
/-
  What region 2's three output buffers hold after each row tile.

  After tile t the pre-activation buffer holds the tile's own block: at (j, n) the entry H (512·t + j) n, where
  H r n = ∑ k, act r k · W k n + bias n  and  act r k = sign (clip (((h r k − mean k) · rsqrt (var k + eps)) · g k + be k)).
  The two accumulators are reset to zero by the first tile and each tile adds its 512 rows' column sums, so after
  tile t they hold, at column n, the sum of H r n (respectively of H r n · H r n) over the rows r < 512·(t + 1):
  by induction on the tile, with the sum over the rows below 512·(t + 1) split as the sum below 512·t plus tile t's.
-/
import proofs.«122919_j34694745817434_2_alg».proof.Proof.Region2Point
import proofs.«122919_j34694745817434_2_alg».proof.Proof.Region2Out
import proofs.«122919_j34694745817434_2_alg».proof.Proof.Region2Blocks
import proofs.«122919_j34694745817434_2_alg».proof.Proof.LibBlockedSum
import Idealize.ShloMosaic.Lib.Pipeline.Value
import Idealize.ShloMosaic.Lib.ValueIdx
import Idealize.ShloMosaic.Lib.Tactic

set_option maxRecDepth 16384

open scoped BigOperators

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The pre-activation of the third fused layer at row r and output column n, from the arrays the region finds. -/
def H (c : Dev nD) (r : Fin 16384) (n : Fin 256) : EReal :=
  (∑ k : Fin 4096,
      actAt ((V c main_v27_0 : Vec Ideal S16384x4096 .f32) (ix2 r k)) ((V c main_v29 : Vec Ideal S1x4096 .f32) (ix2 (0 : Fin 1) k))
          ((V c main_v35 : Vec Ideal S1x4096 .f32) (ix2 (0 : Fin 1) k)) ((V c main_v14 : Vec Ideal S1x4096 .f32) (ix2 (0 : Fin 1) k))
          ((V c main_v15 : Vec Ideal S1x4096 .f32) (ix2 (0 : Fin 1) k))
        * (V c main_v8 : Vec Ideal S4096x256 .bf16) (ix2 k n))
    + (V c main_v11 : Vec Ideal S1x256 .f32) (ix2 (0 : Fin 1) n)

/-- Tile t's activations, from the blocks its windows hold. -/
def actBlk (c : Dev nD) (t : Fin cfg2.N) : FVec Ideal S512x4096 .bf16 :=
  k2_pay6 (F := Ideal) (iblk2 V c 2 t) (iblk2 V c 0 t) (iblk2 V c 1 t) (iblk2 V c 3 t) (iblk2 V c 4 t)

/-- Tile t's pre-activation block. -/
def preBlk (c : Dev nD) (t : Fin cfg2.N) : FVec Ideal S512x256 .f32 :=
  k2_pay1 (F := Ideal) (actBlk V c t) (k2_pay7 (iblk2 V c 5 t)) (iblk2 V c 6 t)

/-! ## The three buffers after tile t, as the tile's arithmetic -/

theorem pre_after (c : Dev nD) (t : Fin cfg2.N) : (outsAt2 V c t.val t.isLt).1 = preBlk V c t := by
  unfold preBlk actBlk
  by_cases h0 : t.val % 32 = 0
  · rw [outsAt2_A V c t h0, out_A_7]
  · rw [outsAt2_B V c t h0, out_B_7]

theorem sum_first (c : Dev nD) (t : Fin cfg2.N) (h0 : t.val % 32 = 0) :
    (outsAt2 V c t.val t.isLt).2.1
      = k2_pay2 (F := Ideal) (actBlk V c t) (k2_pay7 (iblk2 V c 5 t)) (iblk2 V c 6 t) (k2_pay4 (F := Ideal)) := by
  unfold actBlk
  rw [outsAt2_A V c t h0, out_A_8]

theorem sum_next (c : Dev nD) (t : Fin cfg2.N) (h0 : ¬t.val % 32 = 0) :
    (outsAt2 V c t.val t.isLt).2.1
      = k2_pay2 (F := Ideal) (actBlk V c t) (k2_pay7 (iblk2 V c 5 t)) (iblk2 V c 6 t) (outsAt2 V c (t.val - 1) (Nat.lt_of_le_of_lt (Nat.sub_le _ _) t.isLt)).2.1 := by
  unfold actBlk
  rw [outsAt2_B V c t h0, out_B_8]

theorem sumsq_first (c : Dev nD) (t : Fin cfg2.N) (h0 : t.val % 32 = 0) :
    (outsAt2 V c t.val t.isLt).2.2
      = k2_pay3 (F := Ideal) (actBlk V c t) (k2_pay7 (iblk2 V c 5 t)) (iblk2 V c 6 t) (k2_pay5 (F := Ideal)) := by
  unfold actBlk
  rw [outsAt2_A V c t h0, out_A_9]

theorem sumsq_next (c : Dev nD) (t : Fin cfg2.N) (h0 : ¬t.val % 32 = 0) :
    (outsAt2 V c t.val t.isLt).2.2
      = k2_pay3 (F := Ideal) (actBlk V c t) (k2_pay7 (iblk2 V c 5 t)) (iblk2 V c 6 t) (outsAt2 V c (t.val - 1) (Nat.lt_of_le_of_lt (Nat.sub_le _ _) t.isLt)).2.2 := by
  unfold actBlk
  rw [outsAt2_B V c t h0, out_B_9]

/-! ## Tile t's blocks at an index -/

/-- The activation at (j, k) of tile t is the activation of row 512·t + j. -/
theorem actBlk_apply (c : Dev nD) (t : Fin cfg2.N) (j : Fin 512) (k : Fin 4096) (r : Fin 16384)
    (hr : r.val = 512 * t.val + j.val) :
    actBlk V c t (ix2 j k)
      = actAt ((V c main_v27_0 : Vec Ideal S16384x4096 .f32) (ix2 r k)) ((V c main_v29 : Vec Ideal S1x4096 .f32) (ix2 (0 : Fin 1) k))
          ((V c main_v35 : Vec Ideal S1x4096 .f32) (ix2 (0 : Fin 1) k)) ((V c main_v14 : Vec Ideal S1x4096 .f32) (ix2 (0 : Fin 1) k))
          ((V c main_v15 : Vec Ideal S1x4096 .f32) (ix2 (0 : Fin 1) k)) := by
  unfold actBlk
  refine (pay6_apply (iblk2 V c 2 t) (iblk2 V c 0 t) (iblk2 V c 1 t) (iblk2 V c 3 t) (iblk2 V c 4 t) j k).trans ?_
  rw [blk0_apply V c t j k r hr, blk1_eq V c t, blk2_eq V c t, blk3_eq V c t, blk4_eq V c t]

/-- The pre-activation at (j, n) of tile t is H at row 512·t + j. -/
theorem preBlk_apply (c : Dev nD) (t : Fin cfg2.N) (j : Fin 512) (n : Fin 256) (r : Fin 16384)
    (hr : r.val = 512 * t.val + j.val) : preBlk V c t (ix2 j n) = H V c r n := by
  unfold preBlk H
  refine (pay1_apply (actBlk V c t) (k2_pay7 (iblk2 V c 5 t)) (iblk2 V c 6 t) j n).trans ?_
  rw [blk6_eq V c t]
  congr 1
  refine Finset.sum_congr rfl fun k _ => ?_
  rw [actBlk_apply V c t j k r hr]
  unfold k2_pay7
  rw [shapeCast_self, blk5_eq V c t]

/-! ## The accumulators after tile n: the sums over the rows below 512·(n + 1) -/

theorem sum_after (c : Dev nD) : ∀ (n : ℕ) (h : n < cfg2.N) (q : Fin 256),
    (outsAt2 V c n h).2.1 (ix2 (0 : Fin 1) q)
      = ∑ i ∈ Finset.univ.filter (fun i : Fin 16384 => i.val < 512 * (n + 1)), H V c i q
  | 0, h, q => by
    refine (congrFun (sum_first V c ⟨0, h⟩ rfl) (ix2 (0 : Fin 1) q)).trans ?_
    refine (pay2_apply (actBlk V c ⟨0, h⟩) (k2_pay7 (iblk2 V c 5 ⟨0, h⟩)) (iblk2 V c 6 ⟨0, h⟩) (k2_pay4 (F := Ideal)) q).trans ?_
    refine Eq.trans ?_ (Cert.LibBlockedSum.sum_lt_succ 512 0 (by norm_num) (fun i : Fin 16384 => H V c i q)).symm
    refine congrArg₂ (· + ·) ?_ ?_
    · exact Ideal.ofBits_zero_f32.trans (Cert.LibBlockedSum.sum_lt_zero 512 (fun i : Fin 16384 => H V c i q)).symm
    · refine Finset.sum_congr rfl fun j _ => ?_
      rw [show k2_pay1 (F := Ideal) (actBlk V c ⟨0, h⟩) (k2_pay7 (iblk2 V c 5 ⟨0, h⟩)) (iblk2 V c 6 ⟨0, h⟩) (ix2 j q)
        = H V c ⟨512 * 0 + j.val, Cert.LibBlockedSum.block_lt (by norm_num) j⟩ q from preBlk_apply V c ⟨0, h⟩ j q _ rfl]
  | n + 1, h, q => by
    have hN : cfg2.N = 32 := N_2
    have hB : ¬(⟨n + 1, h⟩ : Fin cfg2.N).val % 32 = 0 := by dsimp only; omega
    have hle : 512 * (n + 1 + 1) ≤ 16384 := by omega
    refine (congrFun (sum_next V c ⟨n + 1, h⟩ hB) (ix2 (0 : Fin 1) q)).trans ?_
    refine (pay2_apply (actBlk V c ⟨n + 1, h⟩) (k2_pay7 (iblk2 V c 5 ⟨n + 1, h⟩)) (iblk2 V c 6 ⟨n + 1, h⟩) _ q).trans ?_
    refine Eq.trans ?_ (Cert.LibBlockedSum.sum_lt_succ 512 (n + 1) hle (fun i : Fin 16384 => H V c i q)).symm
    refine congrArg₂ (· + ·) ?_ ?_
    · exact sum_after c n (Nat.lt_of_succ_lt h) q
    · refine Finset.sum_congr rfl fun j _ => ?_
      rw [show k2_pay1 (F := Ideal) (actBlk V c ⟨n + 1, h⟩) (k2_pay7 (iblk2 V c 5 ⟨n + 1, h⟩)) (iblk2 V c 6 ⟨n + 1, h⟩) (ix2 j q)
        = H V c ⟨512 * (n + 1) + j.val, Cert.LibBlockedSum.block_lt hle j⟩ q from preBlk_apply V c ⟨n + 1, h⟩ j q _ rfl]

theorem sumsq_after (c : Dev nD) : ∀ (n : ℕ) (h : n < cfg2.N) (q : Fin 256),
    (outsAt2 V c n h).2.2 (ix2 (0 : Fin 1) q)
      = ∑ i ∈ Finset.univ.filter (fun i : Fin 16384 => i.val < 512 * (n + 1)), H V c i q * H V c i q
  | 0, h, q => by
    refine (congrFun (sumsq_first V c ⟨0, h⟩ rfl) (ix2 (0 : Fin 1) q)).trans ?_
    refine (pay3_apply (actBlk V c ⟨0, h⟩) (k2_pay7 (iblk2 V c 5 ⟨0, h⟩)) (iblk2 V c 6 ⟨0, h⟩) (k2_pay5 (F := Ideal)) q).trans ?_
    refine Eq.trans ?_ (Cert.LibBlockedSum.sum_lt_succ 512 0 (by norm_num) (fun i : Fin 16384 => H V c i q * H V c i q)).symm
    refine congrArg₂ (· + ·) ?_ ?_
    · exact Ideal.ofBits_zero_f32.trans (Cert.LibBlockedSum.sum_lt_zero 512 (fun i : Fin 16384 => H V c i q * H V c i q)).symm
    · refine Finset.sum_congr rfl fun j _ => ?_
      rw [show k2_pay1 (F := Ideal) (actBlk V c ⟨0, h⟩) (k2_pay7 (iblk2 V c 5 ⟨0, h⟩)) (iblk2 V c 6 ⟨0, h⟩) (ix2 j q)
        = H V c ⟨512 * 0 + j.val, Cert.LibBlockedSum.block_lt (by norm_num) j⟩ q from preBlk_apply V c ⟨0, h⟩ j q _ rfl]
  | n + 1, h, q => by
    have hN : cfg2.N = 32 := N_2
    have hB : ¬(⟨n + 1, h⟩ : Fin cfg2.N).val % 32 = 0 := by dsimp only; omega
    have hle : 512 * (n + 1 + 1) ≤ 16384 := by omega
    refine (congrFun (sumsq_next V c ⟨n + 1, h⟩ hB) (ix2 (0 : Fin 1) q)).trans ?_
    refine (pay3_apply (actBlk V c ⟨n + 1, h⟩) (k2_pay7 (iblk2 V c 5 ⟨n + 1, h⟩)) (iblk2 V c 6 ⟨n + 1, h⟩) _ q).trans ?_
    refine Eq.trans ?_ (Cert.LibBlockedSum.sum_lt_succ 512 (n + 1) hle (fun i : Fin 16384 => H V c i q * H V c i q)).symm
    refine congrArg₂ (· + ·) ?_ ?_
    · exact sumsq_after c n (Nat.lt_of_succ_lt h) q
    · refine Finset.sum_congr rfl fun j _ => ?_
      rw [show k2_pay1 (F := Ideal) (actBlk V c ⟨n + 1, h⟩) (k2_pay7 (iblk2 V c 5 ⟨n + 1, h⟩)) (iblk2 V c 6 ⟨n + 1, h⟩) (ix2 j q)
        = H V c ⟨512 * (n + 1) + j.val, Cert.LibBlockedSum.block_lt hle j⟩ q from preBlk_apply V c ⟨n + 1, h⟩ j q _ rfl]

end Cert.KernelIdeal.Region2
-- ==== Proof.Region2Array.lean ====
/-
  What region 2 leaves in its three output arrays.

  The pre-activation array [16384, 256] is written back block by block, tile t covering rows 512·t, …, 512·t + 511:
  it ends holding H r n at (r, n).  The two accumulator arrays [1, 256] are written back once, after the last tile,
  when they hold the sums over all 16384 rows: ∑ r, H r n and ∑ r, H r n · H r n at column n.
-/
import proofs.«122919_j34694745817434_2_alg».proof.Proof.Region2Acc
import Idealize.ShloMosaic.Lib.Pipeline.Value
import Idealize.ShloMosaic.Lib.ValueIdx
import Idealize.ShloMosaic.Lib.Tactic

set_option maxRecDepth 16384

open scoped BigOperators

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The pre-activation array -/

/-- The array window 7 ends holding. -/
def G7 (c : Dev nD) : Buf (Elt Ideal) ((c : Thread nD τ).loc main_v36_0) := fun i => H V c (i 0) (i 1)

/-- Tile t's pre-activation block at any index of the block. -/
theorem preBlk_at (c : Dev nD) (t : Fin cfg2.N) (y : S512x256.Idx) (r : Fin 16384) (hr : r.val = 512 * t.val + (y 0).val) :
    preBlk V c t y = H V c r (y 1) :=
  (congrArg (preBlk V c t) (eq_ix2 y)).trans (preBlk_apply V c t (y 0) (y 1) r hr)

/-- What tile t writes back is block t of that array. -/
theorem flushed7_eq (c : Dev nD) (t : Fin cfg2.N) (hf : (cfg2.win 7).flush t = true) :
    (dat2 V c).flushed 7 t = ((cfg2.win 7).blk t).view.read (Elt Ideal) (G7 V c) := by
  have hN : cfg2.N = 32 := N_2
  obtain ⟨-, -, e0, e1⟩ := idx_rows t
  show (cfg2.win 7).cut (grid2.coords t) ((dat2 V c).after 7 t) = _
  rw [after2_7, pre_after]
  funext y
  have hy : (y 0).val < 512 := (y 0).isLt
  have ht := t.isLt
  show preBlk V c t y = G7 V c (((cfg2.win 7).blk t).view.emb y)
  refine (preBlk_at V c t y ⟨512 * t.val + (y 0).val, by omega⟩ rfl).trans ?_
  unfold G7
  refine congrArg₂ (H V c) (Fin.ext ?_) (Fin.ext ?_)
  · show 512 * t.val + (y 0).val = win2_7.index t (0 : Fin 2) * 512 + 1 * (y 0).val
    rw [e0]; omega
  · show (y 1).val = win2_7.index t (1 : Fin 2) * 256 + 1 * (y 1).val
    rw [e1]; omega

/-- Row r lies in the block of tile r / 512. -/
theorem cover7 (i : S16384x256.Idx) : ∃ t : Fin cfg2.N, (cfg2.win 7).flush t = true ∧ i ∈ ((cfg2.win 7).blk t).view.set := by
  have hN : cfg2.N = 32 := N_2
  have hi0 : (i 0).val < 16384 := (i 0).isLt
  have hi1 : (i 1).val < 256 := (i 1).isLt
  obtain ⟨t, ht⟩ : ∃ t : Fin cfg2.N, t.val = (i 0).val / 512 := ⟨⟨(i 0).val / 512, by omega⟩, rfl⟩
  obtain ⟨-, -, e0, e1⟩ := idx_rows t
  refine ⟨t, flush2_7 t, ?_⟩
  show i ∈ ((View.whole main_v36_0).slice (win2_7.rect t)).set
  rw [View.set_slice_whole, Rect.mem_set_unit]
  intro a
  match a with
  | ⟨0, _⟩ =>
    show win2_7.index t (0 : Fin 2) * 512 ≤ (i 0).val ∧ (i 0).val < win2_7.index t (0 : Fin 2) * 512 + 512
    rw [e0]; omega
  | ⟨1, _⟩ =>
    show win2_7.index t (1 : Fin 2) * 256 ≤ (i 1).val ∧ (i 1).val < win2_7.index t (1 : Fin 2) * 256 + 256
    rw [e1]; omega

/-- The pre-activation array after the region, as one function of its index. -/
theorem pre_array (c : Dev nD) : (dat2 (F := Ideal) V c).arrAt 7 cfg2.N = G7 V c :=
  (dat2 V c).arrAt_eq_of_cover 7 (G7 V c) (flushed7_eq V c) cover7

/-- The pre-activation array after the region: H at every row and column. -/
theorem pre_eq (c : Dev nD) (r : Fin 16384) (n : Fin 256) :
    ((dat2 (F := Ideal) V c).arrAt 7 cfg2.N : Vec Ideal S16384x256 .f32) (ix2 r n) = H V c r n :=
  congrFun ((dat2 V c).arrAt_eq_of_cover 7 (G7 V c) (flushed7_eq V c) cover7) (ix2 r n)

/-! ## The column sums -/

/-- The array window 8 ends holding. -/
def G8 (c : Dev nD) : Buf (Elt Ideal) ((c : Thread nD τ).loc main_v36_1) :=
  fun i => (∑ r : Fin 16384, H V c r (i 1) : EReal)

/-- After the last tile the accumulator holds the sum over all rows. -/
theorem sum_last (c : Dev nD) (t : Fin cfg2.N) (h31 : t.val = 31) (y : S1x256.Idx) :
    (outsAt2 V c t.val t.isLt).2.1 y = ∑ r : Fin 16384, H V c r (y 1) := by
  have hy : (y 0).val < 1 := (y 0).isLt
  have e : y = ix2 (0 : Fin 1) (y 1) := (eq_ix2 y).trans (congrArg (fun u => ix2 u (y 1)) (Fin.ext (by show (y 0).val = 0; omega)))
  refine (congrArg (outsAt2 V c t.val t.isLt).2.1 e).trans ?_
  refine (sum_after V c t.val t.isLt (y 1)).trans ?_
  exact Cert.LibBlockedSum.sum_lt_all 512 (t.val + 1) (by omega) (fun i : Fin 16384 => H V c i (y 1))

/-- The one write-back of window 8, after the last tile, writes the whole array at those sums. -/
theorem flushed8_eq (c : Dev nD) (t : Fin cfg2.N) (hf : (cfg2.win 8).flush t = true) :
    (dat2 V c).flushed 8 t = ((cfg2.win 8).blk t).view.read (Elt Ideal) (G8 V c) := by
  have hN : cfg2.N = 32 := N_2
  have h31 : t.val = 31 := by have := (flush2_8 t).mp hf; have := t.isLt; omega
  obtain ⟨e0, e1⟩ := (idx_whole t).2.2.2.2.2.2.1
  show (cfg2.win 8).cut (grid2.coords t) ((dat2 V c).after 8 t) = _
  rw [after2_8]
  have hX := sum_last V c t h31
  generalize (outsAt2 V c t.val t.isLt).2.1 = X at hX ⊢
  have hg : ∀ i, G8 V c i = (∑ r : Fin 16384, H V c r (i 1) : EReal) := fun i => by unfold G8; rfl
  generalize G8 V c = g at hg ⊢
  funext y
  show X y = g (((cfg2.win 8).blk t).view.emb y)
  have ey : (y 1 : Fin 256) = ((((cfg2.win 8).blk t).view.emb y) 1 : Fin 256) := Fin.ext (by
    show (y 1).val = win2_8.index t (1 : Fin 2) * 256 + 1 * (y 1).val
    rw [e1]; omega)
  have key : (∑ r : Fin 16384, H V c r (y 1) : EReal) = ∑ r : Fin 16384, H V c r ((((cfg2.win 8).blk t).view.emb y) 1) :=
    Finset.sum_congr rfl fun r _ => by rw [ey]
  exact (hX y).trans (key.trans (hg _).symm)

/-- Every index of window 8's array lies in the block of the last tile. -/
theorem cover8 (i : S1x256.Idx) : ∃ t : Fin cfg2.N, (cfg2.win 8).flush t = true ∧ i ∈ ((cfg2.win 8).blk t).view.set := by
  have hN : cfg2.N = 32 := N_2
  obtain ⟨t, ht⟩ : ∃ t : Fin cfg2.N, t.val = 31 := ⟨⟨31, by omega⟩, rfl⟩
  obtain ⟨e0, e1⟩ := (idx_whole t).2.2.2.2.2.2.1
  have hi0 : (i 0).val < 1 := (i 0).isLt
  have hi1 : (i 1).val < 256 := (i 1).isLt
  refine ⟨t, (flush2_8 t).mpr (by omega), ?_⟩
  show i ∈ ((View.whole main_v36_1).slice (win2_8.rect t)).set
  rw [View.set_slice_whole, Rect.mem_set_unit]
  intro a
  match a with
  | ⟨0, _⟩ =>
    show win2_8.index t (0 : Fin 2) * 1 ≤ (i 0).val ∧ (i 0).val < win2_8.index t (0 : Fin 2) * 1 + 1
    rw [e0]; omega
  | ⟨1, _⟩ =>
    show win2_8.index t (1 : Fin 2) * 256 ≤ (i 1).val ∧ (i 1).val < win2_8.index t (1 : Fin 2) * 256 + 256
    rw [e1]; omega

/-- The column-sum array after the region, as one function of its index. -/
theorem sum_array (c : Dev nD) : (dat2 (F := Ideal) V c).arrAt 8 cfg2.N = G8 V c :=
  (dat2 V c).arrAt_eq_of_cover 8 (G8 V c) (flushed8_eq V c) cover8

/-- The column sums after the region: the sum of H over all rows, at every column. -/
theorem sum_eq (c : Dev nD) (n : Fin 256) :
    ((dat2 (F := Ideal) V c).arrAt 8 cfg2.N : Vec Ideal S1x256 .f32) (ix2 (0 : Fin 1) n) = ∑ r : Fin 16384, H V c r n :=
  congrFun ((dat2 V c).arrAt_eq_of_cover 8 (G8 V c) (flushed8_eq V c) cover8) (ix2 (0 : Fin 1) n)

/-! ## The column sums of squares -/

/-- The array window 9 ends holding. -/
def G9 (c : Dev nD) : Buf (Elt Ideal) ((c : Thread nD τ).loc main_v36_2) :=
  fun i => (∑ r : Fin 16384, H V c r (i 1) * H V c r (i 1) : EReal)

/-- After the last tile the accumulator holds the sum over all rows. -/
theorem sumsq_last (c : Dev nD) (t : Fin cfg2.N) (h31 : t.val = 31) (y : S1x256.Idx) :
    (outsAt2 V c t.val t.isLt).2.2 y = ∑ r : Fin 16384, H V c r (y 1) * H V c r (y 1) := by
  have hy : (y 0).val < 1 := (y 0).isLt
  have e : y = ix2 (0 : Fin 1) (y 1) := (eq_ix2 y).trans (congrArg (fun u => ix2 u (y 1)) (Fin.ext (by show (y 0).val = 0; omega)))
  refine (congrArg (outsAt2 V c t.val t.isLt).2.2 e).trans ?_
  refine (sumsq_after V c t.val t.isLt (y 1)).trans ?_
  exact Cert.LibBlockedSum.sum_lt_all 512 (t.val + 1) (by omega) (fun i : Fin 16384 => H V c i (y 1) * H V c i (y 1))

/-- The one write-back of window 9, after the last tile, writes the whole array at those sums. -/
theorem flushed9_eq (c : Dev nD) (t : Fin cfg2.N) (hf : (cfg2.win 9).flush t = true) :
    (dat2 V c).flushed 9 t = ((cfg2.win 9).blk t).view.read (Elt Ideal) (G9 V c) := by
  have hN : cfg2.N = 32 := N_2
  have h31 : t.val = 31 := by have := (flush2_9 t).mp hf; have := t.isLt; omega
  obtain ⟨e0, e1⟩ := (idx_whole t).2.2.2.2.2.2.2
  show (cfg2.win 9).cut (grid2.coords t) ((dat2 V c).after 9 t) = _
  rw [after2_9]
  have hX := sumsq_last V c t h31
  generalize (outsAt2 V c t.val t.isLt).2.2 = X at hX ⊢
  have hg : ∀ i, G9 V c i = (∑ r : Fin 16384, H V c r (i 1) * H V c r (i 1) : EReal) := fun i => by unfold G9; rfl
  generalize G9 V c = g at hg ⊢
  funext y
  show X y = g (((cfg2.win 9).blk t).view.emb y)
  have ey : (y 1 : Fin 256) = ((((cfg2.win 9).blk t).view.emb y) 1 : Fin 256) := Fin.ext (by
    show (y 1).val = win2_9.index t (1 : Fin 2) * 256 + 1 * (y 1).val
    rw [e1]; omega)
  have key : (∑ r : Fin 16384, H V c r (y 1) * H V c r (y 1) : EReal) = ∑ r : Fin 16384, H V c r ((((cfg2.win 9).blk t).view.emb y) 1) * H V c r ((((cfg2.win 9).blk t).view.emb y) 1) :=
    Finset.sum_congr rfl fun r _ => by rw [ey]
  exact (hX y).trans (key.trans (hg _).symm)

/-- Every index of window 9's array lies in the block of the last tile. -/
theorem cover9 (i : S1x256.Idx) : ∃ t : Fin cfg2.N, (cfg2.win 9).flush t = true ∧ i ∈ ((cfg2.win 9).blk t).view.set := by
  have hN : cfg2.N = 32 := N_2
  obtain ⟨t, ht⟩ : ∃ t : Fin cfg2.N, t.val = 31 := ⟨⟨31, by omega⟩, rfl⟩
  obtain ⟨e0, e1⟩ := (idx_whole t).2.2.2.2.2.2.2
  have hi0 : (i 0).val < 1 := (i 0).isLt
  have hi1 : (i 1).val < 256 := (i 1).isLt
  refine ⟨t, (flush2_9 t).mpr (by omega), ?_⟩
  show i ∈ ((View.whole main_v36_2).slice (win2_9.rect t)).set
  rw [View.set_slice_whole, Rect.mem_set_unit]
  intro a
  match a with
  | ⟨0, _⟩ =>
    show win2_9.index t (0 : Fin 2) * 1 ≤ (i 0).val ∧ (i 0).val < win2_9.index t (0 : Fin 2) * 1 + 1
    rw [e0]; omega
  | ⟨1, _⟩ =>
    show win2_9.index t (1 : Fin 2) * 256 ≤ (i 1).val ∧ (i 1).val < win2_9.index t (1 : Fin 2) * 256 + 256
    rw [e1]; omega

/-- The array of column sums of squares after the region, as one function of its index. -/
theorem sumsq_array (c : Dev nD) : (dat2 (F := Ideal) V c).arrAt 9 cfg2.N = G9 V c :=
  (dat2 V c).arrAt_eq_of_cover 9 (G9 V c) (flushed9_eq V c) cover9

/-- The column sums of squares after the region. -/
theorem sumsq_eq (c : Dev nD) (n : Fin 256) :
    ((dat2 (F := Ideal) V c).arrAt 9 cfg2.N : Vec Ideal S1x256 .f32) (ix2 (0 : Fin 1) n)
      = ∑ r : Fin 16384, H V c r n * H V c r n :=
  congrFun ((dat2 V c).arrAt_eq_of_cover 9 (G9 V c) (flushed9_eq V c) cover9) (ix2 (0 : Fin 1) n)

end Cert.KernelIdeal.Region2
-- ==== Proof.Region2.lean ====
/-
  Region 2 of the kernel program — the third fused layer on one row-tiled grid of 32 tiles of 512 rows — read as
  mathematics.  With, from the arrays the region finds (previous pre-activation h, column mean and variance, scale g,
  shift be, weights W, bias b),

    act r k = sign (clip (((h r k − mean k) · rsqrt (var k + eps)) · g k + be k)),   H r n = ∑ k, act r k · W k n + b n,

  its three output arrays end holding  H r n  at (r, n),  ∑ r, H r n  and  ∑ r, H r n · H r n  at column n
  (`Region2.pre_eq`, `Region2.sum_eq`, `Region2.sumsq_eq`).  The pieces: the tile's arithmetic at an index
  (Region2Point), what a tile leaves in its buffers (Region2Out), the windows' blocks at an index (Region2Blocks),
  the buffers after each tile by induction over the tiles (Region2Acc), and the arrays after the write-backs
  (Region2Array).
-/
import proofs.«122919_j34694745817434_2_alg».proof.Proof.Region2Point
import proofs.«122919_j34694745817434_2_alg».proof.Proof.Region2Out
import proofs.«122919_j34694745817434_2_alg».proof.Proof.Region2Blocks
import proofs.«122919_j34694745817434_2_alg».proof.Proof.Region2Acc
import proofs.«122919_j34694745817434_2_alg».proof.Proof.Region2Array
-- ==== Proof.KNet2.lean ====
/-
  Layer 2 of the kernel program, in the network's terms: region 2 normalises the previous pre-activation
  with the column means and clamped variances it finds, clamps, takes signs, multiplies by the binarized
  weights and adds the bias; for real entries the clamped variance is the variance, so the array it leaves is
  the network's pre-activation `h2` and its two accumulated rows are the column sums of `h2` and of its squares.
-/
import proofs.«122919_j34694745817434_2_alg».proof.Proof.KEntry2
import proofs.«122919_j34694745817434_2_alg».proof.Proof.Region2
import proofs.«122919_j34694745817434_2_alg».proof.Proof.NetLaws

noncomputable section

namespace Cert.KernelIdeal.KNet

open Cert.KernelIdeal Cert.KernelIdeal.Gen Cert.KernelIdeal.KHost Cert.Rd Cert.LibReal
open Idealize.ShloMosaic Idealize.ShloMosaic.TcCoe Idealize.SL.Sem Idealize.ShloMosaic.ValueIdx

variable (m : (ℓ : Loc nD τ sig) → Buf (Elt Ideal) ℓ) (ρ : Dev nD → PrngReg)

/-- Region 2's product-plus-bias is the network's third pre-activation. -/
theorem H2_eq (c : Dev nD) (hh0 : ∀ r k, IsReal ((kArgs m c).h0 r k)) (hh : ∀ r k, IsReal ((kArgs m c).h1 r k)) (r : Fin 16384) (n : Fin 256) :
    Cert.KernelIdeal.Region2.H (V5 m ρ) c r n = (kArgs m c).h2 r n := by
  unfold Cert.KernelIdeal.Region2.H Cert.Net.Args.h2 Cert.Net.lin
  have hs : ∀ k : Fin 4096,
      Cert.KernelIdeal.Region2.actAt ((V5 m ρ c main_v27_0 : Vec Ideal S16384x4096 .f32) (ix2 r k))
          ((V5 m ρ c main_v29 : Vec Ideal S1x4096 .f32) (ix2 (0 : Fin 1) k)) ((V5 m ρ c main_v35 : Vec Ideal S1x4096 .f32) (ix2 (0 : Fin 1) k))
          ((V5 m ρ c main_v14 : Vec Ideal S1x4096 .f32) (ix2 (0 : Fin 1) k)) ((V5 m ρ c main_v15 : Vec Ideal S1x4096 .f32) (ix2 (0 : Fin 1) k))
          * (V5 m ρ c main_v8 : Vec Ideal S4096x256 .bf16) (ix2 k n)
        = Cert.Net.act (kArgs m c).h1 (kArgs m c).g1 (kArgs m c).be1 r k * Ideal.sign ((kArgs m c).w2 n k) := fun k => by
    unfold Cert.KernelIdeal.Region2.actAt Cert.Net.act Cert.Net.bn
    rw [entry2_pre m ρ c hh0, entry2_mean m ρ c hh0, entry2_var m ρ c hh0, entry2_g, entry2_be, entry2_w, Cert.Net.varK_eq_var _ hh]
  rw [Finset.sum_congr rfl (fun k _ => hs k), entry2_b]

/-- The region's first output is the pre-activation. -/
theorem region2_pre (c : Dev nD) (hh0 : ∀ r k, IsReal ((kArgs m c).h0 r k)) (hh : ∀ r k, IsReal ((kArgs m c).h1 r k)) (r : Fin 16384) (n : Fin 256) :
    @Eq EReal (((dat2 (F := Ideal) (V5 m ρ) c).arrAt 7 cfg2.N : Vec Ideal S16384x256 .f32) (ix2 r n)) ((kArgs m c).h2 r n) :=
  (Cert.KernelIdeal.Region2.pre_eq (V5 m ρ) c r n).trans (H2_eq m ρ c hh0 hh r n)

/-- Its second output is the row of column sums. -/
theorem region2_sum (c : Dev nD) (hh0 : ∀ r k, IsReal ((kArgs m c).h0 r k)) (hh : ∀ r k, IsReal ((kArgs m c).h1 r k)) (n : Fin 256) :
    @Eq EReal (((dat2 (F := Ideal) (V5 m ρ) c).arrAt 8 cfg2.N : Vec Ideal S1x256 .f32) (ix2 (0 : Fin 1) n)) (∑ r : Fin 16384, (kArgs m c).h2 r n) := by
  have h1 : @Eq EReal (((dat2 (F := Ideal) (V5 m ρ) c).arrAt 8 cfg2.N : Vec Ideal S1x256 .f32) (ix2 (0 : Fin 1) n))
      (∑ r : Fin 16384, Cert.KernelIdeal.Region2.H (V5 m ρ) c r n) := Cert.KernelIdeal.Region2.sum_eq (V5 m ρ) c n
  have h2 : (∑ r : Fin 16384, Cert.KernelIdeal.Region2.H (V5 m ρ) c r n) = ∑ r : Fin 16384, (kArgs m c).h2 r n :=
    Finset.sum_congr rfl fun r _ => H2_eq m ρ c hh0 hh r n
  exact h1.trans h2

/-- Its third output is the row of column sums of squares. -/
theorem region2_sumsq (c : Dev nD) (hh0 : ∀ r k, IsReal ((kArgs m c).h0 r k)) (hh : ∀ r k, IsReal ((kArgs m c).h1 r k)) (n : Fin 256) :
    @Eq EReal (((dat2 (F := Ideal) (V5 m ρ) c).arrAt 9 cfg2.N : Vec Ideal S1x256 .f32) (ix2 (0 : Fin 1) n)) (∑ r : Fin 16384, (kArgs m c).h2 r n * (kArgs m c).h2 r n) := by
  have h1 : @Eq EReal (((dat2 (F := Ideal) (V5 m ρ) c).arrAt 9 cfg2.N : Vec Ideal S1x256 .f32) (ix2 (0 : Fin 1) n))
      (∑ r : Fin 16384, Cert.KernelIdeal.Region2.H (V5 m ρ) c r n * Cert.KernelIdeal.Region2.H (V5 m ρ) c r n) :=
    Cert.KernelIdeal.Region2.sumsq_eq (V5 m ρ) c n
  have h2 : (∑ r : Fin 16384, Cert.KernelIdeal.Region2.H (V5 m ρ) c r n * Cert.KernelIdeal.Region2.H (V5 m ρ) c r n)
      = ∑ r : Fin 16384, (kArgs m c).h2 r n * (kArgs m c).h2 r n :=
    Finset.sum_congr rfl fun r _ => by rw [H2_eq m ρ c hh0 hh r n]
  exact h1.trans h2

end Cert.KernelIdeal.KNet

end
-- ==== Proof.KEntry3Carry.lean ====
/-
  What the program's tail finds when region 2 ends, array by array.

  Region 2 leaves its three outputs: the last hidden pre-activation and the rows of its column sums and column sums
  of squares. Everything else the tail reads was written earlier and is not touched in between: the last
  normalisation's scale and shift rows were laid out by the first stretch of host operations, and the weight and
  bias arguments of the three small layers, like every argument, are as they were at launch; neither the host
  operations between the regions nor the regions themselves write any of them.
-/
import proofs.«122919_j34694745817434_2_alg».proof.Proof.Gen.KernelIdeal.Frame
import Idealize.ShloMosaic.Lib.StableHlo.Run
import Idealize.ShloMosaic.Lib.IdealHost

noncomputable section

namespace Cert.KernelIdeal.KHost

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Region 2's three outputs, at its exit, are what its write-backs leave. -/
theorem main_v36_0_eq (c : Dev nD) : W6 m ρ c (Proc.devRef .tc main_v36_0) = (dat2 (V5 m ρ) c).arrAt 7 cfg2.N := W6_arr m ρ c 7
theorem main_v36_1_eq (c : Dev nD) : W6 m ρ c (Proc.devRef .tc main_v36_1) = (dat2 (V5 m ρ) c).arrAt 8 cfg2.N := W6_arr m ρ c 8
theorem main_v36_2_eq (c : Dev nD) : W6 m ρ c (Proc.devRef .tc main_v36_2) = (dat2 (V5 m ρ) c).arrAt 9 cfg2.N := W6_arr m ρ c 9

/-- `main_v16` (the last normalisation's scale row) is as the first stretch left it. -/
theorem main_v16_eq3 (c : Dev nD) : W6 m ρ c (Proc.devRef .tc main_v16) = V1 m ρ c main_v16 :=
  (W6_of_ne m ρ c main_v16 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v16 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v16 (by decide)))))

/-- `main_v17` (the last normalisation's shift row) is as the first stretch left it. -/
theorem main_v17_eq3 (c : Dev nD) : W6 m ρ c (Proc.devRef .tc main_v17) = V1 m ρ c main_v17 :=
  (W6_of_ne m ρ c main_v17 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_v17 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_v17 (by decide)))))

/-! The arguments the tail reads are as launched. -/

theorem main_arg7_eq3 (c : Dev nD) : W6 m ρ c (Proc.devRef .tc main_arg7) = m ((c : Thread nD τ).loc main_arg7) :=
  (W6_of_ne m ρ c main_arg7 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg7 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg7 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg8_eq3 (c : Dev nD) : W6 m ρ c (Proc.devRef .tc main_arg8) = m ((c : Thread nD τ).loc main_arg8) :=
  (W6_of_ne m ρ c main_arg8 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg8 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg8 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg9_eq3 (c : Dev nD) : W6 m ρ c (Proc.devRef .tc main_arg9) = m ((c : Thread nD τ).loc main_arg9) :=
  (W6_of_ne m ρ c main_arg9 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg9 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg9 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg10_eq3 (c : Dev nD) : W6 m ρ c (Proc.devRef .tc main_arg10) = m ((c : Thread nD τ).loc main_arg10) :=
  (W6_of_ne m ρ c main_arg10 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg10 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg10 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg11_eq3 (c : Dev nD) : W6 m ρ c (Proc.devRef .tc main_arg11) = m ((c : Thread nD τ).loc main_arg11) :=
  (W6_of_ne m ρ c main_arg11 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg11 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg11 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg12_eq3 (c : Dev nD) : W6 m ρ c (Proc.devRef .tc main_arg12) = m ((c : Thread nD τ).loc main_arg12) :=
  (W6_of_ne m ρ c main_arg12 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg12 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg12 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg19_eq3 (c : Dev nD) : W6 m ρ c (Proc.devRef .tc main_arg19) = m ((c : Thread nD τ).loc main_arg19) :=
  (W6_of_ne m ρ c main_arg19 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg19 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg19 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

theorem main_arg20_eq3 (c : Dev nD) : W6 m ρ c (Proc.devRef .tc main_arg20) = m ((c : Thread nD τ).loc main_arg20) :=
  (W6_of_ne m ρ c main_arg20 (by decide)).trans ((StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W4_of_ne m ρ c main_arg20 (by decide)).trans
    ((StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m ρ c main_arg20 (by decide)).trans
      ((StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)))))

end Cert.KernelIdeal.KHost

end
-- ==== Proof.KEntry3.lean ====
/-
  What the tail of the kernel program finds when region 2 ends, in the network's terms: the last hidden
  pre-activation `h2`, the rows of its column sums and of the column sums of its squares, the scale and shift rows
  of the last normalisation, and — untouched since launch — the weights and biases of the three small layers.
-/
import proofs.«122919_j34694745817434_2_alg».proof.Proof.KNet2
import proofs.«122919_j34694745817434_2_alg».proof.Proof.KEntry3Carry

open scoped BigOperators

noncomputable section

namespace Cert.KernelIdeal.KNet

open Cert.KernelIdeal Cert.KernelIdeal.Gen Cert.KernelIdeal.KHost Cert.Rd Cert.LibReal
open Idealize.ShloMosaic Idealize.ShloMosaic.TcCoe Idealize.SL.Sem Idealize.ShloMosaic.ValueIdx

variable (m : (ℓ : Loc nD τ sig) → Buf (Elt Ideal) ℓ) (ρ : Dev nD → PrngReg)

/-- Region 2's first output is the last hidden pre-activation. -/
theorem exit2_pre (c : Dev nD) (hh0 : ∀ r k, IsReal ((kArgs m c).h0 r k)) (hh : ∀ r k, IsReal ((kArgs m c).h1 r k)) (r : Fin 16384) (n : Fin 256) :
    @Eq EReal ((W6 m ρ c (Proc.devRef .tc main_v36_0) : S16384x256.Idx → EReal) (ix2 r n)) ((kArgs m c).h2 r n) := by
  rw [main_v36_0_eq]
  exact region2_pre m ρ c hh0 hh r n

/-- Its second output is the row of column sums. -/
theorem exit2_sum (c : Dev nD) (hh0 : ∀ r k, IsReal ((kArgs m c).h0 r k)) (hh : ∀ r k, IsReal ((kArgs m c).h1 r k)) (n : Fin 256) :
    @Eq EReal ((W6 m ρ c (Proc.devRef .tc main_v36_1) : S1x256.Idx → EReal) (ix2 (0 : Fin 1) n))
      (∑ r : Fin 16384, (kArgs m c).h2 r n) := by
  rw [main_v36_1_eq]
  exact region2_sum m ρ c hh0 hh n

/-- Its third output is the row of column sums of squares. -/
theorem exit2_sumsq (c : Dev nD) (hh0 : ∀ r k, IsReal ((kArgs m c).h0 r k)) (hh : ∀ r k, IsReal ((kArgs m c).h1 r k)) (n : Fin 256) :
    @Eq EReal ((W6 m ρ c (Proc.devRef .tc main_v36_2) : S1x256.Idx → EReal) (ix2 (0 : Fin 1) n))
      (∑ r : Fin 16384, (kArgs m c).h2 r n * (kArgs m c).h2 r n) := by
  rw [main_v36_2_eq]
  exact region2_sumsq m ρ c hh0 hh n

/-- The last normalisation's scale row. -/
theorem exit2_g (c : Dev nD) (n : Fin 256) :
    @Eq EReal ((W6 m ρ c (Proc.devRef .tc main_v16) : S1x256.Idx → EReal) (ix2 (0 : Fin 1) n)) ((kArgs m c).g2 n) := by
  rw [main_v16_eq3, main_v16_at]; rfl

/-- The last normalisation's shift row. -/
theorem exit2_be (c : Dev nD) (n : Fin 256) :
    @Eq EReal ((W6 m ρ c (Proc.devRef .tc main_v17) : S1x256.Idx → EReal) (ix2 (0 : Fin 1) n)) ((kArgs m c).be2 n) := by
  rw [main_v17_eq3, main_v17_at]; rfl

/-! The argument arrays the tail reads hold what they held at launch. -/
theorem exit2_arg7 (c : Dev nD) : W6 m ρ c (Proc.devRef .tc main_arg7) = m ((c : Thread nD τ).loc main_arg7) :=
  main_arg7_eq3 m ρ c
theorem exit2_arg8 (c : Dev nD) : W6 m ρ c (Proc.devRef .tc main_arg8) = m ((c : Thread nD τ).loc main_arg8) :=
  main_arg8_eq3 m ρ c
theorem exit2_arg9 (c : Dev nD) : W6 m ρ c (Proc.devRef .tc main_arg9) = m ((c : Thread nD τ).loc main_arg9) :=
  main_arg9_eq3 m ρ c
theorem exit2_arg10 (c : Dev nD) : W6 m ρ c (Proc.devRef .tc main_arg10) = m ((c : Thread nD τ).loc main_arg10) :=
  main_arg10_eq3 m ρ c
theorem exit2_arg11 (c : Dev nD) : W6 m ρ c (Proc.devRef .tc main_arg11) = m ((c : Thread nD τ).loc main_arg11) :=
  main_arg11_eq3 m ρ c
theorem exit2_arg12 (c : Dev nD) : W6 m ρ c (Proc.devRef .tc main_arg12) = m ((c : Thread nD τ).loc main_arg12) :=
  main_arg12_eq3 m ρ c
theorem exit2_arg19 (c : Dev nD) : W6 m ρ c (Proc.devRef .tc main_arg19) = m ((c : Thread nD τ).loc main_arg19) :=
  main_arg19_eq3 m ρ c
theorem exit2_arg20 (c : Dev nD) : W6 m ρ c (Proc.devRef .tc main_arg20) = m ((c : Thread nD τ).loc main_arg20) :=
  main_arg20_eq3 m ρ c

end Cert.KernelIdeal.KNet

end
-- ==== Proof.Finite.lean ====
/-
  From the precondition to "every entry of the arguments is a real number".

  The precondition is a conjunction, one conjunct per argument array a, of "every entry of |a| is below plus
  infinity", each written as a reduction by "and" of the entrywise comparison |a| < +inf from the constant true.
  A conjunction of one-bit words that is 1 has every conjunct 1; a reduction by "and" over all axes that is 1 met
  only 1s; and an extended real x with max x (-x) < +inf is neither infinity, hence a real number.  So under the
  precondition the input, the six weight matrices and the six biases have real entries.
-/
import proofs.«122919_j34694745817434_2_alg».proof.Defs
import proofs.«122919_j34694745817434_2_alg».proof.Proof.LibReal
import Idealize.ShloMosaic.Lib.ReduceAll
import Idealize.ShloMosaic.Lib.IdealHost

noncomputable section

namespace Cert.Finite

open Idealize.ShloMosaic Idealize.SL.Sem Cert.LibReal

/-- The 32-bit pattern 0x7F800000 denotes plus infinity. -/
theorem ofBits_inf : Ideal.ofBits .f32 0x7F800000#32 = ⊤ := by
  simp [Ideal.ofBits, Ideal.ieee]

/-- An extended real whose absolute value is below plus infinity is a real number. -/
theorem isReal_of_abs_lt_inf {x : EReal}
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- The scalar shape has one index. -/
instance subsingleton_scalar_idx : Subsingleton (⟨0, ![]⟩ : Shape).Idx := ⟨fun a b => funext fun d => d.elim0⟩

/-- jnp.all(|a| < inf) = 1 makes every entry of a a real number, whatever the shape. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf a) (broadcastInDim s ![] hb (constant (F := Ideal) (⟨0, ![]⟩ : Shape) .f32 0x7F800000#32)))
          (constantI (⟨0, ![]⟩ : Shape) 1 1#1) hr hu ValueIdx.ix0 = 1#1)
    (i : s.Idx) : IsReal (a i) := by
  have h1 := Host.reduce_andi_all _ _ hr hu ValueIdx.ix0 e i
  refine isReal_of_abs_lt_inf ?_
  rw [← h1]
  show _ = Ideal.cmp .olt (max (a i) (-(a i))) (broadcastInDim s ![] hb (constant (F := Ideal) (⟨0, ![]⟩ : Shape) .f32 0x7F800000#32) i)
  rw [ValueIdx.broadcastInDim_scalar_apply]
  rfl

open Cert.Pre_finite_inputs in
/-- The printed precondition, a conjunction of twenty-one jnp.all(|a| < inf), gives for each of the first thirteen
    arrays that all its entries are real numbers. -/
theorem real_of_fn [Cert.Pre_finite_inputs.Facts] (a0 : FVec Ideal S16384x3072 .f32) (a1 : FVec Ideal S4096x3072 .f32) (a2 : FVec Ideal S4096 .f32) (a3 : FVec Ideal S4096x4096 .f32) (a4 : FVec Ideal S4096 .f32) (a5 : FVec Ideal S256x4096 .f32) (a6 : FVec Ideal S256 .f32) (a7 : FVec Ideal S16x256 .f32) (a8 : FVec Ideal S16 .f32) (a9 : FVec Ideal S16x16 .f32) (a10 : FVec Ideal S16 .f32) (a11 : FVec Ideal S10x16 .f32) (a12 : FVec Ideal S10 .f32) (a13 : FVec Ideal S4096 .f32) (a14 : FVec Ideal S4096 .f32) (a15 : FVec Ideal S4096 .f32) (a16 : FVec Ideal S4096 .f32) (a17 : FVec Ideal S256 .f32) (a18 : FVec Ideal S256 .f32) (a19 : FVec Ideal S10 .f32) (a20 : FVec Ideal S10 .f32)
    (e : Cert.Pre_finite_inputs.fn (F := Ideal) a0 a1 a2 a3 a4 a5 a6 a7 a8 a9 a10 a11 a12 a13 a14 a15 a16 a17 a18 a19 a20 = fun _ => 1#1) :
    (∀ i, IsReal (a0 i)) ∧
      (∀ i, IsReal (a1 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) := by
  have e0 := congrFun e ValueIdx.ix0
  simp only [fn, fn_part1, fn_part2, fn_part3, fn_part4, fn_part5, fn_part6, andi, IntOp.andi_eq_one] at e0
  obtain ⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩ := e0
  exact ⟨real_of_all a0 _ _ _ h0,
    real_of_all a1 _ _ _ h1,
    real_of_all a2 _ _ _ h2,
    real_of_all a3 _ _ _ h3,
    real_of_all a4 _ _ _ h4,
    real_of_all a5 _ _ _ h5,
    real_of_all a6 _ _ _ h6,
    real_of_all a7 _ _ _ h7,
    real_of_all a8 _ _ _ h8,
    real_of_all a9 _ _ _ h9,
    real_of_all a10 _ _ _ h10,
    real_of_all a11 _ _ _ h11,
    real_of_all a12 _ _ _ h12⟩

/-- Under the precondition every entry of the input x, of the six weight matrices and of the six biases is a real number. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i)) ∧
      (∀ i, IsReal (m ((c.tc : Thread Cert.KernelIdeal.nD Cert.KernelIdeal.τ).loc Cert.KernelIdeal.main_arg1) i)) ∧
      (∀ i, IsReal (m ((c.tc : Thread Cert.KernelIdeal.nD Cert.KernelIdeal.τ).loc Cert.KernelIdeal.main_arg2) i)) ∧
      (∀ i, IsReal (m ((c.tc : Thread Cert.KernelIdeal.nD Cert.KernelIdeal.τ).loc Cert.KernelIdeal.main_arg3) i)) ∧
      (∀ i, IsReal (m ((c.tc : Thread Cert.KernelIdeal.nD Cert.KernelIdeal.τ).loc Cert.KernelIdeal.main_arg4) i)) ∧
      (∀ i, IsReal (m ((c.tc : Thread Cert.KernelIdeal.nD Cert.KernelIdeal.τ).loc Cert.KernelIdeal.main_arg5) i)) ∧
      (∀ i, IsReal (m ((c.tc : Thread Cert.KernelIdeal.nD Cert.KernelIdeal.τ).loc Cert.KernelIdeal.main_arg6) i)) ∧
      (∀ i, IsReal (m ((c.tc : Thread Cert.KernelIdeal.nD Cert.KernelIdeal.τ).loc Cert.KernelIdeal.main_arg7) i)) ∧
      (∀ i, IsReal (m ((c.tc : Thread Cert.KernelIdeal.nD Cert.KernelIdeal.τ).loc Cert.KernelIdeal.main_arg8) i)) ∧
      (∀ i, IsReal (m ((c.tc : Thread Cert.KernelIdeal.nD Cert.KernelIdeal.τ).loc Cert.KernelIdeal.main_arg9) i)) ∧
      (∀ i, IsReal (m ((c.tc : Thread Cert.KernelIdeal.nD Cert.KernelIdeal.τ).loc Cert.KernelIdeal.main_arg10) i)) ∧
      (∀ i, IsReal (m ((c.tc : Thread Cert.KernelIdeal.nD Cert.KernelIdeal.τ).loc Cert.KernelIdeal.main_arg11) i)) ∧
      (∀ i, IsReal (m ((c.tc : Thread Cert.KernelIdeal.nD Cert.KernelIdeal.τ).loc Cert.KernelIdeal.main_arg12) i)) :=
  real_of_fn _ _ _ _ _ _ _ _ _ _ _ _ _ _ _ _ _ _ _ _ _ (hpre c)

/-- The same with every index written by its coordinates. -/
theorem real_of_pre_ix [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ (a : Fin 16384) (b : Fin 3072), IsReal (m ((c.tc : Thread Cert.KernelIdeal.nD Cert.KernelIdeal.τ).loc Cert.KernelIdeal.main_arg0) (ValueIdx.ix2 a b))) ∧
      (∀ (a : Fin 4096) (b : Fin 3072), IsReal (m ((c.tc : Thread Cert.KernelIdeal.nD Cert.KernelIdeal.τ).loc Cert.KernelIdeal.main_arg1) (ValueIdx.ix2 a b))) ∧
      (∀ (a : Fin 4096), IsReal (m ((c.tc : Thread Cert.KernelIdeal.nD Cert.KernelIdeal.τ).loc Cert.KernelIdeal.main_arg2) (ValueIdx.ix1 a))) ∧
      (∀ (a : Fin 4096) (b : Fin 4096), IsReal (m ((c.tc : Thread Cert.KernelIdeal.nD Cert.KernelIdeal.τ).loc Cert.KernelIdeal.main_arg3) (ValueIdx.ix2 a b))) ∧
      (∀ (a : Fin 4096), IsReal (m ((c.tc : Thread Cert.KernelIdeal.nD Cert.KernelIdeal.τ).loc Cert.KernelIdeal.main_arg4) (ValueIdx.ix1 a))) ∧
      (∀ (a : Fin 256) (b : Fin 4096), IsReal (m ((c.tc : Thread Cert.KernelIdeal.nD Cert.KernelIdeal.τ).loc Cert.KernelIdeal.main_arg5) (ValueIdx.ix2 a b))) ∧
      (∀ (a : Fin 256), IsReal (m ((c.tc : Thread Cert.KernelIdeal.nD Cert.KernelIdeal.τ).loc Cert.KernelIdeal.main_arg6) (ValueIdx.ix1 a))) ∧
      (∀ (a : Fin 16) (b : Fin 256), IsReal (m ((c.tc : Thread Cert.KernelIdeal.nD Cert.KernelIdeal.τ).loc Cert.KernelIdeal.main_arg7) (ValueIdx.ix2 a b))) ∧
      (∀ (a : Fin 16), IsReal (m ((c.tc : Thread Cert.KernelIdeal.nD Cert.KernelIdeal.τ).loc Cert.KernelIdeal.main_arg8) (ValueIdx.ix1 a))) ∧
      (∀ (a : Fin 16) (b : Fin 16), IsReal (m ((c.tc : Thread Cert.KernelIdeal.nD Cert.KernelIdeal.τ).loc Cert.KernelIdeal.main_arg9) (ValueIdx.ix2 a b))) ∧
      (∀ (a : Fin 16), IsReal (m ((c.tc : Thread Cert.KernelIdeal.nD Cert.KernelIdeal.τ).loc Cert.KernelIdeal.main_arg10) (ValueIdx.ix1 a))) ∧
      (∀ (a : Fin 10) (b : Fin 16), IsReal (m ((c.tc : Thread Cert.KernelIdeal.nD Cert.KernelIdeal.τ).loc Cert.KernelIdeal.main_arg11) (ValueIdx.ix2 a b))) ∧
      (∀ (a : Fin 10), IsReal (m ((c.tc : Thread Cert.KernelIdeal.nD Cert.KernelIdeal.τ).loc Cert.KernelIdeal.main_arg12) (ValueIdx.ix1 a))) := by
  obtain ⟨h0, h1, h2, h3, h4, h5, h6, h7, h8, h9, h10, h11, h12⟩ := real_of_pre m hpre c
  exact ⟨fun a b => h0 (ValueIdx.ix2 a b),
    fun a b => h1 (ValueIdx.ix2 a b),
    fun a => h2 (ValueIdx.ix1 a),
    fun a b => h3 (ValueIdx.ix2 a b),
    fun a => h4 (ValueIdx.ix1 a),
    fun a b => h5 (ValueIdx.ix2 a b),
    fun a => h6 (ValueIdx.ix1 a),
    fun a b => h7 (ValueIdx.ix2 a b),
    fun a => h8 (ValueIdx.ix1 a),
    fun a b => h9 (ValueIdx.ix2 a b),
    fun a => h10 (ValueIdx.ix1 a),
    fun a b => h11 (ValueIdx.ix2 a b),
    fun a => h12 (ValueIdx.ix1 a)⟩

end Cert.Finite

end
-- ==== Proof.KReal.lean ====
/-
  Under the precondition the network data the kernel program computes with are real numbers.

  The precondition says that every entry of the input, of the six weight matrices and of the six biases is finite,
  hence a real number.  A binarized linear layer multiplies signs by signs and adds a bias: its activations are
  signs (of the input, or of a clamped normalised value), which are real whatever their argument, and its bias is
  real by the precondition; so the first three pre-activations h0, h1, h2 have real entries.  This is what the
  two-variances law needs of a column.
-/
import proofs.«122919_j34694745817434_2_alg».proof.Proof.KNet0
import proofs.«122919_j34694745817434_2_alg».proof.Proof.NetLaws
import proofs.«122919_j34694745817434_2_alg».proof.Proof.Finite

noncomputable section

namespace Cert.KernelIdeal.KNet

open Cert.KernelIdeal Cert.Rd Cert.LibReal Cert.Net
open Idealize.ShloMosaic Idealize.ShloMosaic.TcCoe Idealize.SL.Sem Idealize.ShloMosaic.ValueIdx

variable (m : (ℓ : Loc nD τ sig) → Buf (Elt Ideal) ℓ)

/-- The input and the six weight matrices have real entries. -/
theorem real_args [Cert.Pre_finite_inputs.Facts] (hpre : Cert.Pre_KernelIdeal m) (c : Dev nD) :
    (∀ r k, IsReal ((kArgs m c).x r k)) ∧ (∀ n k, IsReal ((kArgs m c).w0 n k)) ∧ (∀ n k, IsReal ((kArgs m c).w1 n k))
      ∧ (∀ n k, IsReal ((kArgs m c).w2 n k)) ∧ (∀ n k, IsReal ((kArgs m c).w3 n k)) ∧ (∀ n k, IsReal ((kArgs m c).w4 n k))
      ∧ (∀ n k, IsReal ((kArgs m c).w5 n k)) := by
  obtain ⟨h0, h1, h2, h3, h4, h5, h6, h7, h8, h9, h10, h11, h12⟩ := Cert.Finite.real_of_pre_ix m hpre c
  exact ⟨fun r k => h0 r k, fun n k => h1 n k, fun n k => h3 n k, fun n k => h5 n k, fun n k => h7 n k,
    fun n k => h9 n k, fun n k => h11 n k⟩

/-- The six biases have real entries. -/
theorem real_bias [Cert.Pre_finite_inputs.Facts] (hpre : Cert.Pre_KernelIdeal m) (c : Dev nD) :
    (∀ n, IsReal ((kArgs m c).b0 n)) ∧ (∀ n, IsReal ((kArgs m c).b1 n)) ∧ (∀ n, IsReal ((kArgs m c).b2 n))
      ∧ (∀ n, IsReal ((kArgs m c).b3 n)) ∧ (∀ n, IsReal ((kArgs m c).b4 n)) ∧ (∀ n, IsReal ((kArgs m c).b5 n)) := by
  obtain ⟨h0, h1, h2, h3, h4, h5, h6, h7, h8, h9, h10, h11, h12⟩ := Cert.Finite.real_of_pre_ix m hpre c
  exact ⟨fun n => h2 n, fun n => h4 n, fun n => h6 n, fun n => h8 n, fun n => h10 n, fun n => h12 n⟩

/-- The first pre-activation: signs of the input against signs of the weights, plus a real bias. -/
theorem real_h0 [Cert.Pre_finite_inputs.Facts] (hpre : Cert.Pre_KernelIdeal m) (c : Dev nD) :
    ∀ r n, IsReal ((kArgs m c).h0 r n) := by
  obtain ⟨hb0, -⟩ := real_bias m hpre c
  intro r n
  unfold Cert.Net.Args.h0
  exact isReal_lin _ _ _ (fun r k => isReal_sign _) hb0 r n

/-- The second pre-activation: its activations are signs of clamped normalised values. -/
theorem real_h1 [Cert.Pre_finite_inputs.Facts] (hpre : Cert.Pre_KernelIdeal m) (c : Dev nD) :
    ∀ r n, IsReal ((kArgs m c).h1 r n) := by
  obtain ⟨-, hb1, -⟩ := real_bias m hpre c
  intro r n
  unfold Cert.Net.Args.h1
  exact isReal_lin _ _ _ (fun r k => isReal_act _ _ _ r k) hb1 r n

/-- The third pre-activation, likewise. -/
theorem real_h2 [Cert.Pre_finite_inputs.Facts] (hpre : Cert.Pre_KernelIdeal m) (c : Dev nD) :
    ∀ r n, IsReal ((kArgs m c).h2 r n) := by
  obtain ⟨-, -, hb2, -⟩ := real_bias m hpre c
  intro r n
  unfold Cert.Net.Args.h2
  exact isReal_lin _ _ _ (fun r k => isReal_act _ _ _ r k) hb2 r n

end Cert.KernelIdeal.KNet

end
-- ==== Proof.RdMat.lean ====
/-
  A function of two literal coordinates as a matrix of extended reals, and back: the matrix whose entry
  `(r, n)` is `f r n`; two matrices equal at every `(r, n)` are equal.
-/
import Idealize.ShloMosaic.PureOps.Ideal
import Idealize.ShloMosaic.Lib.ValueIdx

noncomputable section

namespace Cert.Rd

open Idealize.ShloMosaic Idealize.ShloMosaic.ValueIdx

/-- The matrix with entry `(r, n)` equal to `f r n`. -/
def mat {A B : ℕ} {φ : FTy} (f : Fin A → Fin B → EReal) : FVec Ideal ⟨2, ![A, B]⟩ φ := fun i => f (i 0) (i 1)

theorem mat_apply {A B : ℕ} {φ : FTy} (f : Fin A → Fin B → EReal) (r : Fin A) (n : Fin B) :
    (mat (φ := φ) f) (ix2 r n) = f r n := rfl

/-- A matrix that reads `f r n` at every `(r, n)` is `mat f`. -/
theorem eq_mat {A B : ℕ} {φ : FTy} (v : FVec Ideal ⟨2, ![A, B]⟩ φ) (f : Fin A → Fin B → EReal)
    (h : ∀ (r : Fin A) (n : Fin B), v (ix2 r n) = f r n) : v = mat f := by
  funext j
  obtain ⟨r, n, rfl⟩ : ∃ (r : Fin A) (n : Fin B), j = ix2 r n := ⟨j 0, j 1, eq_ix2 j⟩
  exact h r n

end Cert.Rd

end
-- ==== Proof.KFinal.lean ====
/-
  The kernel program's result, in the network's terms.

  At the third region's exit the tail finds the third pre-activation `h2`, its column sums and sums of
  squares, and the third pair of normalisation rows; its first stretch normalises with the clamped variance,
  which for real entries is the variance, so the activation it feeds to layer 3 is the network's; the three
  small layers then give `h3`, `h4`, `h5`.  Hence the buffer holding the last pre-activation is the matrix of
  `h5`, and the result buffer is the end of the network applied to it and to the last scale and shift vectors.
-/
import proofs.«122919_j34694745817434_2_alg».proof.Proof.KTailAt
import proofs.«122919_j34694745817434_2_alg».proof.Proof.KTailFn
import proofs.«122919_j34694745817434_2_alg».proof.Proof.KEntry3
import proofs.«122919_j34694745817434_2_alg».proof.Proof.KReal
import proofs.«122919_j34694745817434_2_alg».proof.Proof.RdMat

noncomputable section

namespace Cert.KernelIdeal.KNet

open Cert.KernelIdeal Cert.KernelIdeal.Gen Cert.KernelIdeal.KHost Cert.Rd Cert.LibReal
open Idealize.ShloMosaic Idealize.ShloMosaic.TcCoe Idealize.SL.Sem Idealize.ShloMosaic.ValueIdx

variable (m : (ℓ : Loc nD τ sig) → Buf (Elt Ideal) ℓ) (ρ : Dev nD → PrngReg)
variable [Cert.Pre_finite_inputs.Facts]

/-- The activation the tail feeds to layer 3 is the network's activation of `h2`. -/
theorem A3_eq (hpre : Cert.Pre_KernelIdeal m) (c : Dev nD) (r : Fin 16384) (k : Fin 256) :
    Cert.KernelIdeal.KTail.A3 (W6 m ρ c) r k = Cert.Net.act (kArgs m c).h2 (kArgs m c).g2 (kArgs m c).be2 r k := by
  have hh0 := real_h0 m hpre c
  have hh1 := real_h1 m hpre c
  have hh2 := real_h2 m hpre c
  unfold Cert.KernelIdeal.KTail.A3 Cert.KernelIdeal.KTail.h3 Cert.KernelIdeal.KTail.sigma3 Cert.KernelIdeal.KTail.mu3
    Cert.Net.act Cert.Net.bn
  unfold Cert.Rd.r2
  rw [exit2_pre m ρ c hh0 hh1, exit2_sum m ρ c hh0 hh1, exit2_sumsq m ρ c hh0 hh1, exit2_g, exit2_be,
    ← Cert.Net.varK_eq_var _ hh2]
  unfold Cert.Net.varK Cert.Net.mean
  rfl

/-- The buffer of the last pre-activation reads the network's `h5`. -/
theorem v79_eq (hpre : Cert.Pre_KernelIdeal m) (c : Dev nD) (r : Fin 16384) (n : Fin 10) :
    r2 (A := 16384) (B := 10) (φ := .f32) (W13 m ρ c (Proc.devRef .tc main_v79)) r n = (kArgs m c).h5 r n := by
  rw [Cert.KernelIdeal.KTail.v79_W13]
  have hA : Cert.KernelIdeal.KTail.A3 (W6 m ρ c) = Cert.Net.act (kArgs m c).h2 (kArgs m c).g2 (kArgs m c).be2 :=
    funext fun r => funext fun k => A3_eq m ρ hpre c r k
  have hw3 : Cert.KernelIdeal.KTail.w3 (W6 m ρ c) = (kArgs m c).w3 := by
    funext n k; unfold Cert.KernelIdeal.KTail.w3; rw [exit2_arg7]; rfl
  have hb3 : Cert.KernelIdeal.KTail.b3 (W6 m ρ c) = (kArgs m c).b3 := by
    funext n; unfold Cert.KernelIdeal.KTail.b3; rw [exit2_arg8]; rfl
  have hw4 : Cert.KernelIdeal.KTail.w4 (W6 m ρ c) = (kArgs m c).w4 := by
    funext n k; unfold Cert.KernelIdeal.KTail.w4; rw [exit2_arg9]; rfl
  have hb4 : Cert.KernelIdeal.KTail.b4 (W6 m ρ c) = (kArgs m c).b4 := by
    funext n; unfold Cert.KernelIdeal.KTail.b4; rw [exit2_arg10]; rfl
  have hw5 : Cert.KernelIdeal.KTail.w5 (W6 m ρ c) = (kArgs m c).w5 := by
    funext n k; unfold Cert.KernelIdeal.KTail.w5; rw [exit2_arg11]; rfl
  have hb5 : Cert.KernelIdeal.KTail.b5 (W6 m ρ c) = (kArgs m c).b5 := by
    funext n; unfold Cert.KernelIdeal.KTail.b5; rw [exit2_arg12]; rfl
  rw [hA, hw3, hb3, hw4, hb4, hw5, hb5]
  rfl

/-- The result buffer holds the end of the network applied to the matrix of `h5` and to the last scale and
    shift vectors as launched. -/
theorem value (hpre : Cert.Pre_KernelIdeal m) (c : Dev nD) :
    @Eq (FVec Ideal S16384x10 .f32) (W16 m ρ c (Proc.devRef .tc main_v99))
      (Cert.KernelIdeal.KTailFn.tailFn (F := Ideal) (Cert.Rd.mat (kArgs m c).h5)
        (m ((c : Thread nD τ).loc main_arg19)) (m ((c : Thread nD τ).loc main_arg20))) := by
  have e := Cert.KernelIdeal.KTailFn.tail_eq (W12 m ρ c)
  have h79 : @Eq (FVec Ideal S16384x10 .f32)
      (StableHlo.after (hostOps3_6 (F := Ideal)) (W12 m ρ c) (Proc.devRef .tc main_v79)) (Cert.Rd.mat (kArgs m c).h5) :=
    Cert.Rd.eq_mat _ _ (fun r n => v79_eq m ρ hpre c r n)
  have h19 : W12 m ρ c (Proc.devRef .tc main_arg19) = m ((c : Thread nD τ).loc main_arg19) :=
    (Cert.KernelIdeal.KTail.carry_hostOps3_5_main_arg19 (W11 m ρ c)).trans ((Cert.KernelIdeal.KTail.carry_hostOps3_4_main_arg19 (W10 m ρ c)).trans
      ((Cert.KernelIdeal.KTail.carry_hostOps3_3_main_arg19 (W9 m ρ c)).trans ((Cert.KernelIdeal.KTail.carry_hostOps3_2_main_arg19 (W8 m ρ c)).trans
      ((Cert.KernelIdeal.KTail.carry_hostOps3_1_main_arg19 (W7 m ρ c)).trans ((Cert.KernelIdeal.KTail.carry_hostOps3_main_arg19 (W6 m ρ c)).trans (exit2_arg19 m ρ c))))))
  have h20 : W12 m ρ c (Proc.devRef .tc main_arg20) = m ((c : Thread nD τ).loc main_arg20) :=
    (Cert.KernelIdeal.KTail.carry_hostOps3_5_main_arg20 (W11 m ρ c)).trans ((Cert.KernelIdeal.KTail.carry_hostOps3_4_main_arg20 (W10 m ρ c)).trans
      ((Cert.KernelIdeal.KTail.carry_hostOps3_3_main_arg20 (W9 m ρ c)).trans ((Cert.KernelIdeal.KTail.carry_hostOps3_2_main_arg20 (W8 m ρ c)).trans
      ((Cert.KernelIdeal.KTail.carry_hostOps3_1_main_arg20 (W7 m ρ c)).trans ((Cert.KernelIdeal.KTail.carry_hostOps3_main_arg20 (W6 m ρ c)).trans (exit2_arg20 m ρ c))))))
  rw [h79, h19, h20] at e
  exact e

end Cert.KernelIdeal.KNet

end
-- ==== Proof.RefRunW1.lean ====
/-
  Operations 1 to 11 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW1 : List (HloOp τ sig (Elt F)) :=
  [ unary main_arg0 main_v0 (Host.sign : (⟨S16384x3072, .f32⟩ : BufTy).Contents (Elt F) → (⟨S16384x3072, .f32⟩ : BufTy).Contents (Elt F)),
    binary main_v0 main_arg0 main_v1 (subf : (⟨S16384x3072, .f32⟩ : BufTy).Contents (Elt F) → (⟨S16384x3072, .f32⟩ : BufTy).Contents (Elt F) → (⟨S16384x3072, .f32⟩ : BufTy).Contents (Elt F)),
    binary main_arg0 main_v1 main_v2 (addf : (⟨S16384x3072, .f32⟩ : BufTy).Contents (Elt F) → (⟨S16384x3072, .f32⟩ : BufTy).Contents (Elt F) → (⟨S16384x3072, .f32⟩ : BufTy).Contents (Elt F)),
    unary main_arg1 main_v3 (Host.sign : (⟨S4096x3072, .f32⟩ : BufTy).Contents (Elt F) → (⟨S4096x3072, .f32⟩ : BufTy).Contents (Elt F)),
    binary main_v3 main_arg1 main_v4 (subf : (⟨S4096x3072, .f32⟩ : BufTy).Contents (Elt F) → (⟨S4096x3072, .f32⟩ : BufTy).Contents (Elt F) → (⟨S4096x3072, .f32⟩ : BufTy).Contents (Elt F)),
    binary main_arg1 main_v4 main_v5 (addf : (⟨S4096x3072, .f32⟩ : BufTy).Contents (Elt F) → (⟨S4096x3072, .f32⟩ : BufTy).Contents (Elt F) → (⟨S4096x3072, .f32⟩ : BufTy).Contents (Elt F)),
    unary main_v5 main_v6 ((transpose S3072x4096 [1, 0] · transposes_S4096x3072_S3072x4096_1_0) : (⟨S4096x3072, .f32⟩ : BufTy).Contents (Elt F) → (⟨S3072x4096, .f32⟩ : BufTy).Contents (Elt F)),
    binary main_v2 main_v6 main_v7 ((fun l r => Host.dotGeneral dot_S16384x3072_S3072x4096_S16384x4096_1_0_0_1_n_n none l r) : (⟨S16384x3072, .f32⟩ : BufTy).Contents (Elt F) → (⟨S3072x4096, .f32⟩ : BufTy).Contents (Elt F) → (⟨S16384x4096, .f32⟩ : BufTy).Contents (Elt F)),
    unary main_arg2 main_v8 (broadcastInDim S1x4096 ![1] bcast_S4096_S1x4096_1 : (⟨S4096, .f32⟩ : BufTy).Contents (Elt F) → (⟨S1x4096, .f32⟩ : BufTy).Contents (Elt F)),
    unary main_v8 main_v9 (broadcastInDim S16384x4096 ![0, 1] bcast_S1x4096_S16384x4096_0_1 : (⟨S1x4096, .f32⟩ : BufTy).Contents (Elt F) → (⟨S16384x4096, .f32⟩ : BufTy).Contents (Elt F)),
    binary main_v7 main_v9 main_v10 (addf : (⟨S16384x4096, .f32⟩ : BufTy).Contents (Elt F) → (⟨S16384x4096, .f32⟩ : BufTy).Contents (Elt F) → (⟨S16384x4096, .f32⟩ : BufTy).Contents (Elt F)) ]

/-- The buffers the stretch writes. -/
abbrev opsW1_W : List (Ref sig .tc) := [main_v0, main_v1, main_v2, main_v3, main_v4, main_v5, main_v6, main_v7, main_v8, main_v9, main_v10]

set_option maxRecDepth 8192 in
theorem opsW1_writes : (opsW1 : List (HloOp τ sig (Elt F))).Forall fun op => op.writes ⊆ (opsW1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW1_sub : (opsW1 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., unary_bufs_sub .., unary_bufs_sub .., binary_bufs_sub ..⟩

set_option maxRecDepth 8192 in
theorem opsW1_fresh : ∀ op ∈ (opsW1 : List (HloOp τ sig (Elt F))), op.fresh = ∅ := by
  intro _ h; (repeat (cases h with | head => rfl | tail _ h => ?_)); exact nomatch h

set_option maxRecDepth 8192 in
set_option maxHeartbeats 1100000 in
theorem w1_main_v10 (U : Valuation τ sig (Elt F)) :
    after opsW1 U (Proc.devRef .tc main_v10) =
      addf (Host.dotGeneral dot_S16384x3072_S3072x4096_S16384x4096_1_0_0_1_n_n none (addf (U (Proc.devRef .tc main_arg0)) (subf (Host.sign (U (Proc.devRef .tc main_arg0))) (U (Proc.devRef .tc main_arg0)))) (transpose S3072x4096 [1, 0] (addf (U (Proc.devRef .tc main_arg1)) (subf (Host.sign (U (Proc.devRef .tc main_arg1))) (U (Proc.devRef .tc main_arg1)))) transposes_S4096x3072_S3072x4096_1_0)) (broadcastInDim S16384x4096 ![0, 1] bcast_S1x4096_S16384x4096_0_1 (broadcastInDim S1x4096 ![1] bcast_S4096_S1x4096_1 (U (Proc.devRef .tc main_arg2)))) := by
  simp only [opsW1]
  after_results_simp <;> rfl

end Cert.ReferenceIdeal.RefRun

end
-- ==== Proof.RefRunW2.lean ====
/-
  Operations 12 to 39 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW2 : List (HloOp τ sig (Elt F)) :=
  [ nullary main_cst (constant S_ .f32 0x00000000#32),
    binary main_v10 main_cst main_v11 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    nullary main_cst_0 (constant S_ .f32 0x46800000#32),
    unary main_cst_0 main_v12 (broadcastInDim S4096 ![] bcast_S_S4096 : (⟨S_, .f32⟩ : BufTy).Contents (Elt F) → (⟨S4096, .f32⟩ : BufTy).Contents (Elt F)),
    binary main_v11 main_v12 main_v13 (Host.divf : (⟨S4096, .f32⟩ : BufTy).Contents (Elt F) → (⟨S4096, .f32⟩ : BufTy).Contents (Elt F) → (⟨S4096, .f32⟩ : BufTy).Contents (Elt F)),
    nullary main_c (constantI S_ 32 0#32),
    nullary main_call0_cst (constant S_ .f32 0x00000000#32),
    binary main_v10 main_call0_cst main_call0_v0 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    unary main_call0_v0 main_call0_v1 ((broadcastInDim S1x4096 ![1] bcast_S4096_S1x4096_1) : (⟨S4096, .f32⟩ : BufTy).Contents (Elt F) → (⟨S1x4096, .f32⟩ : BufTy).Contents (Elt F)),
    nullary main_call0_cst_0 (constant S_ .f32 0x46800000#32),
    unary main_call0_cst_0 main_call0_v2 ((broadcastInDim S1x4096 ![] bcast_S_S1x4096) : (⟨S_, .f32⟩ : BufTy).Contents (Elt F) → (⟨S1x4096, .f32⟩ : BufTy).Contents (Elt F)),
    binary main_call0_v1 main_call0_v2 main_call0_v3 ((Host.divf) : (⟨S1x4096, .f32⟩ : BufTy).Contents (Elt F) → (⟨S1x4096, .f32⟩ : BufTy).Contents (Elt F) → (⟨S1x4096, .f32⟩ : BufTy).Contents (Elt F)),
    unary main_call0_v3 main_call0_v4 ((broadcastInDim S16384x4096 ![0, 1] bcast_S1x4096_S16384x4096_0_1) : (⟨S1x4096, .f32⟩ : BufTy).Contents (Elt F) → (⟨S16384x4096, .f32⟩ : BufTy).Contents (Elt F)),
    binary main_v10 main_call0_v4 main_call0_v5 ((subf) : (⟨S16384x4096, .f32⟩ : BufTy).Contents (Elt F) → (⟨S16384x4096, .f32⟩ : BufTy).Contents (Elt F) → (⟨S16384x4096, .f32⟩ : BufTy).Contents (Elt F)),
    binary main_call0_v5 main_call0_v5 main_call0_v6 ((mulf) : (⟨S16384x4096, .f32⟩ : BufTy).Contents (Elt F) → (⟨S16384x4096, .f32⟩ : BufTy).Contents (Elt F) → (⟨S16384x4096, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x46800000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    unary main_call0_v8 main_call0_v10 ((broadcastInDim S4096 ![] bcast_S_S4096) : (⟨S_, .f32⟩ : BufTy).Contents (Elt F) → (⟨S4096, .f32⟩ : BufTy).Contents (Elt F)),
    binary main_call0_v9 main_call0_v10 main_call0_v11 ((Host.divf) : (⟨S4096, .f32⟩ : BufTy).Contents (Elt F) → (⟨S4096, .f32⟩ : BufTy).Contents (Elt F) → (⟨S4096, .f32⟩ : BufTy).Contents (Elt F)),
    nullary main_call0_cst_3 (constant S_ .f32 0x00000000#32),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S4096 ![] bcast_S_S4096) : (⟨S_, .f32⟩ : BufTy).Contents (Elt F) → (⟨S4096, .f32⟩ : BufTy).Contents (Elt F)),
    ternary main_call0_v12 main_call0_v11 main_call0_call0_v1 main_v14 ((fun p a b => select (broadcastInDim S4096 ![] bcast_S_S4096 p) a b) : (⟨S_, .i1⟩ : BufTy).Contents (Elt F) → (⟨S4096, .f32⟩ : BufTy).Contents (Elt F) → (⟨S4096, .f32⟩ : BufTy).Contents (Elt F) → (⟨S4096, .f32⟩ : BufTy).Contents (Elt F)) ]

/-- The buffers the stretch writes. -/
abbrev opsW2_W : List (Ref sig .tc) := [main_cst, main_v11, main_cst_0, main_v12, main_v13, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v14]

set_option maxRecDepth 8192 in
theorem opsW2_writes : (opsW2 : List (HloOp τ sig (Elt F))).Forall fun op => op.writes ⊆ (opsW2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW2_sub : (opsW2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsW2_fresh : ∀ op ∈ (opsW2 : List (HloOp τ sig (Elt F))), op.fresh = ∅ := by
  intro _ h; (repeat (cases h with | head => rfl | tail _ h => ?_)); exact nomatch h

set_option maxRecDepth 8192 in
set_option maxHeartbeats 2800000 in
theorem w2_main_v13 (U : Valuation τ sig (Elt F)) :
    after opsW2 U (Proc.devRef .tc main_v13) =
      Host.divf (Host.reduceAdd (U (Proc.devRef .tc main_v10)) ((constant S_ .f32 0x00000000#32 : (⟨S_, .f32⟩ : BufTy).Contents (Elt F))) reducesTo_S16384x4096_S4096_d0 h_S_) (broadcastInDim S4096 ![] bcast_S_S4096 ((constant S_ .f32 0x46800000#32 : (⟨S_, .f32⟩ : BufTy).Contents (Elt F)))) := by
  simp only [opsW2]
  after_results_simp <;> rfl

set_option maxRecDepth 8192 in
set_option maxHeartbeats 2800000 in
theorem w2_main_v14 (U : Valuation τ sig (Elt F)) :
    after opsW2 U (Proc.devRef .tc main_v14) =
      select (broadcastInDim S4096 ![] bcast_S_S4096 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (U (Proc.devRef .tc main_v10)) (broadcastInDim S16384x4096 ![0, 1] bcast_S1x4096_S16384x4096_0_1 (Host.divf (broadcastInDim S1x4096 ![1] bcast_S4096_S1x4096_1 (Host.reduceAdd (U (Proc.devRef .tc main_v10)) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F))))))) (subf (U (Proc.devRef .tc main_v10)) (broadcastInDim S16384x4096 ![0, 1] bcast_S1x4096_S16384x4096_0_1 (Host.divf (broadcastInDim S1x4096 ![1] bcast_S4096_S1x4096_1 (Host.reduceAdd (U (Proc.devRef .tc main_v10)) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F)))))))) ((constant S_ .f32 0x00000000#32 : (⟨S_, .f32⟩ : BufTy).Contents (Elt F))) reducesTo_S16384x4096_S4096_d0 h_S_) (broadcastInDim S4096 ![] bcast_S_S4096 (subf ((constant S_ .f32 0x46800000#32 : (⟨S_, .f32⟩ : BufTy).Contents (Elt F))) (sitofp .f32 (constantI S_ 32 0#32))))) (broadcastInDim S4096 ![] bcast_S_S4096 (id ((constant S_ .f32 0x7FC00000#32 : (⟨S_, .f32⟩ : BufTy).Contents (Elt F))))) := by
  simp only [opsW2]
  after_results_simp <;> rfl

end Cert.ReferenceIdeal.RefRun

end
-- ==== Proof.RefRunW3.lean ====
/-
  Operations 40 to 63 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW3 : List (HloOp τ sig (Elt F)) :=
  [ unary main_v13 main_v15 (broadcastInDim S1x4096 ![1] bcast_S4096_S1x4096_1 : (⟨S4096, .f32⟩ : BufTy).Contents (Elt F) → (⟨S1x4096, .f32⟩ : BufTy).Contents (Elt F)),
    unary main_v15 main_v16 (broadcastInDim S16384x4096 ![0, 1] bcast_S1x4096_S16384x4096_0_1 : (⟨S1x4096, .f32⟩ : BufTy).Contents (Elt F) → (⟨S16384x4096, .f32⟩ : BufTy).Contents (Elt F)),
    binary main_v10 main_v16 main_v17 (subf : (⟨S16384x4096, .f32⟩ : BufTy).Contents (Elt F) → (⟨S16384x4096, .f32⟩ : BufTy).Contents (Elt F) → (⟨S16384x4096, .f32⟩ : BufTy).Contents (Elt F)),
    nullary main_cst_1 (constant S_ .f32 0x3727C5AC#32),
    unary main_cst_1 main_v18 (broadcastInDim S4096 ![] bcast_S_S4096 : (⟨S_, .f32⟩ : BufTy).Contents (Elt F) → (⟨S4096, .f32⟩ : BufTy).Contents (Elt F)),
    binary main_v14 main_v18 main_v19 (addf : (⟨S4096, .f32⟩ : BufTy).Contents (Elt F) → (⟨S4096, .f32⟩ : BufTy).Contents (Elt F) → (⟨S4096, .f32⟩ : BufTy).Contents (Elt F)),
    unary main_v19 main_v20 (Host.rsqrt : (⟨S4096, .f32⟩ : BufTy).Contents (Elt F) → (⟨S4096, .f32⟩ : BufTy).Contents (Elt F)),
    unary main_v20 main_v21 (broadcastInDim S1x4096 ![1] bcast_S4096_S1x4096_1 : (⟨S4096, .f32⟩ : BufTy).Contents (Elt F) → (⟨S1x4096, .f32⟩ : BufTy).Contents (Elt F)),
    unary main_v21 main_v22 (broadcastInDim S16384x4096 ![0, 1] bcast_S1x4096_S16384x4096_0_1 : (⟨S1x4096, .f32⟩ : BufTy).Contents (Elt F) → (⟨S16384x4096, .f32⟩ : BufTy).Contents (Elt F)),
    binary main_v17 main_v22 main_v23 (mulf : (⟨S16384x4096, .f32⟩ : BufTy).Contents (Elt F) → (⟨S16384x4096, .f32⟩ : BufTy).Contents (Elt F) → (⟨S16384x4096, .f32⟩ : BufTy).Contents (Elt F)),
    unary main_arg13 main_v24 (broadcastInDim S1x4096 ![1] bcast_S4096_S1x4096_1 : (⟨S4096, .f32⟩ : BufTy).Contents (Elt F) → (⟨S1x4096, .f32⟩ : BufTy).Contents (Elt F)),
    unary main_v24 main_v25 (broadcastInDim S16384x4096 ![0, 1] bcast_S1x4096_S16384x4096_0_1 : (⟨S1x4096, .f32⟩ : BufTy).Contents (Elt F) → (⟨S16384x4096, .f32⟩ : BufTy).Contents (Elt F)),
    binary main_v23 main_v25 main_v26 (mulf : (⟨S16384x4096, .f32⟩ : BufTy).Contents (Elt F) → (⟨S16384x4096, .f32⟩ : BufTy).Contents (Elt F) → (⟨S16384x4096, .f32⟩ : BufTy).Contents (Elt F)),
    unary main_arg14 main_v27 (broadcastInDim S1x4096 ![1] bcast_S4096_S1x4096_1 : (⟨S4096, .f32⟩ : BufTy).Contents (Elt F) → (⟨S1x4096, .f32⟩ : BufTy).Contents (Elt F)),
    unary main_v27 main_v28 (broadcastInDim S16384x4096 ![0, 1] bcast_S1x4096_S16384x4096_0_1 : (⟨S1x4096, .f32⟩ : BufTy).Contents (Elt F) → (⟨S16384x4096, .f32⟩ : BufTy).Contents (Elt F)),
    binary main_v26 main_v28 main_v29 (addf : (⟨S16384x4096, .f32⟩ : BufTy).Contents (Elt F) → (⟨S16384x4096, .f32⟩ : BufTy).Contents (Elt F) → (⟨S16384x4096, .f32⟩ : BufTy).Contents (Elt F)),
    nullary main_cst_2 (constant S_ .f32 0xBF800000#32),
    nullary main_cst_3 (constant S_ .f32 0x3F800000#32),
    unary main_cst_2 main_call1_v0 ((id) : (⟨S_, .f32⟩ : BufTy).Contents (Elt F) → (⟨S_, .f32⟩ : BufTy).Contents (Elt F)),
    unary main_call1_v0 main_call1_v1 ((broadcastInDim S16384x4096 ![] bcast_S_S16384x4096) : (⟨S_, .f32⟩ : BufTy).Contents (Elt F) → (⟨S16384x4096, .f32⟩ : BufTy).Contents (Elt F)),
    binary main_call1_v1 main_v29 main_call1_v2 ((maximumf) : (⟨S16384x4096, .f32⟩ : BufTy).Contents (Elt F) → (⟨S16384x4096, .f32⟩ : BufTy).Contents (Elt F) → (⟨S16384x4096, .f32⟩ : BufTy).Contents (Elt F)),
    unary main_cst_3 main_call1_v3 ((id) : (⟨S_, .f32⟩ : BufTy).Contents (Elt F) → (⟨S_, .f32⟩ : BufTy).Contents (Elt F)),
    unary main_call1_v3 main_call1_v4 ((broadcastInDim S16384x4096 ![] bcast_S_S16384x4096) : (⟨S_, .f32⟩ : BufTy).Contents (Elt F) → (⟨S16384x4096, .f32⟩ : BufTy).Contents (Elt F)),
    binary main_call1_v4 main_call1_v2 main_v30 ((minimumf) : (⟨S16384x4096, .f32⟩ : BufTy).Contents (Elt F) → (⟨S16384x4096, .f32⟩ : BufTy).Contents (Elt F) → (⟨S16384x4096, .f32⟩ : BufTy).Contents (Elt F)) ]

/-- The buffers the stretch writes. -/
abbrev opsW3_W : List (Ref sig .tc) := [main_v15, main_v16, main_v17, main_cst_1, main_v18, main_v19, main_v20, main_v21, main_v22, main_v23, main_v24, main_v25, main_v26, main_v27, main_v28, main_v29, main_cst_2, main_cst_3, main_call1_v0, main_call1_v1, main_call1_v2, main_call1_v3, main_call1_v4, main_v30]

set_option maxRecDepth 8192 in
theorem opsW3_writes : (opsW3 : List (HloOp τ sig (Elt F))).Forall fun op => op.writes ⊆ (opsW3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW3_sub : (opsW3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsW3_fresh : ∀ op ∈ (opsW3 : List (HloOp τ sig (Elt F))), op.fresh = ∅ := by
  intro _ h; (repeat (cases h with | head => rfl | tail _ h => ?_)); exact nomatch h

set_option maxRecDepth 8192 in
set_option maxHeartbeats 2400000 in
theorem w3_main_v30 (U : Valuation τ sig (Elt F)) :
    after opsW3 U (Proc.devRef .tc main_v30) =
      minimumf (broadcastInDim S16384x4096 ![] bcast_S_S16384x4096 (id ((constant S_ .f32 0x3F800000#32 : (⟨S_, .f32⟩ : BufTy).Contents (Elt F))))) (maximumf (broadcastInDim S16384x4096 ![] bcast_S_S16384x4096 (id ((constant S_ .f32 0xBF800000#32 : (⟨S_, .f32⟩ : BufTy).Contents (Elt F))))) (addf (mulf (mulf (subf (U (Proc.devRef .tc main_v10)) (broadcastInDim S16384x4096 ![0, 1] bcast_S1x4096_S16384x4096_0_1 (broadcastInDim S1x4096 ![1] bcast_S4096_S1x4096_1 (U (Proc.devRef .tc main_v13))))) (broadcastInDim S16384x4096 ![0, 1] bcast_S1x4096_S16384x4096_0_1 (broadcastInDim S1x4096 ![1] bcast_S4096_S1x4096_1 (Host.rsqrt (addf (U (Proc.devRef .tc main_v14)) (broadcastInDim S4096 ![] bcast_S_S4096 ((constant S_ .f32 0x3727C5AC#32 : (⟨S_, .f32⟩ : BufTy).Contents (Elt F))))))))) (broadcastInDim S16384x4096 ![0, 1] bcast_S1x4096_S16384x4096_0_1 (broadcastInDim S1x4096 ![1] bcast_S4096_S1x4096_1 (U (Proc.devRef .tc main_arg13))))) (broadcastInDim S16384x4096 ![0, 1] bcast_S1x4096_S16384x4096_0_1 (broadcastInDim S1x4096 ![1] bcast_S4096_S1x4096_1 (U (Proc.devRef .tc main_arg14)))))) := by
  simp only [opsW3]
  after_results_simp <;> rfl

end Cert.ReferenceIdeal.RefRun

end
-- ==== Proof.RefRunW4.lean ====
/-
  Operations 64 to 74 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW4 : List (HloOp τ sig (Elt F)) :=
  [ unary main_v30 main_v31 (Host.sign : (⟨S16384x4096, .f32⟩ : BufTy).Contents (Elt F) → (⟨S16384x4096, .f32⟩ : BufTy).Contents (Elt F)),
    binary main_v31 main_v30 main_v32 (subf : (⟨S16384x4096, .f32⟩ : BufTy).Contents (Elt F) → (⟨S16384x4096, .f32⟩ : BufTy).Contents (Elt F) → (⟨S16384x4096, .f32⟩ : BufTy).Contents (Elt F)),
    binary main_v30 main_v32 main_v33 (addf : (⟨S16384x4096, .f32⟩ : BufTy).Contents (Elt F) → (⟨S16384x4096, .f32⟩ : BufTy).Contents (Elt F) → (⟨S16384x4096, .f32⟩ : BufTy).Contents (Elt F)),
    unary main_arg3 main_v34 (Host.sign : (⟨S4096x4096, .f32⟩ : BufTy).Contents (Elt F) → (⟨S4096x4096, .f32⟩ : BufTy).Contents (Elt F)),
    binary main_v34 main_arg3 main_v35 (subf : (⟨S4096x4096, .f32⟩ : BufTy).Contents (Elt F) → (⟨S4096x4096, .f32⟩ : BufTy).Contents (Elt F) → (⟨S4096x4096, .f32⟩ : BufTy).Contents (Elt F)),
    binary main_arg3 main_v35 main_v36 (addf : (⟨S4096x4096, .f32⟩ : BufTy).Contents (Elt F) → (⟨S4096x4096, .f32⟩ : BufTy).Contents (Elt F) → (⟨S4096x4096, .f32⟩ : BufTy).Contents (Elt F)),
    unary main_v36 main_v37 ((transpose S4096x4096 [1, 0] · transposes_S4096x4096_S4096x4096_1_0) : (⟨S4096x4096, .f32⟩ : BufTy).Contents (Elt F) → (⟨S4096x4096, .f32⟩ : BufTy).Contents (Elt F)),
    binary main_v33 main_v37 main_v38 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)),
    unary main_arg4 main_v39 (broadcastInDim S1x4096 ![1] bcast_S4096_S1x4096_1 : (⟨S4096, .f32⟩ : BufTy).Contents (Elt F) → (⟨S1x4096, .f32⟩ : BufTy).Contents (Elt F)),
    unary main_v39 main_v40 (broadcastInDim S16384x4096 ![0, 1] bcast_S1x4096_S16384x4096_0_1 : (⟨S1x4096, .f32⟩ : BufTy).Contents (Elt F) → (⟨S16384x4096, .f32⟩ : BufTy).Contents (Elt F)),
    binary main_v38 main_v40 main_v41 (addf : (⟨S16384x4096, .f32⟩ : BufTy).Contents (Elt F) → (⟨S16384x4096, .f32⟩ : BufTy).Contents (Elt F) → (⟨S16384x4096, .f32⟩ : BufTy).Contents (Elt F)) ]

/-- The buffers the stretch writes. -/
abbrev opsW4_W : List (Ref sig .tc) := [main_v31, main_v32, main_v33, main_v34, main_v35, main_v36, main_v37, main_v38, main_v39, main_v40, main_v41]

set_option maxRecDepth 8192 in
theorem opsW4_writes : (opsW4 : List (HloOp τ sig (Elt F))).Forall fun op => op.writes ⊆ (opsW4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW4_sub : (opsW4 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., unary_bufs_sub .., unary_bufs_sub .., binary_bufs_sub ..⟩

set_option maxRecDepth 8192 in
theorem opsW4_fresh : ∀ op ∈ (opsW4 : List (HloOp τ sig (Elt F))), op.fresh = ∅ := by
  intro _ h; (repeat (cases h with | head => rfl | tail _ h => ?_)); exact nomatch h

set_option maxRecDepth 8192 in
set_option maxHeartbeats 1100000 in
theorem w4_main_v33 (U : Valuation τ sig (Elt F)) :
    after opsW4 U (Proc.devRef .tc main_v33) =
      addf (U (Proc.devRef .tc main_v30)) (subf (Host.sign (U (Proc.devRef .tc main_v30))) (U (Proc.devRef .tc main_v30))) := by
  simp only [opsW4]
  after_results_simp <;> rfl

set_option maxRecDepth 8192 in
set_option maxHeartbeats 1100000 in
theorem w4_main_v41 (U : Valuation τ sig (Elt F)) :
    after opsW4 U (Proc.devRef .tc main_v41) =
      addf (Host.dotGeneral dot_S16384x4096_S4096x4096_S16384x4096_1_0_0_1_n_n none (addf (U (Proc.devRef .tc main_v30)) (subf (Host.sign (U (Proc.devRef .tc main_v30))) (U (Proc.devRef .tc main_v30)))) (transpose S4096x4096 [1, 0] (addf (U (Proc.devRef .tc main_arg3)) (subf (Host.sign (U (Proc.devRef .tc main_arg3))) (U (Proc.devRef .tc main_arg3)))) transposes_S4096x4096_S4096x4096_1_0)) (broadcastInDim S16384x4096 ![0, 1] bcast_S1x4096_S16384x4096_0_1 (broadcastInDim S1x4096 ![1] bcast_S4096_S1x4096_1 (U (Proc.devRef .tc main_arg4)))) := by
  simp only [opsW4]
  after_results_simp <;> rfl

end Cert.ReferenceIdeal.RefRun

end
-- ==== Proof.RefRunW5.lean ====
/-
  Operations 75 to 107 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW5 : List (HloOp τ sig (Elt F)) :=
  [ nullary main_cst_4 (constant S_ .f32 0x00000000#32),
    binary main_v41 main_cst_4 main_v42 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    nullary main_cst_5 (constant S_ .f32 0x46800000#32),
    unary main_cst_5 main_v43 (broadcastInDim S4096 ![] bcast_S_S4096 : (⟨S_, .f32⟩ : BufTy).Contents (Elt F) → (⟨S4096, .f32⟩ : BufTy).Contents (Elt F)),
    binary main_v42 main_v43 main_v44 (Host.divf : (⟨S4096, .f32⟩ : BufTy).Contents (Elt F) → (⟨S4096, .f32⟩ : BufTy).Contents (Elt F) → (⟨S4096, .f32⟩ : BufTy).Contents (Elt F)),
    nullary main_c_6 (constantI S_ 32 0#32),
    nullary main_call2_cst (constant S_ .f32 0x00000000#32),
    binary main_v41 main_call2_cst main_call2_v0 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    unary main_call2_v0 main_call2_v1 ((broadcastInDim S1x4096 ![1] bcast_S4096_S1x4096_1) : (⟨S4096, .f32⟩ : BufTy).Contents (Elt F) → (⟨S1x4096, .f32⟩ : BufTy).Contents (Elt F)),
    nullary main_call2_cst_0 (constant S_ .f32 0x46800000#32),
    unary main_call2_cst_0 main_call2_v2 ((broadcastInDim S1x4096 ![] bcast_S_S1x4096) : (⟨S_, .f32⟩ : BufTy).Contents (Elt F) → (⟨S1x4096, .f32⟩ : BufTy).Contents (Elt F)),
    binary main_call2_v1 main_call2_v2 main_call2_v3 ((Host.divf) : (⟨S1x4096, .f32⟩ : BufTy).Contents (Elt F) → (⟨S1x4096, .f32⟩ : BufTy).Contents (Elt F) → (⟨S1x4096, .f32⟩ : BufTy).Contents (Elt F)),
    unary main_call2_v3 main_call2_v4 ((broadcastInDim S16384x4096 ![0, 1] bcast_S1x4096_S16384x4096_0_1) : (⟨S1x4096, .f32⟩ : BufTy).Contents (Elt F) → (⟨S16384x4096, .f32⟩ : BufTy).Contents (Elt F)),
    binary main_v41 main_call2_v4 main_call2_v5 ((subf) : (⟨S16384x4096, .f32⟩ : BufTy).Contents (Elt F) → (⟨S16384x4096, .f32⟩ : BufTy).Contents (Elt F) → (⟨S16384x4096, .f32⟩ : BufTy).Contents (Elt F)),
    binary main_call2_v5 main_call2_v5 main_call2_v6 ((mulf) : (⟨S16384x4096, .f32⟩ : BufTy).Contents (Elt F) → (⟨S16384x4096, .f32⟩ : BufTy).Contents (Elt F) → (⟨S16384x4096, .f32⟩ : BufTy).Contents (Elt F)),
    unary main_c_6 main_call2_v7 ((sitofp .f32) : (⟨S_, .i32⟩ : BufTy).Contents (Elt F) → (⟨S_, .f32⟩ : BufTy).Contents (Elt F)),
    nullary main_call2_cst_1 (constant S_ .f32 0x46800000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S16384x4096_S4096_d0 h_S_) : (⟨S16384x4096, .f32⟩ : BufTy).Contents (Elt F) → (⟨S_, .f32⟩ : BufTy).Contents (Elt F) → (⟨S4096, .f32⟩ : BufTy).Contents (Elt F)),
    unary main_call2_v8 main_call2_v10 ((broadcastInDim S4096 ![] bcast_S_S4096) : (⟨S_, .f32⟩ : BufTy).Contents (Elt F) → (⟨S4096, .f32⟩ : BufTy).Contents (Elt F)),
    binary main_call2_v9 main_call2_v10 main_call2_v11 ((Host.divf) : (⟨S4096, .f32⟩ : BufTy).Contents (Elt F) → (⟨S4096, .f32⟩ : BufTy).Contents (Elt F) → (⟨S4096, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S4096 ![] bcast_S_S4096) : (⟨S_, .f32⟩ : BufTy).Contents (Elt F) → (⟨S4096, .f32⟩ : BufTy).Contents (Elt F)),
    ternary main_call2_v12 main_call2_v11 main_call2_call0_v1 main_v45 ((fun p a b => select (broadcastInDim S4096 ![] bcast_S_S4096 p) a b) : (⟨S_, .i1⟩ : BufTy).Contents (Elt F) → (⟨S4096, .f32⟩ : BufTy).Contents (Elt F) → (⟨S4096, .f32⟩ : BufTy).Contents (Elt F) → (⟨S4096, .f32⟩ : BufTy).Contents (Elt F)),
    unary main_v44 main_v46 (broadcastInDim S1x4096 ![1] bcast_S4096_S1x4096_1 : (⟨S4096, .f32⟩ : BufTy).Contents (Elt F) → (⟨S1x4096, .f32⟩ : BufTy).Contents (Elt F)),
    unary main_v46 main_v47 (broadcastInDim S16384x4096 ![0, 1] bcast_S1x4096_S16384x4096_0_1 : (⟨S1x4096, .f32⟩ : BufTy).Contents (Elt F) → (⟨S16384x4096, .f32⟩ : BufTy).Contents (Elt F)),
    binary main_v41 main_v47 main_v48 (subf : (⟨S16384x4096, .f32⟩ : BufTy).Contents (Elt F) → (⟨S16384x4096, .f32⟩ : BufTy).Contents (Elt F) → (⟨S16384x4096, .f32⟩ : BufTy).Contents (Elt F)),
    nullary main_cst_7 (constant S_ .f32 0x3727C5AC#32),
    unary main_cst_7 main_v49 (broadcastInDim S4096 ![] bcast_S_S4096 : (⟨S_, .f32⟩ : BufTy).Contents (Elt F) → (⟨S4096, .f32⟩ : BufTy).Contents (Elt F)) ]

/-- The buffers the stretch writes. -/
abbrev opsW5_W : List (Ref sig .tc) := [main_cst_4, main_v42, main_cst_5, main_v43, main_v44, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v45, main_v46, main_v47, main_v48, main_cst_7, main_v49]

set_option maxRecDepth 8192 in
theorem opsW5_writes : (opsW5 : List (HloOp τ sig (Elt F))).Forall fun op => op.writes ⊆ (opsW5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW5_sub : (opsW5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

set_option maxRecDepth 8192 in
theorem opsW5_fresh : ∀ op ∈ (opsW5 : List (HloOp τ sig (Elt F))), op.fresh = ∅ := by
  intro _ h; (repeat (cases h with | head => rfl | tail _ h => ?_)); exact nomatch h

set_option maxRecDepth 8192 in
set_option maxHeartbeats 3300000 in
theorem w5_main_v44 (U : Valuation τ sig (Elt F)) :
    after opsW5 U (Proc.devRef .tc main_v44) =
      Host.divf (Host.reduceAdd (U (Proc.devRef .tc main_v41)) ((constant S_ .f32 0x00000000#32 : (⟨S_, .f32⟩ : BufTy).Contents (Elt F))) reducesTo_S16384x4096_S4096_d0 h_S_) (broadcastInDim S4096 ![] bcast_S_S4096 ((constant S_ .f32 0x46800000#32 : (⟨S_, .f32⟩ : BufTy).Contents (Elt F)))) := by
  simp only [opsW5]
  after_results_simp <;> rfl

set_option maxRecDepth 8192 in
set_option maxHeartbeats 3300000 in
theorem w5_main_v45 (U : Valuation τ sig (Elt F)) :
    after opsW5 U (Proc.devRef .tc main_v45) =
      select (broadcastInDim S4096 ![] bcast_S_S4096 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (U (Proc.devRef .tc main_v41)) (broadcastInDim S16384x4096 ![0, 1] bcast_S1x4096_S16384x4096_0_1 (Host.divf (broadcastInDim S1x4096 ![1] bcast_S4096_S1x4096_1 (Host.reduceAdd (U (Proc.devRef .tc main_v41)) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F))))))) (subf (U (Proc.devRef .tc main_v41)) (broadcastInDim S16384x4096 ![0, 1] bcast_S1x4096_S16384x4096_0_1 (Host.divf (broadcastInDim S1x4096 ![1] bcast_S4096_S1x4096_1 (Host.reduceAdd (U (Proc.devRef .tc main_v41)) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F)))))))) ((constant S_ .f32 0x00000000#32 : (⟨S_, .f32⟩ : BufTy).Contents (Elt F))) reducesTo_S16384x4096_S4096_d0 h_S_) (broadcastInDim S4096 ![] bcast_S_S4096 (subf ((constant S_ .f32 0x46800000#32 : (⟨S_, .f32⟩ : BufTy).Contents (Elt F))) (sitofp .f32 (constantI S_ 32 0#32))))) (broadcastInDim S4096 ![] bcast_S_S4096 (id ((constant S_ .f32 0x7FC00000#32 : (⟨S_, .f32⟩ : BufTy).Contents (Elt F))))) := by
  simp only [opsW5]
  after_results_simp <;> rfl

set_option maxRecDepth 8192 in
set_option maxHeartbeats 3300000 in
theorem w5_main_v48 (U : Valuation τ sig (Elt F)) :
    after opsW5 U (Proc.devRef .tc main_v48) =
      subf (U (Proc.devRef .tc main_v41)) (broadcastInDim S16384x4096 ![0, 1] bcast_S1x4096_S16384x4096_0_1 (broadcastInDim S1x4096 ![1] bcast_S4096_S1x4096_1 (Host.divf (Host.reduceAdd (U (Proc.devRef .tc main_v41)) ((constant S_ .f32 0x00000000#32 : (⟨S_, .f32⟩ : BufTy).Contents (Elt F))) reducesTo_S16384x4096_S4096_d0 h_S_) (broadcastInDim S4096 ![] bcast_S_S4096 ((constant S_ .f32 0x46800000#32 : (⟨S_, .f32⟩ : BufTy).Contents (Elt F))))))) := by
  simp only [opsW5]
  after_results_simp <;> rfl

set_option maxRecDepth 8192 in
set_option maxHeartbeats 3300000 in
theorem w5_main_v49 (U : Valuation τ sig (Elt F)) :
    after opsW5 U (Proc.devRef .tc main_v49) =
      broadcastInDim S4096 ![] bcast_S_S4096 ((constant S_ .f32 0x3727C5AC#32 : (⟨S_, .f32⟩ : BufTy).Contents (Elt F))) := by
  simp only [opsW5]
  after_results_simp <;> rfl

end Cert.ReferenceIdeal.RefRun

end
-- ==== Proof.RefRunW6.lean ====
/-
  Operations 108 to 126 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW6 : List (HloOp τ sig (Elt F)) :=
  [ binary main_v45 main_v49 main_v50 (addf : (⟨S4096, .f32⟩ : BufTy).Contents (Elt F) → (⟨S4096, .f32⟩ : BufTy).Contents (Elt F) → (⟨S4096, .f32⟩ : BufTy).Contents (Elt F)),
    unary main_v50 main_v51 (Host.rsqrt : (⟨S4096, .f32⟩ : BufTy).Contents (Elt F) → (⟨S4096, .f32⟩ : BufTy).Contents (Elt F)),
    unary main_v51 main_v52 (broadcastInDim S1x4096 ![1] bcast_S4096_S1x4096_1 : (⟨S4096, .f32⟩ : BufTy).Contents (Elt F) → (⟨S1x4096, .f32⟩ : BufTy).Contents (Elt F)),
    unary main_v52 main_v53 (broadcastInDim S16384x4096 ![0, 1] bcast_S1x4096_S16384x4096_0_1 : (⟨S1x4096, .f32⟩ : BufTy).Contents (Elt F) → (⟨S16384x4096, .f32⟩ : BufTy).Contents (Elt F)),
    binary main_v48 main_v53 main_v54 (mulf : (⟨S16384x4096, .f32⟩ : BufTy).Contents (Elt F) → (⟨S16384x4096, .f32⟩ : BufTy).Contents (Elt F) → (⟨S16384x4096, .f32⟩ : BufTy).Contents (Elt F)),
    unary main_arg15 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S16384x4096 ![0, 1] bcast_S1x4096_S16384x4096_0_1 : (⟨S1x4096, .f32⟩ : BufTy).Contents (Elt F) → (⟨S16384x4096, .f32⟩ : BufTy).Contents (Elt F)),
    binary main_v54 main_v56 main_v57 (mulf : (⟨S16384x4096, .f32⟩ : BufTy).Contents (Elt F) → (⟨S16384x4096, .f32⟩ : BufTy).Contents (Elt F) → (⟨S16384x4096, .f32⟩ : BufTy).Contents (Elt F)),
    unary main_arg16 main_v58 (broadcastInDim S1x4096 ![1] bcast_S4096_S1x4096_1 : (⟨S4096, .f32⟩ : BufTy).Contents (Elt F) → (⟨S1x4096, .f32⟩ : BufTy).Contents (Elt F)),
    unary main_v58 main_v59 (broadcastInDim S16384x4096 ![0, 1] bcast_S1x4096_S16384x4096_0_1 : (⟨S1x4096, .f32⟩ : BufTy).Contents (Elt F) → (⟨S16384x4096, .f32⟩ : BufTy).Contents (Elt F)),
    binary main_v57 main_v59 main_v60 (addf : (⟨S16384x4096, .f32⟩ : BufTy).Contents (Elt F) → (⟨S16384x4096, .f32⟩ : BufTy).Contents (Elt F) → (⟨S16384x4096, .f32⟩ : BufTy).Contents (Elt F)),
    nullary main_cst_8 (constant S_ .f32 0xBF800000#32),
    nullary main_cst_9 (constant S_ .f32 0x3F800000#32),
    unary main_cst_8 main_call3_v0 ((id) : (⟨S_, .f32⟩ : BufTy).Contents (Elt F) → (⟨S_, .f32⟩ : BufTy).Contents (Elt F)),
    unary main_call3_v0 main_call3_v1 ((broadcastInDim S16384x4096 ![] bcast_S_S16384x4096) : (⟨S_, .f32⟩ : BufTy).Contents (Elt F) → (⟨S16384x4096, .f32⟩ : BufTy).Contents (Elt F)),
    binary main_call3_v1 main_v60 main_call3_v2 ((maximumf) : (⟨S16384x4096, .f32⟩ : BufTy).Contents (Elt F) → (⟨S16384x4096, .f32⟩ : BufTy).Contents (Elt F) → (⟨S16384x4096, .f32⟩ : BufTy).Contents (Elt F)),
    unary main_cst_9 main_call3_v3 ((id) : (⟨S_, .f32⟩ : BufTy).Contents (Elt F) → (⟨S_, .f32⟩ : BufTy).Contents (Elt F)),
    unary main_call3_v3 main_call3_v4 ((broadcastInDim S16384x4096 ![] bcast_S_S16384x4096) : (⟨S_, .f32⟩ : BufTy).Contents (Elt F) → (⟨S16384x4096, .f32⟩ : BufTy).Contents (Elt F)),
    binary main_call3_v4 main_call3_v2 main_v61 ((minimumf) : (⟨S16384x4096, .f32⟩ : BufTy).Contents (Elt F) → (⟨S16384x4096, .f32⟩ : BufTy).Contents (Elt F) → (⟨S16384x4096, .f32⟩ : BufTy).Contents (Elt F)) ]

/-- The buffers the stretch writes. -/
abbrev opsW6_W : List (Ref sig .tc) := [main_v50, main_v51, main_v52, main_v53, main_v54, main_v55, main_v56, main_v57, main_v58, main_v59, main_v60, main_cst_8, main_cst_9, main_call3_v0, main_call3_v1, main_call3_v2, main_call3_v3, main_call3_v4, main_v61]

set_option maxRecDepth 8192 in
theorem opsW6_writes : (opsW6 : List (HloOp τ sig (Elt F))).Forall fun op => op.writes ⊆ (opsW6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW6_sub : (opsW6 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsW6_fresh : ∀ op ∈ (opsW6 : List (HloOp τ sig (Elt F))), op.fresh = ∅ := by
  intro _ h; (repeat (cases h with | head => rfl | tail _ h => ?_)); exact nomatch h

set_option maxRecDepth 8192 in
set_option maxHeartbeats 1900000 in
theorem w6_main_v61 (U : Valuation τ sig (Elt F)) :
    after opsW6 U (Proc.devRef .tc main_v61) =
      minimumf (broadcastInDim S16384x4096 ![] bcast_S_S16384x4096 (id ((constant S_ .f32 0x3F800000#32 : (⟨S_, .f32⟩ : BufTy).Contents (Elt F))))) (maximumf (broadcastInDim S16384x4096 ![] bcast_S_S16384x4096 (id ((constant S_ .f32 0xBF800000#32 : (⟨S_, .f32⟩ : BufTy).Contents (Elt F))))) (addf (mulf (mulf (U (Proc.devRef .tc main_v48)) (broadcastInDim S16384x4096 ![0, 1] bcast_S1x4096_S16384x4096_0_1 (broadcastInDim S1x4096 ![1] bcast_S4096_S1x4096_1 (Host.rsqrt (addf (U (Proc.devRef .tc main_v45)) (U (Proc.devRef .tc main_v49))))))) (broadcastInDim S16384x4096 ![0, 1] bcast_S1x4096_S16384x4096_0_1 (broadcastInDim S1x4096 ![1] bcast_S4096_S1x4096_1 (U (Proc.devRef .tc main_arg15))))) (broadcastInDim S16384x4096 ![0, 1] bcast_S1x4096_S16384x4096_0_1 (broadcastInDim S1x4096 ![1] bcast_S4096_S1x4096_1 (U (Proc.devRef .tc main_arg16)))))) := by
  simp only [opsW6]
  after_results_simp <;> rfl

end Cert.ReferenceIdeal.RefRun

end
-- ==== Proof.RefRunW7.lean ====
/-
  Operations 127 to 137 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW7 : List (HloOp τ sig (Elt F)) :=
  [ unary main_v61 main_v62 (Host.sign : (⟨S16384x4096, .f32⟩ : BufTy).Contents (Elt F) → (⟨S16384x4096, .f32⟩ : BufTy).Contents (Elt F)),
    binary main_v62 main_v61 main_v63 (subf : (⟨S16384x4096, .f32⟩ : BufTy).Contents (Elt F) → (⟨S16384x4096, .f32⟩ : BufTy).Contents (Elt F) → (⟨S16384x4096, .f32⟩ : BufTy).Contents (Elt F)),
    binary main_v61 main_v63 main_v64 (addf : (⟨S16384x4096, .f32⟩ : BufTy).Contents (Elt F) → (⟨S16384x4096, .f32⟩ : BufTy).Contents (Elt F) → (⟨S16384x4096, .f32⟩ : BufTy).Contents (Elt F)),
    unary main_arg5 main_v65 (Host.sign : (⟨S256x4096, .f32⟩ : BufTy).Contents (Elt F) → (⟨S256x4096, .f32⟩ : BufTy).Contents (Elt F)),
    binary main_v65 main_arg5 main_v66 (subf : (⟨S256x4096, .f32⟩ : BufTy).Contents (Elt F) → (⟨S256x4096, .f32⟩ : BufTy).Contents (Elt F) → (⟨S256x4096, .f32⟩ : BufTy).Contents (Elt F)),
    binary main_arg5 main_v66 main_v67 (addf : (⟨S256x4096, .f32⟩ : BufTy).Contents (Elt F) → (⟨S256x4096, .f32⟩ : BufTy).Contents (Elt F) → (⟨S256x4096, .f32⟩ : BufTy).Contents (Elt F)),
    unary main_v67 main_v68 ((transpose S4096x256 [1, 0] · transposes_S256x4096_S4096x256_1_0) : (⟨S256x4096, .f32⟩ : BufTy).Contents (Elt F) → (⟨S4096x256, .f32⟩ : BufTy).Contents (Elt F)),
    binary main_v64 main_v68 main_v69 ((fun l r => Host.dotGeneral dot_S16384x4096_S4096x256_S16384x256_1_0_0_1_n_n none l r) : (⟨S16384x4096, .f32⟩ : BufTy).Contents (Elt F) → (⟨S4096x256, .f32⟩ : BufTy).Contents (Elt F) → (⟨S16384x256, .f32⟩ : BufTy).Contents (Elt F)),
    unary main_arg6 main_v70 (broadcastInDim S1x256 ![1] bcast_S256_S1x256_1 : (⟨S256, .f32⟩ : BufTy).Contents (Elt F) → (⟨S1x256, .f32⟩ : BufTy).Contents (Elt F)),
    unary main_v70 main_v71 (broadcastInDim S16384x256 ![0, 1] bcast_S1x256_S16384x256_0_1 : (⟨S1x256, .f32⟩ : BufTy).Contents (Elt F) → (⟨S16384x256, .f32⟩ : BufTy).Contents (Elt F)),
    binary main_v69 main_v71 main_v72 (addf : (⟨S16384x256, .f32⟩ : BufTy).Contents (Elt F) → (⟨S16384x256, .f32⟩ : BufTy).Contents (Elt F) → (⟨S16384x256, .f32⟩ : BufTy).Contents (Elt F)) ]

/-- The buffers the stretch writes. -/
abbrev opsW7_W : List (Ref sig .tc) := [main_v62, main_v63, main_v64, main_v65, main_v66, main_v67, main_v68, main_v69, main_v70, main_v71, main_v72]

set_option maxRecDepth 8192 in
theorem opsW7_writes : (opsW7 : List (HloOp τ sig (Elt F))).Forall fun op => op.writes ⊆ (opsW7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW7_sub : (opsW7 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., unary_bufs_sub .., unary_bufs_sub .., binary_bufs_sub ..⟩

set_option maxRecDepth 8192 in
theorem opsW7_fresh : ∀ op ∈ (opsW7 : List (HloOp τ sig (Elt F))), op.fresh = ∅ := by
  intro _ h; (repeat (cases h with | head => rfl | tail _ h => ?_)); exact nomatch h

set_option maxRecDepth 8192 in
set_option maxHeartbeats 1100000 in
theorem w7_main_v64 (U : Valuation τ sig (Elt F)) :
    after opsW7 U (Proc.devRef .tc main_v64) =
      addf (U (Proc.devRef .tc main_v61)) (subf (Host.sign (U (Proc.devRef .tc main_v61))) (U (Proc.devRef .tc main_v61))) := by
  simp only [opsW7]
  after_results_simp <;> rfl

set_option maxRecDepth 8192 in
set_option maxHeartbeats 1100000 in
theorem w7_main_v72 (U : Valuation τ sig (Elt F)) :
    after opsW7 U (Proc.devRef .tc main_v72) =
      addf (Host.dotGeneral dot_S16384x4096_S4096x256_S16384x256_1_0_0_1_n_n none (addf (U (Proc.devRef .tc main_v61)) (subf (Host.sign (U (Proc.devRef .tc main_v61))) (U (Proc.devRef .tc main_v61)))) (transpose S4096x256 [1, 0] (addf (U (Proc.devRef .tc main_arg5)) (subf (Host.sign (U (Proc.devRef .tc main_arg5))) (U (Proc.devRef .tc main_arg5)))) transposes_S256x4096_S4096x256_1_0)) (broadcastInDim S16384x256 ![0, 1] bcast_S1x256_S16384x256_0_1 (broadcastInDim S1x256 ![1] bcast_S256_S1x256_1 (U (Proc.devRef .tc main_arg6)))) := by
  simp only [opsW7]
  after_results_simp <;> rfl

end Cert.ReferenceIdeal.RefRun

end
-- ==== Proof.RefRunW8.lean ====
/-
  Operations 138 to 165 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW8 : List (HloOp τ sig (Elt F)) :=
  [ nullary main_cst_10 (constant S_ .f32 0x00000000#32),
    binary main_v72 main_cst_10 main_v73 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    nullary main_cst_11 (constant S_ .f32 0x46800000#32),
    unary main_cst_11 main_v74 (broadcastInDim S256 ![] bcast_S_S256 : (⟨S_, .f32⟩ : BufTy).Contents (Elt F) → (⟨S256, .f32⟩ : BufTy).Contents (Elt F)),
    binary main_v73 main_v74 main_v75 (Host.divf : (⟨S256, .f32⟩ : BufTy).Contents (Elt F) → (⟨S256, .f32⟩ : BufTy).Contents (Elt F) → (⟨S256, .f32⟩ : BufTy).Contents (Elt F)),
    nullary main_c_12 (constantI S_ 32 0#32),
    nullary main_call4_cst (constant S_ .f32 0x00000000#32),
    binary main_v72 main_call4_cst main_call4_v0 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    unary main_call4_v0 main_call4_v1 ((broadcastInDim S1x256 ![1] bcast_S256_S1x256_1) : (⟨S256, .f32⟩ : BufTy).Contents (Elt F) → (⟨S1x256, .f32⟩ : BufTy).Contents (Elt F)),
    nullary main_call4_cst_0 (constant S_ .f32 0x46800000#32),
    unary main_call4_cst_0 main_call4_v2 ((broadcastInDim S1x256 ![] bcast_S_S1x256) : (⟨S_, .f32⟩ : BufTy).Contents (Elt F) → (⟨S1x256, .f32⟩ : BufTy).Contents (Elt F)),
    binary main_call4_v1 main_call4_v2 main_call4_v3 ((Host.divf) : (⟨S1x256, .f32⟩ : BufTy).Contents (Elt F) → (⟨S1x256, .f32⟩ : BufTy).Contents (Elt F) → (⟨S1x256, .f32⟩ : BufTy).Contents (Elt F)),
    unary main_call4_v3 main_call4_v4 ((broadcastInDim S16384x256 ![0, 1] bcast_S1x256_S16384x256_0_1) : (⟨S1x256, .f32⟩ : BufTy).Contents (Elt F) → (⟨S16384x256, .f32⟩ : BufTy).Contents (Elt F)),
    binary main_v72 main_call4_v4 main_call4_v5 ((subf) : (⟨S16384x256, .f32⟩ : BufTy).Contents (Elt F) → (⟨S16384x256, .f32⟩ : BufTy).Contents (Elt F) → (⟨S16384x256, .f32⟩ : BufTy).Contents (Elt F)),
    binary main_call4_v5 main_call4_v5 main_call4_v6 ((mulf) : (⟨S16384x256, .f32⟩ : BufTy).Contents (Elt F) → (⟨S16384x256, .f32⟩ : BufTy).Contents (Elt F) → (⟨S16384x256, .f32⟩ : BufTy).Contents (Elt F)),
    unary main_c_12 main_call4_v7 ((sitofp .f32) : (⟨S_, .i32⟩ : BufTy).Contents (Elt F) → (⟨S_, .f32⟩ : BufTy).Contents (Elt F)),
    nullary main_call4_cst_1 (constant S_ .f32 0x46800000#32),
    binary main_call4_cst_1 main_call4_v7 main_call4_v8 ((subf) : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    unary main_call4_v8 main_call4_v10 ((broadcastInDim S256 ![] bcast_S_S256) : (⟨S_, .f32⟩ : BufTy).Contents (Elt F) → (⟨S256, .f32⟩ : BufTy).Contents (Elt F)),
    binary main_call4_v9 main_call4_v10 main_call4_v11 ((Host.divf) : (⟨S256, .f32⟩ : BufTy).Contents (Elt F) → (⟨S256, .f32⟩ : BufTy).Contents (Elt F) → (⟨S256, .f32⟩ : BufTy).Contents (Elt F)),
    nullary main_call4_cst_3 (constant S_ .f32 0x00000000#32),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 ((id) : (⟨S_, .f32⟩ : BufTy).Contents (Elt F) → (⟨S_, .f32⟩ : BufTy).Contents (Elt F)),
    unary main_call4_call0_v0 main_call4_call0_v1 ((broadcastInDim S256 ![] bcast_S_S256) : (⟨S_, .f32⟩ : BufTy).Contents (Elt F) → (⟨S256, .f32⟩ : BufTy).Contents (Elt F)),
    ternary main_call4_v12 main_call4_v11 main_call4_call0_v1 main_v76 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- The buffers the stretch writes. -/
abbrev opsW8_W : List (Ref sig .tc) := [main_cst_10, main_v73, main_cst_11, main_v74, main_v75, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v76]

set_option maxRecDepth 8192 in
theorem opsW8_writes : (opsW8 : List (HloOp τ sig (Elt F))).Forall fun op => op.writes ⊆ (opsW8_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW8_sub : (opsW8 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsW8_fresh : ∀ op ∈ (opsW8 : List (HloOp τ sig (Elt F))), op.fresh = ∅ := by
  intro _ h; (repeat (cases h with | head => rfl | tail _ h => ?_)); exact nomatch h

set_option maxRecDepth 8192 in
set_option maxHeartbeats 2800000 in
theorem w8_main_v75 (U : Valuation τ sig (Elt F)) :
    after opsW8 U (Proc.devRef .tc main_v75) =
      Host.divf (Host.reduceAdd (U (Proc.devRef .tc main_v72)) ((constant S_ .f32 0x00000000#32 : (⟨S_, .f32⟩ : BufTy).Contents (Elt F))) reducesTo_S16384x256_S256_d0 h_S_) (broadcastInDim S256 ![] bcast_S_S256 ((constant S_ .f32 0x46800000#32 : (⟨S_, .f32⟩ : BufTy).Contents (Elt F)))) := by
  simp only [opsW8]
  after_results_simp <;> rfl

set_option maxRecDepth 8192 in
set_option maxHeartbeats 2800000 in
theorem w8_main_v76 (U : Valuation τ sig (Elt F)) :
    after opsW8 U (Proc.devRef .tc main_v76) =
      select (broadcastInDim S256 ![] bcast_S_S256 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (U (Proc.devRef .tc main_v72)) (broadcastInDim S16384x256 ![0, 1] bcast_S1x256_S16384x256_0_1 (Host.divf (broadcastInDim S1x256 ![1] bcast_S256_S1x256_1 (Host.reduceAdd (U (Proc.devRef .tc main_v72)) ((constant S_ .f32 0x00000000#32 : (⟨S_, .f32⟩ : BufTy).Contents (Elt F))) reducesTo_S16384x256_S256_d0 h_S_)) (broadcastInDim S1x256 ![] bcast_S_S1x256 ((constant S_ .f32 0x46800000#32 : (⟨S_, .f32⟩ : BufTy).Contents (Elt F))))))) (subf (U (Proc.devRef .tc main_v72)) (broadcastInDim S16384x256 ![0, 1] bcast_S1x256_S16384x256_0_1 (Host.divf (broadcastInDim S1x256 ![1] bcast_S256_S1x256_1 (Host.reduceAdd (U (Proc.devRef .tc main_v72)) ((constant S_ .f32 0x00000000#32 : (⟨S_, .f32⟩ : BufTy).Contents (Elt F))) reducesTo_S16384x256_S256_d0 h_S_)) (broadcastInDim S1x256 ![] bcast_S_S1x256 ((constant S_ .f32 0x46800000#32 : (⟨S_, .f32⟩ : BufTy).Contents (Elt F)))))))) ((constant S_ .f32 0x00000000#32 : (⟨S_, .f32⟩ : BufTy).Contents (Elt F))) reducesTo_S16384x256_S256_d0 h_S_) (broadcastInDim S256 ![] bcast_S_S256 (subf ((constant S_ .f32 0x46800000#32 : (⟨S_, .f32⟩ : BufTy).Contents (Elt F))) (sitofp .f32 (constantI S_ 32 0#32))))) (broadcastInDim S256 ![] bcast_S_S256 (id ((constant S_ .f32 0x7FC00000#32 : (⟨S_, .f32⟩ : BufTy).Contents (Elt F))))) := by
  simp only [opsW8]
  after_results_simp <;> rfl

end Cert.ReferenceIdeal.RefRun

end
-- ==== Proof.RefRunW9.lean ====
/-
  Operations 166 to 189 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW9 : List (HloOp τ sig (Elt F)) :=
  [ unary main_v75 main_v77 (broadcastInDim S1x256 ![1] bcast_S256_S1x256_1 : (⟨S256, .f32⟩ : BufTy).Contents (Elt F) → (⟨S1x256, .f32⟩ : BufTy).Contents (Elt F)),
    unary main_v77 main_v78 (broadcastInDim S16384x256 ![0, 1] bcast_S1x256_S16384x256_0_1 : (⟨S1x256, .f32⟩ : BufTy).Contents (Elt F) → (⟨S16384x256, .f32⟩ : BufTy).Contents (Elt F)),
    binary main_v72 main_v78 main_v79 (subf : (⟨S16384x256, .f32⟩ : BufTy).Contents (Elt F) → (⟨S16384x256, .f32⟩ : BufTy).Contents (Elt F) → (⟨S16384x256, .f32⟩ : BufTy).Contents (Elt F)),
    nullary main_cst_13 (constant S_ .f32 0x3727C5AC#32),
    unary main_cst_13 main_v80 (broadcastInDim S256 ![] bcast_S_S256 : (⟨S_, .f32⟩ : BufTy).Contents (Elt F) → (⟨S256, .f32⟩ : BufTy).Contents (Elt F)),
    binary main_v76 main_v80 main_v81 (addf : (⟨S256, .f32⟩ : BufTy).Contents (Elt F) → (⟨S256, .f32⟩ : BufTy).Contents (Elt F) → (⟨S256, .f32⟩ : BufTy).Contents (Elt F)),
    unary main_v81 main_v82 (Host.rsqrt : (⟨S256, .f32⟩ : BufTy).Contents (Elt F) → (⟨S256, .f32⟩ : BufTy).Contents (Elt F)),
    unary main_v82 main_v83 (broadcastInDim S1x256 ![1] bcast_S256_S1x256_1 : (⟨S256, .f32⟩ : BufTy).Contents (Elt F) → (⟨S1x256, .f32⟩ : BufTy).Contents (Elt F)),
    unary main_v83 main_v84 (broadcastInDim S16384x256 ![0, 1] bcast_S1x256_S16384x256_0_1 : (⟨S1x256, .f32⟩ : BufTy).Contents (Elt F) → (⟨S16384x256, .f32⟩ : BufTy).Contents (Elt F)),
    binary main_v79 main_v84 main_v85 (mulf : (⟨S16384x256, .f32⟩ : BufTy).Contents (Elt F) → (⟨S16384x256, .f32⟩ : BufTy).Contents (Elt F) → (⟨S16384x256, .f32⟩ : BufTy).Contents (Elt F)),
    unary main_arg17 main_v86 (broadcastInDim S1x256 ![1] bcast_S256_S1x256_1 : (⟨S256, .f32⟩ : BufTy).Contents (Elt F) → (⟨S1x256, .f32⟩ : BufTy).Contents (Elt F)),
    unary main_v86 main_v87 (broadcastInDim S16384x256 ![0, 1] bcast_S1x256_S16384x256_0_1 : (⟨S1x256, .f32⟩ : BufTy).Contents (Elt F) → (⟨S16384x256, .f32⟩ : BufTy).Contents (Elt F)),
    binary main_v85 main_v87 main_v88 (mulf : (⟨S16384x256, .f32⟩ : BufTy).Contents (Elt F) → (⟨S16384x256, .f32⟩ : BufTy).Contents (Elt F) → (⟨S16384x256, .f32⟩ : BufTy).Contents (Elt F)),
    unary main_arg18 main_v89 (broadcastInDim S1x256 ![1] bcast_S256_S1x256_1 : (⟨S256, .f32⟩ : BufTy).Contents (Elt F) → (⟨S1x256, .f32⟩ : BufTy).Contents (Elt F)),
    unary main_v89 main_v90 (broadcastInDim S16384x256 ![0, 1] bcast_S1x256_S16384x256_0_1 : (⟨S1x256, .f32⟩ : BufTy).Contents (Elt F) → (⟨S16384x256, .f32⟩ : BufTy).Contents (Elt F)),
    binary main_v88 main_v90 main_v91 (addf : (⟨S16384x256, .f32⟩ : BufTy).Contents (Elt F) → (⟨S16384x256, .f32⟩ : BufTy).Contents (Elt F) → (⟨S16384x256, .f32⟩ : BufTy).Contents (Elt F)),
    nullary main_cst_14 (constant S_ .f32 0xBF800000#32),
    nullary main_cst_15 (constant S_ .f32 0x3F800000#32),
    unary main_cst_14 main_call5_v0 ((id) : (⟨S_, .f32⟩ : BufTy).Contents (Elt F) → (⟨S_, .f32⟩ : BufTy).Contents (Elt F)),
    unary main_call5_v0 main_call5_v1 ((broadcastInDim S16384x256 ![] bcast_S_S16384x256) : (⟨S_, .f32⟩ : BufTy).Contents (Elt F) → (⟨S16384x256, .f32⟩ : BufTy).Contents (Elt F)),
    binary main_call5_v1 main_v91 main_call5_v2 ((maximumf) : (⟨S16384x256, .f32⟩ : BufTy).Contents (Elt F) → (⟨S16384x256, .f32⟩ : BufTy).Contents (Elt F) → (⟨S16384x256, .f32⟩ : BufTy).Contents (Elt F)),
    unary main_cst_15 main_call5_v3 ((id) : (⟨S_, .f32⟩ : BufTy).Contents (Elt F) → (⟨S_, .f32⟩ : BufTy).Contents (Elt F)),
    unary main_call5_v3 main_call5_v4 ((broadcastInDim S16384x256 ![] bcast_S_S16384x256) : (⟨S_, .f32⟩ : BufTy).Contents (Elt F) → (⟨S16384x256, .f32⟩ : BufTy).Contents (Elt F)),
    binary main_call5_v4 main_call5_v2 main_v92 ((minimumf) : (⟨S16384x256, .f32⟩ : BufTy).Contents (Elt F) → (⟨S16384x256, .f32⟩ : BufTy).Contents (Elt F) → (⟨S16384x256, .f32⟩ : BufTy).Contents (Elt F)) ]

/-- The buffers the stretch writes. -/
abbrev opsW9_W : List (Ref sig .tc) := [main_v77, main_v78, main_v79, main_cst_13, main_v80, main_v81, main_v82, main_v83, main_v84, main_v85, main_v86, main_v87, main_v88, main_v89, main_v90, main_v91, main_cst_14, main_cst_15, main_call5_v0, main_call5_v1, main_call5_v2, main_call5_v3, main_call5_v4, main_v92]

set_option maxRecDepth 8192 in
theorem opsW9_writes : (opsW9 : List (HloOp τ sig (Elt F))).Forall fun op => op.writes ⊆ (opsW9_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW9_sub : (opsW9 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsW9_fresh : ∀ op ∈ (opsW9 : List (HloOp τ sig (Elt F))), op.fresh = ∅ := by
  intro _ h; (repeat (cases h with | head => rfl | tail _ h => ?_)); exact nomatch h

set_option maxRecDepth 8192 in
set_option maxHeartbeats 2400000 in
theorem w9_main_v92 (U : Valuation τ sig (Elt F)) :
    after opsW9 U (Proc.devRef .tc main_v92) =
      minimumf (broadcastInDim S16384x256 ![] bcast_S_S16384x256 (id ((constant S_ .f32 0x3F800000#32 : (⟨S_, .f32⟩ : BufTy).Contents (Elt F))))) (maximumf (broadcastInDim S16384x256 ![] bcast_S_S16384x256 (id ((constant S_ .f32 0xBF800000#32 : (⟨S_, .f32⟩ : BufTy).Contents (Elt F))))) (addf (mulf (mulf (subf (U (Proc.devRef .tc main_v72)) (broadcastInDim S16384x256 ![0, 1] bcast_S1x256_S16384x256_0_1 (broadcastInDim S1x256 ![1] bcast_S256_S1x256_1 (U (Proc.devRef .tc main_v75))))) (broadcastInDim S16384x256 ![0, 1] bcast_S1x256_S16384x256_0_1 (broadcastInDim S1x256 ![1] bcast_S256_S1x256_1 (Host.rsqrt (addf (U (Proc.devRef .tc main_v76)) (broadcastInDim S256 ![] bcast_S_S256 ((constant S_ .f32 0x3727C5AC#32 : (⟨S_, .f32⟩ : BufTy).Contents (Elt F))))))))) (broadcastInDim S16384x256 ![0, 1] bcast_S1x256_S16384x256_0_1 (broadcastInDim S1x256 ![1] bcast_S256_S1x256_1 (U (Proc.devRef .tc main_arg17))))) (broadcastInDim S16384x256 ![0, 1] bcast_S1x256_S16384x256_0_1 (broadcastInDim S1x256 ![1] bcast_S256_S1x256_1 (U (Proc.devRef .tc main_arg18)))))) := by
  simp only [opsW9]
  after_results_simp <;> rfl

end Cert.ReferenceIdeal.RefRun

end
-- ==== Proof.RefRunW10.lean ====
/-
  Operations 190 to 198 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW10 : List (HloOp τ sig (Elt F)) :=
  [ unary main_v92 main_v93 (Host.sign : (⟨S16384x256, .f32⟩ : BufTy).Contents (Elt F) → (⟨S16384x256, .f32⟩ : BufTy).Contents (Elt F)),
    binary main_v93 main_v92 main_v94 (subf : (⟨S16384x256, .f32⟩ : BufTy).Contents (Elt F) → (⟨S16384x256, .f32⟩ : BufTy).Contents (Elt F) → (⟨S16384x256, .f32⟩ : BufTy).Contents (Elt F)),
    binary main_v92 main_v94 main_v95 (addf : (⟨S16384x256, .f32⟩ : BufTy).Contents (Elt F) → (⟨S16384x256, .f32⟩ : BufTy).Contents (Elt F) → (⟨S16384x256, .f32⟩ : BufTy).Contents (Elt F)),
    unary main_arg7 main_v96 (Host.sign : (⟨S16x256, .f32⟩ : BufTy).Contents (Elt F) → (⟨S16x256, .f32⟩ : BufTy).Contents (Elt F)),
    binary main_v96 main_arg7 main_v97 (subf : (⟨S16x256, .f32⟩ : BufTy).Contents (Elt F) → (⟨S16x256, .f32⟩ : BufTy).Contents (Elt F) → (⟨S16x256, .f32⟩ : BufTy).Contents (Elt F)),
    binary main_arg7 main_v97 main_v98 (addf : (⟨S16x256, .f32⟩ : BufTy).Contents (Elt F) → (⟨S16x256, .f32⟩ : BufTy).Contents (Elt F) → (⟨S16x256, .f32⟩ : BufTy).Contents (Elt F)),
    unary main_v98 main_v99 ((transpose S256x16 [1, 0] · transposes_S16x256_S256x16_1_0) : (⟨S16x256, .f32⟩ : BufTy).Contents (Elt F) → (⟨S256x16, .f32⟩ : BufTy).Contents (Elt F)),
    binary main_v95 main_v99 main_v100 ((fun l r => Host.dotGeneral dot_S16384x256_S256x16_S16384x16_1_0_0_1_n_n none l r) : (⟨S16384x256, .f32⟩ : BufTy).Contents (Elt F) → (⟨S256x16, .f32⟩ : BufTy).Contents (Elt F) → (⟨S16384x16, .f32⟩ : BufTy).Contents (Elt F)),
    unary main_arg8 main_v101 (broadcastInDim S1x16 ![1] bcast_S16_S1x16_1 : (⟨S16, .f32⟩ : BufTy).Contents (Elt F) → (⟨S1x16, .f32⟩ : BufTy).Contents (Elt F)) ]

/-- The buffers the stretch writes. -/
abbrev opsW10_W : List (Ref sig .tc) := [main_v93, main_v94, main_v95, main_v96, main_v97, main_v98, main_v99, main_v100, main_v101]

set_option maxRecDepth 8192 in
theorem opsW10_writes : (opsW10 : List (HloOp τ sig (Elt F))).Forall fun op => op.writes ⊆ (opsW10_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW10_sub : (opsW10 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., unary_bufs_sub ..⟩

set_option maxRecDepth 8192 in
theorem opsW10_fresh : ∀ op ∈ (opsW10 : List (HloOp τ sig (Elt F))), op.fresh = ∅ := by
  intro _ h; (repeat (cases h with | head => rfl | tail _ h => ?_)); exact nomatch h

set_option maxRecDepth 8192 in
set_option maxHeartbeats 900000 in
theorem w10_main_v95 (U : Valuation τ sig (Elt F)) :
    after opsW10 U (Proc.devRef .tc main_v95) =
      addf (U (Proc.devRef .tc main_v92)) (subf (Host.sign (U (Proc.devRef .tc main_v92))) (U (Proc.devRef .tc main_v92))) := by
  simp only [opsW10]
  after_results_simp <;> rfl

set_option maxRecDepth 8192 in
set_option maxHeartbeats 900000 in
theorem w10_main_v100 (U : Valuation τ sig (Elt F)) :
    after opsW10 U (Proc.devRef .tc main_v100) =
      Host.dotGeneral dot_S16384x256_S256x16_S16384x16_1_0_0_1_n_n none (addf (U (Proc.devRef .tc main_v92)) (subf (Host.sign (U (Proc.devRef .tc main_v92))) (U (Proc.devRef .tc main_v92)))) (transpose S256x16 [1, 0] (addf (U (Proc.devRef .tc main_arg7)) (subf (Host.sign (U (Proc.devRef .tc main_arg7))) (U (Proc.devRef .tc main_arg7)))) transposes_S16x256_S256x16_1_0) := by
  simp only [opsW10]
  after_results_simp <;> rfl

set_option maxRecDepth 8192 in
set_option maxHeartbeats 900000 in
theorem w10_main_v101 (U : Valuation τ sig (Elt F)) :
    after opsW10 U (Proc.devRef .tc main_v101) =
      broadcastInDim S1x16 ![1] bcast_S16_S1x16_1 (U (Proc.devRef .tc main_arg8)) := by
  simp only [opsW10]
  after_results_simp <;> rfl

end Cert.ReferenceIdeal.RefRun

end
-- ==== Proof.RefRunW11.lean ====
/-
  Operations 199 to 208 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW11 : List (HloOp τ sig (Elt F)) :=
  [ unary main_v101 main_v102 (broadcastInDim S16384x16 ![0, 1] bcast_S1x16_S16384x16_0_1 : (⟨S1x16, .f32⟩ : BufTy).Contents (Elt F) → (⟨S16384x16, .f32⟩ : BufTy).Contents (Elt F)),
    binary main_v100 main_v102 main_v103 (addf : (⟨S16384x16, .f32⟩ : BufTy).Contents (Elt F) → (⟨S16384x16, .f32⟩ : BufTy).Contents (Elt F) → (⟨S16384x16, .f32⟩ : BufTy).Contents (Elt F)),
    nullary main_cst_16 (constant S_ .f32 0xBF800000#32),
    nullary main_cst_17 (constant S_ .f32 0x3F800000#32),
    unary main_cst_16 main_call6_v0 ((id) : (⟨S_, .f32⟩ : BufTy).Contents (Elt F) → (⟨S_, .f32⟩ : BufTy).Contents (Elt F)),
    unary main_call6_v0 main_call6_v1 ((broadcastInDim S16384x16 ![] bcast_S_S16384x16) : (⟨S_, .f32⟩ : BufTy).Contents (Elt F) → (⟨S16384x16, .f32⟩ : BufTy).Contents (Elt F)),
    binary main_call6_v1 main_v103 main_call6_v2 ((maximumf) : (⟨S16384x16, .f32⟩ : BufTy).Contents (Elt F) → (⟨S16384x16, .f32⟩ : BufTy).Contents (Elt F) → (⟨S16384x16, .f32⟩ : BufTy).Contents (Elt F)),
    unary main_cst_17 main_call6_v3 ((id) : (⟨S_, .f32⟩ : BufTy).Contents (Elt F) → (⟨S_, .f32⟩ : BufTy).Contents (Elt F)),
    unary main_call6_v3 main_call6_v4 ((broadcastInDim S16384x16 ![] bcast_S_S16384x16) : (⟨S_, .f32⟩ : BufTy).Contents (Elt F) → (⟨S16384x16, .f32⟩ : BufTy).Contents (Elt F)),
    binary main_call6_v4 main_call6_v2 main_v104 ((minimumf) : (⟨S16384x16, .f32⟩ : BufTy).Contents (Elt F) → (⟨S16384x16, .f32⟩ : BufTy).Contents (Elt F) → (⟨S16384x16, .f32⟩ : BufTy).Contents (Elt F)) ]

/-- The buffers the stretch writes. -/
abbrev opsW11_W : List (Ref sig .tc) := [main_v102, main_v103, main_cst_16, main_cst_17, main_call6_v0, main_call6_v1, main_call6_v2, main_call6_v3, main_call6_v4, main_v104]

set_option maxRecDepth 8192 in
theorem opsW11_writes : (opsW11 : List (HloOp τ sig (Elt F))).Forall fun op => op.writes ⊆ (opsW11_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW11_sub : (opsW11 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsW11_fresh : ∀ op ∈ (opsW11 : List (HloOp τ sig (Elt F))), op.fresh = ∅ := by
  intro _ h; (repeat (cases h with | head => rfl | tail _ h => ?_)); exact nomatch h

set_option maxRecDepth 8192 in
set_option maxHeartbeats 1000000 in
theorem w11_main_v103 (U : Valuation τ sig (Elt F)) :
    after opsW11 U (Proc.devRef .tc main_v103) =
      addf (U (Proc.devRef .tc main_v100)) (broadcastInDim S16384x16 ![0, 1] bcast_S1x16_S16384x16_0_1 (U (Proc.devRef .tc main_v101))) := by
  simp only [opsW11]
  after_results_simp <;> rfl

set_option maxRecDepth 8192 in
set_option maxHeartbeats 1000000 in
theorem w11_main_v104 (U : Valuation τ sig (Elt F)) :
    after opsW11 U (Proc.devRef .tc main_v104) =
      minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (addf (U (Proc.devRef .tc main_v100)) (broadcastInDim S16384x16 ![0, 1] bcast_S1x16_S16384x16_0_1 (U (Proc.devRef .tc main_v101))))) := by
  simp only [opsW11]
  after_results_simp <;> rfl

end Cert.ReferenceIdeal.RefRun

end
-- ==== Proof.RefRunW12.lean ====
/-
  Operations 209 to 219 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW12 : List (HloOp τ sig (Elt F)) :=
  [ unary main_v104 main_v105 (Host.sign : (⟨S16384x16, .f32⟩ : BufTy).Contents (Elt F) → (⟨S16384x16, .f32⟩ : BufTy).Contents (Elt F)),
    binary main_v105 main_v104 main_v106 (subf : (⟨S16384x16, .f32⟩ : BufTy).Contents (Elt F) → (⟨S16384x16, .f32⟩ : BufTy).Contents (Elt F) → (⟨S16384x16, .f32⟩ : BufTy).Contents (Elt F)),
    binary main_v104 main_v106 main_v107 (addf : (⟨S16384x16, .f32⟩ : BufTy).Contents (Elt F) → (⟨S16384x16, .f32⟩ : BufTy).Contents (Elt F) → (⟨S16384x16, .f32⟩ : BufTy).Contents (Elt F)),
    unary main_arg9 main_v108 (Host.sign : (⟨S16x16, .f32⟩ : BufTy).Contents (Elt F) → (⟨S16x16, .f32⟩ : BufTy).Contents (Elt F)),
    binary main_v108 main_arg9 main_v109 (subf : (⟨S16x16, .f32⟩ : BufTy).Contents (Elt F) → (⟨S16x16, .f32⟩ : BufTy).Contents (Elt F) → (⟨S16x16, .f32⟩ : BufTy).Contents (Elt F)),
    binary main_arg9 main_v109 main_v110 (addf : (⟨S16x16, .f32⟩ : BufTy).Contents (Elt F) → (⟨S16x16, .f32⟩ : BufTy).Contents (Elt F) → (⟨S16x16, .f32⟩ : BufTy).Contents (Elt F)),
    unary main_v110 main_v111 ((transpose S16x16 [1, 0] · transposes_S16x16_S16x16_1_0) : (⟨S16x16, .f32⟩ : BufTy).Contents (Elt F) → (⟨S16x16, .f32⟩ : BufTy).Contents (Elt F)),
    binary main_v107 main_v111 main_v112 ((fun l r => Host.dotGeneral dot_S16384x16_S16x16_S16384x16_1_0_0_1_n_n none l r) : (⟨S16384x16, .f32⟩ : BufTy).Contents (Elt F) → (⟨S16x16, .f32⟩ : BufTy).Contents (Elt F) → (⟨S16384x16, .f32⟩ : BufTy).Contents (Elt F)),
    unary main_arg10 main_v113 (broadcastInDim S1x16 ![1] bcast_S16_S1x16_1 : (⟨S16, .f32⟩ : BufTy).Contents (Elt F) → (⟨S1x16, .f32⟩ : BufTy).Contents (Elt F)),
    unary main_v113 main_v114 (broadcastInDim S16384x16 ![0, 1] bcast_S1x16_S16384x16_0_1 : (⟨S1x16, .f32⟩ : BufTy).Contents (Elt F) → (⟨S16384x16, .f32⟩ : BufTy).Contents (Elt F)),
    binary main_v112 main_v114 main_v115 (addf : (⟨S16384x16, .f32⟩ : BufTy).Contents (Elt F) → (⟨S16384x16, .f32⟩ : BufTy).Contents (Elt F) → (⟨S16384x16, .f32⟩ : BufTy).Contents (Elt F)) ]

/-- The buffers the stretch writes. -/
abbrev opsW12_W : List (Ref sig .tc) := [main_v105, main_v106, main_v107, main_v108, main_v109, main_v110, main_v111, main_v112, main_v113, main_v114, main_v115]

set_option maxRecDepth 8192 in
theorem opsW12_writes : (opsW12 : List (HloOp τ sig (Elt F))).Forall fun op => op.writes ⊆ (opsW12_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW12_sub : (opsW12 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., unary_bufs_sub .., unary_bufs_sub .., binary_bufs_sub ..⟩

set_option maxRecDepth 8192 in
theorem opsW12_fresh : ∀ op ∈ (opsW12 : List (HloOp τ sig (Elt F))), op.fresh = ∅ := by
  intro _ h; (repeat (cases h with | head => rfl | tail _ h => ?_)); exact nomatch h

set_option maxRecDepth 8192 in
set_option maxHeartbeats 1100000 in
theorem w12_main_v107 (U : Valuation τ sig (Elt F)) :
    after opsW12 U (Proc.devRef .tc main_v107) =
      addf (U (Proc.devRef .tc main_v104)) (subf (Host.sign (U (Proc.devRef .tc main_v104))) (U (Proc.devRef .tc main_v104))) := by
  simp only [opsW12]
  after_results_simp <;> rfl

set_option maxRecDepth 8192 in
set_option maxHeartbeats 1100000 in
theorem w12_main_v115 (U : Valuation τ sig (Elt F)) :
    after opsW12 U (Proc.devRef .tc main_v115) =
      addf (Host.dotGeneral dot_S16384x16_S16x16_S16384x16_1_0_0_1_n_n none (addf (U (Proc.devRef .tc main_v104)) (subf (Host.sign (U (Proc.devRef .tc main_v104))) (U (Proc.devRef .tc main_v104)))) (transpose S16x16 [1, 0] (addf (U (Proc.devRef .tc main_arg9)) (subf (Host.sign (U (Proc.devRef .tc main_arg9))) (U (Proc.devRef .tc main_arg9)))) transposes_S16x16_S16x16_1_0)) (broadcastInDim S16384x16 ![0, 1] bcast_S1x16_S16384x16_0_1 (broadcastInDim S1x16 ![1] bcast_S16_S1x16_1 (U (Proc.devRef .tc main_arg10)))) := by
  simp only [opsW12]
  after_results_simp <;> rfl

end Cert.ReferenceIdeal.RefRun

end
-- ==== Proof.RefRunW13.lean ====
/-
  Operations 220 to 230 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW13 : List (HloOp τ sig (Elt F)) :=
  [ nullary main_cst_18 (constant S_ .f32 0xBF800000#32),
    nullary main_cst_19 (constant S_ .f32 0x3F800000#32),
    unary main_cst_18 main_call7_v0 ((id) : (⟨S_, .f32⟩ : BufTy).Contents (Elt F) → (⟨S_, .f32⟩ : BufTy).Contents (Elt F)),
    unary main_call7_v0 main_call7_v1 ((broadcastInDim S16384x16 ![] bcast_S_S16384x16) : (⟨S_, .f32⟩ : BufTy).Contents (Elt F) → (⟨S16384x16, .f32⟩ : BufTy).Contents (Elt F)),
    binary main_call7_v1 main_v115 main_call7_v2 ((maximumf) : (⟨S16384x16, .f32⟩ : BufTy).Contents (Elt F) → (⟨S16384x16, .f32⟩ : BufTy).Contents (Elt F) → (⟨S16384x16, .f32⟩ : BufTy).Contents (Elt F)),
    unary main_cst_19 main_call7_v3 ((id) : (⟨S_, .f32⟩ : BufTy).Contents (Elt F) → (⟨S_, .f32⟩ : BufTy).Contents (Elt F)),
    unary main_call7_v3 main_call7_v4 ((broadcastInDim S16384x16 ![] bcast_S_S16384x16) : (⟨S_, .f32⟩ : BufTy).Contents (Elt F) → (⟨S16384x16, .f32⟩ : BufTy).Contents (Elt F)),
    binary main_call7_v4 main_call7_v2 main_v116 ((minimumf) : (⟨S16384x16, .f32⟩ : BufTy).Contents (Elt F) → (⟨S16384x16, .f32⟩ : BufTy).Contents (Elt F) → (⟨S16384x16, .f32⟩ : BufTy).Contents (Elt F)),
    unary main_v116 main_v117 (Host.sign : (⟨S16384x16, .f32⟩ : BufTy).Contents (Elt F) → (⟨S16384x16, .f32⟩ : BufTy).Contents (Elt F)),
    binary main_v117 main_v116 main_v118 (subf : (⟨S16384x16, .f32⟩ : BufTy).Contents (Elt F) → (⟨S16384x16, .f32⟩ : BufTy).Contents (Elt F) → (⟨S16384x16, .f32⟩ : BufTy).Contents (Elt F)),
    binary main_v116 main_v118 main_v119 (addf : (⟨S16384x16, .f32⟩ : BufTy).Contents (Elt F) → (⟨S16384x16, .f32⟩ : BufTy).Contents (Elt F) → (⟨S16384x16, .f32⟩ : BufTy).Contents (Elt F)) ]

/-- The buffers the stretch writes. -/
abbrev opsW13_W : List (Ref sig .tc) := [main_cst_18, main_cst_19, main_call7_v0, main_call7_v1, main_call7_v2, main_call7_v3, main_call7_v4, main_v116, main_v117, main_v118, main_v119]

set_option maxRecDepth 8192 in
theorem opsW13_writes : (opsW13 : List (HloOp τ sig (Elt F))).Forall fun op => op.writes ⊆ (opsW13_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW13_sub : (opsW13 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., binary_bufs_sub .., binary_bufs_sub ..⟩

set_option maxRecDepth 8192 in
theorem opsW13_fresh : ∀ op ∈ (opsW13 : List (HloOp τ sig (Elt F))), op.fresh = ∅ := by
  intro _ h; (repeat (cases h with | head => rfl | tail _ h => ?_)); exact nomatch h

set_option maxRecDepth 8192 in
set_option maxHeartbeats 1100000 in
theorem w13_main_v116 (U : Valuation τ sig (Elt F)) :
    after opsW13 U (Proc.devRef .tc main_v116) =
      minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (U (Proc.devRef .tc main_v115))) := by
  simp only [opsW13]
  after_results_simp <;> rfl

set_option maxRecDepth 8192 in
set_option maxHeartbeats 1100000 in
theorem w13_main_v119 (U : Valuation τ sig (Elt F)) :
    after opsW13 U (Proc.devRef .tc main_v119) =
      addf (minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (U (Proc.devRef .tc main_v115)))) (subf (Host.sign (minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (U (Proc.devRef .tc main_v115))))) (minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (U (Proc.devRef .tc main_v115))))) := by
  simp only [opsW13]
  after_results_simp <;> rfl

end Cert.ReferenceIdeal.RefRun

end
-- ==== Proof.RefRunW14.lean ====
/-
  Operations 231 to 238 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW14 : List (HloOp τ sig (Elt F)) :=
  [ unary main_arg11 main_v120 (Host.sign : (⟨S10x16, .f32⟩ : BufTy).Contents (Elt F) → (⟨S10x16, .f32⟩ : BufTy).Contents (Elt F)),
    binary main_v120 main_arg11 main_v121 (subf : (⟨S10x16, .f32⟩ : BufTy).Contents (Elt F) → (⟨S10x16, .f32⟩ : BufTy).Contents (Elt F) → (⟨S10x16, .f32⟩ : BufTy).Contents (Elt F)),
    binary main_arg11 main_v121 main_v122 (addf : (⟨S10x16, .f32⟩ : BufTy).Contents (Elt F) → (⟨S10x16, .f32⟩ : BufTy).Contents (Elt F) → (⟨S10x16, .f32⟩ : BufTy).Contents (Elt F)),
    unary main_v122 main_v123 ((transpose S16x10 [1, 0] · transposes_S10x16_S16x10_1_0) : (⟨S10x16, .f32⟩ : BufTy).Contents (Elt F) → (⟨S16x10, .f32⟩ : BufTy).Contents (Elt F)),
    binary main_v119 main_v123 main_v124 ((fun l r => Host.dotGeneral dot_S16384x16_S16x10_S16384x10_1_0_0_1_n_n none l r) : (⟨S16384x16, .f32⟩ : BufTy).Contents (Elt F) → (⟨S16x10, .f32⟩ : BufTy).Contents (Elt F) → (⟨S16384x10, .f32⟩ : BufTy).Contents (Elt F)),
    unary main_arg12 main_v125 (broadcastInDim S1x10 ![1] bcast_S10_S1x10_1 : (⟨S10, .f32⟩ : BufTy).Contents (Elt F) → (⟨S1x10, .f32⟩ : BufTy).Contents (Elt F)),
    unary main_v125 main_v126 (broadcastInDim S16384x10 ![0, 1] bcast_S1x10_S16384x10_0_1 : (⟨S1x10, .f32⟩ : BufTy).Contents (Elt F) → (⟨S16384x10, .f32⟩ : BufTy).Contents (Elt F)),
    binary main_v124 main_v126 main_v127 (addf : (⟨S16384x10, .f32⟩ : BufTy).Contents (Elt F) → (⟨S16384x10, .f32⟩ : BufTy).Contents (Elt F) → (⟨S16384x10, .f32⟩ : BufTy).Contents (Elt F)) ]

/-- The buffers the stretch writes. -/
abbrev opsW14_W : List (Ref sig .tc) := [main_v120, main_v121, main_v122, main_v123, main_v124, main_v125, main_v126, main_v127]

set_option maxRecDepth 8192 in
theorem opsW14_writes : (opsW14 : List (HloOp τ sig (Elt F))).Forall fun op => op.writes ⊆ (opsW14_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW14_sub : (opsW14 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub ..⟩

set_option maxRecDepth 8192 in
theorem opsW14_fresh : ∀ op ∈ (opsW14 : List (HloOp τ sig (Elt F))), op.fresh = ∅ := by
  intro _ h; (repeat (cases h with | head => rfl | tail _ h => ?_)); exact nomatch h

set_option maxRecDepth 8192 in
set_option maxHeartbeats 800000 in
theorem w14_main_v127 (U : Valuation τ sig (Elt F)) :
    after opsW14 U (Proc.devRef .tc main_v127) =
      addf (Host.dotGeneral dot_S16384x16_S16x10_S16384x10_1_0_0_1_n_n none (U (Proc.devRef .tc main_v119)) (transpose S16x10 [1, 0] (addf (U (Proc.devRef .tc main_arg11)) (subf (Host.sign (U (Proc.devRef .tc main_arg11))) (U (Proc.devRef .tc main_arg11)))) transposes_S10x16_S16x10_1_0)) (broadcastInDim S16384x10 ![0, 1] bcast_S1x10_S16384x10_0_1 (broadcastInDim S1x10 ![1] bcast_S10_S1x10_1 (U (Proc.devRef .tc main_arg12)))) := by
  simp only [opsW14]
  after_results_simp <;> rfl

end Cert.ReferenceIdeal.RefRun

end
-- ==== Proof.RefRunW15.lean ====
/-
  Operations 239 to 266 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW15 : List (HloOp τ sig (Elt F)) :=
  [ nullary main_cst_20 (constant S_ .f32 0x00000000#32),
    binary main_v127 main_cst_20 main_v128 ((fun x v => Host.reduceAdd x v reducesTo_S16384x10_S10_d0 h_S_) : (⟨S16384x10, .f32⟩ : BufTy).Contents (Elt F) → (⟨S_, .f32⟩ : BufTy).Contents (Elt F) → (⟨S10, .f32⟩ : BufTy).Contents (Elt F)),
    nullary main_cst_21 (constant S_ .f32 0x46800000#32),
    unary main_cst_21 main_v129 (broadcastInDim S10 ![] bcast_S_S10 : (⟨S_, .f32⟩ : BufTy).Contents (Elt F) → (⟨S10, .f32⟩ : BufTy).Contents (Elt F)),
    binary main_v128 main_v129 main_v130 (Host.divf : (⟨S10, .f32⟩ : BufTy).Contents (Elt F) → (⟨S10, .f32⟩ : BufTy).Contents (Elt F) → (⟨S10, .f32⟩ : BufTy).Contents (Elt F)),
    nullary main_c_22 (constantI S_ 32 0#32),
    nullary main_call8_cst (constant S_ .f32 0x00000000#32),
    binary main_v127 main_call8_cst main_call8_v0 ((fun x v => Host.reduceAdd x v reducesTo_S16384x10_S10_d0 h_S_) : (⟨S16384x10, .f32⟩ : BufTy).Contents (Elt F) → (⟨S_, .f32⟩ : BufTy).Contents (Elt F) → (⟨S10, .f32⟩ : BufTy).Contents (Elt F)),
    unary main_call8_v0 main_call8_v1 ((broadcastInDim S1x10 ![1] bcast_S10_S1x10_1) : (⟨S10, .f32⟩ : BufTy).Contents (Elt F) → (⟨S1x10, .f32⟩ : BufTy).Contents (Elt F)),
    nullary main_call8_cst_0 (constant S_ .f32 0x46800000#32),
    unary main_call8_cst_0 main_call8_v2 ((broadcastInDim S1x10 ![] bcast_S_S1x10) : (⟨S_, .f32⟩ : BufTy).Contents (Elt F) → (⟨S1x10, .f32⟩ : BufTy).Contents (Elt F)),
    binary main_call8_v1 main_call8_v2 main_call8_v3 ((Host.divf) : (⟨S1x10, .f32⟩ : BufTy).Contents (Elt F) → (⟨S1x10, .f32⟩ : BufTy).Contents (Elt F) → (⟨S1x10, .f32⟩ : BufTy).Contents (Elt F)),
    unary main_call8_v3 main_call8_v4 ((broadcastInDim S16384x10 ![0, 1] bcast_S1x10_S16384x10_0_1) : (⟨S1x10, .f32⟩ : BufTy).Contents (Elt F) → (⟨S16384x10, .f32⟩ : BufTy).Contents (Elt F)),
    binary main_v127 main_call8_v4 main_call8_v5 ((subf) : (⟨S16384x10, .f32⟩ : BufTy).Contents (Elt F) → (⟨S16384x10, .f32⟩ : BufTy).Contents (Elt F) → (⟨S16384x10, .f32⟩ : BufTy).Contents (Elt F)),
    binary main_call8_v5 main_call8_v5 main_call8_v6 ((mulf) : (⟨S16384x10, .f32⟩ : BufTy).Contents (Elt F) → (⟨S16384x10, .f32⟩ : BufTy).Contents (Elt F) → (⟨S16384x10, .f32⟩ : BufTy).Contents (Elt F)),
    unary main_c_22 main_call8_v7 ((sitofp .f32) : (⟨S_, .i32⟩ : BufTy).Contents (Elt F) → (⟨S_, .f32⟩ : BufTy).Contents (Elt F)),
    nullary main_call8_cst_1 (constant S_ .f32 0x46800000#32),
    binary main_call8_cst_1 main_call8_v7 main_call8_v8 ((subf) : (⟨S_, .f32⟩ : BufTy).Contents (Elt F) → (⟨S_, .f32⟩ : BufTy).Contents (Elt F) → (⟨S_, .f32⟩ : BufTy).Contents (Elt F)),
    nullary main_call8_cst_2 (constant S_ .f32 0x00000000#32),
    binary main_call8_v6 main_call8_cst_2 main_call8_v9 ((fun x v => Host.reduceAdd x v reducesTo_S16384x10_S10_d0 h_S_) : (⟨S16384x10, .f32⟩ : BufTy).Contents (Elt F) → (⟨S_, .f32⟩ : BufTy).Contents (Elt F) → (⟨S10, .f32⟩ : BufTy).Contents (Elt F)),
    unary main_call8_v8 main_call8_v10 ((broadcastInDim S10 ![] bcast_S_S10) : (⟨S_, .f32⟩ : BufTy).Contents (Elt F) → (⟨S10, .f32⟩ : BufTy).Contents (Elt F)),
    binary main_call8_v9 main_call8_v10 main_call8_v11 ((Host.divf) : (⟨S10, .f32⟩ : BufTy).Contents (Elt F) → (⟨S10, .f32⟩ : BufTy).Contents (Elt F) → (⟨S10, .f32⟩ : BufTy).Contents (Elt F)),
    nullary main_call8_cst_3 (constant S_ .f32 0x00000000#32),
    binary main_call8_v8 main_call8_cst_3 main_call8_v12 ((cmpf .ogt) : (⟨S_, .f32⟩ : BufTy).Contents (Elt F) → (⟨S_, .f32⟩ : BufTy).Contents (Elt F) → (⟨S_, .i1⟩ : BufTy).Contents (Elt F)),
    nullary main_call8_cst_4 (constant S_ .f32 0x7FC00000#32),
    unary main_call8_cst_4 main_call8_call0_v0 ((id) : (⟨S_, .f32⟩ : BufTy).Contents (Elt F) → (⟨S_, .f32⟩ : BufTy).Contents (Elt F)),
    unary main_call8_call0_v0 main_call8_call0_v1 ((broadcastInDim S10 ![] bcast_S_S10) : (⟨S_, .f32⟩ : BufTy).Contents (Elt F) → (⟨S10, .f32⟩ : BufTy).Contents (Elt F)),
    ternary main_call8_v12 main_call8_v11 main_call8_call0_v1 main_v131 ((fun p a b => select (broadcastInDim S10 ![] bcast_S_S10 p) a b) : (⟨S_, .i1⟩ : BufTy).Contents (Elt F) → (⟨S10, .f32⟩ : BufTy).Contents (Elt F) → (⟨S10, .f32⟩ : BufTy).Contents (Elt F) → (⟨S10, .f32⟩ : BufTy).Contents (Elt F)) ]

/-- The buffers the stretch writes. -/
abbrev opsW15_W : List (Ref sig .tc) := [main_cst_20, main_v128, main_cst_21, main_v129, main_v130, main_c_22, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v131]

set_option maxRecDepth 8192 in
theorem opsW15_writes : (opsW15 : List (HloOp τ sig (Elt F))).Forall fun op => op.writes ⊆ (opsW15_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW15_sub : (opsW15 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsW15_fresh : ∀ op ∈ (opsW15 : List (HloOp τ sig (Elt F))), op.fresh = ∅ := by
  intro _ h; (repeat (cases h with | head => rfl | tail _ h => ?_)); exact nomatch h

set_option maxRecDepth 8192 in
set_option maxHeartbeats 2800000 in
theorem w15_main_v130 (U : Valuation τ sig (Elt F)) :
    after opsW15 U (Proc.devRef .tc main_v130) =
      Host.divf (Host.reduceAdd (U (Proc.devRef .tc main_v127)) ((constant S_ .f32 0x00000000#32 : (⟨S_, .f32⟩ : BufTy).Contents (Elt F))) reducesTo_S16384x10_S10_d0 h_S_) (broadcastInDim S10 ![] bcast_S_S10 ((constant S_ .f32 0x46800000#32 : (⟨S_, .f32⟩ : BufTy).Contents (Elt F)))) := by
  simp only [opsW15]
  after_results_simp <;> rfl

set_option maxRecDepth 8192 in
set_option maxHeartbeats 2800000 in
theorem w15_main_v131 (U : Valuation τ sig (Elt F)) :
    after opsW15 U (Proc.devRef .tc main_v131) =
      select (broadcastInDim S10 ![] bcast_S_S10 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (U (Proc.devRef .tc main_v127)) (broadcastInDim S16384x10 ![0, 1] bcast_S1x10_S16384x10_0_1 (Host.divf (broadcastInDim S1x10 ![1] bcast_S10_S1x10_1 (Host.reduceAdd (U (Proc.devRef .tc main_v127)) ((constant S_ .f32 0x00000000#32 : (⟨S_, .f32⟩ : BufTy).Contents (Elt F))) reducesTo_S16384x10_S10_d0 h_S_)) (broadcastInDim S1x10 ![] bcast_S_S1x10 ((constant S_ .f32 0x46800000#32 : (⟨S_, .f32⟩ : BufTy).Contents (Elt F))))))) (subf (U (Proc.devRef .tc main_v127)) (broadcastInDim S16384x10 ![0, 1] bcast_S1x10_S16384x10_0_1 (Host.divf (broadcastInDim S1x10 ![1] bcast_S10_S1x10_1 (Host.reduceAdd (U (Proc.devRef .tc main_v127)) ((constant S_ .f32 0x00000000#32 : (⟨S_, .f32⟩ : BufTy).Contents (Elt F))) reducesTo_S16384x10_S10_d0 h_S_)) (broadcastInDim S1x10 ![] bcast_S_S1x10 ((constant S_ .f32 0x46800000#32 : (⟨S_, .f32⟩ : BufTy).Contents (Elt F)))))))) ((constant S_ .f32 0x00000000#32 : (⟨S_, .f32⟩ : BufTy).Contents (Elt F))) reducesTo_S16384x10_S10_d0 h_S_) (broadcastInDim S10 ![] bcast_S_S10 (subf ((constant S_ .f32 0x46800000#32 : (⟨S_, .f32⟩ : BufTy).Contents (Elt F))) (sitofp .f32 (constantI S_ 32 0#32))))) (broadcastInDim S10 ![] bcast_S_S10 (id ((constant S_ .f32 0x7FC00000#32 : (⟨S_, .f32⟩ : BufTy).Contents (Elt F))))) := by
  simp only [opsW15]
  after_results_simp <;> rfl

end Cert.ReferenceIdeal.RefRun

end
-- ==== Proof.RefRunW16.lean ====
/-
  Operations 267 to 282 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW16 : List (HloOp τ sig (Elt F)) :=
  [ unary main_v130 main_v132 (broadcastInDim S1x10 ![1] bcast_S10_S1x10_1 : (⟨S10, .f32⟩ : BufTy).Contents (Elt F) → (⟨S1x10, .f32⟩ : BufTy).Contents (Elt F)),
    unary main_v132 main_v133 (broadcastInDim S16384x10 ![0, 1] bcast_S1x10_S16384x10_0_1 : (⟨S1x10, .f32⟩ : BufTy).Contents (Elt F) → (⟨S16384x10, .f32⟩ : BufTy).Contents (Elt F)),
    binary main_v127 main_v133 main_v134 (subf : (⟨S16384x10, .f32⟩ : BufTy).Contents (Elt F) → (⟨S16384x10, .f32⟩ : BufTy).Contents (Elt F) → (⟨S16384x10, .f32⟩ : BufTy).Contents (Elt F)),
    nullary main_cst_23 (constant S_ .f32 0x3727C5AC#32),
    unary main_cst_23 main_v135 (broadcastInDim S10 ![] bcast_S_S10 : (⟨S_, .f32⟩ : BufTy).Contents (Elt F) → (⟨S10, .f32⟩ : BufTy).Contents (Elt F)),
    binary main_v131 main_v135 main_v136 (addf : (⟨S10, .f32⟩ : BufTy).Contents (Elt F) → (⟨S10, .f32⟩ : BufTy).Contents (Elt F) → (⟨S10, .f32⟩ : BufTy).Contents (Elt F)),
    unary main_v136 main_v137 (Host.rsqrt : (⟨S10, .f32⟩ : BufTy).Contents (Elt F) → (⟨S10, .f32⟩ : BufTy).Contents (Elt F)),
    unary main_v137 main_v138 (broadcastInDim S1x10 ![1] bcast_S10_S1x10_1 : (⟨S10, .f32⟩ : BufTy).Contents (Elt F) → (⟨S1x10, .f32⟩ : BufTy).Contents (Elt F)),
    unary main_v138 main_v139 (broadcastInDim S16384x10 ![0, 1] bcast_S1x10_S16384x10_0_1 : (⟨S1x10, .f32⟩ : BufTy).Contents (Elt F) → (⟨S16384x10, .f32⟩ : BufTy).Contents (Elt F)),
    binary main_v134 main_v139 main_v140 (mulf : (⟨S16384x10, .f32⟩ : BufTy).Contents (Elt F) → (⟨S16384x10, .f32⟩ : BufTy).Contents (Elt F) → (⟨S16384x10, .f32⟩ : BufTy).Contents (Elt F)),
    unary main_arg19 main_v141 (broadcastInDim S1x10 ![1] bcast_S10_S1x10_1 : (⟨S10, .f32⟩ : BufTy).Contents (Elt F) → (⟨S1x10, .f32⟩ : BufTy).Contents (Elt F)),
    unary main_v141 main_v142 (broadcastInDim S16384x10 ![0, 1] bcast_S1x10_S16384x10_0_1 : (⟨S1x10, .f32⟩ : BufTy).Contents (Elt F) → (⟨S16384x10, .f32⟩ : BufTy).Contents (Elt F)),
    binary main_v140 main_v142 main_v143 (mulf : (⟨S16384x10, .f32⟩ : BufTy).Contents (Elt F) → (⟨S16384x10, .f32⟩ : BufTy).Contents (Elt F) → (⟨S16384x10, .f32⟩ : BufTy).Contents (Elt F)),
    unary main_arg20 main_v144 (broadcastInDim S1x10 ![1] bcast_S10_S1x10_1 : (⟨S10, .f32⟩ : BufTy).Contents (Elt F) → (⟨S1x10, .f32⟩ : BufTy).Contents (Elt F)),
    unary main_v144 main_v145 (broadcastInDim S16384x10 ![0, 1] bcast_S1x10_S16384x10_0_1 : (⟨S1x10, .f32⟩ : BufTy).Contents (Elt F) → (⟨S16384x10, .f32⟩ : BufTy).Contents (Elt F)),
    binary main_v143 main_v145 main_v146 (addf : (⟨S16384x10, .f32⟩ : BufTy).Contents (Elt F) → (⟨S16384x10, .f32⟩ : BufTy).Contents (Elt F) → (⟨S16384x10, .f32⟩ : BufTy).Contents (Elt F)) ]

/-- The buffers the stretch writes. -/
abbrev opsW16_W : List (Ref sig .tc) := [main_v132, main_v133, main_v134, main_cst_23, main_v135, main_v136, main_v137, main_v138, main_v139, main_v140, main_v141, main_v142, main_v143, main_v144, main_v145, main_v146]

set_option maxRecDepth 8192 in
theorem opsW16_writes : (opsW16 : List (HloOp τ sig (Elt F))).Forall fun op => op.writes ⊆ (opsW16_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW16_sub : (opsW16 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsW16_fresh : ∀ op ∈ (opsW16 : List (HloOp τ sig (Elt F))), op.fresh = ∅ := by
  intro _ h; (repeat (cases h with | head => rfl | tail _ h => ?_)); exact nomatch h

set_option maxRecDepth 8192 in
set_option maxHeartbeats 1600000 in
theorem w16_main_v146 (U : Valuation τ sig (Elt F)) :
    after opsW16 U (Proc.devRef .tc main_v146) =
      addf (mulf (mulf (subf (U (Proc.devRef .tc main_v127)) (broadcastInDim S16384x10 ![0, 1] bcast_S1x10_S16384x10_0_1 (broadcastInDim S1x10 ![1] bcast_S10_S1x10_1 (U (Proc.devRef .tc main_v130))))) (broadcastInDim S16384x10 ![0, 1] bcast_S1x10_S16384x10_0_1 (broadcastInDim S1x10 ![1] bcast_S10_S1x10_1 (Host.rsqrt (addf (U (Proc.devRef .tc main_v131)) (broadcastInDim S10 ![] bcast_S_S10 ((constant S_ .f32 0x3727C5AC#32 : (⟨S_, .f32⟩ : BufTy).Contents (Elt F))))))))) (broadcastInDim S16384x10 ![0, 1] bcast_S1x10_S16384x10_0_1 (broadcastInDim S1x10 ![1] bcast_S10_S1x10_1 (U (Proc.devRef .tc main_arg19))))) (broadcastInDim S16384x10 ![0, 1] bcast_S1x10_S16384x10_0_1 (broadcastInDim S1x10 ![1] bcast_S10_S1x10_1 (U (Proc.devRef .tc main_arg20)))) := by
  simp only [opsW16]
  after_results_simp <;> rfl

end Cert.ReferenceIdeal.RefRun

end
-- ==== Proof.RefRunW17.lean ====
/-
  Operations 283 to 297 of the reference network's 297 array operations (the outlined
  variance, clamp, select and log-softmax functions written out at their calls), as a list, and what that stretch
  computes: from ANY contents U of the buffers before it, the buffers later stretches read end at the stated
  composition of array operations applied to the contents U holds at the buffers the stretch reads.
  Also: which buffers the stretch writes (every other buffer keeps its contents), and that each operation stays
  inside the TensorCore's buffers and allocates nothing.
-/
import proofs.«122919_j34694745817434_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
abbrev opsW17 : List (HloOp τ sig (Elt F)) :=
  [ nullary main_call9_cst (constant S_ .f32 0xFF800000#32),
    binary main_v146 main_call9_cst main_call9_v0 ((fun x v => Host.reduce FloatOps.maximumf x v reducesTo_S16384x10_S16384_d1 h_S_) : (⟨S16384x10, .f32⟩ : BufTy).Contents (Elt F) → (⟨S_, .f32⟩ : BufTy).Contents (Elt F) → (⟨S16384, .f32⟩ : BufTy).Contents (Elt F)),
    nullary main_call9_cst_0 (constant S_ .f32 0xFF800000#32),
    unary main_call9_cst_0 main_call9_v1 ((broadcastInDim S16384 ![] bcast_S_S16384) : (⟨S_, .f32⟩ : BufTy).Contents (Elt F) → (⟨S16384, .f32⟩ : BufTy).Contents (Elt F)),
    binary main_call9_v1 main_call9_v0 main_call9_v2 ((maximumf) : (⟨S16384, .f32⟩ : BufTy).Contents (Elt F) → (⟨S16384, .f32⟩ : BufTy).Contents (Elt F) → (⟨S16384, .f32⟩ : BufTy).Contents (Elt F)),
    unary main_call9_v2 main_call9_v3 ((broadcastInDim S16384x1 ![0] bcast_S16384_S16384x1_0) : (⟨S16384, .f32⟩ : BufTy).Contents (Elt F) → (⟨S16384x1, .f32⟩ : BufTy).Contents (Elt F)),
    unary main_call9_v3 main_call9_v4 ((broadcastInDim S16384x10 ![0, 1] bcast_S16384x1_S16384x10_0_1) : (⟨S16384x1, .f32⟩ : BufTy).Contents (Elt F) → (⟨S16384x10, .f32⟩ : BufTy).Contents (Elt F)),
    binary main_v146 main_call9_v4 main_call9_v5 ((subf) : (⟨S16384x10, .f32⟩ : BufTy).Contents (Elt F) → (⟨S16384x10, .f32⟩ : BufTy).Contents (Elt F) → (⟨S16384x10, .f32⟩ : BufTy).Contents (Elt F)),
    unary main_call9_v5 main_call9_v6 ((Host.exp) : (⟨S16384x10, .f32⟩ : BufTy).Contents (Elt F) → (⟨S16384x10, .f32⟩ : BufTy).Contents (Elt F)),
    nullary main_call9_cst_1 (constant S_ .f32 0x00000000#32),
    binary main_call9_v6 main_call9_cst_1 main_call9_v7 ((fun x v => Host.reduceAdd x v reducesTo_S16384x10_S16384_d1 h_S_) : (⟨S16384x10, .f32⟩ : BufTy).Contents (Elt F) → (⟨S_, .f32⟩ : BufTy).Contents (Elt F) → (⟨S16384, .f32⟩ : BufTy).Contents (Elt F)),
    unary main_call9_v7 main_call9_v8 ((broadcastInDim S16384x1 ![0] bcast_S16384_S16384x1_0) : (⟨S16384, .f32⟩ : BufTy).Contents (Elt F) → (⟨S16384x1, .f32⟩ : BufTy).Contents (Elt F)),
    unary main_call9_v8 main_call9_v9 ((Host.log) : (⟨S16384x1, .f32⟩ : BufTy).Contents (Elt F) → (⟨S16384x1, .f32⟩ : BufTy).Contents (Elt F)),
    unary main_call9_v9 main_call9_v10 ((broadcastInDim S16384x10 ![0, 1] bcast_S16384x1_S16384x10_0_1) : (⟨S16384x1, .f32⟩ : BufTy).Contents (Elt F) → (⟨S16384x10, .f32⟩ : BufTy).Contents (Elt F)),
    binary main_call9_v5 main_call9_v10 main_v147 ((subf) : (⟨S16384x10, .f32⟩ : BufTy).Contents (Elt F) → (⟨S16384x10, .f32⟩ : BufTy).Contents (Elt F) → (⟨S16384x10, .f32⟩ : BufTy).Contents (Elt F)) ]

/-- The buffers the stretch writes. -/
abbrev opsW17_W : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v147]

set_option maxRecDepth 8192 in
theorem opsW17_writes : (opsW17 : List (HloOp τ sig (Elt F))).Forall fun op => op.writes ⊆ (opsW17_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem opsW17_sub : (opsW17 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem opsW17_fresh : ∀ op ∈ (opsW17 : List (HloOp τ sig (Elt F))), op.fresh = ∅ := by
  intro _ h; (repeat (cases h with | head => rfl | tail _ h => ?_)); exact nomatch h

set_option maxRecDepth 8192 in
set_option maxHeartbeats 1500000 in
theorem w17_main_v147 (U : Valuation τ sig (Elt F)) :
    after opsW17 U (Proc.devRef .tc main_v147) =
      subf (subf (U (Proc.devRef .tc main_v146)) (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf (U (Proc.devRef .tc main_v146)) ((constant S_ .f32 0xFF800000#32 : (⟨S_, .f32⟩ : BufTy).Contents (Elt F))) reducesTo_S16384x10_S16384_d1 h_S_))))) (broadcastInDim S16384x10 ![0, 1] bcast_S16384x1_S16384x10_0_1 (Host.log (broadcastInDim S16384x1 ![0] bcast_S16384_S16384x1_0 (Host.reduceAdd (Host.exp (subf (U (Proc.devRef .tc main_v146)) (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf (U (Proc.devRef .tc main_v146)) ((constant S_ .f32 0xFF800000#32 : (⟨S_, .f32⟩ : BufTy).Contents (Elt F))) reducesTo_S16384x10_S16384_d1 h_S_)))))) ((constant S_ .f32 0x00000000#32 : (⟨S_, .f32⟩ : BufTy).Contents (Elt F))) reducesTo_S16384x10_S16384_d1 h_S_)))) := by
  simp only [opsW17]
  after_results_simp <;> rfl

end Cert.ReferenceIdeal.RefRun

end
-- ==== Proof.RefRunOps.lean ====
/-
  The reference network's whole operation list: the seventeen stretches one after another.  Every operation of it
  stays inside the TensorCore's buffers and allocates nothing, because every stretch's operations do.
-/
import proofs.«122919_j34694745817434_2_alg».proof.Proof.RefRunW1
import proofs.«122919_j34694745817434_2_alg».proof.Proof.RefRunW2
import proofs.«122919_j34694745817434_2_alg».proof.Proof.RefRunW3
import proofs.«122919_j34694745817434_2_alg».proof.Proof.RefRunW4
import proofs.«122919_j34694745817434_2_alg».proof.Proof.RefRunW5
import proofs.«122919_j34694745817434_2_alg».proof.Proof.RefRunW6
import proofs.«122919_j34694745817434_2_alg».proof.Proof.RefRunW7
import proofs.«122919_j34694745817434_2_alg».proof.Proof.RefRunW8
import proofs.«122919_j34694745817434_2_alg».proof.Proof.RefRunW9
import proofs.«122919_j34694745817434_2_alg».proof.Proof.RefRunW10
import proofs.«122919_j34694745817434_2_alg».proof.Proof.RefRunW11
import proofs.«122919_j34694745817434_2_alg».proof.Proof.RefRunW12
import proofs.«122919_j34694745817434_2_alg».proof.Proof.RefRunW13
import proofs.«122919_j34694745817434_2_alg».proof.Proof.RefRunW14
import proofs.«122919_j34694745817434_2_alg».proof.Proof.RefRunW15
import proofs.«122919_j34694745817434_2_alg».proof.Proof.RefRunW16
import proofs.«122919_j34694745817434_2_alg».proof.Proof.RefRunW17

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations, in program order. -/
abbrev ops : List (HloOp τ sig (Elt F)) :=
  opsW1 ++ opsW2 ++ opsW3 ++ opsW4 ++ opsW5 ++ opsW6 ++ opsW7 ++ opsW8 ++ opsW9 ++ opsW10 ++ opsW11 ++ opsW12 ++ opsW13 ++ opsW14 ++ opsW15 ++ opsW16 ++ opsW17

theorem ops_mem_sub : ∀ op ∈ (ops : List (HloOp τ sig (Elt F))), op.bufs ⊆ tcRefs τ sig := fun op h => by
    simp only [ops, List.mem_append, or_assoc] at h
    rcases h with h | h | h | h | h | h | h | h | h | h | h | h | h | h | h | h | h
    exacts [List.forall_iff_forall_mem.mp opsW1_sub op h, List.forall_iff_forall_mem.mp opsW2_sub op h, List.forall_iff_forall_mem.mp opsW3_sub op h, List.forall_iff_forall_mem.mp opsW4_sub op h, List.forall_iff_forall_mem.mp opsW5_sub op h, List.forall_iff_forall_mem.mp opsW6_sub op h, List.forall_iff_forall_mem.mp opsW7_sub op h, List.forall_iff_forall_mem.mp opsW8_sub op h, List.forall_iff_forall_mem.mp opsW9_sub op h, List.forall_iff_forall_mem.mp opsW10_sub op h, List.forall_iff_forall_mem.mp opsW11_sub op h, List.forall_iff_forall_mem.mp opsW12_sub op h, List.forall_iff_forall_mem.mp opsW13_sub op h, List.forall_iff_forall_mem.mp opsW14_sub op h, List.forall_iff_forall_mem.mp opsW15_sub op h, List.forall_iff_forall_mem.mp opsW16_sub op h, List.forall_iff_forall_mem.mp opsW17_sub op h]

set_option maxHeartbeats 1000000 in
theorem ops_sub : (ops : List (HloOp τ sig (Elt F))).Forall fun op => op.bufs ⊆ tcRefs τ sig :=
  List.forall_iff_forall_mem.mpr ops_mem_sub

theorem ops_fresh : ∀ op ∈ (ops : List (HloOp τ sig (Elt F))), op.fresh = ∅ := fun op h => by
    simp only [ops, List.mem_append, or_assoc] at h
    rcases h with h | h | h | h | h | h | h | h | h | h | h | h | h | h | h | h | h
    exacts [opsW1_fresh op h, opsW2_fresh op h, opsW3_fresh op h, opsW4_fresh op h, opsW5_fresh op h, opsW6_fresh op h, opsW7_fresh op h, opsW8_fresh op h, opsW9_fresh op h, opsW10_fresh op h, opsW11_fresh op h, opsW12_fresh op h, opsW13_fresh op h, opsW14_fresh op h, opsW15_fresh op h, opsW16_fresh op h, opsW17_fresh op h]

end Cert.ReferenceIdeal.RefRun

end
-- ==== Proof.RefRunStages.lean ====
/-
  The reference network's values, stage by stage.  Each named stage is the composition of array operations that
  produces one buffer of the program from the argument arrays and from EARLIER named stages: the layer
  pre-activations (a binarized product plus the bias), their column means and variances, the clamped normalised
  values, the binarized activations, the last normalisation and the log-softmax.  The contents of the buffers
  after the first k stretches of the operation list are read back stretch by stretch: a buffer written in a
  stretch is that stretch's composition applied to what the earlier stretches left, a buffer it does not write
  keeps its contents.  Consequently, after the whole list, each named buffer holds its stage and every argument
  array is unchanged.
-/
import proofs.«122919_j34694745817434_2_alg».proof.Proof.RefRunOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of main_v10 as a composition of array operations on the arguments and earlier stages. -/
def res_v10 (V0 : Valuation τ sig (Elt F)) : (⟨S16384x4096, .f32⟩ : BufTy).Contents (Elt F) :=
  addf (Host.dotGeneral dot_S16384x3072_S3072x4096_S16384x4096_1_0_0_1_n_n none (addf (V0 (Proc.devRef .tc main_arg0)) (subf (Host.sign (V0 (Proc.devRef .tc main_arg0))) (V0 (Proc.devRef .tc main_arg0)))) (transpose S3072x4096 [1, 0] (addf (V0 (Proc.devRef .tc main_arg1)) (subf (Host.sign (V0 (Proc.devRef .tc main_arg1))) (V0 (Proc.devRef .tc main_arg1)))) transposes_S4096x3072_S3072x4096_1_0)) (broadcastInDim S16384x4096 ![0, 1] bcast_S1x4096_S16384x4096_0_1 (broadcastInDim S1x4096 ![1] bcast_S4096_S1x4096_1 (V0 (Proc.devRef .tc main_arg2))))

/-- The contents of main_v13 as a composition of array operations on the arguments and earlier stages. -/
def res_v13 (V0 : Valuation τ sig (Elt F)) : (⟨S4096, .f32⟩ : BufTy).Contents (Elt F) :=
  Host.divf (Host.reduceAdd (res_v10 V0) ((constant S_ .f32 0x00000000#32 : (⟨S_, .f32⟩ : BufTy).Contents (Elt F))) reducesTo_S16384x4096_S4096_d0 h_S_) (broadcastInDim S4096 ![] bcast_S_S4096 ((constant S_ .f32 0x46800000#32 : (⟨S_, .f32⟩ : BufTy).Contents (Elt F))))

/-- The contents of main_v14 as a composition of array operations on the arguments and earlier stages. -/
def res_v14 (V0 : Valuation τ sig (Elt F)) : (⟨S4096, .f32⟩ : BufTy).Contents (Elt F) :=
  select (broadcastInDim S4096 ![] bcast_S_S4096 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (res_v10 V0) (broadcastInDim S16384x4096 ![0, 1] bcast_S1x4096_S16384x4096_0_1 (Host.divf (broadcastInDim S1x4096 ![1] bcast_S4096_S1x4096_1 (Host.reduceAdd (res_v10 V0) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F))))))) (subf (res_v10 V0) (broadcastInDim S16384x4096 ![0, 1] bcast_S1x4096_S16384x4096_0_1 (Host.divf (broadcastInDim S1x4096 ![1] bcast_S4096_S1x4096_1 (Host.reduceAdd (res_v10 V0) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F)))))))) ((constant S_ .f32 0x00000000#32 : (⟨S_, .f32⟩ : BufTy).Contents (Elt F))) reducesTo_S16384x4096_S4096_d0 h_S_) (broadcastInDim S4096 ![] bcast_S_S4096 (subf ((constant S_ .f32 0x46800000#32 : (⟨S_, .f32⟩ : BufTy).Contents (Elt F))) (sitofp .f32 (constantI S_ 32 0#32))))) (broadcastInDim S4096 ![] bcast_S_S4096 (id ((constant S_ .f32 0x7FC00000#32 : (⟨S_, .f32⟩ : BufTy).Contents (Elt F)))))

/-- The contents of main_v30 as a composition of array operations on the arguments and earlier stages. -/
def res_v30 (V0 : Valuation τ sig (Elt F)) : (⟨S16384x4096, .f32⟩ : BufTy).Contents (Elt F) :=
  minimumf (broadcastInDim S16384x4096 ![] bcast_S_S16384x4096 (id ((constant S_ .f32 0x3F800000#32 : (⟨S_, .f32⟩ : BufTy).Contents (Elt F))))) (maximumf (broadcastInDim S16384x4096 ![] bcast_S_S16384x4096 (id ((constant S_ .f32 0xBF800000#32 : (⟨S_, .f32⟩ : BufTy).Contents (Elt F))))) (addf (mulf (mulf (subf (res_v10 V0) (broadcastInDim S16384x4096 ![0, 1] bcast_S1x4096_S16384x4096_0_1 (broadcastInDim S1x4096 ![1] bcast_S4096_S1x4096_1 (res_v13 V0)))) (broadcastInDim S16384x4096 ![0, 1] bcast_S1x4096_S16384x4096_0_1 (broadcastInDim S1x4096 ![1] bcast_S4096_S1x4096_1 (Host.rsqrt (addf (res_v14 V0) (broadcastInDim S4096 ![] bcast_S_S4096 ((constant S_ .f32 0x3727C5AC#32 : (⟨S_, .f32⟩ : BufTy).Contents (Elt F))))))))) (broadcastInDim S16384x4096 ![0, 1] bcast_S1x4096_S16384x4096_0_1 (broadcastInDim S1x4096 ![1] bcast_S4096_S1x4096_1 (V0 (Proc.devRef .tc main_arg13))))) (broadcastInDim S16384x4096 ![0, 1] bcast_S1x4096_S16384x4096_0_1 (broadcastInDim S1x4096 ![1] bcast_S4096_S1x4096_1 (V0 (Proc.devRef .tc main_arg14))))))

/-- The contents of main_v33 as a composition of array operations on the arguments and earlier stages. -/
def res_v33 (V0 : Valuation τ sig (Elt F)) : (⟨S16384x4096, .f32⟩ : BufTy).Contents (Elt F) :=
  addf (res_v30 V0) (subf (Host.sign (res_v30 V0)) (res_v30 V0))

/-- The contents of main_v41 as a composition of array operations on the arguments and earlier stages. -/
def res_v41 (V0 : Valuation τ sig (Elt F)) : (⟨S16384x4096, .f32⟩ : BufTy).Contents (Elt F) :=
  addf (Host.dotGeneral dot_S16384x4096_S4096x4096_S16384x4096_1_0_0_1_n_n none (res_v33 V0) (transpose S4096x4096 [1, 0] (addf (V0 (Proc.devRef .tc main_arg3)) (subf (Host.sign (V0 (Proc.devRef .tc main_arg3))) (V0 (Proc.devRef .tc main_arg3)))) transposes_S4096x4096_S4096x4096_1_0)) (broadcastInDim S16384x4096 ![0, 1] bcast_S1x4096_S16384x4096_0_1 (broadcastInDim S1x4096 ![1] bcast_S4096_S1x4096_1 (V0 (Proc.devRef .tc main_arg4))))

/-- The contents of main_v44 as a composition of array operations on the arguments and earlier stages. -/
def res_v44 (V0 : Valuation τ sig (Elt F)) : (⟨S4096, .f32⟩ : BufTy).Contents (Elt F) :=
  Host.divf (Host.reduceAdd (res_v41 V0) ((constant S_ .f32 0x00000000#32 : (⟨S_, .f32⟩ : BufTy).Contents (Elt F))) reducesTo_S16384x4096_S4096_d0 h_S_) (broadcastInDim S4096 ![] bcast_S_S4096 ((constant S_ .f32 0x46800000#32 : (⟨S_, .f32⟩ : BufTy).Contents (Elt F))))

/-- The contents of main_v45 as a composition of array operations on the arguments and earlier stages. -/
def res_v45 (V0 : Valuation τ sig (Elt F)) : (⟨S4096, .f32⟩ : BufTy).Contents (Elt F) :=
  select (broadcastInDim S4096 ![] bcast_S_S4096 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (res_v41 V0) (broadcastInDim S16384x4096 ![0, 1] bcast_S1x4096_S16384x4096_0_1 (Host.divf (broadcastInDim S1x4096 ![1] bcast_S4096_S1x4096_1 (Host.reduceAdd (res_v41 V0) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F))))))) (subf (res_v41 V0) (broadcastInDim S16384x4096 ![0, 1] bcast_S1x4096_S16384x4096_0_1 (Host.divf (broadcastInDim S1x4096 ![1] bcast_S4096_S1x4096_1 (Host.reduceAdd (res_v41 V0) ((constant S_ .f32 0x00000000#32 : (⟨S_, .f32⟩ : BufTy).Contents (Elt F))) reducesTo_S16384x4096_S4096_d0 h_S_)) (broadcastInDim S1x4096 ![] bcast_S_S1x4096 ((constant S_ .f32 0x46800000#32 : (⟨S_, .f32⟩ : BufTy).Contents (Elt F)))))))) ((constant S_ .f32 0x00000000#32 : (⟨S_, .f32⟩ : BufTy).Contents (Elt F))) reducesTo_S16384x4096_S4096_d0 h_S_) (broadcastInDim S4096 ![] bcast_S_S4096 (subf ((constant S_ .f32 0x46800000#32 : (⟨S_, .f32⟩ : BufTy).Contents (Elt F))) (sitofp .f32 (constantI S_ 32 0#32))))) (broadcastInDim S4096 ![] bcast_S_S4096 (id ((constant S_ .f32 0x7FC00000#32 : (⟨S_, .f32⟩ : BufTy).Contents (Elt F)))))

/-- The contents of main_v61 as a composition of array operations on the arguments and earlier stages. -/
def res_v61 (V0 : Valuation τ sig (Elt F)) : (⟨S16384x4096, .f32⟩ : BufTy).Contents (Elt F) :=
  minimumf (broadcastInDim S16384x4096 ![] bcast_S_S16384x4096 (id ((constant S_ .f32 0x3F800000#32 : (⟨S_, .f32⟩ : BufTy).Contents (Elt F))))) (maximumf (broadcastInDim S16384x4096 ![] bcast_S_S16384x4096 (id ((constant S_ .f32 0xBF800000#32 : (⟨S_, .f32⟩ : BufTy).Contents (Elt F))))) (addf (mulf (mulf (subf (res_v41 V0) (broadcastInDim S16384x4096 ![0, 1] bcast_S1x4096_S16384x4096_0_1 (broadcastInDim S1x4096 ![1] bcast_S4096_S1x4096_1 (res_v44 V0)))) (broadcastInDim S16384x4096 ![0, 1] bcast_S1x4096_S16384x4096_0_1 (broadcastInDim S1x4096 ![1] bcast_S4096_S1x4096_1 (Host.rsqrt (addf (res_v45 V0) (broadcastInDim S4096 ![] bcast_S_S4096 ((constant S_ .f32 0x3727C5AC#32 : (⟨S_, .f32⟩ : BufTy).Contents (Elt F))))))))) (broadcastInDim S16384x4096 ![0, 1] bcast_S1x4096_S16384x4096_0_1 (broadcastInDim S1x4096 ![1] bcast_S4096_S1x4096_1 (V0 (Proc.devRef .tc main_arg15))))) (broadcastInDim S16384x4096 ![0, 1] bcast_S1x4096_S16384x4096_0_1 (broadcastInDim S1x4096 ![1] bcast_S4096_S1x4096_1 (V0 (Proc.devRef .tc main_arg16))))))

/-- The contents of main_v64 as a composition of array operations on the arguments and earlier stages. -/
def res_v64 (V0 : Valuation τ sig (Elt F)) : (⟨S16384x4096, .f32⟩ : BufTy).Contents (Elt F) :=
  addf (res_v61 V0) (subf (Host.sign (res_v61 V0)) (res_v61 V0))

/-- The contents of main_v72 as a composition of array operations on the arguments and earlier stages. -/
def res_v72 (V0 : Valuation τ sig (Elt F)) : (⟨S16384x256, .f32⟩ : BufTy).Contents (Elt F) :=
  addf (Host.dotGeneral dot_S16384x4096_S4096x256_S16384x256_1_0_0_1_n_n none (res_v64 V0) (transpose S4096x256 [1, 0] (addf (V0 (Proc.devRef .tc main_arg5)) (subf (Host.sign (V0 (Proc.devRef .tc main_arg5))) (V0 (Proc.devRef .tc main_arg5)))) transposes_S256x4096_S4096x256_1_0)) (broadcastInDim S16384x256 ![0, 1] bcast_S1x256_S16384x256_0_1 (broadcastInDim S1x256 ![1] bcast_S256_S1x256_1 (V0 (Proc.devRef .tc main_arg6))))

/-- The contents of main_v75 as a composition of array operations on the arguments and earlier stages. -/
def res_v75 (V0 : Valuation τ sig (Elt F)) : (⟨S256, .f32⟩ : BufTy).Contents (Elt F) :=
  Host.divf (Host.reduceAdd (res_v72 V0) ((constant S_ .f32 0x00000000#32 : (⟨S_, .f32⟩ : BufTy).Contents (Elt F))) reducesTo_S16384x256_S256_d0 h_S_) (broadcastInDim S256 ![] bcast_S_S256 ((constant S_ .f32 0x46800000#32 : (⟨S_, .f32⟩ : BufTy).Contents (Elt F))))

/-- The contents of main_v76 as a composition of array operations on the arguments and earlier stages. -/
def res_v76 (V0 : Valuation τ sig (Elt F)) : (⟨S256, .f32⟩ : BufTy).Contents (Elt F) :=
  select (broadcastInDim S256 ![] bcast_S_S256 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (res_v72 V0) (broadcastInDim S16384x256 ![0, 1] bcast_S1x256_S16384x256_0_1 (Host.divf (broadcastInDim S1x256 ![1] bcast_S256_S1x256_1 (Host.reduceAdd (res_v72 V0) ((constant S_ .f32 0x00000000#32 : (⟨S_, .f32⟩ : BufTy).Contents (Elt F))) reducesTo_S16384x256_S256_d0 h_S_)) (broadcastInDim S1x256 ![] bcast_S_S1x256 ((constant S_ .f32 0x46800000#32 : (⟨S_, .f32⟩ : BufTy).Contents (Elt F))))))) (subf (res_v72 V0) (broadcastInDim S16384x256 ![0, 1] bcast_S1x256_S16384x256_0_1 (Host.divf (broadcastInDim S1x256 ![1] bcast_S256_S1x256_1 (Host.reduceAdd (res_v72 V0) ((constant S_ .f32 0x00000000#32 : (⟨S_, .f32⟩ : BufTy).Contents (Elt F))) reducesTo_S16384x256_S256_d0 h_S_)) (broadcastInDim S1x256 ![] bcast_S_S1x256 ((constant S_ .f32 0x46800000#32 : (⟨S_, .f32⟩ : BufTy).Contents (Elt F)))))))) ((constant S_ .f32 0x00000000#32 : (⟨S_, .f32⟩ : BufTy).Contents (Elt F))) reducesTo_S16384x256_S256_d0 h_S_) (broadcastInDim S256 ![] bcast_S_S256 (subf ((constant S_ .f32 0x46800000#32 : (⟨S_, .f32⟩ : BufTy).Contents (Elt F))) (sitofp .f32 (constantI S_ 32 0#32))))) (broadcastInDim S256 ![] bcast_S_S256 (id ((constant S_ .f32 0x7FC00000#32 : (⟨S_, .f32⟩ : BufTy).Contents (Elt F)))))

/-- The contents of main_v92 as a composition of array operations on the arguments and earlier stages. -/
def res_v92 (V0 : Valuation τ sig (Elt F)) : (⟨S16384x256, .f32⟩ : BufTy).Contents (Elt F) :=
  minimumf (broadcastInDim S16384x256 ![] bcast_S_S16384x256 (id ((constant S_ .f32 0x3F800000#32 : (⟨S_, .f32⟩ : BufTy).Contents (Elt F))))) (maximumf (broadcastInDim S16384x256 ![] bcast_S_S16384x256 (id ((constant S_ .f32 0xBF800000#32 : (⟨S_, .f32⟩ : BufTy).Contents (Elt F))))) (addf (mulf (mulf (subf (res_v72 V0) (broadcastInDim S16384x256 ![0, 1] bcast_S1x256_S16384x256_0_1 (broadcastInDim S1x256 ![1] bcast_S256_S1x256_1 (res_v75 V0)))) (broadcastInDim S16384x256 ![0, 1] bcast_S1x256_S16384x256_0_1 (broadcastInDim S1x256 ![1] bcast_S256_S1x256_1 (Host.rsqrt (addf (res_v76 V0) (broadcastInDim S256 ![] bcast_S_S256 ((constant S_ .f32 0x3727C5AC#32 : (⟨S_, .f32⟩ : BufTy).Contents (Elt F))))))))) (broadcastInDim S16384x256 ![0, 1] bcast_S1x256_S16384x256_0_1 (broadcastInDim S1x256 ![1] bcast_S256_S1x256_1 (V0 (Proc.devRef .tc main_arg17))))) (broadcastInDim S16384x256 ![0, 1] bcast_S1x256_S16384x256_0_1 (broadcastInDim S1x256 ![1] bcast_S256_S1x256_1 (V0 (Proc.devRef .tc main_arg18))))))

/-- The contents of main_v95 as a composition of array operations on the arguments and earlier stages. -/
def res_v95 (V0 : Valuation τ sig (Elt F)) : (⟨S16384x256, .f32⟩ : BufTy).Contents (Elt F) :=
  addf (res_v92 V0) (subf (Host.sign (res_v92 V0)) (res_v92 V0))

/-- The contents of main_v103 as a composition of array operations on the arguments and earlier stages. -/
def res_v103 (V0 : Valuation τ sig (Elt F)) : (⟨S16384x16, .f32⟩ : BufTy).Contents (Elt F) :=
  addf (Host.dotGeneral dot_S16384x256_S256x16_S16384x16_1_0_0_1_n_n none (res_v95 V0) (transpose S256x16 [1, 0] (addf (V0 (Proc.devRef .tc main_arg7)) (subf (Host.sign (V0 (Proc.devRef .tc main_arg7))) (V0 (Proc.devRef .tc main_arg7)))) transposes_S16x256_S256x16_1_0)) (broadcastInDim S16384x16 ![0, 1] bcast_S1x16_S16384x16_0_1 (broadcastInDim S1x16 ![1] bcast_S16_S1x16_1 (V0 (Proc.devRef .tc main_arg8))))

/-- The contents of main_v104 as a composition of array operations on the arguments and earlier stages. -/
def res_v104 (V0 : Valuation τ sig (Elt F)) : (⟨S16384x16, .f32⟩ : BufTy).Contents (Elt F) :=
  minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (res_v103 V0))

/-- The contents of main_v107 as a composition of array operations on the arguments and earlier stages. -/
def res_v107 (V0 : Valuation τ sig (Elt F)) : (⟨S16384x16, .f32⟩ : BufTy).Contents (Elt F) :=
  addf (res_v104 V0) (subf (Host.sign (res_v104 V0)) (res_v104 V0))

/-- The contents of main_v115 as a composition of array operations on the arguments and earlier stages. -/
def res_v115 (V0 : Valuation τ sig (Elt F)) : (⟨S16384x16, .f32⟩ : BufTy).Contents (Elt F) :=
  addf (Host.dotGeneral dot_S16384x16_S16x16_S16384x16_1_0_0_1_n_n none (res_v107 V0) (transpose S16x16 [1, 0] (addf (V0 (Proc.devRef .tc main_arg9)) (subf (Host.sign (V0 (Proc.devRef .tc main_arg9))) (V0 (Proc.devRef .tc main_arg9)))) transposes_S16x16_S16x16_1_0)) (broadcastInDim S16384x16 ![0, 1] bcast_S1x16_S16384x16_0_1 (broadcastInDim S1x16 ![1] bcast_S16_S1x16_1 (V0 (Proc.devRef .tc main_arg10))))

/-- The contents of main_v116 as a composition of array operations on the arguments and earlier stages. -/
def res_v116 (V0 : Valuation τ sig (Elt F)) : (⟨S16384x16, .f32⟩ : BufTy).Contents (Elt F) :=
  minimumf (broadcastInDim S16384x16 ![] bcast_S_S16384x16 (id ((constant S_ .f32 0x3F800000#32 : (⟨S_, .f32⟩ : BufTy).Contents (Elt F))))) (maximumf (broadcastInDim S16384x16 ![] bcast_S_S16384x16 (id ((constant S_ .f32 0xBF800000#32 : (⟨S_, .f32⟩ : BufTy).Contents (Elt F))))) (res_v115 V0))

/-- The contents of main_v119 as a composition of array operations on the arguments and earlier stages. -/
def res_v119 (V0 : Valuation τ sig (Elt F)) : (⟨S16384x16, .f32⟩ : BufTy).Contents (Elt F) :=
  addf (res_v116 V0) (subf (Host.sign (res_v116 V0)) (res_v116 V0))

/-- The contents of main_v127 as a composition of array operations on the arguments and earlier stages. -/
def res_v127 (V0 : Valuation τ sig (Elt F)) : (⟨S16384x10, .f32⟩ : BufTy).Contents (Elt F) :=
  addf (Host.dotGeneral dot_S16384x16_S16x10_S16384x10_1_0_0_1_n_n none (res_v119 V0) (transpose S16x10 [1, 0] (addf (V0 (Proc.devRef .tc main_arg11)) (subf (Host.sign (V0 (Proc.devRef .tc main_arg11))) (V0 (Proc.devRef .tc main_arg11)))) transposes_S10x16_S16x10_1_0)) (broadcastInDim S16384x10 ![0, 1] bcast_S1x10_S16384x10_0_1 (broadcastInDim S1x10 ![1] bcast_S10_S1x10_1 (V0 (Proc.devRef .tc main_arg12))))

/-- The contents of main_v130 as a composition of array operations on the arguments and earlier stages. -/
def res_v130 (V0 : Valuation τ sig (Elt F)) : (⟨S10, .f32⟩ : BufTy).Contents (Elt F) :=
  Host.divf (Host.reduceAdd (res_v127 V0) ((constant S_ .f32 0x00000000#32 : (⟨S_, .f32⟩ : BufTy).Contents (Elt F))) reducesTo_S16384x10_S10_d0 h_S_) (broadcastInDim S10 ![] bcast_S_S10 ((constant S_ .f32 0x46800000#32 : (⟨S_, .f32⟩ : BufTy).Contents (Elt F))))

/-- The contents of main_v131 as a composition of array operations on the arguments and earlier stages. -/
def res_v131 (V0 : Valuation τ sig (Elt F)) : (⟨S10, .f32⟩ : BufTy).Contents (Elt F) :=
  select (broadcastInDim S10 ![] bcast_S_S10 (cmpf .ogt (subf ((constant S_ .f32 0x46800000#32 : (⟨S_, .f32⟩ : BufTy).Contents (Elt F))) (sitofp .f32 (constantI S_ 32 0#32))) ((constant S_ .f32 0x00000000#32 : (⟨S_, .f32⟩ : BufTy).Contents (Elt F))))) (Host.divf (Host.reduceAdd (mulf (subf (res_v127 V0) (broadcastInDim S16384x10 ![0, 1] bcast_S1x10_S16384x10_0_1 (Host.divf (broadcastInDim S1x10 ![1] bcast_S10_S1x10_1 (Host.reduceAdd (res_v127 V0) ((constant S_ .f32 0x00000000#32 : (⟨S_, .f32⟩ : BufTy).Contents (Elt F))) reducesTo_S16384x10_S10_d0 h_S_)) (broadcastInDim S1x10 ![] bcast_S_S1x10 ((constant S_ .f32 0x46800000#32 : (⟨S_, .f32⟩ : BufTy).Contents (Elt F))))))) (subf (res_v127 V0) (broadcastInDim S16384x10 ![0, 1] bcast_S1x10_S16384x10_0_1 (Host.divf (broadcastInDim S1x10 ![1] bcast_S10_S1x10_1 (Host.reduceAdd (res_v127 V0) ((constant S_ .f32 0x00000000#32 : (⟨S_, .f32⟩ : BufTy).Contents (Elt F))) reducesTo_S16384x10_S10_d0 h_S_)) (broadcastInDim S1x10 ![] bcast_S_S1x10 ((constant S_ .f32 0x46800000#32 : (⟨S_, .f32⟩ : BufTy).Contents (Elt F)))))))) ((constant S_ .f32 0x00000000#32 : (⟨S_, .f32⟩ : BufTy).Contents (Elt F))) reducesTo_S16384x10_S10_d0 h_S_) (broadcastInDim S10 ![] bcast_S_S10 (subf ((constant S_ .f32 0x46800000#32 : (⟨S_, .f32⟩ : BufTy).Contents (Elt F))) (sitofp .f32 (constantI S_ 32 0#32))))) (broadcastInDim S10 ![] bcast_S_S10 (id ((constant S_ .f32 0x7FC00000#32 : (⟨S_, .f32⟩ : BufTy).Contents (Elt F)))))

/-- The contents of main_v146 as a composition of array operations on the arguments and earlier stages. -/
def res_v146 (V0 : Valuation τ sig (Elt F)) : (⟨S16384x10, .f32⟩ : BufTy).Contents (Elt F) :=
  addf (mulf (mulf (subf (res_v127 V0) (broadcastInDim S16384x10 ![0, 1] bcast_S1x10_S16384x10_0_1 (broadcastInDim S1x10 ![1] bcast_S10_S1x10_1 (res_v130 V0)))) (broadcastInDim S16384x10 ![0, 1] bcast_S1x10_S16384x10_0_1 (broadcastInDim S1x10 ![1] bcast_S10_S1x10_1 (Host.rsqrt (addf (res_v131 V0) (broadcastInDim S10 ![] bcast_S_S10 ((constant S_ .f32 0x3727C5AC#32 : (⟨S_, .f32⟩ : BufTy).Contents (Elt F))))))))) (broadcastInDim S16384x10 ![0, 1] bcast_S1x10_S16384x10_0_1 (broadcastInDim S1x10 ![1] bcast_S10_S1x10_1 (V0 (Proc.devRef .tc main_arg19))))) (broadcastInDim S16384x10 ![0, 1] bcast_S1x10_S16384x10_0_1 (broadcastInDim S1x10 ![1] bcast_S10_S1x10_1 (V0 (Proc.devRef .tc main_arg20))))

/-- The contents of main_v147 as a composition of array operations on the arguments and earlier stages. -/
def res_v147 (V0 : Valuation τ sig (Elt F)) : (⟨S16384x10, .f32⟩ : BufTy).Contents (Elt F) :=
  subf (subf (res_v146 V0) (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf (res_v146 V0) ((constant S_ .f32 0xFF800000#32 : (⟨S_, .f32⟩ : BufTy).Contents (Elt F))) reducesTo_S16384x10_S16384_d1 h_S_))))) (broadcastInDim S16384x10 ![0, 1] bcast_S16384x1_S16384x10_0_1 (Host.log (broadcastInDim S16384x1 ![0] bcast_S16384_S16384x1_0 (Host.reduceAdd (Host.exp (subf (res_v146 V0) (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf (res_v146 V0) ((constant S_ .f32 0xFF800000#32 : (⟨S_, .f32⟩ : BufTy).Contents (Elt F))) reducesTo_S16384x10_S16384_d1 h_S_)))))) ((constant S_ .f32 0x00000000#32 : (⟨S_, .f32⟩ : BufTy).Contents (Elt F))) reducesTo_S16384x10_S16384_d1 h_S_))))

/-- The buffers' contents before the first stretch. -/
def val0 (V0 : Valuation τ sig (Elt F)) : Valuation τ sig (Elt F) := V0

/-- The buffers' contents after the first 1 stretch. -/
def val1 (V0 : Valuation τ sig (Elt F)) : Valuation τ sig (Elt F) := after opsW1 (val0 V0)
theorem val1_keep (V0 : Valuation τ sig (Elt F)) (r : Ref sig .tc) (h : r ∉ opsW1_W) :
    val1 V0 (Proc.devRef .tc r) = val0 V0 (Proc.devRef .tc r) :=
  after_of_writes_sub opsW1 _ opsW1_writes h

/-- The buffers' contents after the first 2 stretches. -/
def val2 (V0 : Valuation τ sig (Elt F)) : Valuation τ sig (Elt F) := after opsW2 (val1 V0)
theorem val2_keep (V0 : Valuation τ sig (Elt F)) (r : Ref sig .tc) (h : r ∉ opsW2_W) :
    val2 V0 (Proc.devRef .tc r) = val1 V0 (Proc.devRef .tc r) :=
  after_of_writes_sub opsW2 _ opsW2_writes h

/-- The buffers' contents after the first 3 stretches. -/
def val3 (V0 : Valuation τ sig (Elt F)) : Valuation τ sig (Elt F) := after opsW3 (val2 V0)
theorem val3_keep (V0 : Valuation τ sig (Elt F)) (r : Ref sig .tc) (h : r ∉ opsW3_W) :
    val3 V0 (Proc.devRef .tc r) = val2 V0 (Proc.devRef .tc r) :=
  after_of_writes_sub opsW3 _ opsW3_writes h

/-- The buffers' contents after the first 4 stretches. -/
def val4 (V0 : Valuation τ sig (Elt F)) : Valuation τ sig (Elt F) := after opsW4 (val3 V0)
theorem val4_keep (V0 : Valuation τ sig (Elt F)) (r : Ref sig .tc) (h : r ∉ opsW4_W) :
    val4 V0 (Proc.devRef .tc r) = val3 V0 (Proc.devRef .tc r) :=
  after_of_writes_sub opsW4 _ opsW4_writes h

/-- The buffers' contents after the first 5 stretches. -/
def val5 (V0 : Valuation τ sig (Elt F)) : Valuation τ sig (Elt F) := after opsW5 (val4 V0)
theorem val5_keep (V0 : Valuation τ sig (Elt F)) (r : Ref sig .tc) (h : r ∉ opsW5_W) :
    val5 V0 (Proc.devRef .tc r) = val4 V0 (Proc.devRef .tc r) :=
  after_of_writes_sub opsW5 _ opsW5_writes h

/-- The buffers' contents after the first 6 stretches. -/
def val6 (V0 : Valuation τ sig (Elt F)) : Valuation τ sig (Elt F) := after opsW6 (val5 V0)
theorem val6_keep (V0 : Valuation τ sig (Elt F)) (r : Ref sig .tc) (h : r ∉ opsW6_W) :
    val6 V0 (Proc.devRef .tc r) = val5 V0 (Proc.devRef .tc r) :=
  after_of_writes_sub opsW6 _ opsW6_writes h

/-- The buffers' contents after the first 7 stretches. -/
def val7 (V0 : Valuation τ sig (Elt F)) : Valuation τ sig (Elt F) := after opsW7 (val6 V0)
theorem val7_keep (V0 : Valuation τ sig (Elt F)) (r : Ref sig .tc) (h : r ∉ opsW7_W) :
    val7 V0 (Proc.devRef .tc r) = val6 V0 (Proc.devRef .tc r) :=
  after_of_writes_sub opsW7 _ opsW7_writes h

/-- The buffers' contents after the first 8 stretches. -/
def val8 (V0 : Valuation τ sig (Elt F)) : Valuation τ sig (Elt F) := after opsW8 (val7 V0)
theorem val8_keep (V0 : Valuation τ sig (Elt F)) (r : Ref sig .tc) (h : r ∉ opsW8_W) :
    val8 V0 (Proc.devRef .tc r) = val7 V0 (Proc.devRef .tc r) :=
  after_of_writes_sub opsW8 _ opsW8_writes h

/-- The buffers' contents after the first 9 stretches. -/
def val9 (V0 : Valuation τ sig (Elt F)) : Valuation τ sig (Elt F) := after opsW9 (val8 V0)
theorem val9_keep (V0 : Valuation τ sig (Elt F)) (r : Ref sig .tc) (h : r ∉ opsW9_W) :
    val9 V0 (Proc.devRef .tc r) = val8 V0 (Proc.devRef .tc r) :=
  after_of_writes_sub opsW9 _ opsW9_writes h

/-- The buffers' contents after the first 10 stretches. -/
def val10 (V0 : Valuation τ sig (Elt F)) : Valuation τ sig (Elt F) := after opsW10 (val9 V0)
theorem val10_keep (V0 : Valuation τ sig (Elt F)) (r : Ref sig .tc) (h : r ∉ opsW10_W) :
    val10 V0 (Proc.devRef .tc r) = val9 V0 (Proc.devRef .tc r) :=
  after_of_writes_sub opsW10 _ opsW10_writes h

/-- The buffers' contents after the first 11 stretches. -/
def val11 (V0 : Valuation τ sig (Elt F)) : Valuation τ sig (Elt F) := after opsW11 (val10 V0)
theorem val11_keep (V0 : Valuation τ sig (Elt F)) (r : Ref sig .tc) (h : r ∉ opsW11_W) :
    val11 V0 (Proc.devRef .tc r) = val10 V0 (Proc.devRef .tc r) :=
  after_of_writes_sub opsW11 _ opsW11_writes h

/-- The buffers' contents after the first 12 stretches. -/
def val12 (V0 : Valuation τ sig (Elt F)) : Valuation τ sig (Elt F) := after opsW12 (val11 V0)
theorem val12_keep (V0 : Valuation τ sig (Elt F)) (r : Ref sig .tc) (h : r ∉ opsW12_W) :
    val12 V0 (Proc.devRef .tc r) = val11 V0 (Proc.devRef .tc r) :=
  after_of_writes_sub opsW12 _ opsW12_writes h

/-- The buffers' contents after the first 13 stretches. -/
def val13 (V0 : Valuation τ sig (Elt F)) : Valuation τ sig (Elt F) := after opsW13 (val12 V0)
theorem val13_keep (V0 : Valuation τ sig (Elt F)) (r : Ref sig .tc) (h : r ∉ opsW13_W) :
    val13 V0 (Proc.devRef .tc r) = val12 V0 (Proc.devRef .tc r) :=
  after_of_writes_sub opsW13 _ opsW13_writes h

/-- The buffers' contents after the first 14 stretches. -/
def val14 (V0 : Valuation τ sig (Elt F)) : Valuation τ sig (Elt F) := after opsW14 (val13 V0)
theorem val14_keep (V0 : Valuation τ sig (Elt F)) (r : Ref sig .tc) (h : r ∉ opsW14_W) :
    val14 V0 (Proc.devRef .tc r) = val13 V0 (Proc.devRef .tc r) :=
  after_of_writes_sub opsW14 _ opsW14_writes h

/-- The buffers' contents after the first 15 stretches. -/
def val15 (V0 : Valuation τ sig (Elt F)) : Valuation τ sig (Elt F) := after opsW15 (val14 V0)
theorem val15_keep (V0 : Valuation τ sig (Elt F)) (r : Ref sig .tc) (h : r ∉ opsW15_W) :
    val15 V0 (Proc.devRef .tc r) = val14 V0 (Proc.devRef .tc r) :=
  after_of_writes_sub opsW15 _ opsW15_writes h

/-- The buffers' contents after the first 16 stretches. -/
def val16 (V0 : Valuation τ sig (Elt F)) : Valuation τ sig (Elt F) := after opsW16 (val15 V0)
theorem val16_keep (V0 : Valuation τ sig (Elt F)) (r : Ref sig .tc) (h : r ∉ opsW16_W) :
    val16 V0 (Proc.devRef .tc r) = val15 V0 (Proc.devRef .tc r) :=
  after_of_writes_sub opsW16 _ opsW16_writes h

/-- The buffers' contents after the first 17 stretches. -/
def val17 (V0 : Valuation τ sig (Elt F)) : Valuation τ sig (Elt F) := after opsW17 (val16 V0)
theorem val17_keep (V0 : Valuation τ sig (Elt F)) (r : Ref sig .tc) (h : r ∉ opsW17_W) :
    val17 V0 (Proc.devRef .tc r) = val16 V0 (Proc.devRef .tc r) :=
  after_of_writes_sub opsW17 _ opsW17_writes h

theorem keepTo0 (V0 : Valuation τ sig (Elt F)) (r : Ref sig .tc) : val0 V0 (Proc.devRef .tc r) = V0 (Proc.devRef .tc r) := rfl
theorem keepTo1 (V0 : Valuation τ sig (Elt F)) (r : Ref sig .tc) (h1 : r ∉ opsW1_W) :
    val1 V0 (Proc.devRef .tc r) = V0 (Proc.devRef .tc r) :=
  (val1_keep V0 r h1).trans (keepTo0 V0 r )
theorem keepTo2 (V0 : Valuation τ sig (Elt F)) (r : Ref sig .tc) (h1 : r ∉ opsW1_W) (h2 : r ∉ opsW2_W) :
    val2 V0 (Proc.devRef .tc r) = V0 (Proc.devRef .tc r) :=
  (val2_keep V0 r h2).trans (keepTo1 V0 r h1)
theorem keepTo3 (V0 : Valuation τ sig (Elt F)) (r : Ref sig .tc) (h1 : r ∉ opsW1_W) (h2 : r ∉ opsW2_W) (h3 : r ∉ opsW3_W) :
    val3 V0 (Proc.devRef .tc r) = V0 (Proc.devRef .tc r) :=
  (val3_keep V0 r h3).trans (keepTo2 V0 r h1 h2)
theorem keepTo4 (V0 : Valuation τ sig (Elt F)) (r : Ref sig .tc) (h1 : r ∉ opsW1_W) (h2 : r ∉ opsW2_W) (h3 : r ∉ opsW3_W) (h4 : r ∉ opsW4_W) :
    val4 V0 (Proc.devRef .tc r) = V0 (Proc.devRef .tc r) :=
  (val4_keep V0 r h4).trans (keepTo3 V0 r h1 h2 h3)
theorem keepTo5 (V0 : Valuation τ sig (Elt F)) (r : Ref sig .tc) (h1 : r ∉ opsW1_W) (h2 : r ∉ opsW2_W) (h3 : r ∉ opsW3_W) (h4 : r ∉ opsW4_W) (h5 : r ∉ opsW5_W) :
    val5 V0 (Proc.devRef .tc r) = V0 (Proc.devRef .tc r) :=
  (val5_keep V0 r h5).trans (keepTo4 V0 r h1 h2 h3 h4)
theorem keepTo6 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) :
    val6 V0 (Proc.devRef .tc r) = V0 (Proc.devRef .tc r) :=
  (val6_keep V0 r h6).trans (keepTo5 V0 r h1 h2 h3 h4 h5)
theorem keepTo7 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) :
    val7 V0 (Proc.devRef .tc r) = V0 (Proc.devRef .tc r) :=
  (val7_keep V0 r h7).trans (keepTo6 V0 r h1 h2 h3 h4 h5 h6)
theorem keepTo8 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) :
    val8 V0 (Proc.devRef .tc r) = V0 (Proc.devRef .tc r) :=
  (val8_keep V0 r h8).trans (keepTo7 V0 r h1 h2 h3 h4 h5 h6 h7)
theorem keepTo9 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) :
    val9 V0 (Proc.devRef .tc r) = V0 (Proc.devRef .tc r) :=
  (val9_keep V0 r h9).trans (keepTo8 V0 r h1 h2 h3 h4 h5 h6 h7 h8)
theorem keepTo10 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) :
    val10 V0 (Proc.devRef .tc r) = V0 (Proc.devRef .tc r) :=
  (val10_keep V0 r h10).trans (keepTo9 V0 r h1 h2 h3 h4 h5 h6 h7 h8 h9)
theorem keepTo11 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) :
    val11 V0 (Proc.devRef .tc r) = V0 (Proc.devRef .tc r) :=
  (val11_keep V0 r h11).trans (keepTo10 V0 r h1 h2 h3 h4 h5 h6 h7 h8 h9 h10)
theorem keepTo12 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) :
    val12 V0 (Proc.devRef .tc r) = V0 (Proc.devRef .tc r) :=
  (val12_keep V0 r h12).trans (keepTo11 V0 r h1 h2 h3 h4 h5 h6 h7 h8 h9 h10 h11)
theorem keepTo13 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) :
    val13 V0 (Proc.devRef .tc r) = V0 (Proc.devRef .tc r) :=
  (val13_keep V0 r h13).trans (keepTo12 V0 r h1 h2 h3 h4 h5 h6 h7 h8 h9 h10 h11 h12)
theorem keepTo14 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) :
    val14 V0 (Proc.devRef .tc r) = V0 (Proc.devRef .tc r) :=
  (val14_keep V0 r h14).trans (keepTo13 V0 r h1 h2 h3 h4 h5 h6 h7 h8 h9 h10 h11 h12 h13)
theorem keepTo15 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) :
    val15 V0 (Proc.devRef .tc r) = V0 (Proc.devRef .tc r) :=
  (val15_keep V0 r h15).trans (keepTo14 V0 r h1 h2 h3 h4 h5 h6 h7 h8 h9 h10 h11 h12 h13 h14)
theorem keepTo16 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) :
    val16 V0 (Proc.devRef .tc r) = V0 (Proc.devRef .tc r) :=
  (val16_keep V0 r h16).trans (keepTo15 V0 r h1 h2 h3 h4 h5 h6 h7 h8 h9 h10 h11 h12 h13 h14 h15)
theorem keepTo17 (V0 : Valuation τ sig (Elt F)) (r : Ref sig .tc) (h1 : r ∉ opsW1_W) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = V0 (Proc.devRef .tc r) :=
  (val17_keep V0 r h17).trans (keepTo16 V0 r h1 h2 h3 h4 h5 h6 h7 h8 h9 h10 h11 h12 h13 h14 h15 h16)

theorem keepFrom16 (V0 : Valuation τ sig (Elt F)) (r : Ref sig .tc) (h17 : r ∉ opsW17_W) :
    val17 V0 (Proc.devRef .tc r) = val16 V0 (Proc.devRef .tc r) :=
  val17_keep V0 r h17
theorem keepFrom15 (V0 : Valuation τ sig (Elt F)) (r : Ref sig .tc) (h16 : r ∉ opsW16_W) (h17 : r ∉ opsW17_W) :
    val17 V0 (Proc.devRef .tc r) = val15 V0 (Proc.devRef .tc r) :=
  (keepFrom16 V0 r h17).trans (val16_keep V0 r h16)
theorem keepFrom14 (V0 : Valuation τ sig (Elt F)) (r : Ref sig .tc) (h15 : r ∉ opsW15_W) (h16 : r ∉ opsW16_W) (h17 : r ∉ opsW17_W) :
    val17 V0 (Proc.devRef .tc r) = val14 V0 (Proc.devRef .tc r) :=
  (keepFrom15 V0 r h16 h17).trans (val15_keep V0 r h15)
theorem keepFrom13 (V0 : Valuation τ sig (Elt F)) (r : Ref sig .tc) (h14 : r ∉ opsW14_W) (h15 : r ∉ opsW15_W) (h16 : r ∉ opsW16_W) (h17 : r ∉ opsW17_W) :
    val17 V0 (Proc.devRef .tc r) = val13 V0 (Proc.devRef .tc r) :=
  (keepFrom14 V0 r h15 h16 h17).trans (val14_keep V0 r h14)
theorem keepFrom12 (V0 : Valuation τ sig (Elt F)) (r : Ref sig .tc) (h13 : r ∉ opsW13_W) (h14 : r ∉ opsW14_W) (h15 : r ∉ opsW15_W) (h16 : r ∉ opsW16_W) (h17 : r ∉ opsW17_W) :
    val17 V0 (Proc.devRef .tc r) = val12 V0 (Proc.devRef .tc r) :=
  (keepFrom13 V0 r h14 h15 h16 h17).trans (val13_keep V0 r h13)
theorem keepFrom11 (V0 : Valuation τ sig (Elt F)) (r : Ref sig .tc) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val11 V0 (Proc.devRef .tc r) :=
  (keepFrom12 V0 r h13 h14 h15 h16 h17).trans (val12_keep V0 r h12)
theorem keepFrom10 (V0 : Valuation τ sig (Elt F)) (r : Ref sig .tc) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val10 V0 (Proc.devRef .tc r) :=
  (keepFrom11 V0 r h12 h13 h14 h15 h16 h17).trans (val11_keep V0 r h11)
theorem keepFrom9 (V0 : Valuation τ sig (Elt F)) (r : Ref sig .tc) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val9 V0 (Proc.devRef .tc r) :=
  (keepFrom10 V0 r h11 h12 h13 h14 h15 h16 h17).trans (val10_keep V0 r h10)
theorem keepFrom8 (V0 : Valuation τ sig (Elt F)) (r : Ref sig .tc) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val8 V0 (Proc.devRef .tc r) :=
  (keepFrom9 V0 r h10 h11 h12 h13 h14 h15 h16 h17).trans (val9_keep V0 r h9)
theorem keepFrom7 (V0 : Valuation τ sig (Elt F)) (r : Ref sig .tc) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val7 V0 (Proc.devRef .tc r) :=
  (keepFrom8 V0 r h9 h10 h11 h12 h13 h14 h15 h16 h17).trans (val8_keep V0 r h8)
theorem keepFrom6 (V0 : Valuation τ sig (Elt F)) (r : Ref sig .tc) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val6 V0 (Proc.devRef .tc r) :=
  (keepFrom7 V0 r h8 h9 h10 h11 h12 h13 h14 h15 h16 h17).trans (val7_keep V0 r h7)
theorem keepFrom5 (V0 : Valuation τ sig (Elt F)) (r : Ref sig .tc) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val5 V0 (Proc.devRef .tc r) :=
  (keepFrom6 V0 r h7 h8 h9 h10 h11 h12 h13 h14 h15 h16 h17).trans (val6_keep V0 r h6)
theorem keepFrom4 (V0 : Valuation τ sig (Elt F)) (r : Ref sig .tc) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val4 V0 (Proc.devRef .tc r) :=
  (keepFrom5 V0 r h6 h7 h8 h9 h10 h11 h12 h13 h14 h15 h16 h17).trans (val5_keep V0 r h5)
theorem keepFrom3 (V0 : Valuation τ sig (Elt F)) (r : Ref sig .tc) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val3 V0 (Proc.devRef .tc r) :=
  (keepFrom4 V0 r h5 h6 h7 h8 h9 h10 h11 h12 h13 h14 h15 h16 h17).trans (val4_keep V0 r h4)
theorem keepFrom2 (V0 : Valuation τ sig (Elt F)) (r : Ref sig .tc) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val2 V0 (Proc.devRef .tc r) :=
  (keepFrom3 V0 r h4 h5 h6 h7 h8 h9 h10 h11 h12 h13 h14 h15 h16 h17).trans (val3_keep V0 r h3)
theorem keepFrom1 (V0 : Valuation τ sig (Elt F)) (r : Ref sig .tc) (h2 : r ∉ opsW2_W) (h3 : r ∉ opsW3_W) (h4 : r ∉ opsW4_W) (h5 : r ∉ opsW5_W) (h6 : r ∉ opsW6_W) (h7 : r ∉ opsW7_W) (h8 : r ∉ opsW8_W) (h9 : r ∉ opsW9_W) (h10 : r ∉ opsW10_W) (h11 : r ∉ opsW11_W) (h12 : r ∉ opsW12_W) (h13 : r ∉ opsW13_W) (h14 : r ∉ opsW14_W) (h15 : r ∉ opsW15_W) (h16 : r ∉ opsW16_W) (h17 : r ∉ opsW17_W) :
    val17 V0 (Proc.devRef .tc r) = val1 V0 (Proc.devRef .tc r) :=
  (keepFrom2 V0 r h3 h4 h5 h6 h7 h8 h9 h10 h11 h12 h13 h14 h15 h16 h17).trans (val2_keep V0 r h2)

theorem val0_main_arg0 (V0 : Valuation τ sig (Elt F)) : val0 V0 (no_index (Proc.devRef .tc main_arg0)) = V0 (Proc.devRef .tc main_arg0) :=
  rfl
theorem val0_main_arg1 (V0 : Valuation τ sig (Elt F)) : val0 V0 (no_index (Proc.devRef .tc main_arg1)) = V0 (Proc.devRef .tc main_arg1) :=
  rfl
theorem val0_main_arg2 (V0 : Valuation τ sig (Elt F)) : val0 V0 (no_index (Proc.devRef .tc main_arg2)) = V0 (Proc.devRef .tc main_arg2) :=
  rfl
set_option maxRecDepth 8192 in
theorem val1_main_v10 (V0 : Valuation τ sig (Elt F)) : val1 V0 (no_index (Proc.devRef .tc main_v10)) = res_v10 V0 :=
  (w1_main_v10 (val0 V0)).trans (by simp only [val0_main_arg0, val0_main_arg1, val0_main_arg2] <;> rfl)
set_option maxRecDepth 8192 in
theorem val2_main_v13 (V0 : Valuation τ sig (Elt F)) : val2 V0 (no_index (Proc.devRef .tc main_v13)) = res_v13 V0 :=
  (w2_main_v13 (val1 V0)).trans (by simp only [val1_main_v10] <;> rfl)
set_option maxRecDepth 8192 in
theorem val2_main_v14 (V0 : Valuation τ sig (Elt F)) : val2 V0 (no_index (Proc.devRef .tc main_v14)) = res_v14 V0 :=
  (w2_main_v14 (val1 V0)).trans (by simp only [val1_main_v10] <;> rfl)
theorem val2_main_v10 (V0 : Valuation τ sig (Elt F)) : val2 V0 (no_index (Proc.devRef .tc main_v10)) = res_v10 V0 :=
  (val2_keep V0 main_v10 (by decide)).trans (val1_main_v10 V0)
theorem val2_main_arg13 (V0 : Valuation τ sig (Elt F)) : val2 V0 (no_index (Proc.devRef .tc main_arg13)) = V0 (Proc.devRef .tc main_arg13) :=
  keepTo2 V0 main_arg13 (by decide) (by decide)
theorem val2_main_arg14 (V0 : Valuation τ sig (Elt F)) : val2 V0 (no_index (Proc.devRef .tc main_arg14)) = V0 (Proc.devRef .tc main_arg14) :=
  keepTo2 V0 main_arg14 (by decide) (by decide)
set_option maxRecDepth 8192 in
theorem val3_main_v30 (V0 : Valuation τ sig (Elt F)) : val3 V0 (no_index (Proc.devRef .tc main_v30)) = res_v30 V0 :=
  (w3_main_v30 (val2 V0)).trans (by simp only [val2_main_v10, val2_main_v13, val2_main_v14, val2_main_arg13, val2_main_arg14] <;> rfl)
set_option maxRecDepth 8192 in
theorem val4_main_v33 (V0 : Valuation τ sig (Elt F)) : val4 V0 (no_index (Proc.devRef .tc main_v33)) = res_v33 V0 :=
  (w4_main_v33 (val3 V0)).trans (by simp only [val3_main_v30] <;> rfl)
theorem val3_main_arg3 (V0 : Valuation τ sig (Elt F)) : val3 V0 (no_index (Proc.devRef .tc main_arg3)) = V0 (Proc.devRef .tc main_arg3) :=
  keepTo3 V0 main_arg3 (by decide) (by decide) (by decide)
theorem val3_main_arg4 (V0 : Valuation τ sig (Elt F)) : val3 V0 (no_index (Proc.devRef .tc main_arg4)) = V0 (Proc.devRef .tc main_arg4) :=
  keepTo3 V0 main_arg4 (by decide) (by decide) (by decide)
set_option maxRecDepth 8192 in
theorem val4_main_v41 (V0 : Valuation τ sig (Elt F)) : val4 V0 (no_index (Proc.devRef .tc main_v41)) = res_v41 V0 :=
  (w4_main_v41 (val3 V0)).trans (by simp only [val3_main_v30, val3_main_arg3, val3_main_arg4] <;> rfl)
set_option maxRecDepth 8192 in
theorem val5_main_v44 (V0 : Valuation τ sig (Elt F)) : val5 V0 (no_index (Proc.devRef .tc main_v44)) = res_v44 V0 :=
  (w5_main_v44 (val4 V0)).trans (by simp only [val4_main_v41] <;> rfl)
set_option maxRecDepth 8192 in
theorem val5_main_v45 (V0 : Valuation τ sig (Elt F)) : val5 V0 (no_index (Proc.devRef .tc main_v45)) = res_v45 V0 :=
  (w5_main_v45 (val4 V0)).trans (by simp only [val4_main_v41] <;> rfl)
set_option maxRecDepth 8192 in
theorem val5_main_v48 (V0 : Valuation τ sig (Elt F)) : val5 V0 (no_index (Proc.devRef .tc main_v48)) = subf (res_v41 V0) (broadcastInDim S16384x4096 ![0, 1] bcast_S1x4096_S16384x4096_0_1 (broadcastInDim S1x4096 ![1] bcast_S4096_S1x4096_1 (res_v44 V0))) :=
  (w5_main_v48 (val4 V0)).trans (by simp only [val4_main_v41] <;> rfl)
set_option maxRecDepth 8192 in
theorem val5_main_v49 (V0 : Valuation τ sig (Elt F)) : val5 V0 (no_index (Proc.devRef .tc main_v49)) = broadcastInDim S4096 ![] bcast_S_S4096 ((constant S_ .f32 0x3727C5AC#32 : (⟨S_, .f32⟩ : BufTy).Contents (Elt F))) :=
  (w5_main_v49 (val4 V0)).trans (by rfl)
theorem val5_main_arg15 (V0 : Valuation τ sig (Elt F)) : val5 V0 (no_index (Proc.devRef .tc main_arg15)) = V0 (Proc.devRef .tc main_arg15) :=
  keepTo5 V0 main_arg15 (by decide) (by decide) (by decide) (by decide) (by decide)
theorem val5_main_arg16 (V0 : Valuation τ sig (Elt F)) : val5 V0 (no_index (Proc.devRef .tc main_arg16)) = V0 (Proc.devRef .tc main_arg16) :=
  keepTo5 V0 main_arg16 (by decide) (by decide) (by decide) (by decide) (by decide)
set_option maxRecDepth 8192 in
theorem val6_main_v61 (V0 : Valuation τ sig (Elt F)) : val6 V0 (no_index (Proc.devRef .tc main_v61)) = res_v61 V0 :=
  (w6_main_v61 (val5 V0)).trans (by simp only [val5_main_v48, val5_main_v45, val5_main_v49, val5_main_arg15, val5_main_arg16] <;> rfl)
set_option maxRecDepth 8192 in
theorem val7_main_v64 (V0 : Valuation τ sig (Elt F)) : val7 V0 (no_index (Proc.devRef .tc main_v64)) = res_v64 V0 :=
  (w7_main_v64 (val6 V0)).trans (by simp only [val6_main_v61] <;> rfl)
theorem val6_main_arg5 (V0 : Valuation τ sig (Elt F)) : val6 V0 (no_index (Proc.devRef .tc main_arg5)) = V0 (Proc.devRef .tc main_arg5) :=
  keepTo6 V0 main_arg5 (by decide) (by decide) (by decide) (by decide) (by decide) (by decide)
theorem val6_main_arg6 (V0 : Valuation τ sig (Elt F)) : val6 V0 (no_index (Proc.devRef .tc main_arg6)) = V0 (Proc.devRef .tc main_arg6) :=
  keepTo6 V0 main_arg6 (by decide) (by decide) (by decide) (by decide) (by decide) (by decide)
set_option maxRecDepth 8192 in
theorem val7_main_v72 (V0 : Valuation τ sig (Elt F)) : val7 V0 (no_index (Proc.devRef .tc main_v72)) = res_v72 V0 :=
  (w7_main_v72 (val6 V0)).trans (by simp only [val6_main_v61, val6_main_arg5, val6_main_arg6] <;> rfl)
set_option maxRecDepth 8192 in
theorem val8_main_v75 (V0 : Valuation τ sig (Elt F)) : val8 V0 (no_index (Proc.devRef .tc main_v75)) = res_v75 V0 :=
  (w8_main_v75 (val7 V0)).trans (by simp only [val7_main_v72] <;> rfl)
set_option maxRecDepth 8192 in
theorem val8_main_v76 (V0 : Valuation τ sig (Elt F)) : val8 V0 (no_index (Proc.devRef .tc main_v76)) = res_v76 V0 :=
  (w8_main_v76 (val7 V0)).trans (by simp only [val7_main_v72] <;> rfl)
theorem val8_main_v72 (V0 : Valuation τ sig (Elt F)) : val8 V0 (no_index (Proc.devRef .tc main_v72)) = res_v72 V0 :=
  (val8_keep V0 main_v72 (by decide)).trans (val7_main_v72 V0)
theorem val8_main_arg17 (V0 : Valuation τ sig (Elt F)) : val8 V0 (no_index (Proc.devRef .tc main_arg17)) = V0 (Proc.devRef .tc main_arg17) :=
  keepTo8 V0 main_arg17 (by decide) (by decide) (by decide) (by decide) (by decide) (by decide) (by decide) (by decide)
theorem val8_main_arg18 (V0 : Valuation τ sig (Elt F)) : val8 V0 (no_index (Proc.devRef .tc main_arg18)) = V0 (Proc.devRef .tc main_arg18) :=
  keepTo8 V0 main_arg18 (by decide) (by decide) (by decide) (by decide) (by decide) (by decide) (by decide) (by decide)
set_option maxRecDepth 8192 in
theorem val9_main_v92 (V0 : Valuation τ sig (Elt F)) : val9 V0 (no_index (Proc.devRef .tc main_v92)) = res_v92 V0 :=
  (w9_main_v92 (val8 V0)).trans (by simp only [val8_main_v72, val8_main_v75, val8_main_v76, val8_main_arg17, val8_main_arg18] <;> rfl)
set_option maxRecDepth 8192 in
theorem val10_main_v95 (V0 : Valuation τ sig (Elt F)) : val10 V0 (no_index (Proc.devRef .tc main_v95)) = res_v95 V0 :=
  (w10_main_v95 (val9 V0)).trans (by simp only [val9_main_v92] <;> rfl)
theorem val9_main_arg7 (V0 : Valuation τ sig (Elt F)) : val9 V0 (no_index (Proc.devRef .tc main_arg7)) = V0 (Proc.devRef .tc main_arg7) :=
  keepTo9 V0 main_arg7 (by decide) (by decide) (by decide) (by decide) (by decide) (by decide) (by decide) (by decide) (by decide)
set_option maxRecDepth 8192 in
theorem val10_main_v100 (V0 : Valuation τ sig (Elt F)) : val10 V0 (no_index (Proc.devRef .tc main_v100)) = Host.dotGeneral dot_S16384x256_S256x16_S16384x16_1_0_0_1_n_n none (res_v95 V0) (transpose S256x16 [1, 0] (addf (V0 (Proc.devRef .tc main_arg7)) (subf (Host.sign (V0 (Proc.devRef .tc main_arg7))) (V0 (Proc.devRef .tc main_arg7)))) transposes_S16x256_S256x16_1_0) :=
  (w10_main_v100 (val9 V0)).trans (by simp only [val9_main_v92, val9_main_arg7] <;> rfl)
theorem val9_main_arg8 (V0 : Valuation τ sig (Elt F)) : val9 V0 (no_index (Proc.devRef .tc main_arg8)) = V0 (Proc.devRef .tc main_arg8) :=
  keepTo9 V0 main_arg8 (by decide) (by decide) (by decide) (by decide) (by decide) (by decide) (by decide) (by decide) (by decide)
set_option maxRecDepth 8192 in
theorem val10_main_v101 (V0 : Valuation τ sig (Elt F)) : val10 V0 (no_index (Proc.devRef .tc main_v101)) = broadcastInDim S1x16 ![1] bcast_S16_S1x16_1 (V0 (Proc.devRef .tc main_arg8)) :=
  (w10_main_v101 (val9 V0)).trans (by simp only [val9_main_arg8] <;> rfl)
set_option maxRecDepth 8192 in
theorem val11_main_v103 (V0 : Valuation τ sig (Elt F)) : val11 V0 (no_index (Proc.devRef .tc main_v103)) = res_v103 V0 :=
  (w11_main_v103 (val10 V0)).trans (by simp only [val10_main_v100, val10_main_v101] <;> rfl)
set_option maxRecDepth 8192 in
theorem val11_main_v104 (V0 : Valuation τ sig (Elt F)) : val11 V0 (no_index (Proc.devRef .tc main_v104)) = res_v104 V0 :=
  (w11_main_v104 (val10 V0)).trans (by simp only [val10_main_v100, val10_main_v101] <;> rfl)
set_option maxRecDepth 8192 in
theorem val12_main_v107 (V0 : Valuation τ sig (Elt F)) : val12 V0 (no_index (Proc.devRef .tc main_v107)) = res_v107 V0 :=
  (w12_main_v107 (val11 V0)).trans (by simp only [val11_main_v104] <;> rfl)
theorem val11_main_arg9 (V0 : Valuation τ sig (Elt F)) : val11 V0 (no_index (Proc.devRef .tc main_arg9)) = V0 (Proc.devRef .tc main_arg9) :=
  keepTo11 V0 main_arg9 (by decide) (by decide) (by decide) (by decide) (by decide) (by decide) (by decide) (by decide) (by decide) (by decide) (by decide)
theorem val11_main_arg10 (V0 : Valuation τ sig (Elt F)) : val11 V0 (no_index (Proc.devRef .tc main_arg10)) = V0 (Proc.devRef .tc main_arg10) :=
  keepTo11 V0 main_arg10 (by decide) (by decide) (by decide) (by decide) (by decide) (by decide) (by decide) (by decide) (by decide) (by decide) (by decide)
set_option maxRecDepth 8192 in
theorem val12_main_v115 (V0 : Valuation τ sig (Elt F)) : val12 V0 (no_index (Proc.devRef .tc main_v115)) = res_v115 V0 :=
  (w12_main_v115 (val11 V0)).trans (by simp only [val11_main_v104, val11_main_arg9, val11_main_arg10] <;> rfl)
set_option maxRecDepth 8192 in
theorem val13_main_v116 (V0 : Valuation τ sig (Elt F)) : val13 V0 (no_index (Proc.devRef .tc main_v116)) = res_v116 V0 :=
  (w13_main_v116 (val12 V0)).trans (by simp only [val12_main_v115] <;> rfl)
set_option maxRecDepth 8192 in
theorem val13_main_v119 (V0 : Valuation τ sig (Elt F)) : val13 V0 (no_index (Proc.devRef .tc main_v119)) = res_v119 V0 :=
  (w13_main_v119 (val12 V0)).trans (by simp only [val12_main_v115] <;> rfl)
theorem val13_main_arg11 (V0 : Valuation τ sig (Elt F)) : val13 V0 (no_index (Proc.devRef .tc main_arg11)) = V0 (Proc.devRef .tc main_arg11) :=
  keepTo13 V0 main_arg11 (by decide) (by decide) (by decide) (by decide) (by decide) (by decide) (by decide) (by decide) (by decide) (by decide) (by decide) (by decide) (by decide)
theorem val13_main_arg12 (V0 : Valuation τ sig (Elt F)) : val13 V0 (no_index (Proc.devRef .tc main_arg12)) = V0 (Proc.devRef .tc main_arg12) :=
  keepTo13 V0 main_arg12 (by decide) (by decide) (by decide) (by decide) (by decide) (by decide) (by decide) (by decide) (by decide) (by decide) (by decide) (by decide) (by decide)
set_option maxRecDepth 8192 in
theorem val14_main_v127 (V0 : Valuation τ sig (Elt F)) : val14 V0 (no_index (Proc.devRef .tc main_v127)) = res_v127 V0 :=
  (w14_main_v127 (val13 V0)).trans (by simp only [val13_main_v119, val13_main_arg11, val13_main_arg12] <;> rfl)
set_option maxRecDepth 8192 in
theorem val15_main_v130 (V0 : Valuation τ sig (Elt F)) : val15 V0 (no_index (Proc.devRef .tc main_v130)) = res_v130 V0 :=
  (w15_main_v130 (val14 V0)).trans (by simp only [val14_main_v127] <;> rfl)
set_option maxRecDepth 8192 in
theorem val15_main_v131 (V0 : Valuation τ sig (Elt F)) : val15 V0 (no_index (Proc.devRef .tc main_v131)) = res_v131 V0 :=
  (w15_main_v131 (val14 V0)).trans (by simp only [val14_main_v127] <;> rfl)
theorem val15_main_v127 (V0 : Valuation τ sig (Elt F)) : val15 V0 (no_index (Proc.devRef .tc main_v127)) = res_v127 V0 :=
  (val15_keep V0 main_v127 (by decide)).trans (val14_main_v127 V0)
theorem val15_main_arg19 (V0 : Valuation τ sig (Elt F)) : val15 V0 (no_index (Proc.devRef .tc main_arg19)) = V0 (Proc.devRef .tc main_arg19) :=
  keepTo15 V0 main_arg19 (by decide) (by decide) (by decide) (by decide) (by decide) (by decide) (by decide) (by decide) (by decide) (by decide) (by decide) (by decide) (by decide) (by decide) (by decide)
theorem val15_main_arg20 (V0 : Valuation τ sig (Elt F)) : val15 V0 (no_index (Proc.devRef .tc main_arg20)) = V0 (Proc.devRef .tc main_arg20) :=
  keepTo15 V0 main_arg20 (by decide) (by decide) (by decide) (by decide) (by decide) (by decide) (by decide) (by decide) (by decide) (by decide) (by decide) (by decide) (by decide) (by decide) (by decide)
set_option maxRecDepth 8192 in
theorem val16_main_v146 (V0 : Valuation τ sig (Elt F)) : val16 V0 (no_index (Proc.devRef .tc main_v146)) = res_v146 V0 :=
  (w16_main_v146 (val15 V0)).trans (by simp only [val15_main_v127, val15_main_v130, val15_main_v131, val15_main_arg19, val15_main_arg20] <;> rfl)
set_option maxRecDepth 8192 in
theorem val17_main_v147 (V0 : Valuation τ sig (Elt F)) : val17 V0 (no_index (Proc.devRef .tc main_v147)) = res_v147 V0 :=
  (w17_main_v147 (val16 V0)).trans (by simp only [val16_main_v146] <;> rfl)

/-- The whole list's effect is the last of those contents. -/
theorem after_ops (V0 : Valuation τ sig (Elt F)) : after ops V0 = val17 V0 := by
  simp only [ops, after_append]
  rfl

theorem res_v10_eq (V0 : Valuation τ sig (Elt F)) : after ops V0 (Proc.devRef .tc main_v10) = res_v10 V0 := by
  rw [after_ops]
  exact (keepFrom1 V0 main_v10 (by decide) (by decide) (by decide) (by decide) (by decide) (by decide) (by decide) (by decide) (by decide) (by decide) (by decide) (by decide) (by decide) (by decide) (by decide) (by decide)).trans (val1_main_v10 V0)
theorem res_v13_eq (V0 : Valuation τ sig (Elt F)) : after ops V0 (Proc.devRef .tc main_v13) = res_v13 V0 := by
  rw [after_ops]
  exact (keepFrom2 V0 main_v13 (by decide) (by decide) (by decide) (by decide) (by decide) (by decide) (by decide) (by decide) (by decide) (by decide) (by decide) (by decide) (by decide) (by decide) (by decide)).trans (val2_main_v13 V0)
theorem res_v14_eq (V0 : Valuation τ sig (Elt F)) : after ops V0 (Proc.devRef .tc main_v14) = res_v14 V0 := by
  rw [after_ops]
  exact (keepFrom2 V0 main_v14 (by decide) (by decide) (by decide) (by decide) (by decide) (by decide) (by decide) (by decide) (by decide) (by decide) (by decide) (by decide) (by decide) (by decide) (by decide)).trans (val2_main_v14 V0)
theorem res_v30_eq (V0 : Valuation τ sig (Elt F)) : after ops V0 (Proc.devRef .tc main_v30) = res_v30 V0 := by
  rw [after_ops]
  exact (keepFrom3 V0 main_v30 (by decide) (by decide) (by decide) (by decide) (by decide) (by decide) (by decide) (by decide) (by decide) (by decide) (by decide) (by decide) (by decide) (by decide)).trans (val3_main_v30 V0)
theorem res_v33_eq (V0 : Valuation τ sig (Elt F)) : after ops V0 (Proc.devRef .tc main_v33) = res_v33 V0 := by
  rw [after_ops]
  exact (keepFrom4 V0 main_v33 (by decide) (by decide) (by decide) (by decide) (by decide) (by decide) (by decide) (by decide) (by decide) (by decide) (by decide) (by decide) (by decide)).trans (val4_main_v33 V0)
theorem res_v41_eq (V0 : Valuation τ sig (Elt F)) : after ops V0 (Proc.devRef .tc main_v41) = res_v41 V0 := by
  rw [after_ops]
  exact (keepFrom4 V0 main_v41 (by decide) (by decide) (by decide) (by decide) (by decide) (by decide) (by decide) (by decide) (by decide) (by decide) (by decide) (by decide) (by decide)).trans (val4_main_v41 V0)
theorem res_v44_eq (V0 : Valuation τ sig (Elt F)) : after ops V0 (Proc.devRef .tc main_v44) = res_v44 V0 := by
  rw [after_ops]
  exact (keepFrom5 V0 main_v44 (by decide) (by decide) (by decide) (by decide) (by decide) (by decide) (by decide) (by decide) (by decide) (by decide) (by decide) (by decide)).trans (val5_main_v44 V0)
theorem res_v45_eq (V0 : Valuation τ sig (Elt F)) : after ops V0 (Proc.devRef .tc main_v45) = res_v45 V0 := by
  rw [after_ops]
  exact (keepFrom5 V0 main_v45 (by decide) (by decide) (by decide) (by decide) (by decide) (by decide) (by decide) (by decide) (by decide) (by decide) (by decide) (by decide)).trans (val5_main_v45 V0)
theorem res_v61_eq (V0 : Valuation τ sig (Elt F)) : after ops V0 (Proc.devRef .tc main_v61) = res_v61 V0 := by
  rw [after_ops]
  exact (keepFrom6 V0 main_v61 (by decide) (by decide) (by decide) (by decide) (by decide) (by decide) (by decide) (by decide) (by decide) (by decide) (by decide)).trans (val6_main_v61 V0)
theorem res_v64_eq (V0 : Valuation τ sig (Elt F)) : after ops V0 (Proc.devRef .tc main_v64) = res_v64 V0 := by
  rw [after_ops]
  exact (keepFrom7 V0 main_v64 (by decide) (by decide) (by decide) (by decide) (by decide) (by decide) (by decide) (by decide) (by decide) (by decide)).trans (val7_main_v64 V0)
theorem res_v72_eq (V0 : Valuation τ sig (Elt F)) : after ops V0 (Proc.devRef .tc main_v72) = res_v72 V0 := by
  rw [after_ops]
  exact (keepFrom7 V0 main_v72 (by decide) (by decide) (by decide) (by decide) (by decide) (by decide) (by decide) (by decide) (by decide) (by decide)).trans (val7_main_v72 V0)
theorem res_v75_eq (V0 : Valuation τ sig (Elt F)) : after ops V0 (Proc.devRef .tc main_v75) = res_v75 V0 := by
  rw [after_ops]
  exact (keepFrom8 V0 main_v75 (by decide) (by decide) (by decide) (by decide) (by decide) (by decide) (by decide) (by decide) (by decide)).trans (val8_main_v75 V0)
theorem res_v76_eq (V0 : Valuation τ sig (Elt F)) : after ops V0 (Proc.devRef .tc main_v76) = res_v76 V0 := by
  rw [after_ops]
  exact (keepFrom8 V0 main_v76 (by decide) (by decide) (by decide) (by decide) (by decide) (by decide) (by decide) (by decide) (by decide)).trans (val8_main_v76 V0)
theorem res_v92_eq (V0 : Valuation τ sig (Elt F)) : after ops V0 (Proc.devRef .tc main_v92) = res_v92 V0 := by
  rw [after_ops]
  exact (keepFrom9 V0 main_v92 (by decide) (by decide) (by decide) (by decide) (by decide) (by decide) (by decide) (by decide)).trans (val9_main_v92 V0)
theorem res_v95_eq (V0 : Valuation τ sig (Elt F)) : after ops V0 (Proc.devRef .tc main_v95) = res_v95 V0 := by
  rw [after_ops]
  exact (keepFrom10 V0 main_v95 (by decide) (by decide) (by decide) (by decide) (by decide) (by decide) (by decide)).trans (val10_main_v95 V0)
theorem res_v103_eq (V0 : Valuation τ sig (Elt F)) : after ops V0 (Proc.devRef .tc main_v103) = res_v103 V0 := by
  rw [after_ops]
  exact (keepFrom11 V0 main_v103 (by decide) (by decide) (by decide) (by decide) (by decide) (by decide)).trans (val11_main_v103 V0)
theorem res_v104_eq (V0 : Valuation τ sig (Elt F)) : after ops V0 (Proc.devRef .tc main_v104) = res_v104 V0 := by
  rw [after_ops]
  exact (keepFrom11 V0 main_v104 (by decide) (by decide) (by decide) (by decide) (by decide) (by decide)).trans (val11_main_v104 V0)
theorem res_v107_eq (V0 : Valuation τ sig (Elt F)) : after ops V0 (Proc.devRef .tc main_v107) = res_v107 V0 := by
  rw [after_ops]
  exact (keepFrom12 V0 main_v107 (by decide) (by decide) (by decide) (by decide) (by decide)).trans (val12_main_v107 V0)
theorem res_v115_eq (V0 : Valuation τ sig (Elt F)) : after ops V0 (Proc.devRef .tc main_v115) = res_v115 V0 := by
  rw [after_ops]
  exact (keepFrom12 V0 main_v115 (by decide) (by decide) (by decide) (by decide) (by decide)).trans (val12_main_v115 V0)
theorem res_v116_eq (V0 : Valuation τ sig (Elt F)) : after ops V0 (Proc.devRef .tc main_v116) = res_v116 V0 := by
  rw [after_ops]
  exact (keepFrom13 V0 main_v116 (by decide) (by decide) (by decide) (by decide)).trans (val13_main_v116 V0)
theorem res_v119_eq (V0 : Valuation τ sig (Elt F)) : after ops V0 (Proc.devRef .tc main_v119) = res_v119 V0 := by
  rw [after_ops]
  exact (keepFrom13 V0 main_v119 (by decide) (by decide) (by decide) (by decide)).trans (val13_main_v119 V0)
theorem res_v127_eq (V0 : Valuation τ sig (Elt F)) : after ops V0 (Proc.devRef .tc main_v127) = res_v127 V0 := by
  rw [after_ops]
  exact (keepFrom14 V0 main_v127 (by decide) (by decide) (by decide)).trans (val14_main_v127 V0)
theorem res_v130_eq (V0 : Valuation τ sig (Elt F)) : after ops V0 (Proc.devRef .tc main_v130) = res_v130 V0 := by
  rw [after_ops]
  exact (keepFrom15 V0 main_v130 (by decide) (by decide)).trans (val15_main_v130 V0)
theorem res_v131_eq (V0 : Valuation τ sig (Elt F)) : after ops V0 (Proc.devRef .tc main_v131) = res_v131 V0 := by
  rw [after_ops]
  exact (keepFrom15 V0 main_v131 (by decide) (by decide)).trans (val15_main_v131 V0)
theorem res_v146_eq (V0 : Valuation τ sig (Elt F)) : after ops V0 (Proc.devRef .tc main_v146) = res_v146 V0 := by
  rw [after_ops]
  exact (keepFrom16 V0 main_v146 (by decide)).trans (val16_main_v146 V0)
theorem res_v147_eq (V0 : Valuation τ sig (Elt F)) : after ops V0 (Proc.devRef .tc main_v147) = res_v147 V0 := by
  rw [after_ops]
  exact val17_main_v147 V0

theorem main_arg0_eq (V0 : Valuation τ sig (Elt F)) : after ops V0 (Proc.devRef .tc main_arg0) = V0 (Proc.devRef .tc main_arg0) := by
  rw [after_ops]
  exact keepTo17 V0 main_arg0 (by decide) (by decide) (by decide) (by decide) (by decide) (by decide) (by decide) (by decide) (by decide) (by decide) (by decide) (by decide) (by decide) (by decide) (by decide) (by decide) (by decide)
theorem main_arg1_eq (V0 : Valuation τ sig (Elt F)) : after ops V0 (Proc.devRef .tc main_arg1) = V0 (Proc.devRef .tc main_arg1) := by
  rw [after_ops]
  exact keepTo17 V0 main_arg1 (by decide) (by decide) (by decide) (by decide) (by decide) (by decide) (by decide) (by decide) (by decide) (by decide) (by decide) (by decide) (by decide) (by decide) (by decide) (by decide) (by decide)
theorem main_arg2_eq (V0 : Valuation τ sig (Elt F)) : after ops V0 (Proc.devRef .tc main_arg2) = V0 (Proc.devRef .tc main_arg2) := by
  rw [after_ops]
  exact keepTo17 V0 main_arg2 (by decide) (by decide) (by decide) (by decide) (by decide) (by decide) (by decide) (by decide) (by decide) (by decide) (by decide) (by decide) (by decide) (by decide) (by decide) (by decide) (by decide)
theorem main_arg3_eq (V0 : Valuation τ sig (Elt F)) : after ops V0 (Proc.devRef .tc main_arg3) = V0 (Proc.devRef .tc main_arg3) := by
  rw [after_ops]
  exact keepTo17 V0 main_arg3 (by decide) (by decide) (by decide) (by decide) (by decide) (by decide) (by decide) (by decide) (by decide) (by decide) (by decide) (by decide) (by decide) (by decide) (by decide) (by decide) (by decide)
theorem main_arg4_eq (V0 : Valuation τ sig (Elt F)) : after ops V0 (Proc.devRef .tc main_arg4) = V0 (Proc.devRef .tc main_arg4) := by
  rw [after_ops]
  exact keepTo17 V0 main_arg4 (by decide) (by decide) (by decide) (by decide) (by decide) (by decide) (by decide) (by decide) (by decide) (by decide) (by decide) (by decide) (by decide) (by decide) (by decide) (by decide) (by decide)
theorem main_arg5_eq (V0 : Valuation τ sig (Elt F)) : after ops V0 (Proc.devRef .tc main_arg5) = V0 (Proc.devRef .tc main_arg5) := by
  rw [after_ops]
  exact keepTo17 V0 main_arg5 (by decide) (by decide) (by decide) (by decide) (by decide) (by decide) (by decide) (by decide) (by decide) (by decide) (by decide) (by decide) (by decide) (by decide) (by decide) (by decide) (by decide)
theorem main_arg6_eq (V0 : Valuation τ sig (Elt F)) : after ops V0 (Proc.devRef .tc main_arg6) = V0 (Proc.devRef .tc main_arg6) := by
  rw [after_ops]
  exact keepTo17 V0 main_arg6 (by decide) (by decide) (by decide) (by decide) (by decide) (by decide) (by decide) (by decide) (by decide) (by decide) (by decide) (by decide) (by decide) (by decide) (by decide) (by decide) (by decide)
theorem main_arg7_eq (V0 : Valuation τ sig (Elt F)) : after ops V0 (Proc.devRef .tc main_arg7) = V0 (Proc.devRef .tc main_arg7) := by
  rw [after_ops]
  exact keepTo17 V0 main_arg7 (by decide) (by decide) (by decide) (by decide) (by decide) (by decide) (by decide) (by decide) (by decide) (by decide) (by decide) (by decide) (by decide) (by decide) (by decide) (by decide) (by decide)
theorem main_arg8_eq (V0 : Valuation τ sig (Elt F)) : after ops V0 (Proc.devRef .tc main_arg8) = V0 (Proc.devRef .tc main_arg8) := by
  rw [after_ops]
  exact keepTo17 V0 main_arg8 (by decide) (by decide) (by decide) (by decide) (by decide) (by decide) (by decide) (by decide) (by decide) (by decide) (by decide) (by decide) (by decide) (by decide) (by decide) (by decide) (by decide)
theorem main_arg9_eq (V0 : Valuation τ sig (Elt F)) : after ops V0 (Proc.devRef .tc main_arg9) = V0 (Proc.devRef .tc main_arg9) := by
  rw [after_ops]
  exact keepTo17 V0 main_arg9 (by decide) (by decide) (by decide) (by decide) (by decide) (by decide) (by decide) (by decide) (by decide) (by decide) (by decide) (by decide) (by decide) (by decide) (by decide) (by decide) (by decide)
theorem main_arg10_eq (V0 : Valuation τ sig (Elt F)) : after ops V0 (Proc.devRef .tc main_arg10) = V0 (Proc.devRef .tc main_arg10) := by
  rw [after_ops]
  exact keepTo17 V0 main_arg10 (by decide) (by decide) (by decide) (by decide) (by decide) (by decide) (by decide) (by decide) (by decide) (by decide) (by decide) (by decide) (by decide) (by decide) (by decide) (by decide) (by decide)
theorem main_arg11_eq (V0 : Valuation τ sig (Elt F)) : after ops V0 (Proc.devRef .tc main_arg11) = V0 (Proc.devRef .tc main_arg11) := by
  rw [after_ops]
  exact keepTo17 V0 main_arg11 (by decide) (by decide) (by decide) (by decide) (by decide) (by decide) (by decide) (by decide) (by decide) (by decide) (by decide) (by decide) (by decide) (by decide) (by decide) (by decide) (by decide)
theorem main_arg12_eq (V0 : Valuation τ sig (Elt F)) : after ops V0 (Proc.devRef .tc main_arg12) = V0 (Proc.devRef .tc main_arg12) := by
  rw [after_ops]
  exact keepTo17 V0 main_arg12 (by decide) (by decide) (by decide) (by decide) (by decide) (by decide) (by decide) (by decide) (by decide) (by decide) (by decide) (by decide) (by decide) (by decide) (by decide) (by decide) (by decide)
theorem main_arg13_eq (V0 : Valuation τ sig (Elt F)) : after ops V0 (Proc.devRef .tc main_arg13) = V0 (Proc.devRef .tc main_arg13) := by
  rw [after_ops]
  exact keepTo17 V0 main_arg13 (by decide) (by decide) (by decide) (by decide) (by decide) (by decide) (by decide) (by decide) (by decide) (by decide) (by decide) (by decide) (by decide) (by decide) (by decide) (by decide) (by decide)
theorem main_arg14_eq (V0 : Valuation τ sig (Elt F)) : after ops V0 (Proc.devRef .tc main_arg14) = V0 (Proc.devRef .tc main_arg14) := by
  rw [after_ops]
  exact keepTo17 V0 main_arg14 (by decide) (by decide) (by decide) (by decide) (by decide) (by decide) (by decide) (by decide) (by decide) (by decide) (by decide) (by decide) (by decide) (by decide) (by decide) (by decide) (by decide)
theorem main_arg15_eq (V0 : Valuation τ sig (Elt F)) : after ops V0 (Proc.devRef .tc main_arg15) = V0 (Proc.devRef .tc main_arg15) := by
  rw [after_ops]
  exact keepTo17 V0 main_arg15 (by decide) (by decide) (by decide) (by decide) (by decide) (by decide) (by decide) (by decide) (by decide) (by decide) (by decide) (by decide) (by decide) (by decide) (by decide) (by decide) (by decide)
theorem main_arg16_eq (V0 : Valuation τ sig (Elt F)) : after ops V0 (Proc.devRef .tc main_arg16) = V0 (Proc.devRef .tc main_arg16) := by
  rw [after_ops]
  exact keepTo17 V0 main_arg16 (by decide) (by decide) (by decide) (by decide) (by decide) (by decide) (by decide) (by decide) (by decide) (by decide) (by decide) (by decide) (by decide) (by decide) (by decide) (by decide) (by decide)
theorem main_arg17_eq (V0 : Valuation τ sig (Elt F)) : after ops V0 (Proc.devRef .tc main_arg17) = V0 (Proc.devRef .tc main_arg17) := by
  rw [after_ops]
  exact keepTo17 V0 main_arg17 (by decide) (by decide) (by decide) (by decide) (by decide) (by decide) (by decide) (by decide) (by decide) (by decide) (by decide) (by decide) (by decide) (by decide) (by decide) (by decide) (by decide)
theorem main_arg18_eq (V0 : Valuation τ sig (Elt F)) : after ops V0 (Proc.devRef .tc main_arg18) = V0 (Proc.devRef .tc main_arg18) := by
  rw [after_ops]
  exact keepTo17 V0 main_arg18 (by decide) (by decide) (by decide) (by decide) (by decide) (by decide) (by decide) (by decide) (by decide) (by decide) (by decide) (by decide) (by decide) (by decide) (by decide) (by decide) (by decide)
theorem main_arg19_eq (V0 : Valuation τ sig (Elt F)) : after ops V0 (Proc.devRef .tc main_arg19) = V0 (Proc.devRef .tc main_arg19) := by
  rw [after_ops]
  exact keepTo17 V0 main_arg19 (by decide) (by decide) (by decide) (by decide) (by decide) (by decide) (by decide) (by decide) (by decide) (by decide) (by decide) (by decide) (by decide) (by decide) (by decide) (by decide) (by decide)
theorem main_arg20_eq (V0 : Valuation τ sig (Elt F)) : after ops V0 (Proc.devRef .tc main_arg20) = V0 (Proc.devRef .tc main_arg20) := by
  rw [after_ops]
  exact keepTo17 V0 main_arg20 (by decide) (by decide) (by decide) (by decide) (by decide) (by decide) (by decide) (by decide) (by decide) (by decide) (by decide) (by decide) (by decide) (by decide) (by decide) (by decide) (by decide)

end Cert.ReferenceIdeal.RefRun

end
-- ==== Proof.RefRunMain.lean ====
/-
  The reference program IS its operation list run in order.  Each of the three printed windows of @main, with the
  outlined functions unfolded at their calls, is the straight line of its stretches (the two sides are the same
  chain of steps once sequencing is computed; the row-maximum reduction is kept folded meanwhile, its body being a
  fold over the operand's elements that the comparison never needs to open); @main runs the three windows in order, and a concatenation of lists
  runs as the lists in order.  Nothing in the signature is scoped.  Hence every weakly fair execution terminates
  with each TensorCore buffer at the fold of the operations' results over the launch contents.
-/
import proofs.«122919_j34694745817434_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretches of @main's window 0. -/
def opsP0 : List (HloOp τ sig (Elt F)) := opsW1 ++ (opsW2 ++ (opsW3 ++ (opsW4 ++ (opsW5))))

attribute [local irreducible] Host.reduce in
set_option maxRecDepth 16384 in
set_option maxHeartbeats 8000000 in
theorem main_part0_eq (c : Dev nD) : main_part0 (F := F) c = seq opsP0 := rfl

/-- The stretches of @main's window 1. -/
def opsP1 : List (HloOp τ sig (Elt F)) := opsW6 ++ (opsW7 ++ (opsW8 ++ (opsW9 ++ (opsW10))))

attribute [local irreducible] Host.reduce in
set_option maxRecDepth 16384 in
set_option maxHeartbeats 8000000 in
theorem main_part1_eq (c : Dev nD) : main_part1 (F := F) c = seq opsP1 := rfl

/-- The stretches of @main's window 2. -/
def opsP2 : List (HloOp τ sig (Elt F)) := opsW11 ++ (opsW12 ++ (opsW13 ++ (opsW14 ++ (opsW15 ++ (opsW16 ++ (opsW17))))))

attribute [local irreducible] Host.reduce in
set_option maxRecDepth 16384 in
set_option maxHeartbeats 8000000 in
theorem main_part2_eq (c : Dev nD) : main_part2 (F := F) c = seq opsP2 := rfl

theorem ops_eq : (ops : List (HloOp τ sig (Elt F))) = opsP0 ++ (opsP1 ++ opsP2) := by
  simp only [ops, opsP0, opsP1, opsP2, List.append_assoc]

theorem main_eq (c : Dev nD) : main (F := F) c = seq ops := by
  show (main_part0 c >>= fun _ => main_part1 c >>= fun _ => main_part2 c) = _
  rw [main_part0_eq c, main_part1_eq c, main_part2_eq c, ops_eq, seq_append, seq_append]

theorem scopedRefs_eq : (Finset.univ.filter fun b : Ref sig .tc => b.isScoped) = ∅ := by decide
set_option maxHeartbeats 4000000 in
theorem scopedSems_eq : (Finset.univ.filter fun sm : SemLoc sig => sm.isScoped .tc) = ∅ := by decide

set_option maxHeartbeats 4000000 in
/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRun.lean ====
/-
  The reference network's run, read back at the extended reals: every weakly fair execution terminates with the
  result buffer holding the last stage (the log-softmax of the last normalised layer) of the launch contents, and
  with every argument array unchanged.
-/
import proofs.«122919_j34694745817434_2_alg».proof.Proof.RefRunStages
import proofs.«122919_j34694745817434_2_alg».proof.Proof.RefRunMain
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = res_v147 (F := Ideal) (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  by
  have hrun := run (F := Ideal) m ρ
  refine (θ_run (defs (F := Ideal)) _ _).mono (fun r h c => ?_) hrun
  exact ⟨(h c main_v147).trans (res_v147_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _),
      (h c main_arg13).trans (main_arg13_eq _),
      (h c main_arg14).trans (main_arg14_eq _),
      (h c main_arg15).trans (main_arg15_eq _),
      (h c main_arg16).trans (main_arg16_eq _),
      (h c main_arg17).trans (main_arg17_eq _),
      (h c main_arg18).trans (main_arg18_eq _),
      (h c main_arg19).trans (main_arg19_eq _),
      (h c main_arg20).trans (main_arg20_eq _)⟩

end Cert.ReferenceIdeal.RefRun

end
-- ==== Proof.RefArgs.lean ====
/-
  The network's argument arrays as the reference program finds them.

  The reference reads its nineteen network arguments — the input, six weight matrices and biases, three pairs of
  scale and shift vectors — from the buffers it is launched with; read at literal coordinates they are the
  arguments of the network's layer functions.
-/
import proofs.«122919_j34694745817434_2_alg».proof.Proof.Gen.ReferenceIdeal
import proofs.«122919_j34694745817434_2_alg».proof.Proof.NetArgs
import proofs.«122919_j34694745817434_2_alg».proof.Proof.Rd
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

/-- The network's argument arrays as a valuation of the reference's buffers holds them. -/
def rArgs (V0 : Valuation τ sig (Elt Ideal)) : Cert.Net.Args where
  x := fun r k => Cert.Rd.r2 (A := 16384) (B := 3072) (φ := .f32) (V0 (Proc.devRef .tc main_arg0)) r k
  w0 := fun r k => Cert.Rd.r2 (A := 4096) (B := 3072) (φ := .f32) (V0 (Proc.devRef .tc main_arg1)) r k
  b0 := fun n => Cert.Rd.r1 (A := 4096) (φ := .f32) (V0 (Proc.devRef .tc main_arg2)) n
  w1 := fun r k => Cert.Rd.r2 (A := 4096) (B := 4096) (φ := .f32) (V0 (Proc.devRef .tc main_arg3)) r k
  b1 := fun n => Cert.Rd.r1 (A := 4096) (φ := .f32) (V0 (Proc.devRef .tc main_arg4)) n
  w2 := fun r k => Cert.Rd.r2 (A := 256) (B := 4096) (φ := .f32) (V0 (Proc.devRef .tc main_arg5)) r k
  b2 := fun n => Cert.Rd.r1 (A := 256) (φ := .f32) (V0 (Proc.devRef .tc main_arg6)) n
  w3 := fun r k => Cert.Rd.r2 (A := 16) (B := 256) (φ := .f32) (V0 (Proc.devRef .tc main_arg7)) r k
  b3 := fun n => Cert.Rd.r1 (A := 16) (φ := .f32) (V0 (Proc.devRef .tc main_arg8)) n
  w4 := fun r k => Cert.Rd.r2 (A := 16) (B := 16) (φ := .f32) (V0 (Proc.devRef .tc main_arg9)) r k
  b4 := fun n => Cert.Rd.r1 (A := 16) (φ := .f32) (V0 (Proc.devRef .tc main_arg10)) n
  w5 := fun r k => Cert.Rd.r2 (A := 10) (B := 16) (φ := .f32) (V0 (Proc.devRef .tc main_arg11)) r k
  b5 := fun n => Cert.Rd.r1 (A := 10) (φ := .f32) (V0 (Proc.devRef .tc main_arg12)) n
  g0 := fun n => Cert.Rd.r1 (A := 4096) (φ := .f32) (V0 (Proc.devRef .tc main_arg13)) n
  be0 := fun n => Cert.Rd.r1 (A := 4096) (φ := .f32) (V0 (Proc.devRef .tc main_arg14)) n
  g1 := fun n => Cert.Rd.r1 (A := 4096) (φ := .f32) (V0 (Proc.devRef .tc main_arg15)) n
  be1 := fun n => Cert.Rd.r1 (A := 4096) (φ := .f32) (V0 (Proc.devRef .tc main_arg16)) n
  g2 := fun n => Cert.Rd.r1 (A := 256) (φ := .f32) (V0 (Proc.devRef .tc main_arg17)) n
  be2 := fun n => Cert.Rd.r1 (A := 256) (φ := .f32) (V0 (Proc.devRef .tc main_arg18)) n

end Cert.ReferenceIdeal.RefRead

end
-- ==== Proof.Agree.lean ====
/-
  The two programs read the same arguments: when the reference's launch memory agrees with the kernel
  program's on the twenty-one argument arrays, the record of argument arrays the reference's network is read
  over is the record the kernel program's is read over.
-/
import proofs.«122919_j34694745817434_2_alg».proof.Proof.RefArgs
import proofs.«122919_j34694745817434_2_alg».proof.Proof.KNet0

noncomputable section

namespace Cert.Agree

open Idealize.ShloMosaic Idealize.ShloMosaic.TcCoe Idealize.SL.Sem Idealize.ShloMosaic.StableHlo

theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.RefRead.rArgs (launchContents m' c) = Cert.KernelIdeal.KNet.kArgs m c := by
  obtain ⟨h0, h1, h2, h3, h4, h5, h6, h7, h8, h9, h10, h11, h12, h13, h14, h15, h16, h17, h18, -, -⟩ := h
  unfold Cert.ReferenceIdeal.RefRead.rArgs Cert.KernelIdeal.KNet.kArgs
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  have e11 : launchContents m' c (Proc.devRef .tc Cert.ReferenceIdeal.main_arg11) = m ((c.tc : Thread Cert.KernelIdeal.nD Cert.KernelIdeal.τ).loc Cert.KernelIdeal.main_arg11) := h11
  have e12 : launchContents m' c (Proc.devRef .tc Cert.ReferenceIdeal.main_arg12) = m ((c.tc : Thread Cert.KernelIdeal.nD Cert.KernelIdeal.τ).loc Cert.KernelIdeal.main_arg12) := h12
  have e13 : launchContents m' c (Proc.devRef .tc Cert.ReferenceIdeal.main_arg13) = m ((c.tc : Thread Cert.KernelIdeal.nD Cert.KernelIdeal.τ).loc Cert.KernelIdeal.main_arg13) := h13
  have e14 : launchContents m' c (Proc.devRef .tc Cert.ReferenceIdeal.main_arg14) = m ((c.tc : Thread Cert.KernelIdeal.nD Cert.KernelIdeal.τ).loc Cert.KernelIdeal.main_arg14) := h14
  have e15 : launchContents m' c (Proc.devRef .tc Cert.ReferenceIdeal.main_arg15) = m ((c.tc : Thread Cert.KernelIdeal.nD Cert.KernelIdeal.τ).loc Cert.KernelIdeal.main_arg15) := h15
  have e16 : launchContents m' c (Proc.devRef .tc Cert.ReferenceIdeal.main_arg16) = m ((c.tc : Thread Cert.KernelIdeal.nD Cert.KernelIdeal.τ).loc Cert.KernelIdeal.main_arg16) := h16
  have e17 : launchContents m' c (Proc.devRef .tc Cert.ReferenceIdeal.main_arg17) = m ((c.tc : Thread Cert.KernelIdeal.nD Cert.KernelIdeal.τ).loc Cert.KernelIdeal.main_arg17) := h17
  have e18 : launchContents m' c (Proc.devRef .tc Cert.ReferenceIdeal.main_arg18) = m ((c.tc : Thread Cert.KernelIdeal.nD Cert.KernelIdeal.τ).loc Cert.KernelIdeal.main_arg18) := h18
  rw [e0, e1, e2, e3, e4, e5, e6, e7, e8, e9, e10, e11, e12, e13, e14, e15, e16, e17, e18]

end Cert.Agree

end
-- ==== Proof.HostForms.lean ====
/-
  Scalar facts about the plain host operations of the reference, read over the extended reals.

  The reference's variance divides by "count minus ddof" with ddof the integer 0 converted to a float: that is the
  count itself, 16384, which is positive, so the guard "count minus ddof > 0" holds and the guarded value is the
  quotient, never the fallback.  A sum reduction starts from the pattern of zero, which adds nothing; a maximum
  reduction starts from the pattern of minus infinity, which is below everything.  A square is the product of a
  value with itself.  Put together, the variance as the host spells it,
      (0 + ∑ (xᵢ - (0 + ∑ xⱼ)/R) · (xᵢ - (0 + ∑ xⱼ)/R)) / (R - 0),
  is the mean of squared deviations from the mean.
-/
import proofs.«122919_j34694745817434_2_alg».proof.Proof.Net
import proofs.«122919_j34694745817434_2_alg».proof.Proof.NetLaws
import Idealize.ShloMosaic.PureOps.Ideal.Laws

open scoped BigOperators

noncomputable section

namespace Cert.HostForms

open Idealize.ShloMosaic Cert.Net Cert.LibReal

/-- The 32-bit integer zero converted to a float is zero. -/
theorem sitofp_zero : ((((0#32 : BitVec 32).toInt : ℤ) : ℝ) : EReal) = 0 := by
  rw [BitVec.toInt_zero, Int.cast_zero, EReal.coe_zero]

/-- The count minus the converted integer zero is the count. -/
theorem cnt_sub_ddof : cnt - ((((0#32 : BitVec 32).toInt : ℤ) : ℝ) : EReal) = cnt := by
  rw [sitofp_zero, sub_zero]

/-- The same for any 32-bit word that is zero. -/
theorem cnt_sub_ddof_of_eq (z : BitVec 32) (hz : z = 0#32) : cnt - (((z.toInt : ℤ) : ℝ) : EReal) = cnt := by
  subst hz; exact cnt_sub_ddof

/-- The count is above zero: the guard of the reference's variance holds. -/
theorem cmp_cnt_gt_zero : Ideal.cmp .ogt cnt zero = 1#1 := by
  have h : zero < cnt := by
    rw [cnt_eq, zero_eq, ← EReal.coe_zero]
    exact EReal.coe_lt_coe_iff.mpr (by norm_num)
  show BitVec.ofBool (decide (zero < cnt)) = 1#1
  rw [decide_eq_true h]; rfl

/-- The guard as the reference spells it, with the converted integer zero subtracted from the count. -/
theorem cmp_cnt_sub_ddof_gt_zero :
    Ideal.cmp .ogt (cnt - ((((0#32 : BitVec 32).toInt : ℤ) : ℝ) : EReal)) zero = 1#1 := by
  rw [cnt_sub_ddof]; exact cmp_cnt_gt_zero

/-- A sum reduction's initial value, the pattern of zero, adds nothing. -/
theorem zero_add_eq (s : EReal) : zero + s = s := by rw [zero_eq, zero_add]

/-- The 32-bit pattern 0xFF800000 denotes minus infinity. -/
theorem ofBits_negInf : Ideal.ofBits .f32 0xFF800000#32 = ⊥ := by
  simp [Ideal.ofBits, Ideal.ieee]

/-- A maximum reduction's initial value, the pattern of minus infinity, is below everything. -/
theorem max_negInf (y : EReal) : max (Ideal.ofBits .f32 0xFF800000#32) y = y := by
  rw [ofBits_negInf]; exact max_bot_left y

/-- The 32-bit pattern 0x7FC00000 (the fallback of the guarded variance) is never needed; as an extended real it
    denotes minus infinity, the junk value. -/
theorem ofBits_nan : Ideal.ofBits .f32 0x7FC00000#32 = ⊥ := by
  simp [Ideal.ofBits, Ideal.ieee]

variable {N : ℕ}

/-- The mean as the host spells it: the sum from the zero pattern, divided by the count. -/
theorem host_mean_eq (h : Fin 16384 → Fin N → EReal) (n : Fin N) :
    Ideal.div (zero + ∑ r, h r n) cnt = mean h n := by
  rw [zero_add_eq]; rfl

/-- The variance as the host spells it is the mean of squared deviations from the mean. -/
theorem host_var_eq (h : Fin 16384 → Fin N → EReal) (n : Fin N) :
    Ideal.div
        (zero + ∑ r, (h r n - Ideal.div (zero + ∑ r', h r' n) cnt) * (h r n - Ideal.div (zero + ∑ r', h r' n) cnt))
        (cnt - ((((0#32 : BitVec 32).toInt : ℤ) : ℝ) : EReal))
      = var h n := by
  rw [cnt_sub_ddof, zero_add_eq, zero_add_eq]; rfl

end Cert.HostForms

end
-- ==== Proof.HostRead.lean ====
/-
  The plain host operations of the reference, read at an index over the extended reals.

  A sum along the rows of a matrix from an initial scalar is, at column q, that scalar plus the sum over the rows.
  From it: the column mean as the host spells it (the sum from zero, divided by the count 16384); the column
  variance as the host spells it (guarded by "count − 0 > 0", which holds, so the guarded value is the mean of
  squared deviations from that mean); the normalised, scaled, shifted and clamped value; the value plus (its sign
  minus the value); and a product with transposed "value plus (sign minus value)" weights plus a bias row, which at
  (r, n) is the sum over k of the left entry (r, k) times that expression of the weight (n, k), plus the bias n.
-/
import proofs.«122919_j34694745817434_2_alg».proof.Proof.Net
import proofs.«122919_j34694745817434_2_alg».proof.Proof.HostForms
import proofs.«122919_j34694745817434_2_alg».proof.Proof.LibBiasRow
import proofs.«122919_j34694745817434_2_alg».proof.Proof.LibDotSums
import proofs.«122919_j34694745817434_2_alg».proof.Proof.LibColumnSums
import Idealize.ShloMosaic.Lib.ValueIdx
import Idealize.ShloMosaic.Lib.ValueLayout
import Idealize.ShloMosaic.Lib.IdealHost
import Idealize.ShloMosaic.PureOps.Ideal.Laws

open scoped BigOperators

noncomputable section

namespace Cert.HostRead

open Idealize.ShloMosaic Idealize.ShloMosaic.ValueIdx Cert.Net

variable {a b : ℕ}

/-- A sum along the rows from an initial scalar, at column q. -/
theorem colSum_apply (x : FVec Ideal ⟨2, ![a, b]⟩ .f32) (init : FVec Ideal ⟨0, ![]⟩ .f32)
    (h' : (⟨2, ![a, b]⟩ : Shape).ReducesTo [0] ⟨1, ![b]⟩) (hu : 0 < (⟨0, ![]⟩ : Shape).numel)
    (h : (⟨2, ![a, b]⟩ : Shape).Reduces [0] ⟨1, ![b]⟩) (q : Fin b) :
    Host.reduceAdd x init h' hu (ix1 q) = init ix0 + ∑ p : Fin a, x (ix2 p q) := by
  refine (hostReduceAdd_apply x init h' hu (ix1 q)).trans ?_
  refine (Ideal.hostReduceAdd_single h' h x _ (ix1 q)).trans ?_
  exact congrArg₂ (· + ·) (congrArg init (eq_ix0 _))
    (Finset.sum_congr rfl fun p _ => congrArg x (Cert.LibColumnSums.lift_ix1 h q p))

/-- A vector placed as a row and repeated down the rows, at (p, q), is its entry q. -/
theorem rowDown_apply (v : FVec Ideal ⟨1, ![b]⟩ .f32) (hr : (⟨1, ![b]⟩ : Shape).BroadcastsInDim ⟨2, ![1, b]⟩ ![1])
    (hd : (⟨2, ![1, b]⟩ : Shape).BroadcastsInDim ⟨2, ![a, b]⟩ ![0, 1]) (p : Fin a) (q : Fin b) :
    broadcastInDim ⟨2, ![a, b]⟩ ![0, 1] hd (broadcastInDim ⟨2, ![1, b]⟩ ![1] hr v) (ix2 p q) = v (ix1 q) :=
  (Cert.BiasRow.down_apply _ hd p q).trans (Cert.BiasRow.row_apply v hr (0 : Fin 1) q)

/-- The column mean as the host spells it. -/
theorem mean_apply (x : FVec Ideal ⟨2, ![16384, b]⟩ .f32)
    (h' : (⟨2, ![16384, b]⟩ : Shape).ReducesTo [0] ⟨1, ![b]⟩) (hu : 0 < (⟨0, ![]⟩ : Shape).numel)
    (h : (⟨2, ![16384, b]⟩ : Shape).Reduces [0] ⟨1, ![b]⟩)
    (hb : (⟨0, ![]⟩ : Shape).BroadcastsInDim ⟨1, ![b]⟩ ![]) (q : Fin b) :
    Host.divf (Host.reduceAdd x (constant (F := Ideal) (⟨0, ![]⟩ : Shape) .f32 0x00000000#32) h' hu)
        (broadcastInDim ⟨1, ![b]⟩ ![] hb (constant (F := Ideal) (⟨0, ![]⟩ : Shape) .f32 0x46800000#32)) (ix1 q)
      = mean (fun r n => x (ix2 r n)) q := by
  rw [hostDivf_apply, colSum_apply x _ h' hu h q, broadcastInDim_scalar_apply, constant_apply, constant_apply]
  exact Cert.HostForms.host_mean_eq (fun r n => x (ix2 r n)) q

/-- The deviation from the host's column mean, at (r, q). -/
theorem dev_apply (x : FVec Ideal ⟨2, ![16384, b]⟩ .f32)
    (h' : (⟨2, ![16384, b]⟩ : Shape).ReducesTo [0] ⟨1, ![b]⟩) (hu : 0 < (⟨0, ![]⟩ : Shape).numel)
    (h : (⟨2, ![16384, b]⟩ : Shape).Reduces [0] ⟨1, ![b]⟩)
    (hr : (⟨1, ![b]⟩ : Shape).BroadcastsInDim ⟨2, ![1, b]⟩ ![1])
    (hd : (⟨2, ![1, b]⟩ : Shape).BroadcastsInDim ⟨2, ![16384, b]⟩ ![0, 1])
    (hb1 : (⟨0, ![]⟩ : Shape).BroadcastsInDim ⟨2, ![1, b]⟩ ![]) (r : Fin 16384) (q : Fin b) :
    subf x (broadcastInDim ⟨2, ![16384, b]⟩ ![0, 1] hd
        (Host.divf (broadcastInDim ⟨2, ![1, b]⟩ ![1] hr (Host.reduceAdd x (constant (F := Ideal) (⟨0, ![]⟩ : Shape) .f32 0x00000000#32) h' hu))
          (broadcastInDim ⟨2, ![1, b]⟩ ![] hb1 (constant (F := Ideal) (⟨0, ![]⟩ : Shape) .f32 0x46800000#32)))) (ix2 r q)
      = x (ix2 r q) - Ideal.div (zero + ∑ r' : Fin 16384, x (ix2 r' q)) cnt := by
  rw [subf_apply, Cert.BiasRow.down_apply _ hd r q, hostDivf_apply, Cert.BiasRow.row_apply _ hr (0 : Fin 1) q,
    colSum_apply x _ h' hu h q, broadcastInDim_scalar_apply, constant_apply, constant_apply]

/-- The column variance as the host spells it: guarded by "count − 0 > 0", the mean of squared deviations. -/
theorem var_apply (x : FVec Ideal ⟨2, ![16384, b]⟩ .f32)
    (h' : (⟨2, ![16384, b]⟩ : Shape).ReducesTo [0] ⟨1, ![b]⟩) (hu : 0 < (⟨0, ![]⟩ : Shape).numel)
    (h : (⟨2, ![16384, b]⟩ : Shape).Reduces [0] ⟨1, ![b]⟩)
    (hb : (⟨0, ![]⟩ : Shape).BroadcastsInDim ⟨1, ![b]⟩ ![])
    (hr : (⟨1, ![b]⟩ : Shape).BroadcastsInDim ⟨2, ![1, b]⟩ ![1])
    (hd : (⟨2, ![1, b]⟩ : Shape).BroadcastsInDim ⟨2, ![16384, b]⟩ ![0, 1])
    (hb1 : (⟨0, ![]⟩ : Shape).BroadcastsInDim ⟨2, ![1, b]⟩ ![]) (q : Fin b) :
    select (broadcastInDim ⟨1, ![b]⟩ ![] hb
          (cmpf .ogt (subf (constant (F := Ideal) (⟨0, ![]⟩ : Shape) .f32 0x46800000#32) (sitofp .f32 (constantI (⟨0, ![]⟩ : Shape) 32 0#32))) (constant (F := Ideal) (⟨0, ![]⟩ : Shape) .f32 0x00000000#32)))
        (Host.divf
          (Host.reduceAdd
            (mulf
              (subf x (broadcastInDim ⟨2, ![16384, b]⟩ ![0, 1] hd
                (Host.divf (broadcastInDim ⟨2, ![1, b]⟩ ![1] hr (Host.reduceAdd x (constant (F := Ideal) (⟨0, ![]⟩ : Shape) .f32 0x00000000#32) h' hu))
                  (broadcastInDim ⟨2, ![1, b]⟩ ![] hb1 (constant (F := Ideal) (⟨0, ![]⟩ : Shape) .f32 0x46800000#32)))))
              (subf x (broadcastInDim ⟨2, ![16384, b]⟩ ![0, 1] hd
                (Host.divf (broadcastInDim ⟨2, ![1, b]⟩ ![1] hr (Host.reduceAdd x (constant (F := Ideal) (⟨0, ![]⟩ : Shape) .f32 0x00000000#32) h' hu))
                  (broadcastInDim ⟨2, ![1, b]⟩ ![] hb1 (constant (F := Ideal) (⟨0, ![]⟩ : Shape) .f32 0x46800000#32))))))
            (constant (F := Ideal) (⟨0, ![]⟩ : Shape) .f32 0x00000000#32) h' hu)
          (broadcastInDim ⟨1, ![b]⟩ ![] hb (subf (constant (F := Ideal) (⟨0, ![]⟩ : Shape) .f32 0x46800000#32) (sitofp .f32 (constantI (⟨0, ![]⟩ : Shape) 32 0#32)))))
        (broadcastInDim ⟨1, ![b]⟩ ![] hb (id (constant (F := Ideal) (⟨0, ![]⟩ : Shape) .f32 0x7FC00000#32))) (ix1 q)
      = var (fun r n => x (ix2 r n)) q := by
  rw [select_apply, broadcastInDim_scalar_apply]
  have hg : cmpf (F := Ideal) .ogt (subf (constant (F := Ideal) (⟨0, ![]⟩ : Shape) .f32 0x46800000#32) (sitofp .f32 (constantI (⟨0, ![]⟩ : Shape) 32 0#32))) (constant (F := Ideal) (⟨0, ![]⟩ : Shape) .f32 0x00000000#32) ix0 = 1#1 :=
    Cert.HostForms.cmp_cnt_sub_ddof_gt_zero
  rw [hg, select_one, hostDivf_apply, colSum_apply _ _ h' hu h q, broadcastInDim_scalar_apply, constant_apply]
  have hs : ∀ r : Fin 16384,
      mulf
          (subf x (broadcastInDim ⟨2, ![16384, b]⟩ ![0, 1] hd
            (Host.divf (broadcastInDim ⟨2, ![1, b]⟩ ![1] hr (Host.reduceAdd x (constant (F := Ideal) (⟨0, ![]⟩ : Shape) .f32 0x00000000#32) h' hu))
              (broadcastInDim ⟨2, ![1, b]⟩ ![] hb1 (constant (F := Ideal) (⟨0, ![]⟩ : Shape) .f32 0x46800000#32)))))
          (subf x (broadcastInDim ⟨2, ![16384, b]⟩ ![0, 1] hd
            (Host.divf (broadcastInDim ⟨2, ![1, b]⟩ ![1] hr (Host.reduceAdd x (constant (F := Ideal) (⟨0, ![]⟩ : Shape) .f32 0x00000000#32) h' hu))
              (broadcastInDim ⟨2, ![1, b]⟩ ![] hb1 (constant (F := Ideal) (⟨0, ![]⟩ : Shape) .f32 0x46800000#32))))) (ix2 r q)
        = (x (ix2 r q) - Ideal.div (zero + ∑ r' : Fin 16384, x (ix2 r' q)) cnt)
          * (x (ix2 r q) - Ideal.div (zero + ∑ r' : Fin 16384, x (ix2 r' q)) cnt) := fun r => by
    rw [mulf_apply, dev_apply x h' hu h hr hd hb1 r q]
  rw [Finset.sum_congr rfl fun r _ => hs r]
  exact Cert.HostForms.host_var_eq (fun r n => x (ix2 r n)) q

/-- Normalise with given mean and variance rows, scale, shift, clamp to [-1, 1]: at (p, q). -/
theorem normClip_apply (x : FVec Ideal ⟨2, ![a, b]⟩ .f32) (mu v g be : FVec Ideal ⟨1, ![b]⟩ .f32)
    (hT : (⟨0, ![]⟩ : Shape).BroadcastsInDim ⟨2, ![a, b]⟩ ![])
    (hr : (⟨1, ![b]⟩ : Shape).BroadcastsInDim ⟨2, ![1, b]⟩ ![1])
    (hd : (⟨2, ![1, b]⟩ : Shape).BroadcastsInDim ⟨2, ![a, b]⟩ ![0, 1])
    (hb : (⟨0, ![]⟩ : Shape).BroadcastsInDim ⟨1, ![b]⟩ ![]) (p : Fin a) (q : Fin b) :
    minimumf (broadcastInDim ⟨2, ![a, b]⟩ ![] hT (id (constant (F := Ideal) (⟨0, ![]⟩ : Shape) .f32 0x3F800000#32)))
        (maximumf (broadcastInDim ⟨2, ![a, b]⟩ ![] hT (id (constant (F := Ideal) (⟨0, ![]⟩ : Shape) .f32 0xBF800000#32)))
          (addf
            (mulf
              (mulf (subf x (broadcastInDim ⟨2, ![a, b]⟩ ![0, 1] hd (broadcastInDim ⟨2, ![1, b]⟩ ![1] hr mu)))
                (broadcastInDim ⟨2, ![a, b]⟩ ![0, 1] hd (broadcastInDim ⟨2, ![1, b]⟩ ![1] hr
                  (Host.rsqrt (addf v (broadcastInDim ⟨1, ![b]⟩ ![] hb (constant (F := Ideal) (⟨0, ![]⟩ : Shape) .f32 0x3727C5AC#32)))))))
              (broadcastInDim ⟨2, ![a, b]⟩ ![0, 1] hd (broadcastInDim ⟨2, ![1, b]⟩ ![1] hr g)))
            (broadcastInDim ⟨2, ![a, b]⟩ ![0, 1] hd (broadcastInDim ⟨2, ![1, b]⟩ ![1] hr be)))) (ix2 p q)
      = clip (((x (ix2 p q) - mu (ix1 q)) * Ideal.rsqrt (v (ix1 q) + eps)) * g (ix1 q) + be (ix1 q)) := by
  rw [minimumf_apply, maximumf_apply, addf_apply, mulf_apply, mulf_apply, subf_apply, rowDown_apply mu hr hd p q,
    rowDown_apply _ hr hd p q, rowDown_apply g hr hd p q, rowDown_apply be hr hd p q, broadcastInDim_scalar_apply,
    broadcastInDim_scalar_apply]
  rfl

/-- A clamp to [-1, 1], at any index. -/
theorem clip_apply {T : Shape} (y : FVec Ideal T .f32) (hT : (⟨0, ![]⟩ : Shape).BroadcastsInDim T ![]) (j : T.Idx) :
    minimumf (broadcastInDim T ![] hT (id (constant (F := Ideal) (⟨0, ![]⟩ : Shape) .f32 0x3F800000#32)))
        (maximumf (broadcastInDim T ![] hT (id (constant (F := Ideal) (⟨0, ![]⟩ : Shape) .f32 0xBF800000#32))) y) j = clip (y j) := by
  rw [minimumf_apply, maximumf_apply, broadcastInDim_scalar_apply, broadcastInDim_scalar_apply]
  rfl

/-- "Value plus (sign minus value)", at any index. -/
theorem binarize_apply {T : Shape} (y : FVec Ideal T .f32) (j : T.Idx) :
    addf y (subf (Host.sign y) y) j = signR (y j) := rfl

/-- A product with the transposed binarized weights plus the bias row, at (r, n). -/
theorem lin_apply {A K N : ℕ} (d : DotDims ⟨2, ![A, K]⟩ ⟨2, ![K, N]⟩ ⟨2, ![A, N]⟩)
    (hlb : d.lhsBatch = []) (hln : d.lhsNonContracting = [0]) (hlc : d.lhsContracting = [1])
    (hrb : d.rhsBatch = []) (hrn : d.rhsNonContracting = [1]) (hrc : d.rhsContracting = [0])
    (hrk : d.contr.rank = 1) (hs : d.contr.size ⟨0, by omega⟩ = K)
    (act : FVec Ideal ⟨2, ![A, K]⟩ .f32) (w : FVec Ideal ⟨2, ![N, K]⟩ .f32) (bias : FVec Ideal ⟨1, ![N]⟩ .f32)
    (ht : (⟨2, ![N, K]⟩ : Shape).Transposes [1, 0] ⟨2, ![K, N]⟩)
    (hr : (⟨1, ![N]⟩ : Shape).BroadcastsInDim ⟨2, ![1, N]⟩ ![1])
    (hd : (⟨2, ![1, N]⟩ : Shape).BroadcastsInDim ⟨2, ![A, N]⟩ ![0, 1]) (r : Fin A) (n : Fin N) :
    addf (Host.dotGeneral d none act (transpose ⟨2, ![K, N]⟩ [1, 0] (addf w (subf (Host.sign w) w)) ht))
        (broadcastInDim ⟨2, ![A, N]⟩ ![0, 1] hd (broadcastInDim ⟨2, ![1, N]⟩ ![1] hr bias)) (ix2 r n)
      = (∑ k : Fin K, act (ix2 r k) * signR (w (ix2 n k))) + bias (ix1 n) := by
  rw [addf_apply, rowDown_apply bias hr hd r n]
  refine congrArg (fun s => s + bias (ix1 n)) ?_
  refine (Cert.DotSums.dotGeneral_ix2 d none .single hlb hln hlc hrb hrn hrc hrk hs act _ r n).trans ?_
  refine Finset.sum_congr rfl fun k _ => ?_
  rw [transpose_ix2_apply _ ht k n]
  rfl

end Cert.HostRead

end
-- ==== Proof.RefReadA1.lean ====
/-
  The reference's first two layers, read at an index.

  The reference binarizes the input and the first weights as "value plus (sign minus value)", which for real numbers
  is the sign; so its first product plus the bias row is the network's h0 entry by entry.  From there its column
  mean and variance arrays hold Net.mean h0 and Net.var h0, the clamped normalised array holds clip (bn h0 …), its
  binarization (of a clamped, hence real, value) holds Net.act h0 g0 be0, and the second product with the
  binarized second weights plus the bias is h1.
-/
import proofs.«122919_j34694745817434_2_alg».proof.Proof.RefArgs
import proofs.«122919_j34694745817434_2_alg».proof.Proof.RefRunStages
import proofs.«122919_j34694745817434_2_alg».proof.Proof.HostRead
import proofs.«122919_j34694745817434_2_alg».proof.Proof.NetLaws

open scoped BigOperators

noncomputable section

namespace Cert.ReferenceIdeal.RefRead

open Cert.ReferenceIdeal Cert.ReferenceIdeal.Gen Idealize.ShloMosaic Idealize.ShloMosaic.TcCoe Idealize.SL.Sem
open Idealize.ShloMosaic.StableHlo Idealize.ShloMosaic.ValueIdx Cert.Net Cert.LibReal Cert.Rd

variable (V0 : Valuation τ sig (Elt Ideal))
variable (hx : ∀ r k, IsReal ((rArgs V0).x r k)) (hw0 : ∀ n k, IsReal ((rArgs V0).w0 n k))
include hx hw0

/-- The first pre-activation. -/
theorem v10_at1 (r : Fin 16384) (n : Fin 4096) :
    r2 (A := 16384) (B := 4096) (φ := .f32) (RefRun.res_v10 (F := Ideal) V0) r n = (rArgs V0).h0 r n := by
  unfold RefRun.res_v10
  refine (Cert.HostRead.lin_apply dot_S16384x3072_S3072x4096_S16384x4096_1_0_0_1_n_n rfl rfl rfl rfl rfl rfl rfl rfl
    (addf (V0 (Proc.devRef .tc main_arg0)) (subf (Host.sign (V0 (Proc.devRef .tc main_arg0))) (V0 (Proc.devRef .tc main_arg0))))
    (V0 (Proc.devRef .tc main_arg1)) (V0 (Proc.devRef .tc main_arg2)) _ _ _ r n).trans ?_
  unfold Cert.Net.Args.h0 lin Cert.Net.Args.a0
  refine congrArg₂ (· + ·) (Finset.sum_congr rfl fun k _ => ?_) rfl
  show signR ((rArgs V0).x r k) * signR ((rArgs V0).w0 n k) = _
  rw [signR_eq (hx r k), signR_eq (hw0 n k)]

/-- The first pre-activation array, as a function of its coordinates, is h0. -/
theorem v10_fun1 : (fun (r : Fin 16384) (n : Fin 4096) => ((RefRun.res_v10 (F := Ideal) V0) : FVec Ideal S16384x4096 .f32) (ix2 r n)) = (rArgs V0).h0 :=
  funext fun r => funext fun n => v10_at1 V0 hx hw0 r n

/-- Its column means. -/
theorem v13_at1 (n : Fin 4096) : r1 (A := 4096) (φ := .f32) (RefRun.res_v13 (F := Ideal) V0) n = mean (rArgs V0).h0 n := by
  unfold RefRun.res_v13
  exact (Cert.HostRead.mean_apply (RefRun.res_v10 (F := Ideal) V0) _ _ (by decide) _ n).trans
    (congrArg (fun h => mean h n) (v10_fun1 V0 hx hw0))

/-- Its column variances. -/
theorem v14_at1 (n : Fin 4096) : r1 (A := 4096) (φ := .f32) (RefRun.res_v14 (F := Ideal) V0) n = var (rArgs V0).h0 n := by
  unfold RefRun.res_v14
  exact (Cert.HostRead.var_apply (RefRun.res_v10 (F := Ideal) V0) _ _ (by decide) _ _ _ _ n).trans
    (congrArg (fun h => var h n) (v10_fun1 V0 hx hw0))

/-- The clamped normalised values. -/
theorem v30_at1 (r : Fin 16384) (n : Fin 4096) :
    r2 (A := 16384) (B := 4096) (φ := .f32) (RefRun.res_v30 (F := Ideal) V0) r n
      = clip (bn (rArgs V0).h0 (mean (rArgs V0).h0) (var (rArgs V0).h0) (rArgs V0).g0 (rArgs V0).be0 r n) := by
  unfold RefRun.res_v30
  refine (Cert.HostRead.normClip_apply (RefRun.res_v10 (F := Ideal) V0) (RefRun.res_v13 (F := Ideal) V0) (RefRun.res_v14 (F := Ideal) V0) (V0 (Proc.devRef .tc main_arg13))
    (V0 (Proc.devRef .tc main_arg14)) _ _ _ _ r n).trans ?_
  have e1 := v10_at1 V0 hx hw0 r n
  have e2 := v13_at1 V0 hx hw0 n
  have e3 := v14_at1 V0 hx hw0 n
  unfold bn
  show clip (((r2 (A := 16384) (B := 4096) (φ := .f32) (RefRun.res_v10 (F := Ideal) V0) r n - r1 (A := 4096) (φ := .f32) (RefRun.res_v13 (F := Ideal) V0) n)
      * Ideal.rsqrt (r1 (A := 4096) (φ := .f32) (RefRun.res_v14 (F := Ideal) V0) n + eps)) * (rArgs V0).g0 n + (rArgs V0).be0 n) = _
  rw [e1, e2, e3]

/-- The binarized activations entering layer 1. -/
theorem v33_at1 (r : Fin 16384) (n : Fin 4096) :
    r2 (A := 16384) (B := 4096) (φ := .f32) (RefRun.res_v33 (F := Ideal) V0) r n = act (rArgs V0).h0 (rArgs V0).g0 (rArgs V0).be0 r n := by
  unfold RefRun.res_v33
  refine (Cert.HostRead.binarize_apply (RefRun.res_v30 (F := Ideal) V0) (ix2 r n)).trans ?_
  show signR (r2 (A := 16384) (B := 4096) (φ := .f32) (RefRun.res_v30 (F := Ideal) V0) r n) = _
  rw [v30_at1 V0 hx hw0 r n]
  exact signR_eq (isReal_clip _)

variable (hw1 : ∀ n k, IsReal ((rArgs V0).w1 n k))

include hw1 in
/-- The second pre-activation. -/
theorem res_v41_at1 (r : Fin 16384) (n : Fin 4096) :
    r2 (A := 16384) (B := 4096) (φ := .f32) (RefRun.res_v41 (F := Ideal) V0) r n = (rArgs V0).h1 r n := by
  unfold RefRun.res_v41
  refine (Cert.HostRead.lin_apply dot_S16384x4096_S4096x4096_S16384x4096_1_0_0_1_n_n rfl rfl rfl rfl rfl rfl rfl rfl
    (RefRun.res_v33 (F := Ideal) V0) (V0 (Proc.devRef .tc main_arg3)) (V0 (Proc.devRef .tc main_arg4)) _ _ _ r n).trans ?_
  unfold Cert.Net.Args.h1 lin
  refine congrArg₂ (· + ·) (Finset.sum_congr rfl fun k _ => ?_) rfl
  show r2 (A := 16384) (B := 4096) (φ := .f32) (RefRun.res_v33 (F := Ideal) V0) r k * signR ((rArgs V0).w1 n k) = _
  rw [v33_at1 V0 hx hw0 r k, signR_eq (hw1 n k)]

end Cert.ReferenceIdeal.RefRead

end
-- ==== Proof.RefReadForms.lean ====
/-
  The reference network's array operations, read at an entry over the extended reals.

  A binarized value is spelt  v + (sign v - v).  A linear layer contracts an activation array [A, K] with the
  transposed binarized weights [N, K] and adds the bias laid as a row and repeated down the rows: entry (r, n) is
  ∑ₖ a(r, k) · (w(n, k) + (sign w(n, k) - w(n, k))) + b(n).  A column sum of an [a, b] array from an initial scalar
  is that scalar plus the sum over the row coordinate.  The column mean divides the column sum by the count; the
  outlined variance function takes the mean of the squared deviations from that mean, guarded by "count minus
  ddof is positive", which holds, so the guarded value is kept.  The normalisation subtracts the mean, multiplies by
  the reciprocal square root of the variance plus the stabiliser, scales, shifts, and the clamp takes the minimum
  with 1 of the maximum with -1.
-/
import proofs.«122919_j34694745817434_2_alg».proof.Proof.Net
import proofs.«122919_j34694745817434_2_alg».proof.Proof.NetLaws
import proofs.«122919_j34694745817434_2_alg».proof.Proof.HostForms
import proofs.«122919_j34694745817434_2_alg».proof.Proof.Rd
import proofs.«122919_j34694745817434_2_alg».proof.Proof.LibBiasRow
import proofs.«122919_j34694745817434_2_alg».proof.Proof.LibDotSums
import proofs.«122919_j34694745817434_2_alg».proof.Proof.LibColumnSums
import Idealize.ShloMosaic.Lib.ValueLayout
import Idealize.ShloMosaic.Lib.ValueIdx
import Idealize.ShloMosaic.Lib.IdealHost
import Idealize.ShloMosaic.PureOps.Ideal.Laws

open scoped BigOperators

noncomputable section

namespace Cert.RefForms

open Idealize.ShloMosaic Idealize.ShloMosaic.ValueIdx Cert.Net Cert.HostForms

/-- The reciprocal square root of an array, entry by entry. -/
theorem hostRsqrt_apply {s : Shape} (x : FVec Ideal s .f32) (i : s.Idx) : Host.rsqrt x i = Ideal.rsqrt (x i) := rfl

/-- The sign of an array, entry by entry. -/
theorem hostSign_apply {s : Shape} (x : FVec Ideal s .f32) (i : s.Idx) : Host.sign x i = Ideal.sign (x i) := rfl

/-- The binarized array, entry by entry. -/
theorem binarize_apply {s : Shape} (X : FVec Ideal s .f32) (i : s.Idx) :
    addf X (subf (Host.sign X) X) i = signR (X i) := rfl

variable {A K N : ℕ}

/-- A linear layer on an activation array and binarized weights, at (r, n). -/
theorem lin_at (d : DotDims ⟨2, ![A, K]⟩ ⟨2, ![K, N]⟩ ⟨2, ![A, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (L : FVec Ideal ⟨2, ![A, K]⟩ .f32) (W : FVec Ideal ⟨2, ![N, K]⟩ .f32) (B : FVec Ideal ⟨1, ![N]⟩ .f32)
    (htr : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![A, N]⟩ ![0, 1]) (r : Fin A) (n : Fin N) :
    addf (Host.dotGeneral d none L (transpose ⟨2, ![K, N]⟩ [1, 0] (addf W (subf (Host.sign W) W)) htr))
        (broadcastInDim ⟨2, ![A, N]⟩ ![0, 1] hb2 (broadcastInDim ⟨2, ![1, N]⟩ ![1] hb1 B)) (ix2 r n)
      = (∑ k : Fin K, L (ix2 r k) * signR (W (ix2 n k))) + B (ix1 n) := by
  rw [addf_apply, Cert.BiasRow.down_apply, Cert.BiasRow.row_apply]
  show FloatOps.dotGeneral d none .single L _ (ix2 r n) + _ = _
  rw [Cert.DotSums.dotGeneral_ix2 d none .single hlb hln hlc hrb hrn hrc hr hs]
  have hk : ∀ k : Fin K, transpose ⟨2, ![K, N]⟩ [1, 0] (addf W (subf (Host.sign W) W)) htr (ix2 k n) = signR (W (ix2 n k)) :=
    fun k => (transpose_ix2_apply (addf W (subf (Host.sign W) W)) htr k n).trans rfl
  simp only [hk]

/-- A column sum from an initial scalar, at column q. -/
theorem colSum_apply {a b : ℕ} (X : FVec Ideal ⟨2, ![a, b]⟩ .f32) (init : (⟨0, ![]⟩ : Shape).Idx → Ideal .f32)
    (h' : (⟨2, ![a, b]⟩ : Shape).ReducesTo [0] ⟨1, ![b]⟩) (hu : 0 < (⟨0, ![]⟩ : Shape).numel)
    (h : (⟨2, ![a, b]⟩ : Shape).Reduces [0] ⟨1, ![b]⟩) (q : Fin b) :
    Host.reduceAdd X init h' hu (ix1 q) = init ix0 + ∑ p : Fin a, X (ix2 p q) :=
  (hostReduceAdd_apply X init h' hu (ix1 q)).trans <|
    (Ideal.hostReduceAdd_single h' h X _ (ix1 q)).trans <| by
      rw [eq_ix0 (Shape.Idx.first hu)]
      exact congrArg (init ix0 + ·) (Finset.sum_congr rfl fun p _ => congrArg X (Cert.LibColumnSums.lift_ix1 h q p))

/-- The column mean, at column n. -/
theorem mean_at (H : FVec Ideal ⟨2, ![16384, N]⟩ .f32)
    (h' : (⟨2, ![16384, N]⟩ : Shape).ReducesTo [0] ⟨1, ![N]⟩) (hu : 0 < (⟨0, ![]⟩ : Shape).numel)
    (h : (⟨2, ![16384, N]⟩ : Shape).Reduces [0] ⟨1, ![N]⟩)
    (hb : (⟨0, ![]⟩ : Shape).BroadcastsInDim ⟨1, ![N]⟩ ![]) (n : Fin N) :
    Host.divf (F := Ideal) (Host.reduceAdd (F := Ideal) H (constant (F := Ideal) ⟨0, ![]⟩ .f32 0x00000000#32) h' hu)
        (broadcastInDim ⟨1, ![N]⟩ ![] hb (constant (F := Ideal) ⟨0, ![]⟩ .f32 0x46800000#32)) (ix1 n)
      = mean (fun r n => H (ix2 r n)) n := by
  rw [hostDivf_apply, colSum_apply H _ h' hu h n, broadcastInDim_scalar_apply, constant_apply, constant_apply]
  exact host_mean_eq (fun r n => H (ix2 r n)) n

/-- The outlined variance function, at column n: the guard holds, so the guarded quotient is kept, and that
    quotient is the mean of the squared deviations from the column mean. -/
theorem var_at (H : FVec Ideal ⟨2, ![16384, N]⟩ .f32)
    (h' : (⟨2, ![16384, N]⟩ : Shape).ReducesTo [0] ⟨1, ![N]⟩) (hu : 0 < (⟨0, ![]⟩ : Shape).numel)
    (h : (⟨2, ![16384, N]⟩ : Shape).Reduces [0] ⟨1, ![N]⟩)
    (hbN : (⟨0, ![]⟩ : Shape).BroadcastsInDim ⟨1, ![N]⟩ ![]) (hb1N : (⟨0, ![]⟩ : Shape).BroadcastsInDim ⟨2, ![1, N]⟩ ![])
    (hrow : (⟨1, ![N]⟩ : Shape).BroadcastsInDim ⟨2, ![1, N]⟩ ![1])
    (hdown : (⟨2, ![1, N]⟩ : Shape).BroadcastsInDim ⟨2, ![16384, N]⟩ ![0, 1]) (n : Fin N) :
    select (broadcastInDim ⟨1, ![N]⟩ ![] hbN (cmpf .ogt (subf (constant (F := Ideal) ⟨0, ![]⟩ .f32 0x46800000#32) (sitofp .f32 (constantI ⟨0, ![]⟩ 32 0#32))) (constant (F := Ideal) ⟨0, ![]⟩ .f32 0x00000000#32)))
        (Host.divf (F := Ideal)
          (Host.reduceAdd (F := Ideal)
            (mulf
              (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32)))))
              (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32))))))
            (constant (F := Ideal) ⟨0, ![]⟩ .f32 0x00000000#32) h' hu)
          (broadcastInDim ⟨1, ![N]⟩ ![] hbN (subf (constant (F := Ideal) ⟨0, ![]⟩ .f32 0x46800000#32) (sitofp .f32 (constantI ⟨0, ![]⟩ 32 0#32)))))
        (broadcastInDim ⟨1, ![N]⟩ ![] hbN (id (constant (F := Ideal) ⟨0, ![]⟩ .f32 0x7FC00000#32))) (ix1 n)
      = var (fun r n => H (ix2 r n)) n := by
  have hc : broadcastInDim ⟨1, ![N]⟩ ![] hbN (cmpf .ogt (subf (constant (F := Ideal) ⟨0, ![]⟩ .f32 0x46800000#32) (sitofp .f32 (constantI ⟨0, ![]⟩ 32 0#32))) (constant (F := Ideal) ⟨0, ![]⟩ .f32 0x00000000#32)) (ix1 n) = 1#1 := by
    rw [broadcastInDim_scalar_apply]
    exact cmp_cnt_sub_ddof_gt_zero
  rw [select_apply, hc, select_one, hostDivf_apply, colSum_apply _ _ h' hu h n, broadcastInDim_scalar_apply, constant_apply]
  have hd : ∀ p : Fin 16384,
      mulf
        (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32)))))
        (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32)))))
        (ix2 p n)
      = (H (ix2 p n) - Ideal.div (zero + ∑ r' : Fin 16384, H (ix2 r' n)) cnt) * (H (ix2 p n) - Ideal.div (zero + ∑ r' : Fin 16384, H (ix2 r' n)) cnt) := by
    intro p
    rw [mulf_apply, subf_apply, Cert.BiasRow.down_apply, hostDivf_apply, Cert.BiasRow.row_apply, colSum_apply H _ h' hu h n,
      broadcastInDim_scalar_apply, constant_apply, constant_apply]
  have hsum : (∑ p : Fin 16384, mulf
        (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32)))))
        (subf H (broadcastInDim ⟨2, ![16384, N]⟩ ![0, 1] hdown (Host.divf (F := Ideal) (broadcastInDim ⟨2, ![1, N]⟩ ![1] hrow (Host.reduceAdd (F := Ideal) H (constant (F := Ideal) ⟨0, ![]⟩ .f32 0x00000000#32) h' hu)) (broadcastInDim ⟨2, ![1, N]⟩ ![] hb1N (constant (F := Ideal) ⟨0, ![]⟩ .f32 0x46800000#32)))))
        (ix2 p n))
      = ∑ p : Fin 16384, (H (ix2 p n) - Ideal.div (zero + ∑ r' : Fin 16384, H (ix2 r' n)) cnt) * (H (ix2 p n) - Ideal.div (zero + ∑ r' : Fin 16384, H (ix2 r' n)) cnt) :=
    Finset.sum_congr rfl fun p _ => hd p
  rw [hsum]
  exact host_var_eq (fun r n => H (ix2 r n)) n

/-- The normalisation with a given mean and variance, the scale and shift, and the clamp, at (r, n). -/
theorem clip_bn_at (H : FVec Ideal ⟨2, ![16384, N]⟩ .f32) (Mu V G Be : FVec Ideal ⟨1, ![N]⟩ .f32)
    (hb16 : (⟨0, ![]⟩ : Shape).BroadcastsInDim ⟨2, ![16384, N]⟩ ![]) (hbN : (⟨0, ![]⟩ : Shape).BroadcastsInDim ⟨1, ![N]⟩ ![])
    (hrow : (⟨1, ![N]⟩ : Shape).BroadcastsInDim ⟨2, ![1, N]⟩ ![1])
    (hdown : (⟨2, ![1, N]⟩ : Shape).BroadcastsInDim ⟨2, ![16384, N]⟩ ![0, 1]) (r : Fin 16384) (n : Fin N) :
    minimumf (broadcastInDim ⟨2, ![16384, N]⟩ ![] hb16 (id (constant (F := Ideal) ⟨0, ![]⟩ .f32 0x3F800000#32)))
        (maximumf (broadcastInDim ⟨2, ![16384, N]⟩ ![] hb16 (id (constant (F := Ideal) ⟨0, ![]⟩ .f32 0xBF800000#32)))
          (addf
            (mulf
              (mulf (subf H (broadcastInDim ⟨2, ![16384, N]⟩ ![0, 1] hdown (broadcastInDim ⟨2, ![1, N]⟩ ![1] hrow Mu)))
                (broadcastInDim ⟨2, ![16384, N]⟩ ![0, 1] hdown (broadcastInDim ⟨2, ![1, N]⟩ ![1] hrow
                  (Host.rsqrt (addf V (broadcastInDim ⟨1, ![N]⟩ ![] hbN (constant (F := Ideal) ⟨0, ![]⟩ .f32 0x3727C5AC#32)))))))
              (broadcastInDim ⟨2, ![16384, N]⟩ ![0, 1] hdown (broadcastInDim ⟨2, ![1, N]⟩ ![1] hrow G)))
            (broadcastInDim ⟨2, ![16384, N]⟩ ![0, 1] hdown (broadcastInDim ⟨2, ![1, N]⟩ ![1] hrow Be)))) (ix2 r n)
      = clip (bn (fun r n => H (ix2 r n)) (fun n => Mu (ix1 n)) (fun n => V (ix1 n)) (fun n => G (ix1 n)) (fun n => Be (ix1 n)) r n) := by
  rw [minimumf_apply, maximumf_apply, addf_apply, mulf_apply, mulf_apply, subf_apply]
  rw [Cert.BiasRow.down_apply, Cert.BiasRow.row_apply, Cert.BiasRow.down_apply, Cert.BiasRow.row_apply,
    Cert.BiasRow.down_apply, Cert.BiasRow.row_apply, Cert.BiasRow.down_apply, Cert.BiasRow.row_apply,
    hostRsqrt_apply, addf_apply, broadcastInDim_scalar_apply, broadcastInDim_scalar_apply, broadcastInDim_scalar_apply]
  rfl

end Cert.RefForms

end
-- ==== Proof.RefReadA.lean ====
/-
  The reference network's first layers, read at an entry in the network's own vocabulary.

  With the argument arrays read off the launch contents, and the input and the first two weight matrices real:
  the layer-0 pre-activation stage is h0 (the binarized input against the binarized weights plus the bias; a real
  value plus (its sign minus itself) is its sign); the next two stages are the column mean and the column variance of
  h0; the clamped stage is the clamp of the normalised, scaled and shifted h0; binarizing it gives the hidden
  activation (a clamped value is real); and the layer-1 pre-activation stage is h1.
-/
import proofs.«122919_j34694745817434_2_alg».proof.Proof.RefRunStages
import proofs.«122919_j34694745817434_2_alg».proof.Proof.RefArgs
import proofs.«122919_j34694745817434_2_alg».proof.Proof.RefReadForms
import proofs.«122919_j34694745817434_2_alg».proof.Proof.NetLaws
import Idealize.ShloMosaic.PureOps.Ideal

open scoped BigOperators

noncomputable section

namespace Cert.ReferenceIdeal.RefRead

open Cert.ReferenceIdeal Cert.ReferenceIdeal.Gen Cert.ReferenceIdeal.RefRun Idealize.ShloMosaic Idealize.ShloMosaic.ValueIdx
  Idealize.ShloMosaic.StableHlo Cert.Net Cert.Rd Cert.LibReal Cert.RefForms

variable (V0 : Valuation τ sig (Elt Ideal))

/-- The layer-0 pre-activation stage is h0. -/
theorem res_v10_at (hx : ∀ r k, IsReal ((rArgs V0).x r k)) (hw0 : ∀ n k, IsReal ((rArgs V0).w0 n k))
    (r : Fin 16384) (n : Fin 4096) :
    r2 (A := 16384) (B := 4096) (φ := .f32) (res_v10 (F := Ideal) V0) r n = (rArgs V0).h0 r n := by
  unfold res_v10
  refine (lin_at dot_S16384x3072_S3072x4096_S16384x4096_1_0_0_1_n_n rfl rfl rfl rfl rfl rfl rfl rfl
    (addf (V0 (Proc.devRef .tc main_arg0)) (subf (Host.sign (V0 (Proc.devRef .tc main_arg0))) (V0 (Proc.devRef .tc main_arg0)))) (V0 (Proc.devRef .tc main_arg1)) (V0 (Proc.devRef .tc main_arg2))
    transposes_S4096x3072_S3072x4096_1_0 bcast_S4096_S1x4096_1 bcast_S1x4096_S16384x4096_0_1 r n).trans ?_
  show (∑ k : Fin 3072, signR ((rArgs V0).x r k) * signR ((rArgs V0).w0 n k)) + (rArgs V0).b0 n
    = (∑ k : Fin 3072, Ideal.sign ((rArgs V0).x r k) * Ideal.sign ((rArgs V0).w0 n k)) + (rArgs V0).b0 n
  refine congrArg (· + (rArgs V0).b0 n) (Finset.sum_congr rfl fun k _ => ?_)
  rw [signR_eq (hx r k), signR_eq (hw0 n k)]

/-- The stage as a function of literal coordinates. -/
theorem res_v10_fun (hx : ∀ r k, IsReal ((rArgs V0).x r k)) (hw0 : ∀ n k, IsReal ((rArgs V0).w0 n k)) :
    (fun (r : Fin 16384) (n : Fin 4096) => (res_v10 (F := Ideal) V0 : FVec Ideal ⟨2, ![16384, 4096]⟩ .f32) (ix2 r n)) = (rArgs V0).h0 :=
  funext fun r => funext fun n => res_v10_at V0 hx hw0 r n

/-- The next stage is the column mean of h0. -/
theorem res_v13_at (hx : ∀ r k, IsReal ((rArgs V0).x r k)) (hw0 : ∀ n k, IsReal ((rArgs V0).w0 n k)) (n : Fin 4096) :
    r1 (A := 4096) (φ := .f32) (res_v13 (F := Ideal) V0) n = mean (rArgs V0).h0 n := by
  unfold res_v13
  refine (mean_at (res_v10 (F := Ideal) V0) reducesTo_S16384x4096_S4096_d0 h_S_ (by decide) bcast_S_S4096 n).trans ?_
  rw [res_v10_fun V0 hx hw0]

/-- The variance stage is the column variance of h0. -/
theorem res_v14_at (hx : ∀ r k, IsReal ((rArgs V0).x r k)) (hw0 : ∀ n k, IsReal ((rArgs V0).w0 n k)) (n : Fin 4096) :
    r1 (A := 4096) (φ := .f32) (res_v14 (F := Ideal) V0) n = var (rArgs V0).h0 n := by
  unfold res_v14
  refine (var_at (res_v10 (F := Ideal) V0) reducesTo_S16384x4096_S4096_d0 h_S_ (by decide) bcast_S_S4096 bcast_S_S1x4096
    bcast_S4096_S1x4096_1 bcast_S1x4096_S16384x4096_0_1 n).trans ?_
  rw [res_v10_fun V0 hx hw0]

/-- The clamped stage is the clamp of the normalised, scaled and shifted h0. -/
theorem res_v30_at (hx : ∀ r k, IsReal ((rArgs V0).x r k)) (hw0 : ∀ n k, IsReal ((rArgs V0).w0 n k))
    (r : Fin 16384) (n : Fin 4096) :
    r2 (A := 16384) (B := 4096) (φ := .f32) (res_v30 (F := Ideal) V0) r n
      = clip (bn (rArgs V0).h0 (mean (rArgs V0).h0) (var (rArgs V0).h0) (rArgs V0).g0 (rArgs V0).be0 r n) := by
  unfold res_v30
  refine (clip_bn_at (res_v10 (F := Ideal) V0) (res_v13 (F := Ideal) V0) (res_v14 (F := Ideal) V0) (V0 (Proc.devRef .tc main_arg13)) (V0 (Proc.devRef .tc main_arg14))
    bcast_S_S16384x4096 bcast_S_S4096 bcast_S4096_S1x4096_1 bcast_S1x4096_S16384x4096_0_1 r n).trans ?_
  have e13 : (fun n : Fin 4096 => (res_v13 (F := Ideal) V0 : FVec Ideal ⟨1, ![4096]⟩ .f32) (ix1 n)) = mean (rArgs V0).h0 :=
    funext fun n => res_v13_at V0 hx hw0 n
  have e14 : (fun n : Fin 4096 => (res_v14 (F := Ideal) V0 : FVec Ideal ⟨1, ![4096]⟩ .f32) (ix1 n)) = var (rArgs V0).h0 :=
    funext fun n => res_v14_at V0 hx hw0 n
  rw [res_v10_fun V0 hx hw0, e13, e14]
  rfl

/-- The binarized clamped stage is the hidden activation. -/
theorem res_v33_at (hx : ∀ r k, IsReal ((rArgs V0).x r k)) (hw0 : ∀ n k, IsReal ((rArgs V0).w0 n k))
    (r : Fin 16384) (n : Fin 4096) :
    r2 (A := 16384) (B := 4096) (φ := .f32) (res_v33 (F := Ideal) V0) r n = act (rArgs V0).h0 (rArgs V0).g0 (rArgs V0).be0 r n := by
  unfold res_v33
  show signR (r2 (A := 16384) (B := 4096) (φ := .f32) (res_v30 (F := Ideal) V0) r n) = _
  rw [res_v30_at V0 hx hw0 r n, signR_eq (isReal_clip _)]
  rfl

/-- The layer-1 pre-activation stage is h1. -/
theorem res_v41_at (hx : ∀ r k, IsReal ((rArgs V0).x r k)) (hw0 : ∀ n k, IsReal ((rArgs V0).w0 n k))
    (hw1 : ∀ n k, IsReal ((rArgs V0).w1 n k)) (r : Fin 16384) (n : Fin 4096) :
    r2 (A := 16384) (B := 4096) (φ := .f32) (res_v41 (F := Ideal) V0) r n = (rArgs V0).h1 r n := by
  unfold res_v41
  refine (lin_at dot_S16384x4096_S4096x4096_S16384x4096_1_0_0_1_n_n rfl rfl rfl rfl rfl rfl rfl rfl
    (res_v33 (F := Ideal) V0) (V0 (Proc.devRef .tc main_arg3)) (V0 (Proc.devRef .tc main_arg4))
    transposes_S4096x4096_S4096x4096_1_0 bcast_S4096_S1x4096_1 bcast_S1x4096_S16384x4096_0_1 r n).trans ?_
  show (∑ k : Fin 4096, r2 (A := 16384) (B := 4096) (φ := .f32) (res_v33 (F := Ideal) V0) r k * signR ((rArgs V0).w1 n k)) + (rArgs V0).b1 n
    = (∑ k : Fin 4096, act (rArgs V0).h0 (rArgs V0).g0 (rArgs V0).be0 r k * Ideal.sign ((rArgs V0).w1 n k)) + (rArgs V0).b1 n
  refine congrArg (· + (rArgs V0).b1 n) (Finset.sum_congr rfl fun k _ => ?_)
  rw [res_v33_at V0 hx hw0 r k, signR_eq (hw1 n k)]

end Cert.ReferenceIdeal.RefRead

end
-- ==== Proof.RefReadA2.lean ====
/-
  The reference's third layer, read at an index, from its second pre-activation.

  Given that the reference's layer-1 pre-activation array holds the network's h1 entry by entry, its column mean and
  variance arrays hold Net.mean h1 and Net.var h1, the clamped normalised array holds clip (bn h1 …), its
  binarization (of a clamped, hence real, value) holds Net.act h1 g1 be1, and the product with the transposed
  binarized third weights (real by hypothesis) plus the bias is h2.
-/
import proofs.«122919_j34694745817434_2_alg».proof.Proof.RefArgs
import proofs.«122919_j34694745817434_2_alg».proof.Proof.RefRunStages
import proofs.«122919_j34694745817434_2_alg».proof.Proof.HostRead
import proofs.«122919_j34694745817434_2_alg».proof.Proof.NetLaws

open scoped BigOperators

noncomputable section

namespace Cert.ReferenceIdeal.RefRead

open Cert.ReferenceIdeal Cert.ReferenceIdeal.Gen Idealize.ShloMosaic Idealize.ShloMosaic.TcCoe Idealize.SL.Sem
open Idealize.ShloMosaic.StableHlo Idealize.ShloMosaic.ValueIdx Cert.Net Cert.LibReal Cert.Rd

variable (V0 : Valuation τ sig (Elt Ideal))
variable (h41 : ∀ r n, r2 (A := 16384) (B := 4096) (φ := .f32) (RefRun.res_v41 (F := Ideal) V0) r n = (rArgs V0).h1 r n)
include h41

namespace A2

/-- The layer-1 pre-activation array, as a function of its coordinates, is h1. -/
theorem v41_fun2 : (fun (r : Fin 16384) (n : Fin 4096) => ((RefRun.res_v41 (F := Ideal) V0) : FVec Ideal S16384x4096 .f32) (ix2 r n)) = (rArgs V0).h1 :=
  funext fun r => funext fun n => h41 r n

/-- Its column means. -/
theorem v44_at2 (n : Fin 4096) : r1 (A := 4096) (φ := .f32) (RefRun.res_v44 (F := Ideal) V0) n = mean (rArgs V0).h1 n := by
  unfold RefRun.res_v44
  exact (Cert.HostRead.mean_apply (RefRun.res_v41 (F := Ideal) V0) _ _ (by decide) _ n).trans
    (congrArg (fun h => mean h n) (v41_fun2 V0 h41))

/-- Its column variances. -/
theorem v45_at2 (n : Fin 4096) : r1 (A := 4096) (φ := .f32) (RefRun.res_v45 (F := Ideal) V0) n = var (rArgs V0).h1 n := by
  unfold RefRun.res_v45
  exact (Cert.HostRead.var_apply (RefRun.res_v41 (F := Ideal) V0) _ _ (by decide) _ _ _ _ n).trans
    (congrArg (fun h => var h n) (v41_fun2 V0 h41))

/-- The clamped normalised values. -/
theorem v61_at2 (r : Fin 16384) (n : Fin 4096) :
    r2 (A := 16384) (B := 4096) (φ := .f32) (RefRun.res_v61 (F := Ideal) V0) r n
      = clip (bn (rArgs V0).h1 (mean (rArgs V0).h1) (var (rArgs V0).h1) (rArgs V0).g1 (rArgs V0).be1 r n) := by
  unfold RefRun.res_v61
  refine (Cert.HostRead.normClip_apply (RefRun.res_v41 (F := Ideal) V0) (RefRun.res_v44 (F := Ideal) V0) (RefRun.res_v45 (F := Ideal) V0) (V0 (Proc.devRef .tc main_arg15))
    (V0 (Proc.devRef .tc main_arg16)) _ _ _ _ r n).trans ?_
  have e1 := h41 r n
  have e2 := v44_at2 V0 h41 n
  have e3 := v45_at2 V0 h41 n
  unfold bn
  show clip (((r2 (A := 16384) (B := 4096) (φ := .f32) (RefRun.res_v41 (F := Ideal) V0) r n - r1 (A := 4096) (φ := .f32) (RefRun.res_v44 (F := Ideal) V0) n)
      * Ideal.rsqrt (r1 (A := 4096) (φ := .f32) (RefRun.res_v45 (F := Ideal) V0) n + eps)) * (rArgs V0).g1 n + (rArgs V0).be1 n) = _
  rw [e1, e2, e3]

/-- The binarized activations entering layer 2. -/
theorem v64_at2 (r : Fin 16384) (n : Fin 4096) :
    r2 (A := 16384) (B := 4096) (φ := .f32) (RefRun.res_v64 (F := Ideal) V0) r n = act (rArgs V0).h1 (rArgs V0).g1 (rArgs V0).be1 r n := by
  unfold RefRun.res_v64
  refine (Cert.HostRead.binarize_apply (RefRun.res_v61 (F := Ideal) V0) (ix2 r n)).trans ?_
  show signR (r2 (A := 16384) (B := 4096) (φ := .f32) (RefRun.res_v61 (F := Ideal) V0) r n) = _
  rw [v61_at2 V0 h41 r n]
  exact signR_eq (isReal_clip _)

end A2

variable (hw2 : ∀ n k, IsReal ((rArgs V0).w2 n k))

include hw2 in
/-- The third pre-activation. -/
theorem res_v72_of_v41 (r : Fin 16384) (n : Fin 256) :
    r2 (A := 16384) (B := 256) (φ := .f32) (RefRun.res_v72 (F := Ideal) V0) r n = (rArgs V0).h2 r n := by
  unfold RefRun.res_v72
  refine (Cert.HostRead.lin_apply dot_S16384x4096_S4096x256_S16384x256_1_0_0_1_n_n rfl rfl rfl rfl rfl rfl rfl rfl
    (RefRun.res_v64 (F := Ideal) V0) (V0 (Proc.devRef .tc main_arg5)) (V0 (Proc.devRef .tc main_arg6)) _ _ _ r n).trans ?_
  unfold Cert.Net.Args.h2 lin
  refine congrArg₂ (· + ·) (Finset.sum_congr rfl fun k _ => ?_) rfl
  show r2 (A := 16384) (B := 4096) (φ := .f32) (RefRun.res_v64 (F := Ideal) V0) r k * signR ((rArgs V0).w2 n k) = _
  rw [A2.v64_at2 V0 h41 r k, signR_eq (hw2 n k)]

end Cert.ReferenceIdeal.RefRead

end
-- ==== Proof.RefReadB.lean ====
/-
  The reference's last four layers, read at an index, from its third pre-activation.

  Given that the reference's layer-2 pre-activation array holds the network's h2 entry by entry, its column mean and
  variance arrays hold Net.mean h2 and Net.var h2; the clamped normalised array holds clip (bn h2 …); "value plus
  (sign minus value)" of a clamped value, a real number, is its sign, so the next array holds Net.act h2 g2 be2;
  the product with the transposed binarized weights (real by hypothesis, so binarizing is taking signs) plus the
  bias is h3; clamp and binarize again give Net.actPlain h3, the next product h4, and once more h5.
-/
import proofs.«122919_j34694745817434_2_alg».proof.Proof.RefArgs
import proofs.«122919_j34694745817434_2_alg».proof.Proof.RefRunStages
import proofs.«122919_j34694745817434_2_alg».proof.Proof.HostRead
import proofs.«122919_j34694745817434_2_alg».proof.Proof.NetLaws

open scoped BigOperators

noncomputable section

namespace Cert.ReferenceIdeal.RefRead

open Cert.ReferenceIdeal Cert.ReferenceIdeal.Gen Idealize.ShloMosaic Idealize.ShloMosaic.TcCoe Idealize.SL.Sem
open Idealize.ShloMosaic.StableHlo Idealize.ShloMosaic.ValueIdx Cert.Net Cert.LibReal Cert.Rd

variable (V0 : Valuation τ sig (Elt Ideal))
variable (h72 : ∀ r n, r2 (A := 16384) (B := 256) (φ := .f32) (RefRun.res_v72 (F := Ideal) V0) r n = (rArgs V0).h2 r n)
include h72

/-- The layer-2 pre-activation array, as a function of its coordinates, is h2. -/
theorem v72_fun : (fun (r : Fin 16384) (n : Fin 256) => ((RefRun.res_v72 (F := Ideal) V0) : FVec Ideal S16384x256 .f32) (ix2 r n)) = (rArgs V0).h2 :=
  funext fun r => funext fun n => h72 r n

/-- Its column means. -/
theorem v75_at (n : Fin 256) : r1 (A := 256) (φ := .f32) (RefRun.res_v75 (F := Ideal) V0) n = mean (rArgs V0).h2 n := by
  unfold RefRun.res_v75
  exact (Cert.HostRead.mean_apply (RefRun.res_v72 (F := Ideal) V0) _ _ (by decide) _ n).trans
    (congrArg (fun h => mean h n) (v72_fun V0 h72))

/-- Its column variances. -/
theorem v76_at (n : Fin 256) : r1 (A := 256) (φ := .f32) (RefRun.res_v76 (F := Ideal) V0) n = var (rArgs V0).h2 n := by
  unfold RefRun.res_v76
  exact (Cert.HostRead.var_apply (RefRun.res_v72 (F := Ideal) V0) _ _ (by decide) _ _ _ _ n).trans
    (congrArg (fun h => var h n) (v72_fun V0 h72))

/-- The clamped normalised values. -/
theorem v92_at (r : Fin 16384) (n : Fin 256) :
    r2 (A := 16384) (B := 256) (φ := .f32) (RefRun.res_v92 (F := Ideal) V0) r n
      = clip (bn (rArgs V0).h2 (mean (rArgs V0).h2) (var (rArgs V0).h2) (rArgs V0).g2 (rArgs V0).be2 r n) := by
  unfold RefRun.res_v92
  refine (Cert.HostRead.normClip_apply (RefRun.res_v72 (F := Ideal) V0) (RefRun.res_v75 (F := Ideal) V0) (RefRun.res_v76 (F := Ideal) V0) (V0 (Proc.devRef .tc main_arg17))
    (V0 (Proc.devRef .tc main_arg18)) _ _ _ _ r n).trans ?_
  have e1 := h72 r n
  have e2 := v75_at V0 h72 n
  have e3 := v76_at V0 h72 n
  unfold bn
  show clip (((r2 (A := 16384) (B := 256) (φ := .f32) (RefRun.res_v72 (F := Ideal) V0) r n - r1 (A := 256) (φ := .f32) (RefRun.res_v75 (F := Ideal) V0) n)
      * Ideal.rsqrt (r1 (A := 256) (φ := .f32) (RefRun.res_v76 (F := Ideal) V0) n + eps)) * (rArgs V0).g2 n + (rArgs V0).be2 n) = _
  rw [e1, e2, e3]

/-- The binarized activations entering layer 3. -/
theorem v95_at (r : Fin 16384) (n : Fin 256) :
    r2 (A := 16384) (B := 256) (φ := .f32) (RefRun.res_v95 (F := Ideal) V0) r n = act (rArgs V0).h2 (rArgs V0).g2 (rArgs V0).be2 r n := by
  unfold RefRun.res_v95
  refine (Cert.HostRead.binarize_apply (RefRun.res_v92 (F := Ideal) V0) (ix2 r n)).trans ?_
  show signR (r2 (A := 16384) (B := 256) (φ := .f32) (RefRun.res_v92 (F := Ideal) V0) r n) = _
  rw [v92_at V0 h72 r n]
  exact signR_eq (isReal_clip _)

variable (hw3 : ∀ n k, IsReal ((rArgs V0).w3 n k)) (hw4 : ∀ n k, IsReal ((rArgs V0).w4 n k))
  (hw5 : ∀ n k, IsReal ((rArgs V0).w5 n k))

include hw3 in
/-- The layer-3 pre-activation. -/
theorem v103_at (r : Fin 16384) (n : Fin 16) :
    r2 (A := 16384) (B := 16) (φ := .f32) (RefRun.res_v103 (F := Ideal) V0) r n = (rArgs V0).h3 r n := by
  unfold RefRun.res_v103
  refine (Cert.HostRead.lin_apply dot_S16384x256_S256x16_S16384x16_1_0_0_1_n_n rfl rfl rfl rfl rfl rfl rfl rfl
    (RefRun.res_v95 (F := Ideal) V0) (V0 (Proc.devRef .tc main_arg7)) (V0 (Proc.devRef .tc main_arg8)) _ _ _ r n).trans ?_
  unfold Cert.Net.Args.h3 lin
  refine congrArg₂ (· + ·) (Finset.sum_congr rfl fun k _ => ?_) rfl
  show r2 (A := 16384) (B := 256) (φ := .f32) (RefRun.res_v95 (F := Ideal) V0) r k * signR ((rArgs V0).w3 n k) = _
  rw [v95_at V0 h72 r k, signR_eq (hw3 n k)]

include hw3 in
/-- Its binarized clamp. -/
theorem v107_at (r : Fin 16384) (n : Fin 16) :
    r2 (A := 16384) (B := 16) (φ := .f32) (RefRun.res_v107 (F := Ideal) V0) r n = actPlain (rArgs V0).h3 r n := by
  unfold RefRun.res_v107
  refine (Cert.HostRead.binarize_apply (RefRun.res_v104 (F := Ideal) V0) (ix2 r n)).trans ?_
  unfold RefRun.res_v104
  rw [Cert.HostRead.clip_apply (RefRun.res_v103 (F := Ideal) V0) _ (ix2 r n)]
  show signR (clip (r2 (A := 16384) (B := 16) (φ := .f32) (RefRun.res_v103 (F := Ideal) V0) r n)) = _
  rw [v103_at V0 h72 hw3 r n]
  exact signR_eq (isReal_clip _)

include hw3 hw4 in
/-- The layer-4 pre-activation. -/
theorem v115_at (r : Fin 16384) (n : Fin 16) :
    r2 (A := 16384) (B := 16) (φ := .f32) (RefRun.res_v115 (F := Ideal) V0) r n = (rArgs V0).h4 r n := by
  unfold RefRun.res_v115
  refine (Cert.HostRead.lin_apply dot_S16384x16_S16x16_S16384x16_1_0_0_1_n_n rfl rfl rfl rfl rfl rfl rfl rfl
    (RefRun.res_v107 (F := Ideal) V0) (V0 (Proc.devRef .tc main_arg9)) (V0 (Proc.devRef .tc main_arg10)) _ _ _ r n).trans ?_
  unfold Cert.Net.Args.h4 lin
  refine congrArg₂ (· + ·) (Finset.sum_congr rfl fun k _ => ?_) rfl
  show r2 (A := 16384) (B := 16) (φ := .f32) (RefRun.res_v107 (F := Ideal) V0) r k * signR ((rArgs V0).w4 n k) = _
  rw [v107_at V0 h72 hw3 r k, signR_eq (hw4 n k)]

include hw3 hw4 in
/-- Its binarized clamp. -/
theorem v119_at (r : Fin 16384) (n : Fin 16) :
    r2 (A := 16384) (B := 16) (φ := .f32) (RefRun.res_v119 (F := Ideal) V0) r n = actPlain (rArgs V0).h4 r n := by
  unfold RefRun.res_v119
  refine (Cert.HostRead.binarize_apply (RefRun.res_v116 (F := Ideal) V0) (ix2 r n)).trans ?_
  unfold RefRun.res_v116
  rw [Cert.HostRead.clip_apply (RefRun.res_v115 (F := Ideal) V0) _ (ix2 r n)]
  show signR (clip (r2 (A := 16384) (B := 16) (φ := .f32) (RefRun.res_v115 (F := Ideal) V0) r n)) = _
  rw [v115_at V0 h72 hw3 hw4 r n]
  exact signR_eq (isReal_clip _)

include hw3 hw4 hw5 in
/-- The last pre-activation: from h2 in the layer-2 array to h5 in the layer-5 array. -/
theorem res_v127_of_v72 (r : Fin 16384) (n : Fin 10) :
    r2 (A := 16384) (B := 10) (φ := .f32) (RefRun.res_v127 (F := Ideal) V0) r n = (rArgs V0).h5 r n := by
  unfold RefRun.res_v127
  refine (Cert.HostRead.lin_apply dot_S16384x16_S16x10_S16384x10_1_0_0_1_n_n rfl rfl rfl rfl rfl rfl rfl rfl
    (RefRun.res_v119 (F := Ideal) V0) (V0 (Proc.devRef .tc main_arg11)) (V0 (Proc.devRef .tc main_arg12)) _ _ _ r n).trans ?_
  unfold Cert.Net.Args.h5 lin
  refine congrArg₂ (· + ·) (Finset.sum_congr rfl fun k _ => ?_) rfl
  show r2 (A := 16384) (B := 16) (φ := .f32) (RefRun.res_v119 (F := Ideal) V0) r k * signR ((rArgs V0).w5 n k) = _
  rw [v119_at V0 h72 hw3 hw4 r k, signR_eq (hw5 n k)]

end Cert.ReferenceIdeal.RefRead

end
-- ==== Proof.TailBridge.lean ====
/-
  The reference ends with the same function of arrays as the kernel program.

  After its last layer's pre-activation the reference computes the column means, the library's column
  variances, the normalised array and the row-wise log-softmax with exactly the operations the kernel program
  uses after its own last layer; so its result is the end of the network (`tailFn`) applied to its own
  pre-activation and to the two parameter vectors.
-/
import proofs.«122919_j34694745817434_2_alg».proof.Proof.RefRunStages
import proofs.«122919_j34694745817434_2_alg».proof.Proof.KTailFn

noncomputable section

namespace Cert.TailBridge

open Idealize.ShloMosaic Idealize.ShloMosaic.TcCoe Idealize.SL.Sem Idealize.ShloMosaic.StableHlo

theorem ref_tail (V0 : Valuation Cert.ReferenceIdeal.τ Cert.ReferenceIdeal.sig (Elt Ideal)) :
    @Eq (FVec Ideal Cert.KernelIdeal.S16384x10 .f32)
      (Cert.ReferenceIdeal.RefRun.res_v147 (F := Ideal) V0)
      (Cert.KernelIdeal.KTailFn.tailFn (F := Ideal) (Cert.ReferenceIdeal.RefRun.res_v127 (F := Ideal) V0)
        (V0 (Proc.devRef .tc Cert.ReferenceIdeal.main_arg19)) (V0 (Proc.devRef .tc Cert.ReferenceIdeal.main_arg20))) := by
  unfold Cert.ReferenceIdeal.RefRun.res_v147 Cert.ReferenceIdeal.RefRun.res_v146 Cert.ReferenceIdeal.RefRun.res_v131
    Cert.ReferenceIdeal.RefRun.res_v130
  unfold Cert.KernelIdeal.KTailFn.tailFn Cert.KernelIdeal.KTailFn.logSoftmax Cert.KernelIdeal.KTailFn.shifted
    Cert.KernelIdeal.KTailFn.acrossCols Cert.KernelIdeal.KTailFn.normed Cert.KernelIdeal.KTailFn.colVar
    Cert.KernelIdeal.KTailFn.centered Cert.KernelIdeal.KTailFn.dof Cert.KernelIdeal.KTailFn.colMean
    Cert.KernelIdeal.KTailFn.downRows
  rfl

end Cert.TailBridge

end
-- ==== Proof.RefFinal.lean ====
/-
  The reference's result, in the network's terms: read stage by stage its last pre-activation is the matrix of
  `h5` of its own argument arrays (the reference's way of writing a sign agrees with the sign on real entries, and
  its variance is the variance), and what follows is the end of the network.
-/
import proofs.«122919_j34694745817434_2_alg».proof.Proof.RefReadA1
import proofs.«122919_j34694745817434_2_alg».proof.Proof.RefReadA
import proofs.«122919_j34694745817434_2_alg».proof.Proof.RefReadA2
import proofs.«122919_j34694745817434_2_alg».proof.Proof.RefReadB
import proofs.«122919_j34694745817434_2_alg».proof.Proof.TailBridge
import proofs.«122919_j34694745817434_2_alg».proof.Proof.RdMat

noncomputable section

namespace Cert.ReferenceIdeal.RefRead

open Cert.ReferenceIdeal Cert.LibReal
open Idealize.ShloMosaic Idealize.ShloMosaic.TcCoe Idealize.SL.Sem Idealize.ShloMosaic.StableHlo

theorem value (V0 : Valuation τ sig (Elt Ideal))
    (hx : ∀ r k, IsReal ((rArgs V0).x r k)) (hw0 : ∀ n k, IsReal ((rArgs V0).w0 n k))
    (hw1 : ∀ n k, IsReal ((rArgs V0).w1 n k)) (hw2 : ∀ n k, IsReal ((rArgs V0).w2 n k))
    (hw3 : ∀ n k, IsReal ((rArgs V0).w3 n k)) (hw4 : ∀ n k, IsReal ((rArgs V0).w4 n k))
    (hw5 : ∀ n k, IsReal ((rArgs V0).w5 n k)) :
    @Eq (FVec Ideal Cert.KernelIdeal.S16384x10 .f32) (RefRun.res_v147 (F := Ideal) V0)
      (Cert.KernelIdeal.KTailFn.tailFn (F := Ideal) (Cert.Rd.mat (rArgs V0).h5)
        (V0 (Proc.devRef .tc main_arg19)) (V0 (Proc.devRef .tc main_arg20))) := by
  have h127 : @Eq (FVec Ideal Cert.KernelIdeal.S16384x10 .f32) (RefRun.res_v127 (F := Ideal) V0) (Cert.Rd.mat (rArgs V0).h5) :=
    Cert.Rd.eq_mat _ _ (fun r n => res_v127_of_v72 V0
      (fun r n => res_v72_of_v41 V0 (fun r n => res_v41_at1 V0 hx hw0 hw1 r n) hw2 r n) hw3 hw4 hw5 r n)
  rw [Cert.TailBridge.ref_tail V0, h127]

end Cert.ReferenceIdeal.RefRead

end
-- ==== Proof.lean ====
/-
  A six-layer binarized network on 16384 rows, as a kernel program and as its reference, are one function of
  their arguments over the extended reals.

  The kernel program computes layers 0, 1, 2 in three accelerator regions.  Each multiplies a tile of signs
  by binarized, transposed weights, adds the bias, and accumulates over the row tiles the column sums of the
  pre-activation and of its squares; between regions the host turns those into the column means and into the
  variances  max (mean of squares − mean², 0) , and the next region normalises, clamps to [−1, 1] and takes signs
  before its own product.  Layers 3, 4, 5, a last normalisation and a row-wise log-softmax follow on the host.
  The reference is the same network in array operations, with the sign written  v + (sign v − v)  and the variance
  as the mean of squared deviations.

  For finite inputs every pre-activation is a real number (a sum of products of signs plus a finite bias), so
  the two variances agree and the two spellings of the sign agree; layer by layer both programs hold the same
  pre-activations `h0 … h5` of the argument arrays (`Cert.Net.Args`), and after `h5` they apply one and the same
  function of arrays (`tailFn`).  The frames of the two kernel programs are their generated frame proofs; the
  reference's frame is its run with the result dropped; the idealization's three rewrites are the sign read
  off the sign bit at the three tile shapes.
-/
import proofs.«122919_j34694745817434_2_alg».proof.Defs
import proofs.«122919_j34694745817434_2_alg».proof.Proof.Gen.Kernel
import proofs.«122919_j34694745817434_2_alg».proof.Proof.Gen.Kernel.Frame
import proofs.«122919_j34694745817434_2_alg».proof.Proof.Gen.KernelIdeal
import proofs.«122919_j34694745817434_2_alg».proof.Proof.Gen.KernelIdeal.Frame
import proofs.«122919_j34694745817434_2_alg».proof.Proof.Gen.ReferenceIdeal
import proofs.«122919_j34694745817434_2_alg».proof.Proof.Gen.Pre_finite_inputs
import proofs.«122919_j34694745817434_2_alg».proof.Proof.KRun
import proofs.«122919_j34694745817434_2_alg».proof.Proof.KFinal
import proofs.«122919_j34694745817434_2_alg».proof.Proof.RefRun
import proofs.«122919_j34694745817434_2_alg».proof.Proof.Agree
import proofs.«122919_j34694745817434_2_alg».proof.Proof.RefFinal
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments (its generated frame). -/
theorem frame_k : Cert.frame_Kernel := fun m ρ _ => Cert.Kernel.Gen.frame m ρ

/-- The idealized kernel program runs and keeps its arguments (its generated frame). -/
theorem frame_ki : Cert.frame_KernelIdeal := fun m ρ _ => Cert.KernelIdeal.Gen.frame m ρ

/-- The reference runs and keeps its arguments: its run with the result dropped. -/
theorem frame_r : Cert.frame_ReferenceIdeal := fun m ρ _ =>
  (θ_run Cert.ReferenceIdeal.defs _ _).mono (fun _ h c => (h c).2) (Cert.ReferenceIdeal.RefRun.run_out m ρ)

/-- The three rewrites of the idealization: the sign read off the sign bit, at the three tile shapes. -/
theorem preserves : Cert.preserves_Kernel_KernelIdeal :=
  ⟨IdealRules.sign_bit.statement Cert.KernelIdeal.S256x3072 .f32, IdealRules.sign_bit.statement Cert.KernelIdeal.S128x4096 .f32,
    IdealRules.sign_bit.statement Cert.KernelIdeal.S512x4096 .f32⟩

/-- Both programs end with the end of the network applied to the matrix of the last pre-activation `h5` of the
    same argument arrays: the kernel program by its three regions and its tail, the reference stage by stage;
    the inputs being finite, the two spellings of a sign and of a variance agree. -/
theorem algebraic : Cert.algebraic_KernelIdeal_ReferenceIdeal := by
  intro m ρ m' ρ' hpre hagree
  refine ⟨fun c => Cert.KernelIdeal.KTailFn.tailFn (F := Ideal) (Cert.Rd.mat (Cert.KernelIdeal.KNet.kArgs m c).h5)
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)), ?_, ?_⟩
  · exact (θ_run Cert.KernelIdeal.defs _ _).mono
      (fun _ h c => ⟨(h c).1.trans (Cert.KernelIdeal.KNet.value m ρ hpre c), (h c).2⟩)
      (Cert.KernelIdeal.KRun.run_v99 (F := Ideal) m ρ)
  · refine (θ_run Cert.ReferenceIdeal.defs _ _).mono (fun _ h c => ⟨(h c).1.trans ?_, (h c).2⟩)
      (Cert.ReferenceIdeal.RefRun.run_out m' ρ')
    have hA := Cert.Agree.args_agree m m' c (hagree c)
    obtain ⟨hx, hw0, hw1, hw2, hw3, hw4, hw5⟩ := Cert.KernelIdeal.KNet.real_args m hpre c
    have h19 : StableHlo.launchContents m' c (Proc.devRef .tc Cert.ReferenceIdeal.main_arg19)
        = m ((c.tc : Thread Cert.KernelIdeal.nD Cert.KernelIdeal.τ).loc Cert.KernelIdeal.main_arg19) := (hagree c).2.2.2.2.2.2.2.2.2.2.2.2.2.2.2.2.2.2.2.1
    have h20 : StableHlo.launchContents m' c (Proc.devRef .tc Cert.ReferenceIdeal.main_arg20)
        = m ((c.tc : Thread Cert.KernelIdeal.nD Cert.KernelIdeal.τ).loc Cert.KernelIdeal.main_arg20) := (hagree c).2.2.2.2.2.2.2.2.2.2.2.2.2.2.2.2.2.2.2.2
    have hv := Cert.ReferenceIdeal.RefRead.value (StableHlo.launchContents m' c)
      (by rw [hA]; exact hx) (by rw [hA]; exact hw0) (by rw [hA]; exact hw1) (by rw [hA]; exact hw2)
      (by rw [hA]; exact hw3) (by rw [hA]; exact hw4) (by rw [hA]; exact hw5)
    rw [hA, h19, h20] at hv
    exact hv

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
